-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S4x131072 : Shape := ⟨2, ![4, 131072]⟩
abbrev S32768 : Shape := ⟨1, ![32768]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S4x131072 : S_.BroadcastsInDim S4x131072 (![] : Fin 0 → Fin S4x131072.rank)
  reducesTo_S4x131072_S_d0_1 : S4x131072.ReducesTo [0, 1] S_

variable [Facts]

def fn {F : FTy → Type} [FloatOps F] (main_arg0 : FVec F S32768x512 .f32) (main_arg1 : FVec F S4x131072 .f32) (main_arg2 : IVec S32768 32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S4x131072 .f32 := Host.absf main_arg1
  let main_cst_0 : FVec F S_ .f32 := constant S_ .f32 0x7F800000#32
  let main_v5 : FVec F S4x131072 .f32 := broadcastInDim S4x131072 ![] bcast_S_S4x131072 main_cst_0
  let main_v6 : IVec S4x131072 1 := cmpf .olt main_v4 main_v5
  let main_c_1 : IVec S_ 1 := constantI S_ 1 1#1
  let main_v7 : IVec S_ 1 := (fun x v => Host.reduce IntOp.andi x v reducesTo_S4x131072_S_d0_1 h_S_) main_v6 main_c_1
  let main_v8 : IVec S_ 1 := andi main_v3 main_v7
  main_v8
-- ==== Kernel.lean ====
abbrev S32768x512 : Shape := ⟨2, ![32768, 512]⟩
abbrev S4x131072 : Shape := ⟨2, ![4, 131072]⟩
abbrev S32768 : Shape := ⟨1, ![32768]⟩
abbrev S_ : Shape := ⟨0, ![]⟩
abbrev S4x512x512 : Shape := ⟨3, ![4, 512, 512]⟩
abbrev S4x16384 : Shape := ⟨2, ![4, 16384]⟩
abbrev S4x128x128 : Shape := ⟨3, ![4, 128, 128]⟩
abbrev S1 : Shape := ⟨1, ![1]⟩
abbrev S2 : Shape := ⟨1, ![2]⟩
abbrev S32768x1 : Shape := ⟨2, ![32768, 1]⟩
abbrev S2048x512 : Shape := ⟨2, ![2048, 512]⟩
abbrev S2048x1 : Shape := ⟨2, ![2048, 1]⟩
abbrev S1x512x512 : Shape := ⟨3, ![1, 512, 512]⟩
abbrev S512x512 : Shape := ⟨2, ![512, 512]⟩

abbrev nBuf : Space → Nat
  | .hbm => 96
  | .vmem => 7
  | .smem => 0
  | _ => 0

abbrev bufTy : (tb : Table) → Fin (tcTables nBuf tb) → BufTy
  | .hbm, ⟨0, _⟩ => ⟨S32768x512, .f32⟩
  | .hbm, ⟨1, _⟩ => ⟨S4x131072, .f32⟩
  | .hbm, ⟨2, _⟩ => ⟨S32768, .i32⟩
  | .hbm, ⟨3, _⟩ => ⟨S_, .f32⟩
  | .hbm, ⟨4, _⟩ => ⟨S4x512x512, .f32⟩
  | .hbm, ⟨5, _⟩ => ⟨S4x16384, .f32⟩
  | .hbm, ⟨6, _⟩ => ⟨S4x128x128, .f32⟩
  | .hbm, ⟨7, _⟩ => ⟨S_, .f32⟩
  | .hbm, ⟨8, _⟩ => ⟨S4x128x128, .f32⟩
  | .hbm, ⟨9, _⟩ => ⟨S4x128x128, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S4x512x512, .f32⟩
  | .hbm, ⟨16, _⟩ => ⟨S4x16384, .f32⟩
  | .hbm, ⟨17, _⟩ => ⟨S4x128x128, .f32⟩
  | .hbm, ⟨18, _⟩ => ⟨S_, .f32⟩
  | .hbm, ⟨19, _⟩ => ⟨S4x128x128, .f32⟩
  | .hbm, ⟨20, _⟩ => ⟨S4x128x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S4x512x512, .f32⟩
  | .hbm, ⟨27, _⟩ => ⟨S4x16384, .f32⟩
  | .hbm, ⟨28, _⟩ => ⟨S4x128x128, .f32⟩
  | .hbm, ⟨29, _⟩ => ⟨S_, .f32⟩
  | .hbm, ⟨30, _⟩ => ⟨S4x128x128, .f32⟩
  | .hbm, ⟨31, _⟩ => ⟨S4x128x128, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S4x512x512, .f32⟩
  | .hbm, ⟨38, _⟩ => ⟨S4x16384, .f32⟩
  | .hbm, ⟨39, _⟩ => ⟨S4x128x128, .f32⟩
  | .hbm, ⟨40, _⟩ => ⟨S_, .f32⟩
  | .hbm, ⟨41, _⟩ => ⟨S4x128x128, .f32⟩
  | .hbm, ⟨42, _⟩ => ⟨S4x128x128, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S4x512x512, .f32⟩
  | .hbm, ⟨49, _⟩ => ⟨S4x16384, .f32⟩
  | .hbm, ⟨50, _⟩ => ⟨S4x128x128, .f32⟩
  | .hbm, ⟨51, _⟩ => ⟨S_, .f32⟩
  | .hbm, ⟨52, _⟩ => ⟨S4x128x128, .f32⟩
  | .hbm, ⟨53, _⟩ => ⟨S4x128x128, .f32⟩
  | .hbm, ⟨54, _⟩ => ⟨S_, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S2, .i32⟩
  | .hbm, ⟨59, _⟩ => ⟨S4x512x512, .f32⟩
  | .hbm, ⟨60, _⟩ => ⟨S4x16384, .f32⟩
  | .hbm, ⟨61, _⟩ => ⟨S4x128x128, .f32⟩
  | .hbm, ⟨62, _⟩ => ⟨S_, .f32⟩
  | .hbm, ⟨63, _⟩ => ⟨S4x128x128, .f32⟩
  | .hbm, ⟨64, _⟩ => ⟨S4x128x128, .f32⟩
  | .hbm, ⟨65, _⟩ => ⟨S_, .i32⟩
  | .hbm, ⟨66, _⟩ => ⟨S1, .i32⟩
  | .hbm, ⟨67, _⟩ => ⟨S_, .i32⟩
  | .hbm, ⟨68, _⟩ => ⟨S1, .i32⟩
  | .hbm, ⟨69, _⟩ => ⟨S2, .i32⟩
  | .hbm, ⟨70, _⟩ => ⟨S4x512x512, .f32⟩
  | .hbm, ⟨71, _⟩ => ⟨S4x16384, .f32⟩
  | .hbm, ⟨72, _⟩ => ⟨S4x128x128, .f32⟩
  | .hbm, ⟨73, _⟩ => ⟨S_, .f32⟩
  | .hbm, ⟨74, _⟩ => ⟨S4x128x128, .f32⟩
  | .hbm, ⟨75, _⟩ => ⟨S4x128x128, .f32⟩
  | .hbm, ⟨76, _⟩ => ⟨S_, .i32⟩
  | .hbm, ⟨77, _⟩ => ⟨S1, .i32⟩
  | .hbm, ⟨78, _⟩ => ⟨S_, .i32⟩
  | .hbm, ⟨79, _⟩ => ⟨S1, .i32⟩
  | .hbm, ⟨80, _⟩ => ⟨S2, .i32⟩
  | .hbm, ⟨81, _⟩ => ⟨S4x512x512, .f32⟩
  | .hbm, ⟨82, _⟩ => ⟨S4x16384, .f32⟩
  | .hbm, ⟨83, _⟩ => ⟨S4x128x128, .f32⟩
  | .hbm, ⟨84, _⟩ => ⟨S_, .f32⟩
  | .hbm, ⟨85, _⟩ => ⟨S4x128x128, .f32⟩
  | .hbm, ⟨86, _⟩ => ⟨S4x128x128, .f32⟩
  | .hbm, ⟨87, _⟩ => ⟨S_, .i32⟩
  | .hbm, ⟨88, _⟩ => ⟨S1, .i32⟩
  | .hbm, ⟨89, _⟩ => ⟨S_, .i32⟩
  | .hbm, ⟨90, _⟩ => ⟨S1, .i32⟩
  | .hbm, ⟨91, _⟩ => ⟨S2, .i32⟩
  | .hbm, ⟨92, _⟩ => ⟨S4x512x512, .f32⟩
  | .hbm, ⟨93, _⟩ => ⟨S4x512x512, .bf16⟩
  | .hbm, ⟨94, _⟩ => ⟨S32768x1, .i32⟩
  | .hbm, ⟨95, _⟩ => ⟨S32768x512, .f32⟩
  | .local _ .vmem, ⟨0, _⟩ => ⟨S2048x512, .f32⟩
  | .local _ .vmem, ⟨1, _⟩ => ⟨S2048x512, .f32⟩
  | .local _ .vmem, ⟨2, _⟩ => ⟨S4x512x512, .bf16⟩
  | .local _ .vmem, ⟨3, _⟩ => ⟨S2048x1, .i32⟩
  | .local _ .vmem, ⟨4, _⟩ => ⟨S2048x1, .i32⟩
  | .local _ .vmem, ⟨5, _⟩ => ⟨S2048x512, .f32⟩
  | .local _ .vmem, ⟨6, _⟩ => ⟨S2048x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_c_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_c_9 : Ref sig .tc := ⟨.hbm, 43, rfl⟩
abbrev main_v29 : Ref sig .tc := ⟨.hbm, 44, rfl⟩
abbrev main_c_10 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_11 : Ref sig .tc := ⟨.hbm, 51, rfl⟩
abbrev main_v35 : Ref sig .tc := ⟨.hbm, 52, rfl⟩
abbrev main_v36 : Ref sig .tc := ⟨.hbm, 53, rfl⟩
abbrev main_c_12 : Ref sig .tc := ⟨.hbm, 54, rfl⟩
abbrev main_v37 : Ref sig .tc := ⟨.hbm, 55, rfl⟩
abbrev main_c_13 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_14 : Ref sig .tc := ⟨.hbm, 62, rfl⟩
abbrev main_v43 : Ref sig .tc := ⟨.hbm, 63, rfl⟩
abbrev main_v44 : Ref sig .tc := ⟨.hbm, 64, rfl⟩
abbrev main_c_15 : Ref sig .tc := ⟨.hbm, 65, rfl⟩
abbrev main_v45 : Ref sig .tc := ⟨.hbm, 66, rfl⟩
abbrev main_c_16 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_17 : Ref sig .tc := ⟨.hbm, 73, rfl⟩
abbrev main_v51 : Ref sig .tc := ⟨.hbm, 74, rfl⟩
abbrev main_v52 : Ref sig .tc := ⟨.hbm, 75, rfl⟩
abbrev main_c_18 : Ref sig .tc := ⟨.hbm, 76, rfl⟩
abbrev main_v53 : Ref sig .tc := ⟨.hbm, 77, rfl⟩
abbrev main_c_19 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_20 : Ref sig .tc := ⟨.hbm, 84, rfl⟩
abbrev main_v59 : Ref sig .tc := ⟨.hbm, 85, rfl⟩
abbrev main_v60 : Ref sig .tc := ⟨.hbm, 86, rfl⟩
abbrev main_c_21 : Ref sig .tc := ⟨.hbm, 87, rfl⟩
abbrev main_v61 : Ref sig .tc := ⟨.hbm, 88, rfl⟩
abbrev main_c_22 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4x512x512 : S_.BroadcastsInDim S4x512x512 (![] : Fin 0 → Fin S4x512x512.rank)
  slices_S4x131072_S4x16384_0_0 : S4x131072.Slices ![0, 0] S4x16384
  shapeCasts_S4x16384_S4x128x128 : S4x16384.ShapeCasts S4x128x128
  bcast_S_S4x128x128 : S_.BroadcastsInDim S4x128x128 (![] : Fin 0 → Fin S4x128x128.rank)
  bcast_S_S1 : S_.BroadcastsInDim S1 (![] : Fin 0 → Fin S1.rank)
  concatenates_S1_S1_S2_d0 : Shape.Concatenates [S1, S1] S2 0
  slices_S4x131072_S4x16384_0_16384 : S4x131072.Slices ![0, 16384] S4x16384
  slices_S4x131072_S4x16384_0_32768 : S4x131072.Slices ![0, 32768] S4x16384
  slices_S4x131072_S4x16384_0_49152 : S4x131072.Slices ![0, 49152] S4x16384
  slices_S4x131072_S4x16384_0_65536 : S4x131072.Slices ![0, 65536] S4x16384
  slices_S4x131072_S4x16384_0_81920 : S4x131072.Slices ![0, 81920] S4x16384
  slices_S4x131072_S4x16384_0_98304 : S4x131072.Slices ![0, 98304] S4x16384
  slices_S4x131072_S4x16384_0_114688 : S4x131072.Slices ![0, 114688] S4x16384
  bitsLt_bf16_f32 : FTy.bits .bf16 < FTy.bits .f32
  shapeCasts_S32768_S32768x1 : S32768.ShapeCasts S32768x1
  inb_S2048x512_S2048x512_0_0 : ∀ a, (![0, 0] : Fin 2 → Nat) a + S2048x512.size a ≤ S2048x512.size a
  h_S2048x512 : 0 < S2048x512.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  natLt_1_32 : 1 < 32
  broadcasts_S2048x1_S2048x512 : S2048x1.Broadcasts S2048x512
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  inb_S4x512x512_S1x512x512_1_0_0 : ∀ a, (![1, 0, 0] : Fin 3 → Nat) a + S1x512x512.size a ≤ S4x512x512.size a
  inb_S4x512x512_S1x512x512_2_0_0 : ∀ a, (![2, 0, 0] : Fin 3 → Nat) a + S1x512x512.size a ≤ S4x512x512.size a
  inb_S4x512x512_S1x512x512_3_0_0 : ∀ a, (![3, 0, 0] : Fin 3 → Nat) a + S1x512x512.size a ≤ S4x512x512.size a
  scatter_S4x512x512_S2_S4x128x128_012_n_12_0_wf : ScatterDims.WF S4x512x512 S2 S4x128x128 [0, 1, 2] [] [1, 2] 0
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S4x512x512.size a
  hwx0_1 : ∀ i : grid0.Coords, EltTy.bits .bf16 = 32 ∨ (Rect.block (s := S4x512x512) S4x512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S32768x1.size a
  hwx0_2 : ∀ i : grid0.Coords, EltTy.bits .i32 = 32 ∨ (Rect.block (s := S32768x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S32768x512.size a
  hwx0_3 : ∀ i : grid0.Coords, EltTy.bits .f32 = 32 ∨ (Rect.block (s := S32768x512) S2048x512.size (cc0_transform_3 i) (hinb0_3 i)).WholeWords (EltTy.packing .f32)

variable [Facts₀]

def scatter_S4x512x512_S2_S4x128x128_012_n_12_0 : ScatterDims S4x512x512 S2 S4x128x128 where
  updateWindowDims := [0, 1, 2]
  insertedWindowDims := []
  scatterDimsToOperandDims := [1, 2]
  indexVectorDim := 0
  wf := scatter_S4x512x512_S2_S4x128x128_012_n_12_0_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v65) S4x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v66) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v67) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x512 : Shape := ⟨2, ![32768, 512]⟩
abbrev S4x131072 : Shape := ⟨2, ![4, 131072]⟩
abbrev S32768 : Shape := ⟨1, ![32768]⟩
abbrev S32768x1 : Shape := ⟨2, ![32768, 1]⟩
abbrev S1x4 : Shape := ⟨2, ![1, 4]⟩
abbrev S32768x4 : Shape := ⟨2, ![32768, 4]⟩
abbrev S_ : Shape := ⟨0, ![]⟩
abbrev S32768x128 : Shape := ⟨2, ![32768, 128]⟩
abbrev S4x16384 : Shape := ⟨2, ![4, 16384]⟩
abbrev S4x128x128 : Shape := ⟨3, ![4, 128, 128]⟩
abbrev S1x128x128 : Shape := ⟨3, ![1, 128, 128]⟩
abbrev S128x128 : Shape := ⟨2, ![128, 128]⟩
abbrev S1 : Shape := ⟨1, ![1]⟩

abbrev nBuf : Space → Nat
  | .hbm => 323
  | .vmem => 0
  | .smem => 0
  | _ => 0

abbrev hbmTy0_0 (i : Nat) : BufTy := match i % 128 with
  | 0 => ⟨S32768x512, .f32⟩
  | 1 => ⟨S4x131072, .f32⟩
  | 2 => ⟨S32768, .i32⟩
  | 3 => ⟨S32768x1, .i32⟩
  | 4 => ⟨S1x4, .i32⟩
  | 5 => ⟨S32768x4, .i32⟩
  | 6 => ⟨S32768x4, .i32⟩
  | 7 => ⟨S32768x4, .i1⟩
  | 8 => ⟨S32768x4, .f32⟩
  | 9 => ⟨S_, .f32⟩
  | 10 => ⟨S32768x512, .f32⟩
  | 11 => ⟨S32768x128, .f32⟩
  | 12 => ⟨S4x16384, .f32⟩
  | 13 => ⟨S4x128x128, .f32⟩
  | 14 => ⟨S_, .f32⟩
  | 15 => ⟨S32768x128, .f32⟩
  | 16 => ⟨S32768x1, .f32⟩
  | 17 => ⟨S1x128x128, .f32⟩
  | 18 => ⟨S128x128, .f32⟩
  | 19 => ⟨S32768x128, .f32⟩
  | 20 => ⟨S32768x128, .f32⟩
  | 21 => ⟨S32768x128, .f32⟩
  | 22 => ⟨S32768x128, .f32⟩
  | 23 => ⟨S32768x1, .f32⟩
  | 24 => ⟨S1x128x128, .f32⟩
  | 25 => ⟨S128x128, .f32⟩
  | 26 => ⟨S32768x128, .f32⟩
  | 27 => ⟨S32768x128, .f32⟩
  | 28 => ⟨S32768x128, .f32⟩
  | 29 => ⟨S32768x128, .f32⟩
  | 30 => ⟨S32768x1, .f32⟩
  | 31 => ⟨S1x128x128, .f32⟩
  | 32 => ⟨S128x128, .f32⟩
  | 33 => ⟨S32768x128, .f32⟩
  | 34 => ⟨S32768x128, .f32⟩
  | 35 => ⟨S32768x128, .f32⟩
  | 36 => ⟨S32768x128, .f32⟩
  | 37 => ⟨S32768x1, .f32⟩
  | 38 => ⟨S1x128x128, .f32⟩
  | 39 => ⟨S128x128, .f32⟩
  | 40 => ⟨S32768x128, .f32⟩
  | 41 => ⟨S32768x128, .f32⟩
  | 42 => ⟨S32768x128, .f32⟩
  | 43 => ⟨S32768x128, .f32⟩
  | 44 => ⟨S_, .f32⟩
  | 45 => ⟨S32768x128, .f32⟩
  | 46 => ⟨S32768x128, .f32⟩
  | 47 => ⟨S_, .i32⟩
  | 48 => ⟨S1, .i32⟩
  | 49 => ⟨S32768x512, .f32⟩
  | 50 => ⟨S32768x128, .f32⟩
  | 51 => ⟨S4x16384, .f32⟩
  | 52 => ⟨S4x128x128, .f32⟩
  | 53 => ⟨S_, .f32⟩
  | 54 => ⟨S32768x128, .f32⟩
  | 55 => ⟨S32768x1, .f32⟩
  | 56 => ⟨S1x128x128, .f32⟩
  | 57 => ⟨S128x128, .f32⟩
  | 58 => ⟨S32768x128, .f32⟩
  | 59 => ⟨S32768x128, .f32⟩
  | 60 => ⟨S32768x128, .f32⟩
  | 61 => ⟨S32768x128, .f32⟩
  | 62 => ⟨S32768x1, .f32⟩
  | 63 => ⟨S1x128x128, .f32⟩
  | 64 => ⟨S128x128, .f32⟩
  | 65 => ⟨S32768x128, .f32⟩
  | 66 => ⟨S32768x128, .f32⟩
  | 67 => ⟨S32768x128, .f32⟩
  | 68 => ⟨S32768x128, .f32⟩
  | 69 => ⟨S32768x1, .f32⟩
  | 70 => ⟨S1x128x128, .f32⟩
  | 71 => ⟨S128x128, .f32⟩
  | 72 => ⟨S32768x128, .f32⟩
  | 73 => ⟨S32768x128, .f32⟩
  | 74 => ⟨S32768x128, .f32⟩
  | 75 => ⟨S32768x128, .f32⟩
  | 76 => ⟨S32768x1, .f32⟩
  | 77 => ⟨S1x128x128, .f32⟩
  | 78 => ⟨S128x128, .f32⟩
  | 79 => ⟨S32768x128, .f32⟩
  | 80 => ⟨S32768x128, .f32⟩
  | 81 => ⟨S32768x128, .f32⟩
  | 82 => ⟨S32768x128, .f32⟩
  | 83 => ⟨S_, .f32⟩
  | 84 => ⟨S32768x128, .f32⟩
  | 85 => ⟨S32768x128, .f32⟩
  | 86 => ⟨S_, .i32⟩
  | 87 => ⟨S1, .i32⟩
  | 88 => ⟨S32768x512, .f32⟩
  | 89 => ⟨S32768x128, .f32⟩
  | 90 => ⟨S4x16384, .f32⟩
  | 91 => ⟨S4x128x128, .f32⟩
  | 92 => ⟨S_, .f32⟩
  | 93 => ⟨S32768x128, .f32⟩
  | 94 => ⟨S32768x1, .f32⟩
  | 95 => ⟨S1x128x128, .f32⟩
  | 96 => ⟨S128x128, .f32⟩
  | 97 => ⟨S32768x128, .f32⟩
  | 98 => ⟨S32768x128, .f32⟩
  | 99 => ⟨S32768x128, .f32⟩
  | 100 => ⟨S32768x128, .f32⟩
  | 101 => ⟨S32768x1, .f32⟩
  | 102 => ⟨S1x128x128, .f32⟩
  | 103 => ⟨S128x128, .f32⟩
  | 104 => ⟨S32768x128, .f32⟩
  | 105 => ⟨S32768x128, .f32⟩
  | 106 => ⟨S32768x128, .f32⟩
  | 107 => ⟨S32768x128, .f32⟩
  | 108 => ⟨S32768x1, .f32⟩
  | 109 => ⟨S1x128x128, .f32⟩
  | 110 => ⟨S128x128, .f32⟩
  | 111 => ⟨S32768x128, .f32⟩
  | 112 => ⟨S32768x128, .f32⟩
  | 113 => ⟨S32768x128, .f32⟩
  | 114 => ⟨S32768x128, .f32⟩
  | 115 => ⟨S32768x1, .f32⟩
  | 116 => ⟨S1x128x128, .f32⟩
  | 117 => ⟨S128x128, .f32⟩
  | 118 => ⟨S32768x128, .f32⟩
  | 119 => ⟨S32768x128, .f32⟩
  | 120 => ⟨S32768x128, .f32⟩
  | 121 => ⟨S32768x128, .f32⟩
  | 122 => ⟨S_, .f32⟩
  | 123 => ⟨S32768x128, .f32⟩
  | 124 => ⟨S32768x128, .f32⟩
  | 125 => ⟨S_, .i32⟩
  | 126 => ⟨S1, .i32⟩
  | 127 => ⟨S32768x512, .f32⟩
  | _ => ⟨S32768x512, .f32⟩

abbrev hbmTy0_1 (i : Nat) : BufTy := match i % 128 with
  | 0 => ⟨S32768x128, .f32⟩
  | 1 => ⟨S4x16384, .f32⟩
  | 2 => ⟨S4x128x128, .f32⟩
  | 3 => ⟨S_, .f32⟩
  | 4 => ⟨S32768x128, .f32⟩
  | 5 => ⟨S32768x1, .f32⟩
  | 6 => ⟨S1x128x128, .f32⟩
  | 7 => ⟨S128x128, .f32⟩
  | 8 => ⟨S32768x128, .f32⟩
  | 9 => ⟨S32768x128, .f32⟩
  | 10 => ⟨S32768x128, .f32⟩
  | 11 => ⟨S32768x128, .f32⟩
  | 12 => ⟨S32768x1, .f32⟩
  | 13 => ⟨S1x128x128, .f32⟩
  | 14 => ⟨S128x128, .f32⟩
  | 15 => ⟨S32768x128, .f32⟩
  | 16 => ⟨S32768x128, .f32⟩
  | 17 => ⟨S32768x128, .f32⟩
  | 18 => ⟨S32768x128, .f32⟩
  | 19 => ⟨S32768x1, .f32⟩
  | 20 => ⟨S1x128x128, .f32⟩
  | 21 => ⟨S128x128, .f32⟩
  | 22 => ⟨S32768x128, .f32⟩
  | 23 => ⟨S32768x128, .f32⟩
  | 24 => ⟨S32768x128, .f32⟩
  | 25 => ⟨S32768x128, .f32⟩
  | 26 => ⟨S32768x1, .f32⟩
  | 27 => ⟨S1x128x128, .f32⟩
  | 28 => ⟨S128x128, .f32⟩
  | 29 => ⟨S32768x128, .f32⟩
  | 30 => ⟨S32768x128, .f32⟩
  | 31 => ⟨S32768x128, .f32⟩
  | 32 => ⟨S32768x128, .f32⟩
  | 33 => ⟨S_, .f32⟩
  | 34 => ⟨S32768x128, .f32⟩
  | 35 => ⟨S32768x128, .f32⟩
  | 36 => ⟨S_, .i32⟩
  | 37 => ⟨S1, .i32⟩
  | 38 => ⟨S32768x512, .f32⟩
  | 39 => ⟨S32768x128, .f32⟩
  | 40 => ⟨S4x16384, .f32⟩
  | 41 => ⟨S4x128x128, .f32⟩
  | 42 => ⟨S_, .f32⟩
  | 43 => ⟨S32768x128, .f32⟩
  | 44 => ⟨S32768x1, .f32⟩
  | 45 => ⟨S1x128x128, .f32⟩
  | 46 => ⟨S128x128, .f32⟩
  | 47 => ⟨S32768x128, .f32⟩
  | 48 => ⟨S32768x128, .f32⟩
  | 49 => ⟨S32768x128, .f32⟩
  | 50 => ⟨S32768x128, .f32⟩
  | 51 => ⟨S32768x1, .f32⟩
  | 52 => ⟨S1x128x128, .f32⟩
  | 53 => ⟨S128x128, .f32⟩
  | 54 => ⟨S32768x128, .f32⟩
  | 55 => ⟨S32768x128, .f32⟩
  | 56 => ⟨S32768x128, .f32⟩
  | 57 => ⟨S32768x128, .f32⟩
  | 58 => ⟨S32768x1, .f32⟩
  | 59 => ⟨S1x128x128, .f32⟩
  | 60 => ⟨S128x128, .f32⟩
  | 61 => ⟨S32768x128, .f32⟩
  | 62 => ⟨S32768x128, .f32⟩
  | 63 => ⟨S32768x128, .f32⟩
  | 64 => ⟨S32768x128, .f32⟩
  | 65 => ⟨S32768x1, .f32⟩
  | 66 => ⟨S1x128x128, .f32⟩
  | 67 => ⟨S128x128, .f32⟩
  | 68 => ⟨S32768x128, .f32⟩
  | 69 => ⟨S32768x128, .f32⟩
  | 70 => ⟨S32768x128, .f32⟩
  | 71 => ⟨S32768x128, .f32⟩
  | 72 => ⟨S_, .f32⟩
  | 73 => ⟨S32768x128, .f32⟩
  | 74 => ⟨S32768x128, .f32⟩
  | 75 => ⟨S_, .i32⟩
  | 76 => ⟨S1, .i32⟩
  | 77 => ⟨S32768x512, .f32⟩
  | 78 => ⟨S32768x128, .f32⟩
  | 79 => ⟨S4x16384, .f32⟩
  | 80 => ⟨S4x128x128, .f32⟩
  | 81 => ⟨S_, .f32⟩
  | 82 => ⟨S32768x128, .f32⟩
  | 83 => ⟨S32768x1, .f32⟩
  | 84 => ⟨S1x128x128, .f32⟩
  | 85 => ⟨S128x128, .f32⟩
  | 86 => ⟨S32768x128, .f32⟩
  | 87 => ⟨S32768x128, .f32⟩
  | 88 => ⟨S32768x128, .f32⟩
  | 89 => ⟨S32768x128, .f32⟩
  | 90 => ⟨S32768x1, .f32⟩
  | 91 => ⟨S1x128x128, .f32⟩
  | 92 => ⟨S128x128, .f32⟩
  | 93 => ⟨S32768x128, .f32⟩
  | 94 => ⟨S32768x128, .f32⟩
  | 95 => ⟨S32768x128, .f32⟩
  | 96 => ⟨S32768x128, .f32⟩
  | 97 => ⟨S32768x1, .f32⟩
  | 98 => ⟨S1x128x128, .f32⟩
  | 99 => ⟨S128x128, .f32⟩
  | 100 => ⟨S32768x128, .f32⟩
  | 101 => ⟨S32768x128, .f32⟩
  | 102 => ⟨S32768x128, .f32⟩
  | 103 => ⟨S32768x128, .f32⟩
  | 104 => ⟨S32768x1, .f32⟩
  | 105 => ⟨S1x128x128, .f32⟩
  | 106 => ⟨S128x128, .f32⟩
  | 107 => ⟨S32768x128, .f32⟩
  | 108 => ⟨S32768x128, .f32⟩
  | 109 => ⟨S32768x128, .f32⟩
  | 110 => ⟨S32768x128, .f32⟩
  | 111 => ⟨S_, .f32⟩
  | 112 => ⟨S32768x128, .f32⟩
  | 113 => ⟨S32768x128, .f32⟩
  | 114 => ⟨S_, .i32⟩
  | 115 => ⟨S1, .i32⟩
  | 116 => ⟨S32768x512, .f32⟩
  | 117 => ⟨S32768x128, .f32⟩
  | 118 => ⟨S4x16384, .f32⟩
  | 119 => ⟨S4x128x128, .f32⟩
  | 120 => ⟨S_, .f32⟩
  | 121 => ⟨S32768x128, .f32⟩
  | 122 => ⟨S32768x1, .f32⟩
  | 123 => ⟨S1x128x128, .f32⟩
  | 124 => ⟨S128x128, .f32⟩
  | 125 => ⟨S32768x128, .f32⟩
  | 126 => ⟨S32768x128, .f32⟩
  | 127 => ⟨S32768x128, .f32⟩
  | _ => ⟨S32768x512, .f32⟩

abbrev hbmTy0_2 (i : Nat) : BufTy := match i % 128 with
  | 0 => ⟨S32768x128, .f32⟩
  | 1 => ⟨S32768x1, .f32⟩
  | 2 => ⟨S1x128x128, .f32⟩
  | 3 => ⟨S128x128, .f32⟩
  | 4 => ⟨S32768x128, .f32⟩
  | 5 => ⟨S32768x128, .f32⟩
  | 6 => ⟨S32768x128, .f32⟩
  | 7 => ⟨S32768x128, .f32⟩
  | 8 => ⟨S32768x1, .f32⟩
  | 9 => ⟨S1x128x128, .f32⟩
  | 10 => ⟨S128x128, .f32⟩
  | 11 => ⟨S32768x128, .f32⟩
  | 12 => ⟨S32768x128, .f32⟩
  | 13 => ⟨S32768x128, .f32⟩
  | 14 => ⟨S32768x128, .f32⟩
  | 15 => ⟨S32768x1, .f32⟩
  | 16 => ⟨S1x128x128, .f32⟩
  | 17 => ⟨S128x128, .f32⟩
  | 18 => ⟨S32768x128, .f32⟩
  | 19 => ⟨S32768x128, .f32⟩
  | 20 => ⟨S32768x128, .f32⟩
  | 21 => ⟨S32768x128, .f32⟩
  | 22 => ⟨S_, .f32⟩
  | 23 => ⟨S32768x128, .f32⟩
  | 24 => ⟨S32768x128, .f32⟩
  | 25 => ⟨S_, .i32⟩
  | 26 => ⟨S1, .i32⟩
  | 27 => ⟨S32768x512, .f32⟩
  | 28 => ⟨S32768x128, .f32⟩
  | 29 => ⟨S4x16384, .f32⟩
  | 30 => ⟨S4x128x128, .f32⟩
  | 31 => ⟨S_, .f32⟩
  | 32 => ⟨S32768x128, .f32⟩
  | 33 => ⟨S32768x1, .f32⟩
  | 34 => ⟨S1x128x128, .f32⟩
  | 35 => ⟨S128x128, .f32⟩
  | 36 => ⟨S32768x128, .f32⟩
  | 37 => ⟨S32768x128, .f32⟩
  | 38 => ⟨S32768x128, .f32⟩
  | 39 => ⟨S32768x128, .f32⟩
  | 40 => ⟨S32768x1, .f32⟩
  | 41 => ⟨S1x128x128, .f32⟩
  | 42 => ⟨S128x128, .f32⟩
  | 43 => ⟨S32768x128, .f32⟩
  | 44 => ⟨S32768x128, .f32⟩
  | 45 => ⟨S32768x128, .f32⟩
  | 46 => ⟨S32768x128, .f32⟩
  | 47 => ⟨S32768x1, .f32⟩
  | 48 => ⟨S1x128x128, .f32⟩
  | 49 => ⟨S128x128, .f32⟩
  | 50 => ⟨S32768x128, .f32⟩
  | 51 => ⟨S32768x128, .f32⟩
  | 52 => ⟨S32768x128, .f32⟩
  | 53 => ⟨S32768x128, .f32⟩
  | 54 => ⟨S32768x1, .f32⟩
  | 55 => ⟨S1x128x128, .f32⟩
  | 56 => ⟨S128x128, .f32⟩
  | 57 => ⟨S32768x128, .f32⟩
  | 58 => ⟨S32768x128, .f32⟩
  | 59 => ⟨S32768x128, .f32⟩
  | 60 => ⟨S32768x128, .f32⟩
  | 61 => ⟨S_, .f32⟩
  | 62 => ⟨S32768x128, .f32⟩
  | 63 => ⟨S32768x128, .f32⟩
  | 64 => ⟨S_, .i32⟩
  | 65 => ⟨S1, .i32⟩
  | 66 => ⟨S32768x512, .f32⟩
  | _ => ⟨S32768x512, .f32⟩

abbrev hbmTy (i : Nat) : BufTy := match i / 128 with
  | 0 => hbmTy0_0 i
  | 1 => hbmTy0_1 i
  | 2 => hbmTy0_2 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_1 : Ref sig .tc := ⟨.hbm, 44, rfl⟩
abbrev main_v34 : Ref sig .tc := ⟨.hbm, 45, rfl⟩
abbrev main_v35 : Ref sig .tc := ⟨.hbm, 46, rfl⟩
abbrev main_c : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_3 : Ref sig .tc := ⟨.hbm, 83, rfl⟩
abbrev main_v70 : Ref sig .tc := ⟨.hbm, 84, rfl⟩
abbrev main_v71 : Ref sig .tc := ⟨.hbm, 85, rfl⟩
abbrev main_c_4 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_5 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_cst_6 : Ref sig .tc := ⟨.hbm, 122, rfl⟩
abbrev main_v106 : Ref sig .tc := ⟨.hbm, 123, rfl⟩
abbrev main_v107 : Ref sig .tc := ⟨.hbm, 124, rfl⟩
abbrev main_c_7 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_cst_8 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_cst_9 : Ref sig .tc := ⟨.hbm, 161, rfl⟩
abbrev main_v142 : Ref sig .tc := ⟨.hbm, 162, rfl⟩
abbrev main_v143 : Ref sig .tc := ⟨.hbm, 163, rfl⟩
abbrev main_c_10 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_cst_11 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_cst_12 : Ref sig .tc := ⟨.hbm, 200, rfl⟩
abbrev main_v178 : Ref sig .tc := ⟨.hbm, 201, rfl⟩
abbrev main_v179 : Ref sig .tc := ⟨.hbm, 202, rfl⟩
abbrev main_c_13 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_cst_14 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_cst_15 : Ref sig .tc := ⟨.hbm, 239, rfl⟩
abbrev main_v214 : Ref sig .tc := ⟨.hbm, 240, rfl⟩
abbrev main_v215 : Ref sig .tc := ⟨.hbm, 241, rfl⟩
abbrev main_c_16 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_cst_17 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_v243 : Ref sig .tc := ⟨.hbm, 271, rfl⟩
abbrev main_v244 : Ref sig .tc := ⟨.hbm, 272, rfl⟩
abbrev main_v245 : Ref sig .tc := ⟨.hbm, 273, rfl⟩
abbrev main_v246 : Ref sig .tc := ⟨.hbm, 274, rfl⟩
abbrev main_v247 : Ref sig .tc := ⟨.hbm, 275, rfl⟩
abbrev main_v248 : Ref sig .tc := ⟨.hbm, 276, rfl⟩
abbrev main_v249 : Ref sig .tc := ⟨.hbm, 277, rfl⟩
abbrev main_cst_18 : Ref sig .tc := ⟨.hbm, 278, rfl⟩
abbrev main_v250 : Ref sig .tc := ⟨.hbm, 279, rfl⟩
abbrev main_v251 : Ref sig .tc := ⟨.hbm, 280, rfl⟩
abbrev main_c_19 : Ref sig .tc := ⟨.hbm, 281, rfl⟩
abbrev main_v252 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩
abbrev main_v256 : Ref sig .tc := ⟨.hbm, 286, rfl⟩
abbrev main_cst_20 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩
abbrev main_v276 : Ref sig .tc := ⟨.hbm, 307, rfl⟩
abbrev main_v277 : Ref sig .tc := ⟨.hbm, 308, rfl⟩
abbrev main_v278 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_cst_21 : Ref sig .tc := ⟨.hbm, 317, rfl⟩
abbrev main_v286 : Ref sig .tc := ⟨.hbm, 318, rfl⟩
abbrev main_v287 : Ref sig .tc := ⟨.hbm, 319, rfl⟩
abbrev main_c_22 : Ref sig .tc := ⟨.hbm, 320, rfl⟩
abbrev main_v288 : Ref sig .tc := ⟨.hbm, 321, rfl⟩
abbrev main_v289 : Ref sig .tc := ⟨.hbm, 322, rfl⟩

abbrev nD : Nat := 1
abbrev τ : Topo := Topo.v7x

variable {F : FTy → Type} [FloatOps F]

class Facts₀ : Prop where
  bcast_S32768_S32768x1_0 : S32768.BroadcastsInDim S32768x1 (![0] : Fin 1 → Fin S32768x1.rank)
  bcast_S32768x1_S32768x4_0_1 : S32768x1.BroadcastsInDim S32768x4 (![0, 1] : Fin 2 → Fin S32768x4.rank)
  bcast_S1x4_S32768x4_0_1 : S1x4.BroadcastsInDim S32768x4 (![0, 1] : Fin 2 → Fin S32768x4.rank)
  bcast_S_S32768x512 : S_.BroadcastsInDim S32768x512 (![] : Fin 0 → Fin S32768x512.rank)
  slices_S32768x512_S32768x128_0_0 : S32768x512.Slices ![0, 0] S32768x128
  slices_S4x131072_S4x16384_0_0 : S4x131072.Slices ![0, 0] S4x16384
  shapeCasts_S4x16384_S4x128x128 : S4x16384.ShapeCasts S4x128x128
  bcast_S_S32768x128 : S_.BroadcastsInDim S32768x128 (![] : Fin 0 → Fin S32768x128.rank)
  slices_S32768x4_S32768x1_0_0 : S32768x4.Slices ![0, 0] S32768x1
  slices_S4x128x128_S1x128x128_0_0_0 : S4x128x128.Slices ![0, 0, 0] S1x128x128
  shapeCasts_S1x128x128_S128x128 : S1x128x128.ShapeCasts S128x128
  bcast_S32768x1_S32768x128_0_1 : S32768x1.BroadcastsInDim S32768x128 (![0, 1] : Fin 2 → Fin S32768x128.rank)
  slices_S32768x4_S32768x1_0_1 : S32768x4.Slices ![0, 1] S32768x1
  slices_S4x128x128_S1x128x128_1_0_0 : S4x128x128.Slices ![1, 0, 0] S1x128x128
  slices_S32768x4_S32768x1_0_2 : S32768x4.Slices ![0, 2] S32768x1
  slices_S4x128x128_S1x128x128_2_0_0 : S4x128x128.Slices ![2, 0, 0] S1x128x128
  slices_S32768x4_S32768x1_0_3 : S32768x4.Slices ![0, 3] S32768x1
  slices_S4x128x128_S1x128x128_3_0_0 : S4x128x128.Slices ![3, 0, 0] S1x128x128
  bcast_S_S1 : S_.BroadcastsInDim S1 (![] : Fin 0 → Fin S1.rank)
  slices_S32768x512_S32768x128_0_128 : S32768x512.Slices ![0, 128] S32768x128
  slices_S4x131072_S4x16384_0_16384 : S4x131072.Slices ![0, 16384] S4x16384
  slices_S32768x512_S32768x128_0_256 : S32768x512.Slices ![0, 256] S32768x128
  slices_S4x131072_S4x16384_0_32768 : S4x131072.Slices ![0, 32768] S4x16384
  slices_S32768x512_S32768x128_0_384 : S32768x512.Slices ![0, 384] S32768x128
  slices_S4x131072_S4x16384_0_49152 : S4x131072.Slices ![0, 49152] S4x16384
  slices_S4x131072_S4x16384_0_65536 : S4x131072.Slices ![0, 65536] S4x16384
  slices_S4x131072_S4x16384_0_81920 : S4x131072.Slices ![0, 81920] S4x16384
  slices_S4x131072_S4x16384_0_98304 : S4x131072.Slices ![0, 98304] S4x16384
  slices_S4x131072_S4x16384_0_114688 : S4x131072.Slices ![0, 114688] S4x16384
  dot_S32768x128_S128x128_S32768x128_1_0_0_1_n_n_wf : DotDims.WF S32768x128 S128x128 S32768x128 [1] [0] [0] [1] [] []
  scatter_S32768x512_S1_S32768x128_01_n_1_0_wf : ScatterDims.WF S32768x512 S1 S32768x128 [0, 1] [] [1] 0

variable [Facts₀]

def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def scatter_S32768x512_S1_S32768x128_01_n_1_0 : ScatterDims S32768x512 S1 S32768x128 where
  updateWindowDims := [0, 1]
  insertedWindowDims := []
  scatterDimsToOperandDims := [1]
  indexVectorDim := 0
  wf := scatter_S32768x512_S1_S32768x128_01_n_1_0_wf

class Facts : Prop extends Facts₀ where

variable [Facts]
-- ==== Proof.KernelArray.lean ====
/-
  The kernel's run, read as ONE whole-array function of the three arrays the call reads.

  The call's grid has 16 points; point t computes rows 2048 t … 2048 t + 2047 of the [32768, 512] output from rows
  2048 t … of the data x : [32768, 512], the same rows of the column of expert words wid : [32768, 1], and the whole
  stack of four [512, 512] matrices wf. For each expert e = 0 … 3 the body weights every entry of a row by the row's 0/1
  weight for e (the integer of the one-bit comparison "wid = e", zero-extended, converted to a float), multiplies the
  weighted block by the e-th matrix into a zero accumulator, and adds the four products in the order
  ((0 + 1) + 2) + 3. At the ideal values a change of float format is the identity and a product into the zero accumulator
  is the plain sum over the contracted coordinate, so output entry (b, q) is
      ((T 0 + T 1) + T 2) + T 3,   T e = ∑ p : Fin 512, (x (b, p) · weight (wid (b, 0)) e) · wf (e, p, q).
  Here: the product and the body at an index of a block (`matmul_zero_apply`, `payload_apply`), the same on blocks that
  are parts of whole arrays (`block_apply`), each window's block as a part of its array (`blk0_read` … `blk2_read`), what a
  point writes back (`flushed_eq`), the blocks' cover of the array (`cover`), and the array after the run (`final`, `run`).
-/
import proofs.«104890_j59356448030869_2_alg».proof.Proof.Gen.KernelIdeal.Value
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.ArrayValue

open Cert.KernelIdeal Cert.KernelIdeal.Gen Cert.KernelIdeal.Value Idealize.ShloMosaic Idealize.ShloMosaic.TcCoe Idealize.SL.Sem Idealize.ShloMosaic.ValueIdx
open Idealize.ShloMosaic.Pipeline (Dat)

/-! ## The product of a row block with one expert's matrix, read at an index -/

/-- A column [a,1] broadcast along each row to [a,b] reads, at (r, p), the column at (r, 0). -/
theorem broadcastTo_a1_ab_apply {α : Type} {a b : ℕ} (v : (⟨2, ![a, 1]⟩ : Shape).Idx → α) (h : (⟨2, ![a, 1]⟩ : Shape).Broadcasts ⟨2, ![a, b]⟩)
    (r : Fin a) (p : Fin b) : broadcastTo ⟨2, ![a, b]⟩ v h (ix2 r p) = v (ix2 r (0 : Fin 1)) := by
  refine broadcastTo_apply v h (ix2 r p) (ix2 r (0 : Fin 1)) fun ax => ?_
  match ax with
  | ⟨0, _⟩ =>
    show r.val = if a = 1 then 0 else r.val
    split
    · have := r.isLt; omega
    · rfl
  | ⟨1, _⟩ => rfl

/-- The left operand's index of the product at output (i, ·) and contracted coordinate k: row i 0 … -/
theorem lhsIdx_row (i : S2048x512.Idx) (k : dot_S2048x512_S512x512_S2048x512_1_0_0_1_n_n.contr.Idx) :
    (dot_S2048x512_S512x512_S2048x512_1_0_0_1_n_n.lhsIdx i k 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
/-- … and column k. -/
theorem lhsIdx_col (i : S2048x512.Idx) (k : dot_S2048x512_S512x512_S2048x512_1_0_0_1_n_n.contr.Idx) :
    (dot_S2048x512_S512x512_S2048x512_1_0_0_1_n_n.lhsIdx i k 1).val = (k ⟨0, by decide⟩).val :=
  dot_S2048x512_S512x512_S2048x512_1_0_0_1_n_n.lhsIdx_val_of_single rfl i k
/-- The right operand's index: row k … -/
theorem rhsIdx_row (i : S2048x512.Idx) (k : dot_S2048x512_S512x512_S2048x512_1_0_0_1_n_n.contr.Idx) :
    (dot_S2048x512_S512x512_S2048x512_1_0_0_1_n_n.rhsIdx i k 0).val = (k ⟨0, by decide⟩).val :=
  dot_S2048x512_S512x512_S2048x512_1_0_0_1_n_n.rhsIdx_val_of_single rfl i k
/-- … and column i 1. -/
theorem rhsIdx_col (i : S2048x512.Idx) (k : dot_S2048x512_S512x512_S2048x512_1_0_0_1_n_n.contr.Idx) :
    (dot_S2048x512_S512x512_S2048x512_1_0_0_1_n_n.rhsIdx i k 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The [2048,512] by [512,512] product into the zero accumulator, read at (r, q): the sum over the contracted
    coordinate p of the left operand at (r, p) times the right at (p, q). -/
theorem matmul_zero_apply (a : FVec Ideal S2048x512 .bf16) (b : FVec Ideal S512x512 .bf16) (r : Fin 2048) (q : Fin 512) :
    matmul dot_S2048x512_S512x512_S2048x512_1_0_0_1_n_n none a b (constant (F := Ideal) S2048x512 .f32 0x00000000#32) (ix2 r q)
      = ∑ p : Fin 512, a (ix2 r p) * b (ix2 p q) := by
  simp only [matmul]
  rw [Ideal.matmul_constant_zero_apply, ← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx (ix2 r q) ((ValueIdx.contrEquiv1 dot_S2048x512_S512x512_S2048x512_1_0_0_1_n_n 512 rfl rfl).symm k) = ix2 r k := funext fun ax => Fin.ext (by
    match ax with
    | ⟨0, _⟩ => exact lhsIdx_row _ _
    | ⟨1, _⟩ => exact (lhsIdx_col _ _).trans hk)
  have er : dot_S2048x512_S512x512_S2048x512_1_0_0_1_n_n.rhsIdx (ix2 r q) ((ValueIdx.contrEquiv1 dot_S2048x512_S512x512_S2048x512_1_0_0_1_n_n 512 rfl rfl).symm k) = ix2 k q := funext fun ax => Fin.ext (by
    match ax with
    | ⟨0, _⟩ => exact (rhsIdx_row _ _).trans hk
    | ⟨1, _⟩ => exact rhsIdx_col _ _)
  rw [el, er]

/-! ## The body's value at an index of the block -/

/-- The weight of the expert numbered by the word `e` on a row whose expert word is `w`: the integer of the
    zero-extended one-bit comparison "w = e", read as an extended real — 1 where they agree, 0 elsewhere. -/
def weight (w e : BitVec 32) : EReal :=
  FloatOps.sitofp (F := Ideal) .f32 ((IntOp.cmpi .eq w e).setWidth 32)

/-- One expert's share of output entry (r, q) of a block: the row r of the block, each entry weighted by the
    row's weight for the expert, against column q of the expert's matrix. -/
theorem expert_apply (x0 : Vec Ideal S2048x512 .f32) (d : Vec Ideal S2048x1 .i32) (w : FVec Ideal S1x512x512 .bf16) (e : BitVec 32)
    (r : Fin 2048) (q : Fin 512) :
    matmul dot_S2048x512_S512x512_S2048x512_1_0_0_1_n_n none
        (mulf (k0_pay2 x0) (broadcastTo S2048x512 (truncf .bf16 (sitofp (F := Ideal) .f32 (extui 32 (cmpi .eq (k0_pay3 (F := Ideal) d) (broadcast S2048x1 e)) natLt_1_32)) bitsLt_bf16_f32) broadcasts_S2048x1_S2048x512))
        (shapeCast S512x512 w shapeCasts_S1x512x512_S512x512 : FVec Ideal S512x512 .bf16) (constant (F := Ideal) S2048x512 .f32 0x00000000#32) (ix2 r q)
      = ∑ p : Fin 512, (x0 (ix2 r p) * weight (d (ix2 r (0 : Fin 1))) e) * w (ix3 (0 : Fin 1) p q) := by
  rw [matmul_zero_apply]
  refine Finset.sum_congr rfl fun p _ => ?_
  rw [mulf_apply, broadcastTo_a1_ab_apply, shapeCast_1ab_ab_apply]
  unfold k0_pay2 k0_pay3
  rw [shapeCast_self]
  rfl

/-- THE BODY'S VALUE at entry (r, q) of a block: the four experts' shares, added in the kernel's order. -/
theorem payload_apply (x0 : Vec Ideal S2048x512 .f32) (d : Vec Ideal S2048x1 .i32) (w0 w1 w2 w3 : Vec Ideal S1x512x512 .bf16)
    (r : Fin 2048) (q : Fin 512) :
    k0_pay1 (k0_pay2 x0) (k0_pay4 x0 d w0 w1 w2) (k0_pay5 d) w3 (ix2 r q)
      = ((∑ p : Fin 512, (x0 (ix2 r p) * weight (d (ix2 r (0 : Fin 1))) 0#32) * w0 (ix3 (0 : Fin 1) p q)
          + ∑ p : Fin 512, (x0 (ix2 r p) * weight (d (ix2 r (0 : Fin 1))) 1#32) * w1 (ix3 (0 : Fin 1) p q))
          + ∑ p : Fin 512, (x0 (ix2 r p) * weight (d (ix2 r (0 : Fin 1))) 2#32) * w2 (ix3 (0 : Fin 1) p q))
          + ∑ p : Fin 512, (x0 (ix2 r p) * weight (d (ix2 r (0 : Fin 1))) 3#32) * w3 (ix3 (0 : Fin 1) p q) := by
  unfold k0_pay1 k0_pay4 k0_pay5
  dsimp only
  rw [addf_apply, addf_apply, addf_apply, expert_apply, expert_apply, expert_apply]
  exact congrArg _ (expert_apply x0 d w3 3#32 r q)

/-- The weight is 1 where the two words agree and 0 elsewhere. -/
theorem weight_eq (w e : BitVec 32) : weight w e = if w = e then 1 else 0 := by
  unfold weight
  by_cases h : w = e
  · subst h
    rw [if_pos rfl, show (IntOp.cmpi .eq w w).setWidth 32 = 1#32 from by simp [IntOp.cmpi]]
    show ((((1#32 : BitVec 32).toInt : ℤ) : ℝ) : EReal) = 1
    rw [show (1#32 : BitVec 32).toInt = 1 from by decide]
    simp
  · have hb : (w == e) = false := beq_false_of_ne h
    rw [if_neg h, show (IntOp.cmpi .eq w e).setWidth 32 = 0#32 from by simp [IntOp.cmpi, hb]]
    show ((((0#32 : BitVec 32).toInt : ℤ) : ℝ) : EReal) = 0
    rw [show (0#32 : BitVec 32).toInt = 0 from by decide]
    simp

/-! ## The output array as one function of the three arrays the call reads -/

/-- Output entry (b, q): the four experts' shares of row b against column q of each expert's matrix, added in
    the kernel's order; each entry of the row is weighted by the row's 0/1 weight for the expert. -/
def KAt (x : S32768x512.Idx → EReal) (wf : S4x512x512.Idx → EReal) (wid : S32768x1.Idx → BitVec 32) (b : Fin 32768) (q : Fin 512) : EReal :=
  ((∑ p : Fin 512, (x (ix2 b p) * weight (wid (ix2 b (0 : Fin 1))) 0#32) * wf (ix3 (0 : Fin 4) p q)
      + ∑ p : Fin 512, (x (ix2 b p) * weight (wid (ix2 b (0 : Fin 1))) 1#32) * wf (ix3 (1 : Fin 4) p q))
      + ∑ p : Fin 512, (x (ix2 b p) * weight (wid (ix2 b (0 : Fin 1))) 2#32) * wf (ix3 (2 : Fin 4) p q))
      + ∑ p : Fin 512, (x (ix2 b p) * weight (wid (ix2 b (0 : Fin 1))) 3#32) * wf (ix3 (3 : Fin 4) p q)

/-- The whole output array, index by index. -/
def KOut (x : S32768x512.Idx → EReal) (wf : S4x512x512.Idx → EReal) (wid : S32768x1.Idx → BitVec 32) : S32768x512.Idx → EReal :=
  fun i => KAt x wf wid (i 0) (i 1)

/-- Expert e's matrix, loaded from the stack of four as a [1,512,512] slab, reads at (0, p, q) the stack at (e, p, q). -/
theorem ld_expert (x1 : Vec Ideal S4x512x512 .bf16) (e : Fin 4)
    (inb : ∀ a, (![e.val, 0, 0] : Fin 3 → Nat) a + S1x512x512.size a ≤ S4x512x512.size a) (p q : Fin 512) :
    View.ld x1 (Rect.unit (s := S4x512x512) ![e.val, 0, 0] S1x512x512.size inb) (ix3 (0 : Fin 1) p q) = x1 (ix3 e p q) := by
  show x1 _ = x1 _
  refine congrArg x1 (funext fun a => Fin.ext ?_)
  match a with
  | ⟨0, _⟩ => show e.val + 1 * 0 = e.val; omega
  | ⟨1, _⟩ => show 0 + 1 * p.val = p.val; omega
  | ⟨2, _⟩ => show 0 + 1 * q.val = q.val; omega

/-- THE BODY'S VALUE on blocks that are parts of three whole arrays: if row `j 0` of the data block is row R of X, the
    weights' block likewise, and the matrices' block is W with column `j 1` at Q, the body's value at j is entry (R, Q) of
    the output function of X, W, D. -/
theorem block_apply (X : S32768x512.Idx → EReal) (W : S4x512x512.Idx → EReal) (D : S32768x1.Idx → BitVec 32)
    (x0 : Vec Ideal S2048x512 .f32) (x1 : Vec Ideal S4x512x512 .bf16) (x2 : Vec Ideal S2048x1 .i32)
    (j : S2048x512.Idx) (R : Fin 32768) (Q : Fin 512)
    (h0 : ∀ p : Fin 512, x0 (ix2 (j 0) p) = X (ix2 R p))
    (h1 : ∀ (e : Fin 4) (p : Fin 512), x1 (ix3 e p (j 1)) = W (ix3 e p Q))
    (h2 : x2 (ix2 (j 0) (0 : Fin 1)) = D (ix2 R (0 : Fin 1))) :
    k0_pay1 (k0_pay2 x0) (k0_pay4 x0 x2 (View.ld x1 r0_2) (View.ld x1 r0_3) (View.ld x1 r0_4)) (k0_pay5 x2) (View.ld x1 r0_5) j
      = KAt X W D R Q := by
  obtain ⟨r, q, rfl⟩ : ∃ (r : Fin 2048) (q : Fin 512), j = ix2 r q := ⟨j 0, j 1, eq_ix2 j⟩
  have h0' : ∀ p : Fin 512, x0 (ix2 r p) = X (ix2 R p) := h0
  have h2' : x2 (ix2 r (0 : Fin 1)) = D (ix2 R (0 : Fin 1)) := h2
  have e0 : ∀ p : Fin 512, View.ld x1 r0_2 (ix3 (0 : Fin 1) p q) = W (ix3 (0 : Fin 4) p Q) := fun p => (ld_expert x1 0 _ p q).trans (h1 0 p)
  have e1 : ∀ p : Fin 512, View.ld x1 r0_3 (ix3 (0 : Fin 1) p q) = W (ix3 (1 : Fin 4) p Q) := fun p => (ld_expert x1 1 _ p q).trans (h1 1 p)
  have e2 : ∀ p : Fin 512, View.ld x1 r0_4 (ix3 (0 : Fin 1) p q) = W (ix3 (2 : Fin 4) p Q) := fun p => (ld_expert x1 2 _ p q).trans (h1 2 p)
  have e3 : ∀ p : Fin 512, View.ld x1 r0_5 (ix3 (0 : Fin 1) p q) = W (ix3 (3 : Fin 4) p Q) := fun p => (ld_expert x1 3 _ p q).trans (h1 3 p)
  rw [payload_apply]
  unfold KAt
  simp only [h0', h2', e0, e1, e2, e3]

/-! ## From the blocks to the array -/

variable (m : (ℓ : Loc nD τ sig) → Buf (Elt Ideal) ℓ) (ρ : Dev nD → PrngReg)

theorem hz2 : (![0, 0] : Fin 2 → Nat) = fun _ => 0 := funext fun a => by fin_cases a <;> rfl

/-- The index maps over the grid: point t's output block is row block t; the data and the weights' blocks move with
    it; the matrices' block is the whole stack at every point. -/
theorem idx_facts : ∀ t : Fin cfg0.N,
    win0_0.index t (0 : Fin 2) = win0_3.index t (0 : Fin 2) ∧ win0_0.index t (1 : Fin 2) = 0
    ∧ win0_1.index t (0 : Fin 3) = 0 ∧ win0_1.index t (1 : Fin 3) = 0 ∧ win0_1.index t (2 : Fin 3) = 0
    ∧ win0_2.index t (0 : Fin 2) = win0_3.index t (0 : Fin 2) ∧ win0_2.index t (1 : Fin 2) = 0
    ∧ win0_3.index t (0 : Fin 2) = t.val ∧ win0_3.index t (1 : Fin 2) = 0 :=
  (by decide +kernel : ∀ t : Fin grid0.N, _)

/-- The data window's block at point t, read off any array contents: entry y of the block is the array's entry whose
    row is 2048 times the output's block row plus y's row, and whose column is y's. -/
theorem blk0_read (t : Fin cfg0.N) (A : S32768x512.Idx → EReal) (y : S2048x512.Idx) (k : S32768x512.Idx)
    (h0 : (k 0).val = win0_3.index t (0 : Fin 2) * 2048 + 1 * (y 0).val) (h1 : (k 1).val = (y 1).val) :
    ((cfg0.win 0).blk t).view.read (Elt Ideal) A y = A k := by
  obtain ⟨a0, a1, -, -, -, -, -, -, -⟩ := idx_facts t
  show A (((cfg0.win 0).blk t).view.emb y) = A k
  refine congrArg A (funext fun a => Fin.ext ?_)
  match a with
  | ⟨0, _⟩ => show win0_0.index t (0 : Fin 2) * 2048 + 1 * (y 0).val = (k 0).val; omega
  | ⟨1, _⟩ => show win0_0.index t (1 : Fin 2) * 512 + 1 * (y 1).val = (k 1).val; omega

/-- The matrices' window's block at any point is the whole stack. -/
theorem blk1_read (t : Fin cfg0.N) (A : S4x512x512.Idx → EReal) (y k : S4x512x512.Idx)
    (h0 : (k 0).val = (y 0).val) (h1 : (k 1).val = (y 1).val) (h2 : (k 2).val = (y 2).val) :
    ((cfg0.win 1).blk t).view.read (Elt Ideal) A y = A k := by
  obtain ⟨-, -, b0, b1, b2, -, -, -, -⟩ := idx_facts t
  show A (((cfg0.win 1).blk t).view.emb y) = A k
  refine congrArg A (funext fun a => Fin.ext ?_)
  match a with
  | ⟨0, _⟩ => show win0_1.index t (0 : Fin 3) * 4 + 1 * (y 0).val = (k 0).val; omega
  | ⟨1, _⟩ => show win0_1.index t (1 : Fin 3) * 512 + 1 * (y 1).val = (k 1).val; omega
  | ⟨2, _⟩ => show win0_1.index t (2 : Fin 3) * 512 + 1 * (y 2).val = (k 2).val; omega

/-- The weights' window's block at point t, read off any array contents, row by row as the data window's. -/
theorem blk2_read (t : Fin cfg0.N) (A : S32768x1.Idx → BitVec 32) (y : S2048x1.Idx) (k : S32768x1.Idx)
    (h0 : (k 0).val = win0_3.index t (0 : Fin 2) * 2048 + 1 * (y 0).val) :
    ((cfg0.win 2).blk t).view.read (Elt Ideal) A y = A k := by
  obtain ⟨-, -, -, -, -, d0, d1, -, -⟩ := idx_facts t
  show A (((cfg0.win 2).blk t).view.emb y) = A k
  refine congrArg A (funext fun a => Fin.ext ?_)
  have hk1 : (k 1).val < 1 := (k 1).isLt
  have hy1 : (y 1).val < 1 := (y 1).isLt
  match a with
  | ⟨0, _⟩ => show win0_2.index t (0 : Fin 2) * 2048 + 1 * (y 0).val = (k 0).val; omega
  | ⟨1, _⟩ => show win0_2.index t (1 : Fin 2) * 1 + 1 * (y 1).val = (k 1).val; omega

/-- WHAT POINT t WRITES BACK is block t of the output function of the three arrays as the call finds them. -/
theorem flushed_eq (c : Dev nD) (t : Fin cfg0.N) :
    (dats m 0 c).flushed 3 t = ((cfg0.win 3).blk t).view.read (Elt Ideal) (KOut (V m c main_arg0) (V m c main_v65) (V m c main_v66)) := by
  rw [flushed3]
  unfold out0_3
  rw [View.canon_unit_zero hz2]
  simp only [View.ld_unit_zero (S := S2048x512) hz2, View.ld_unit_zero (S := S2048x1) hz2]
  obtain ⟨-, -, -, -, -, -, -, -, o1⟩ := idx_facts t
  funext j
  show k0_pay1 (k0_pay2 (iblk m c 0 t))
        (k0_pay4 (iblk m c 0 t) (iblk m c 2 t) (View.ld (iblk m c 1 t) r0_2) (View.ld (iblk m c 1 t) r0_3) (View.ld (iblk m c 1 t) r0_4))
        (k0_pay5 (iblk m c 2 t)) (View.ld (iblk m c 1 t) r0_5) j
      = KAt (V m c main_arg0) (V m c main_v65) (V m c main_v66) ((((cfg0.win 3).blk t).view.emb j) 0) ((((cfg0.win 3).blk t).view.emb j) 1)
  refine block_apply (V m c main_arg0) (V m c main_v65) (V m c main_v66) (iblk m c 0 t) (iblk m c 1 t) (iblk m c 2 t) j _ _
    (fun p => ?_) (fun e p => ?_) ?_
  · exact blk0_read t (V m c main_arg0) _ _ rfl rfl
  · refine blk1_read t (V m c main_v65) _ _ rfl rfl ?_
    show win0_3.index t (1 : Fin 2) * 512 + 1 * (j 1).val = (j 1).val
    omega
  · exact blk2_read t (V m c main_v66) _ _ rfl

/-- An index of the array is in point t's block iff each coordinate is in the block's range on its axis. -/
theorem mem_blk (t : Fin cfg0.N) (i : S32768x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v67).slice (win0_3.rect t)).set ↔ _
  rw [View.set_slice_whole, Rect.mem_set_unit]
  exact Iff.rfl

/-- Every index of the array is in the block of the point numbered by its row divided by 2048. -/
theorem cover (i : S32768x512.Idx) : ∃ t : Fin cfg0.N, (cfg0.win 3).flush t = true ∧ i ∈ ((cfg0.win 3).blk t).view.set := by
  have hi0 : (i 0).val < 32768 := (i 0).isLt
  have hi1 : (i 1).val < 512 := (i 1).isLt
  have hN : cfg0.N = 16 := N_0
  have hlt : (i 0).val / 2048 < cfg0.N := by rw [hN]; omega
  obtain ⟨-, -, -, -, -, -, -, o0, o1⟩ := idx_facts ⟨(i 0).val / 2048, hlt⟩
  have o0' : win0_3.index ⟨(i 0).val / 2048, hlt⟩ (0 : Fin 2) = (i 0).val / 2048 := o0
  refine ⟨⟨(i 0).val / 2048, hlt⟩, flush0_3 _, ?_⟩
  rw [mem_blk]
  intro a
  match a with
  | ⟨0, _⟩ => show win0_3.index ⟨(i 0).val / 2048, hlt⟩ (0 : Fin 2) * 2048 ≤ (i 0).val ∧ (i 0).val < win0_3.index ⟨(i 0).val / 2048, hlt⟩ (0 : Fin 2) * 2048 + 2048; omega
  | ⟨1, _⟩ => show win0_3.index ⟨(i 0).val / 2048, hlt⟩ (1 : Fin 2) * 512 ≤ (i 1).val ∧ (i 1).val < win0_3.index ⟨(i 0).val / 2048, hlt⟩ (1 : Fin 2) * 512 + 512; omega

/-- THE ARRAY after the run is the output function of the three arrays as the call finds them. -/
theorem final (c : Dev nD) :
    (dats m 0 c).arrAt 3 cfg0.N = KOut (V m c main_arg0) (V m c main_v65) (V m c main_v66) :=
  (dats m 0 c).arrAt_eq_of_cover 3 (KOut (V m c main_arg0) (V m c main_v65) (V m c main_v66)) (fun t _ => flushed_eq m c t) cover

/-- The run, read: the output array at the output function of the three arrays the call reads, the arguments unchanged. -/
theorem run : θ_run defs (onTc (τ := τ) (main (F := Ideal))) ⟨m, fun _ => 0, ρ⟩ fun r => ∀ c : Dev nD,
      r.2.mem ((c : Thread nD τ).loc main_v67) = KOut (V m c main_arg0) (V m c main_v65) (V m c main_v66)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrayValue

end
-- ==== Proof.KernelHost.lean ====
/-
  What the kernel's region finds in its windows' arrays.

  Window 1 stages the dense per-expert weight `wf : [4, 512, 512]`, which the host computes before the
  launch from the weight argument `w : f32[4, 131072]`: zeros, then eight steps, step `(i, j, k, a)`
  adding the path block `w[e, 16384 j + 128 r + s] · a` onto the square at rows `128 i`, columns `128 k`;
  the final change of float format is the identity on extended reals. Window 2 stages the expert ids as
  a column `[32768, 1]`, a reshape of the argument. Window 0 stages the input argument itself.
-/
import proofs.«104890_j59356448030869_2_alg».proof.Proof.Gen.KernelIdeal.Frame
import Idealize.ShloMosaic.Lib.StableHlo.Run
import Idealize.ShloMosaic.Lib.ValueIdx
import Idealize.ShloMosaic.Lib.Pipeline.Value

noncomputable section

namespace Cert.KernelIdeal.HostValue

open Idealize.ShloMosaic Idealize.ShloMosaic.TcCoe Idealize.ShloMosaic.ValueIdx Idealize.SL.Sem Idealize.ShloMosaic.StableHlo
open Cert.KernelIdeal Cert.KernelIdeal.Gen

variable [Facts]

/-- The start index `(r0, c0)` of a step, as a vector of two words. -/
def startVec (r0 c0 : BitVec 32) : IVec S2 32 :=
  concatenate S2 0 [⟨S1, broadcastInDim S1 ![] Facts₀.bcast_S_S1 (constantI S_ 32 r0)⟩,
    ⟨S1, broadcastInDim S1 ![] Facts₀.bcast_S_S1 (constantI S_ 32 c0)⟩] Facts₀.concatenates_S1_S1_S2_d0

/-- The block of one path: the weight argument's columns `off .. off + 16383`, as `[4, 128, 128]`, times the
    path's coefficient. -/
def pathBlock (w : FVec Ideal S4x131072 .f32) (off : Nat) (hs : S4x131072.Slices ![0, off] S4x16384) (coef : BitVec 32) :
    FVec Ideal S4x128x128 .f32 :=
  mulf (shapeCast S4x128x128 (extractStridedSlice S4x16384 ![0, off] w hs) Facts₀.shapeCasts_S4x16384_S4x128x128)
    (broadcastInDim S4x128x128 ![] Facts₀.bcast_S_S4x128x128 (constant (F := Ideal) S_ .f32 coef))

/-- One step: the block added onto the square at `(r0, c0)`. -/
def addPath (acc : FVec Ideal S4x512x512 .f32) (r0 c0 : BitVec 32) (blk : FVec Ideal S4x128x128 .f32) :
    FVec Ideal S4x512x512 .f32 :=
  Host.scatter scatter_S4x512x512_S2_S4x128x128_012_n_12_0 FloatOps.addf acc (startVec r0 c0) blk

/-- The array of zeros the steps start from. -/
def zeroWeights : FVec Ideal S4x512x512 .f32 :=
  broadcastInDim S4x512x512 ![] Facts₀.bcast_S_S4x512x512 (constant (F := Ideal) S_ .f32 0x00000000#32)

/-- The dense weight before the change of format: the eight steps in program order. -/
def denseWeights32 (w : FVec Ideal S4x131072 .f32) : FVec Ideal S4x512x512 .f32 :=
  addPath (addPath (addPath (addPath (addPath (addPath (addPath (addPath zeroWeights
    0#32 0#32 (pathBlock w 0 Facts₀.slices_S4x131072_S4x16384_0_0 0x3F800000#32))
    128#32 128#32 (pathBlock w 16384 Facts₀.slices_S4x131072_S4x16384_0_16384 0x3F800000#32))
    256#32 256#32 (pathBlock w 32768 Facts₀.slices_S4x131072_S4x16384_0_32768 0x3F800000#32))
    384#32 384#32 (pathBlock w 49152 Facts₀.slices_S4x131072_S4x16384_0_49152 0x3F800000#32))
    0#32 128#32 (pathBlock w 65536 Facts₀.slices_S4x131072_S4x16384_0_65536 0x3F000000#32))
    128#32 256#32 (pathBlock w 81920 Facts₀.slices_S4x131072_S4x16384_0_81920 0x3F000000#32))
    256#32 384#32 (pathBlock w 98304 Facts₀.slices_S4x131072_S4x16384_0_98304 0x3F000000#32))
    384#32 0#32 (pathBlock w 114688 Facts₀.slices_S4x131072_S4x16384_0_114688 0x3F000000#32)

/-- The dense weight as window 1 stages it. -/
def denseWeights (w : FVec Ideal S4x131072 .f32) : FVec Ideal S4x512x512 .bf16 :=
  truncf .bf16 (denseWeights32 w) Facts₀.bitsLt_bf16_f32

variable (m : (ℓ : Loc nD τ sig) → Buf (Elt Ideal) ℓ)

set_option maxHeartbeats 8000000 in
/-- Window 1's array at region entry is the dense weight of the weight argument. -/
theorem V_dense (c : Dev nD) :
    (V m c main_v65 : S4x512x512.Idx → EReal) = denseWeights (m ((c : Thread nD τ).loc main_arg1)) := by
  dsimp only [Gen.V, Gen.hostOps0]
  after_results_simp
  rfl

set_option maxHeartbeats 8000000 in
/-- Window 2's array at region entry is the expert-id argument as a column. -/
theorem V_ids (c : Dev nD) :
    (V m c main_v66 : S32768x1.Idx → BitVec 32)
      = shapeCast S32768x1 (m ((c : Thread nD τ).loc main_arg2)) Facts₀.shapeCasts_S32768_S32768x1 := by
  dsimp only [Gen.V, Gen.hostOps0]
  after_results_simp
  rfl

end Cert.KernelIdeal.HostValue

end
-- ==== Proof.ReferenceOps.lean ====
/-
  The reference program's @main as lists of its host operations.

  @main is printed in six windows of at most 60 statements (the first statement a call of the one-hot function,
  whose six operations stand in its place); each window is the straight line of its operations, and @main is
  the six lines one after the other, hence the line of all 320 operations. The same 320 operations are cut a
  second way, by what they compute: a prologue (the one-hot array and the zero array) and then, for each of
  the eight paths, the 39 operations that end in the scatter adding the path's update into the result so far.
  Between two such segments only the arguments, the one-hot array and the result so far are read again, which
  is what makes the run's result readable one segment at a time (Proof/ReferenceValue.lean).
  Every operation's buffers are buffers of the TensorCore, and none allocates a buffer.
-/
import proofs.«104890_j59356448030869_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The windows, as printed -/

/-- Window 0 of @main: operations 1 … 65 of 320. -/
abbrev win0 : List (HloOp τ sig (Elt F)) :=
  [ TRef.unary (TRef.of (T := ⟨S32768, .i32⟩) main_arg2) (TRef.of (T := ⟨S32768x1, .i32⟩) main_call0_v0) (broadcastInDim S32768x1 ![0] bcast_S32768_S32768x1_0),
    TRef.nullary (TRef.of (T := ⟨S1x4, .i32⟩) main_call0_v1) (iotaInDim S1x4 32 1),
    TRef.unary (TRef.of (T := ⟨S32768x1, .i32⟩) main_call0_v0) (TRef.of (T := ⟨S32768x4, .i32⟩) main_call0_v2) (broadcastInDim S32768x4 ![0, 1] bcast_S32768x1_S32768x4_0_1),
    TRef.unary (TRef.of (T := ⟨S1x4, .i32⟩) main_call0_v1) (TRef.of (T := ⟨S32768x4, .i32⟩) main_call0_v3) (broadcastInDim S32768x4 ![0, 1] bcast_S1x4_S32768x4_0_1),
    TRef.binary (TRef.of (T := ⟨S32768x4, .i32⟩) main_call0_v2) (TRef.of (T := ⟨S32768x4, .i32⟩) main_call0_v3) (TRef.of (T := ⟨S32768x4, .i1⟩) main_call0_v4) (cmpi .eq),
    TRef.unary (TRef.of (T := ⟨S32768x4, .i1⟩) main_call0_v4) (TRef.of (T := ⟨S32768x4, .f32⟩) main_v0) (uitofp .f32),
    nullary main_cst (constant S_ .f32 0x00000000#32),
    unary main_cst main_v1 (broadcastInDim S32768x512 ![] bcast_S_S32768x512 : (⟨S_, .f32⟩ : BufTy).Contents (Elt F) → (⟨S32768x512, .f32⟩ : BufTy).Contents (Elt F)),
    unary main_arg0 main_v2 ((extractStridedSlice S32768x128 ![0, 0] · slices_S32768x512_S32768x128_0_0) : (⟨S32768x512, .f32⟩ : BufTy).Contents (Elt F) → (⟨S32768x128, .f32⟩ : BufTy).Contents (Elt F)),
    unary main_arg1 main_v3 ((extractStridedSlice S4x16384 ![0, 0] · slices_S4x131072_S4x16384_0_0) : (⟨S4x131072, .f32⟩ : BufTy).Contents (Elt F) → (⟨S4x16384, .f32⟩ : BufTy).Contents (Elt F)),
    reshape main_v3 main_v4 rfl shapeCasts_S4x16384_S4x128x128,
    nullary main_cst_0 (constant S_ .f32 0x00000000#32),
    unary main_cst_0 main_v5 (broadcastInDim S32768x128 ![] bcast_S_S32768x128 : (⟨S_, .f32⟩ : BufTy).Contents (Elt F) → (⟨S32768x128, .f32⟩ : BufTy).Contents (Elt F)),
    unary main_v0 main_v6 ((extractStridedSlice S32768x1 ![0, 0] · slices_S32768x4_S32768x1_0_0) : (⟨S32768x4, .f32⟩ : BufTy).Contents (Elt F) → (⟨S32768x1, .f32⟩ : BufTy).Contents (Elt F)),
    unary main_v4 main_v7 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v7 main_v8 rfl shapeCasts_S1x128x128_S128x128,
    binary main_v2 main_v8 main_v9 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v6 main_v10 (broadcastInDim S32768x128 ![0, 1] bcast_S32768x1_S32768x128_0_1 : (⟨S32768x1, .f32⟩ : BufTy).Contents (Elt F) → (⟨S32768x128, .f32⟩ : BufTy).Contents (Elt F)),
    binary main_v10 main_v9 main_v11 (mulf : (⟨S32768x128, .f32⟩ : BufTy).Contents (Elt F) → (⟨S32768x128, .f32⟩ : BufTy).Contents (Elt F) → (⟨S32768x128, .f32⟩ : BufTy).Contents (Elt F)),
    binary main_v5 main_v11 main_v12 (addf : (⟨S32768x128, .f32⟩ : BufTy).Contents (Elt F) → (⟨S32768x128, .f32⟩ : BufTy).Contents (Elt F) → (⟨S32768x128, .f32⟩ : BufTy).Contents (Elt F)),
    unary main_v0 main_v13 ((extractStridedSlice S32768x1 ![0, 1] · slices_S32768x4_S32768x1_0_1) : (⟨S32768x4, .f32⟩ : BufTy).Contents (Elt F) → (⟨S32768x1, .f32⟩ : BufTy).Contents (Elt F)),
    unary main_v4 main_v14 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v14 main_v15 rfl shapeCasts_S1x128x128_S128x128,
    binary main_v2 main_v15 main_v16 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v13 main_v17 (broadcastInDim S32768x128 ![0, 1] bcast_S32768x1_S32768x128_0_1 : (⟨S32768x1, .f32⟩ : BufTy).Contents (Elt F) → (⟨S32768x128, .f32⟩ : BufTy).Contents (Elt F)),
    binary main_v17 main_v16 main_v18 (mulf : (⟨S32768x128, .f32⟩ : BufTy).Contents (Elt F) → (⟨S32768x128, .f32⟩ : BufTy).Contents (Elt F) → (⟨S32768x128, .f32⟩ : BufTy).Contents (Elt F)),
    binary main_v12 main_v18 main_v19 (addf : (⟨S32768x128, .f32⟩ : BufTy).Contents (Elt F) → (⟨S32768x128, .f32⟩ : BufTy).Contents (Elt F) → (⟨S32768x128, .f32⟩ : BufTy).Contents (Elt F)),
    unary main_v0 main_v20 ((extractStridedSlice S32768x1 ![0, 2] · slices_S32768x4_S32768x1_0_2) : (⟨S32768x4, .f32⟩ : BufTy).Contents (Elt F) → (⟨S32768x1, .f32⟩ : BufTy).Contents (Elt F)),
    unary main_v4 main_v21 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v21 main_v22 rfl shapeCasts_S1x128x128_S128x128,
    binary main_v2 main_v22 main_v23 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v20 main_v24 (broadcastInDim S32768x128 ![0, 1] bcast_S32768x1_S32768x128_0_1 : (⟨S32768x1, .f32⟩ : BufTy).Contents (Elt F) → (⟨S32768x128, .f32⟩ : BufTy).Contents (Elt F)),
    binary main_v24 main_v23 main_v25 (mulf : (⟨S32768x128, .f32⟩ : BufTy).Contents (Elt F) → (⟨S32768x128, .f32⟩ : BufTy).Contents (Elt F) → (⟨S32768x128, .f32⟩ : BufTy).Contents (Elt F)),
    binary main_v19 main_v25 main_v26 (addf : (⟨S32768x128, .f32⟩ : BufTy).Contents (Elt F) → (⟨S32768x128, .f32⟩ : BufTy).Contents (Elt F) → (⟨S32768x128, .f32⟩ : BufTy).Contents (Elt F)),
    unary main_v0 main_v27 ((extractStridedSlice S32768x1 ![0, 3] · slices_S32768x4_S32768x1_0_3) : (⟨S32768x4, .f32⟩ : BufTy).Contents (Elt F) → (⟨S32768x1, .f32⟩ : BufTy).Contents (Elt F)),
    unary main_v4 main_v28 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v28 main_v29 rfl shapeCasts_S1x128x128_S128x128,
    binary main_v2 main_v29 main_v30 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v27 main_v31 (broadcastInDim S32768x128 ![0, 1] bcast_S32768x1_S32768x128_0_1 : (⟨S32768x1, .f32⟩ : BufTy).Contents (Elt F) → (⟨S32768x128, .f32⟩ : BufTy).Contents (Elt F)),
    binary main_v31 main_v30 main_v32 (mulf : (⟨S32768x128, .f32⟩ : BufTy).Contents (Elt F) → (⟨S32768x128, .f32⟩ : BufTy).Contents (Elt F) → (⟨S32768x128, .f32⟩ : BufTy).Contents (Elt F)),
    binary main_v26 main_v32 main_v33 (addf : (⟨S32768x128, .f32⟩ : BufTy).Contents (Elt F) → (⟨S32768x128, .f32⟩ : BufTy).Contents (Elt F) → (⟨S32768x128, .f32⟩ : BufTy).Contents (Elt F)),
    nullary main_cst_1 (constant S_ .f32 0x3F800000#32),
    unary main_cst_1 main_v34 (broadcastInDim S32768x128 ![] bcast_S_S32768x128 : (⟨S_, .f32⟩ : BufTy).Contents (Elt F) → (⟨S32768x128, .f32⟩ : BufTy).Contents (Elt F)),
    binary main_v34 main_v33 main_v35 (mulf : (⟨S32768x128, .f32⟩ : BufTy).Contents (Elt F) → (⟨S32768x128, .f32⟩ : BufTy).Contents (Elt F) → (⟨S32768x128, .f32⟩ : BufTy).Contents (Elt F)),
    nullary main_c (constantI S_ 32 0#32),
    unary main_c main_v36 (broadcastInDim S1 ![] bcast_S_S1 : (⟨S_, .i32⟩ : BufTy).Contents (Elt F) → (⟨S1, .i32⟩ : BufTy).Contents (Elt F)),
    ternary main_v1 main_v36 main_v35 main_v37 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)),
    unary main_arg0 main_v38 ((extractStridedSlice S32768x128 ![0, 128] · slices_S32768x512_S32768x128_0_128) : (⟨S32768x512, .f32⟩ : BufTy).Contents (Elt F) → (⟨S32768x128, .f32⟩ : BufTy).Contents (Elt F)),
    unary main_arg1 main_v39 ((extractStridedSlice S4x16384 ![0, 16384] · slices_S4x131072_S4x16384_0_16384) : (⟨S4x131072, .f32⟩ : BufTy).Contents (Elt F) → (⟨S4x16384, .f32⟩ : BufTy).Contents (Elt F)),
    reshape main_v39 main_v40 rfl shapeCasts_S4x16384_S4x128x128,
    nullary main_cst_2 (constant S_ .f32 0x00000000#32),
    unary main_cst_2 main_v41 (broadcastInDim S32768x128 ![] bcast_S_S32768x128 : (⟨S_, .f32⟩ : BufTy).Contents (Elt F) → (⟨S32768x128, .f32⟩ : BufTy).Contents (Elt F)),
    unary main_v0 main_v42 ((extractStridedSlice S32768x1 ![0, 0] · slices_S32768x4_S32768x1_0_0) : (⟨S32768x4, .f32⟩ : BufTy).Contents (Elt F) → (⟨S32768x1, .f32⟩ : BufTy).Contents (Elt F)),
    unary main_v40 main_v43 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v43 main_v44 rfl shapeCasts_S1x128x128_S128x128,
    binary main_v38 main_v44 main_v45 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v42 main_v46 (broadcastInDim S32768x128 ![0, 1] bcast_S32768x1_S32768x128_0_1 : (⟨S32768x1, .f32⟩ : BufTy).Contents (Elt F) → (⟨S32768x128, .f32⟩ : BufTy).Contents (Elt F)),
    binary main_v46 main_v45 main_v47 (mulf : (⟨S32768x128, .f32⟩ : BufTy).Contents (Elt F) → (⟨S32768x128, .f32⟩ : BufTy).Contents (Elt F) → (⟨S32768x128, .f32⟩ : BufTy).Contents (Elt F)),
    binary main_v41 main_v47 main_v48 (addf : (⟨S32768x128, .f32⟩ : BufTy).Contents (Elt F) → (⟨S32768x128, .f32⟩ : BufTy).Contents (Elt F) → (⟨S32768x128, .f32⟩ : BufTy).Contents (Elt F)),
    unary main_v0 main_v49 ((extractStridedSlice S32768x1 ![0, 1] · slices_S32768x4_S32768x1_0_1) : (⟨S32768x4, .f32⟩ : BufTy).Contents (Elt F) → (⟨S32768x1, .f32⟩ : BufTy).Contents (Elt F)),
    unary main_v40 main_v50 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v50 main_v51 rfl shapeCasts_S1x128x128_S128x128,
    binary main_v38 main_v51 main_v52 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v49 main_v53 (broadcastInDim S32768x128 ![0, 1] bcast_S32768x1_S32768x128_0_1 : (⟨S32768x1, .f32⟩ : BufTy).Contents (Elt F) → (⟨S32768x128, .f32⟩ : BufTy).Contents (Elt F)),
    binary main_v53 main_v52 main_v54 (mulf : (⟨S32768x128, .f32⟩ : BufTy).Contents (Elt F) → (⟨S32768x128, .f32⟩ : BufTy).Contents (Elt F) → (⟨S32768x128, .f32⟩ : BufTy).Contents (Elt F)) ]

/-- Window 1 of @main: operations 66 … 125 of 320. -/
abbrev win1 : List (HloOp τ sig (Elt F)) :=
  [ binary main_v48 main_v54 main_v55 (addf : (⟨S32768x128, .f32⟩ : BufTy).Contents (Elt F) → (⟨S32768x128, .f32⟩ : BufTy).Contents (Elt F) → (⟨S32768x128, .f32⟩ : BufTy).Contents (Elt F)),
    unary main_v0 main_v56 ((extractStridedSlice S32768x1 ![0, 2] · slices_S32768x4_S32768x1_0_2) : (⟨S32768x4, .f32⟩ : BufTy).Contents (Elt F) → (⟨S32768x1, .f32⟩ : BufTy).Contents (Elt F)),
    unary main_v40 main_v57 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v57 main_v58 rfl shapeCasts_S1x128x128_S128x128,
    binary main_v38 main_v58 main_v59 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v56 main_v60 (broadcastInDim S32768x128 ![0, 1] bcast_S32768x1_S32768x128_0_1 : (⟨S32768x1, .f32⟩ : BufTy).Contents (Elt F) → (⟨S32768x128, .f32⟩ : BufTy).Contents (Elt F)),
    binary main_v60 main_v59 main_v61 (mulf : (⟨S32768x128, .f32⟩ : BufTy).Contents (Elt F) → (⟨S32768x128, .f32⟩ : BufTy).Contents (Elt F) → (⟨S32768x128, .f32⟩ : BufTy).Contents (Elt F)),
    binary main_v55 main_v61 main_v62 (addf : (⟨S32768x128, .f32⟩ : BufTy).Contents (Elt F) → (⟨S32768x128, .f32⟩ : BufTy).Contents (Elt F) → (⟨S32768x128, .f32⟩ : BufTy).Contents (Elt F)),
    unary main_v0 main_v63 ((extractStridedSlice S32768x1 ![0, 3] · slices_S32768x4_S32768x1_0_3) : (⟨S32768x4, .f32⟩ : BufTy).Contents (Elt F) → (⟨S32768x1, .f32⟩ : BufTy).Contents (Elt F)),
    unary main_v40 main_v64 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v64 main_v65 rfl shapeCasts_S1x128x128_S128x128,
    binary main_v38 main_v65 main_v66 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v63 main_v67 (broadcastInDim S32768x128 ![0, 1] bcast_S32768x1_S32768x128_0_1 : (⟨S32768x1, .f32⟩ : BufTy).Contents (Elt F) → (⟨S32768x128, .f32⟩ : BufTy).Contents (Elt F)),
    binary main_v67 main_v66 main_v68 (mulf : (⟨S32768x128, .f32⟩ : BufTy).Contents (Elt F) → (⟨S32768x128, .f32⟩ : BufTy).Contents (Elt F) → (⟨S32768x128, .f32⟩ : BufTy).Contents (Elt F)),
    binary main_v62 main_v68 main_v69 (addf : (⟨S32768x128, .f32⟩ : BufTy).Contents (Elt F) → (⟨S32768x128, .f32⟩ : BufTy).Contents (Elt F) → (⟨S32768x128, .f32⟩ : BufTy).Contents (Elt F)),
    nullary main_cst_3 (constant S_ .f32 0x3F800000#32),
    unary main_cst_3 main_v70 (broadcastInDim S32768x128 ![] bcast_S_S32768x128 : (⟨S_, .f32⟩ : BufTy).Contents (Elt F) → (⟨S32768x128, .f32⟩ : BufTy).Contents (Elt F)),
    binary main_v70 main_v69 main_v71 (mulf : (⟨S32768x128, .f32⟩ : BufTy).Contents (Elt F) → (⟨S32768x128, .f32⟩ : BufTy).Contents (Elt F) → (⟨S32768x128, .f32⟩ : BufTy).Contents (Elt F)),
    nullary main_c_4 (constantI S_ 32 128#32),
    unary main_c_4 main_v72 (broadcastInDim S1 ![] bcast_S_S1 : (⟨S_, .i32⟩ : BufTy).Contents (Elt F) → (⟨S1, .i32⟩ : BufTy).Contents (Elt F)),
    ternary main_v37 main_v72 main_v71 main_v73 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)),
    unary main_arg0 main_v74 ((extractStridedSlice S32768x128 ![0, 256] · slices_S32768x512_S32768x128_0_256) : (⟨S32768x512, .f32⟩ : BufTy).Contents (Elt F) → (⟨S32768x128, .f32⟩ : BufTy).Contents (Elt F)),
    unary main_arg1 main_v75 ((extractStridedSlice S4x16384 ![0, 32768] · slices_S4x131072_S4x16384_0_32768) : (⟨S4x131072, .f32⟩ : BufTy).Contents (Elt F) → (⟨S4x16384, .f32⟩ : BufTy).Contents (Elt F)),
    reshape main_v75 main_v76 rfl shapeCasts_S4x16384_S4x128x128,
    nullary main_cst_5 (constant S_ .f32 0x00000000#32),
    unary main_cst_5 main_v77 (broadcastInDim S32768x128 ![] bcast_S_S32768x128 : (⟨S_, .f32⟩ : BufTy).Contents (Elt F) → (⟨S32768x128, .f32⟩ : BufTy).Contents (Elt F)),
    unary main_v0 main_v78 ((extractStridedSlice S32768x1 ![0, 0] · slices_S32768x4_S32768x1_0_0) : (⟨S32768x4, .f32⟩ : BufTy).Contents (Elt F) → (⟨S32768x1, .f32⟩ : BufTy).Contents (Elt F)),
    unary main_v76 main_v79 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v79 main_v80 rfl shapeCasts_S1x128x128_S128x128,
    binary main_v74 main_v80 main_v81 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v78 main_v82 (broadcastInDim S32768x128 ![0, 1] bcast_S32768x1_S32768x128_0_1 : (⟨S32768x1, .f32⟩ : BufTy).Contents (Elt F) → (⟨S32768x128, .f32⟩ : BufTy).Contents (Elt F)),
    binary main_v82 main_v81 main_v83 (mulf : (⟨S32768x128, .f32⟩ : BufTy).Contents (Elt F) → (⟨S32768x128, .f32⟩ : BufTy).Contents (Elt F) → (⟨S32768x128, .f32⟩ : BufTy).Contents (Elt F)),
    binary main_v77 main_v83 main_v84 (addf : (⟨S32768x128, .f32⟩ : BufTy).Contents (Elt F) → (⟨S32768x128, .f32⟩ : BufTy).Contents (Elt F) → (⟨S32768x128, .f32⟩ : BufTy).Contents (Elt F)),
    unary main_v0 main_v85 ((extractStridedSlice S32768x1 ![0, 1] · slices_S32768x4_S32768x1_0_1) : (⟨S32768x4, .f32⟩ : BufTy).Contents (Elt F) → (⟨S32768x1, .f32⟩ : BufTy).Contents (Elt F)),
    unary main_v76 main_v86 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v86 main_v87 rfl shapeCasts_S1x128x128_S128x128,
    binary main_v74 main_v87 main_v88 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v85 main_v89 (broadcastInDim S32768x128 ![0, 1] bcast_S32768x1_S32768x128_0_1 : (⟨S32768x1, .f32⟩ : BufTy).Contents (Elt F) → (⟨S32768x128, .f32⟩ : BufTy).Contents (Elt F)),
    binary main_v89 main_v88 main_v90 (mulf : (⟨S32768x128, .f32⟩ : BufTy).Contents (Elt F) → (⟨S32768x128, .f32⟩ : BufTy).Contents (Elt F) → (⟨S32768x128, .f32⟩ : BufTy).Contents (Elt F)),
    binary main_v84 main_v90 main_v91 (addf : (⟨S32768x128, .f32⟩ : BufTy).Contents (Elt F) → (⟨S32768x128, .f32⟩ : BufTy).Contents (Elt F) → (⟨S32768x128, .f32⟩ : BufTy).Contents (Elt F)),
    unary main_v0 main_v92 ((extractStridedSlice S32768x1 ![0, 2] · slices_S32768x4_S32768x1_0_2) : (⟨S32768x4, .f32⟩ : BufTy).Contents (Elt F) → (⟨S32768x1, .f32⟩ : BufTy).Contents (Elt F)),
    unary main_v76 main_v93 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v93 main_v94 rfl shapeCasts_S1x128x128_S128x128,
    binary main_v74 main_v94 main_v95 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v92 main_v96 (broadcastInDim S32768x128 ![0, 1] bcast_S32768x1_S32768x128_0_1 : (⟨S32768x1, .f32⟩ : BufTy).Contents (Elt F) → (⟨S32768x128, .f32⟩ : BufTy).Contents (Elt F)),
    binary main_v96 main_v95 main_v97 (mulf : (⟨S32768x128, .f32⟩ : BufTy).Contents (Elt F) → (⟨S32768x128, .f32⟩ : BufTy).Contents (Elt F) → (⟨S32768x128, .f32⟩ : BufTy).Contents (Elt F)),
    binary main_v91 main_v97 main_v98 (addf : (⟨S32768x128, .f32⟩ : BufTy).Contents (Elt F) → (⟨S32768x128, .f32⟩ : BufTy).Contents (Elt F) → (⟨S32768x128, .f32⟩ : BufTy).Contents (Elt F)),
    unary main_v0 main_v99 ((extractStridedSlice S32768x1 ![0, 3] · slices_S32768x4_S32768x1_0_3) : (⟨S32768x4, .f32⟩ : BufTy).Contents (Elt F) → (⟨S32768x1, .f32⟩ : BufTy).Contents (Elt F)),
    unary main_v76 main_v100 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v100 main_v101 rfl shapeCasts_S1x128x128_S128x128,
    binary main_v74 main_v101 main_v102 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v99 main_v103 (broadcastInDim S32768x128 ![0, 1] bcast_S32768x1_S32768x128_0_1 : (⟨S32768x1, .f32⟩ : BufTy).Contents (Elt F) → (⟨S32768x128, .f32⟩ : BufTy).Contents (Elt F)),
    binary main_v103 main_v102 main_v104 (mulf : (⟨S32768x128, .f32⟩ : BufTy).Contents (Elt F) → (⟨S32768x128, .f32⟩ : BufTy).Contents (Elt F) → (⟨S32768x128, .f32⟩ : BufTy).Contents (Elt F)),
    binary main_v98 main_v104 main_v105 (addf : (⟨S32768x128, .f32⟩ : BufTy).Contents (Elt F) → (⟨S32768x128, .f32⟩ : BufTy).Contents (Elt F) → (⟨S32768x128, .f32⟩ : BufTy).Contents (Elt F)),
    nullary main_cst_6 (constant S_ .f32 0x3F800000#32),
    unary main_cst_6 main_v106 (broadcastInDim S32768x128 ![] bcast_S_S32768x128 : (⟨S_, .f32⟩ : BufTy).Contents (Elt F) → (⟨S32768x128, .f32⟩ : BufTy).Contents (Elt F)),
    binary main_v106 main_v105 main_v107 (mulf : (⟨S32768x128, .f32⟩ : BufTy).Contents (Elt F) → (⟨S32768x128, .f32⟩ : BufTy).Contents (Elt F) → (⟨S32768x128, .f32⟩ : BufTy).Contents (Elt F)),
    nullary main_c_7 (constantI S_ 32 256#32),
    unary main_c_7 main_v108 (broadcastInDim S1 ![] bcast_S_S1 : (⟨S_, .i32⟩ : BufTy).Contents (Elt F) → (⟨S1, .i32⟩ : BufTy).Contents (Elt F)),
    ternary main_v73 main_v108 main_v107 main_v109 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)) ]

/-- Window 2 of @main: operations 126 … 185 of 320. -/
abbrev win2 : List (HloOp τ sig (Elt F)) :=
  [ unary main_arg0 main_v110 ((extractStridedSlice S32768x128 ![0, 384] · slices_S32768x512_S32768x128_0_384) : (⟨S32768x512, .f32⟩ : BufTy).Contents (Elt F) → (⟨S32768x128, .f32⟩ : BufTy).Contents (Elt F)),
    unary main_arg1 main_v111 ((extractStridedSlice S4x16384 ![0, 49152] · slices_S4x131072_S4x16384_0_49152) : (⟨S4x131072, .f32⟩ : BufTy).Contents (Elt F) → (⟨S4x16384, .f32⟩ : BufTy).Contents (Elt F)),
    reshape main_v111 main_v112 rfl shapeCasts_S4x16384_S4x128x128,
    nullary main_cst_8 (constant S_ .f32 0x00000000#32),
    unary main_cst_8 main_v113 (broadcastInDim S32768x128 ![] bcast_S_S32768x128 : (⟨S_, .f32⟩ : BufTy).Contents (Elt F) → (⟨S32768x128, .f32⟩ : BufTy).Contents (Elt F)),
    unary main_v0 main_v114 ((extractStridedSlice S32768x1 ![0, 0] · slices_S32768x4_S32768x1_0_0) : (⟨S32768x4, .f32⟩ : BufTy).Contents (Elt F) → (⟨S32768x1, .f32⟩ : BufTy).Contents (Elt F)),
    unary main_v112 main_v115 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v115 main_v116 rfl shapeCasts_S1x128x128_S128x128,
    binary main_v110 main_v116 main_v117 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v114 main_v118 (broadcastInDim S32768x128 ![0, 1] bcast_S32768x1_S32768x128_0_1 : (⟨S32768x1, .f32⟩ : BufTy).Contents (Elt F) → (⟨S32768x128, .f32⟩ : BufTy).Contents (Elt F)),
    binary main_v118 main_v117 main_v119 (mulf : (⟨S32768x128, .f32⟩ : BufTy).Contents (Elt F) → (⟨S32768x128, .f32⟩ : BufTy).Contents (Elt F) → (⟨S32768x128, .f32⟩ : BufTy).Contents (Elt F)),
    binary main_v113 main_v119 main_v120 (addf : (⟨S32768x128, .f32⟩ : BufTy).Contents (Elt F) → (⟨S32768x128, .f32⟩ : BufTy).Contents (Elt F) → (⟨S32768x128, .f32⟩ : BufTy).Contents (Elt F)),
    unary main_v0 main_v121 ((extractStridedSlice S32768x1 ![0, 1] · slices_S32768x4_S32768x1_0_1) : (⟨S32768x4, .f32⟩ : BufTy).Contents (Elt F) → (⟨S32768x1, .f32⟩ : BufTy).Contents (Elt F)),
    unary main_v112 main_v122 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v122 main_v123 rfl shapeCasts_S1x128x128_S128x128,
    binary main_v110 main_v123 main_v124 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v121 main_v125 (broadcastInDim S32768x128 ![0, 1] bcast_S32768x1_S32768x128_0_1 : (⟨S32768x1, .f32⟩ : BufTy).Contents (Elt F) → (⟨S32768x128, .f32⟩ : BufTy).Contents (Elt F)),
    binary main_v125 main_v124 main_v126 (mulf : (⟨S32768x128, .f32⟩ : BufTy).Contents (Elt F) → (⟨S32768x128, .f32⟩ : BufTy).Contents (Elt F) → (⟨S32768x128, .f32⟩ : BufTy).Contents (Elt F)),
    binary main_v120 main_v126 main_v127 (addf : (⟨S32768x128, .f32⟩ : BufTy).Contents (Elt F) → (⟨S32768x128, .f32⟩ : BufTy).Contents (Elt F) → (⟨S32768x128, .f32⟩ : BufTy).Contents (Elt F)),
    unary main_v0 main_v128 ((extractStridedSlice S32768x1 ![0, 2] · slices_S32768x4_S32768x1_0_2) : (⟨S32768x4, .f32⟩ : BufTy).Contents (Elt F) → (⟨S32768x1, .f32⟩ : BufTy).Contents (Elt F)),
    unary main_v112 main_v129 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v129 main_v130 rfl shapeCasts_S1x128x128_S128x128,
    binary main_v110 main_v130 main_v131 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v128 main_v132 (broadcastInDim S32768x128 ![0, 1] bcast_S32768x1_S32768x128_0_1 : (⟨S32768x1, .f32⟩ : BufTy).Contents (Elt F) → (⟨S32768x128, .f32⟩ : BufTy).Contents (Elt F)),
    binary main_v132 main_v131 main_v133 (mulf : (⟨S32768x128, .f32⟩ : BufTy).Contents (Elt F) → (⟨S32768x128, .f32⟩ : BufTy).Contents (Elt F) → (⟨S32768x128, .f32⟩ : BufTy).Contents (Elt F)),
    binary main_v127 main_v133 main_v134 (addf : (⟨S32768x128, .f32⟩ : BufTy).Contents (Elt F) → (⟨S32768x128, .f32⟩ : BufTy).Contents (Elt F) → (⟨S32768x128, .f32⟩ : BufTy).Contents (Elt F)),
    unary main_v0 main_v135 ((extractStridedSlice S32768x1 ![0, 3] · slices_S32768x4_S32768x1_0_3) : (⟨S32768x4, .f32⟩ : BufTy).Contents (Elt F) → (⟨S32768x1, .f32⟩ : BufTy).Contents (Elt F)),
    unary main_v112 main_v136 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v136 main_v137 rfl shapeCasts_S1x128x128_S128x128,
    binary main_v110 main_v137 main_v138 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v135 main_v139 (broadcastInDim S32768x128 ![0, 1] bcast_S32768x1_S32768x128_0_1 : (⟨S32768x1, .f32⟩ : BufTy).Contents (Elt F) → (⟨S32768x128, .f32⟩ : BufTy).Contents (Elt F)),
    binary main_v139 main_v138 main_v140 (mulf : (⟨S32768x128, .f32⟩ : BufTy).Contents (Elt F) → (⟨S32768x128, .f32⟩ : BufTy).Contents (Elt F) → (⟨S32768x128, .f32⟩ : BufTy).Contents (Elt F)),
    binary main_v134 main_v140 main_v141 (addf : (⟨S32768x128, .f32⟩ : BufTy).Contents (Elt F) → (⟨S32768x128, .f32⟩ : BufTy).Contents (Elt F) → (⟨S32768x128, .f32⟩ : BufTy).Contents (Elt F)),
    nullary main_cst_9 (constant S_ .f32 0x3F800000#32),
    unary main_cst_9 main_v142 (broadcastInDim S32768x128 ![] bcast_S_S32768x128 : (⟨S_, .f32⟩ : BufTy).Contents (Elt F) → (⟨S32768x128, .f32⟩ : BufTy).Contents (Elt F)),
    binary main_v142 main_v141 main_v143 (mulf : (⟨S32768x128, .f32⟩ : BufTy).Contents (Elt F) → (⟨S32768x128, .f32⟩ : BufTy).Contents (Elt F) → (⟨S32768x128, .f32⟩ : BufTy).Contents (Elt F)),
    nullary main_c_10 (constantI S_ 32 384#32),
    unary main_c_10 main_v144 (broadcastInDim S1 ![] bcast_S_S1 : (⟨S_, .i32⟩ : BufTy).Contents (Elt F) → (⟨S1, .i32⟩ : BufTy).Contents (Elt F)),
    ternary main_v109 main_v144 main_v143 main_v145 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)),
    unary main_arg0 main_v146 ((extractStridedSlice S32768x128 ![0, 0] · slices_S32768x512_S32768x128_0_0) : (⟨S32768x512, .f32⟩ : BufTy).Contents (Elt F) → (⟨S32768x128, .f32⟩ : BufTy).Contents (Elt F)),
    unary main_arg1 main_v147 ((extractStridedSlice S4x16384 ![0, 65536] · slices_S4x131072_S4x16384_0_65536) : (⟨S4x131072, .f32⟩ : BufTy).Contents (Elt F) → (⟨S4x16384, .f32⟩ : BufTy).Contents (Elt F)),
    reshape main_v147 main_v148 rfl shapeCasts_S4x16384_S4x128x128,
    nullary main_cst_11 (constant S_ .f32 0x00000000#32),
    unary main_cst_11 main_v149 (broadcastInDim S32768x128 ![] bcast_S_S32768x128 : (⟨S_, .f32⟩ : BufTy).Contents (Elt F) → (⟨S32768x128, .f32⟩ : BufTy).Contents (Elt F)),
    unary main_v0 main_v150 ((extractStridedSlice S32768x1 ![0, 0] · slices_S32768x4_S32768x1_0_0) : (⟨S32768x4, .f32⟩ : BufTy).Contents (Elt F) → (⟨S32768x1, .f32⟩ : BufTy).Contents (Elt F)),
    unary main_v148 main_v151 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v151 main_v152 rfl shapeCasts_S1x128x128_S128x128,
    binary main_v146 main_v152 main_v153 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v150 main_v154 (broadcastInDim S32768x128 ![0, 1] bcast_S32768x1_S32768x128_0_1 : (⟨S32768x1, .f32⟩ : BufTy).Contents (Elt F) → (⟨S32768x128, .f32⟩ : BufTy).Contents (Elt F)),
    binary main_v154 main_v153 main_v155 (mulf : (⟨S32768x128, .f32⟩ : BufTy).Contents (Elt F) → (⟨S32768x128, .f32⟩ : BufTy).Contents (Elt F) → (⟨S32768x128, .f32⟩ : BufTy).Contents (Elt F)),
    binary main_v149 main_v155 main_v156 (addf : (⟨S32768x128, .f32⟩ : BufTy).Contents (Elt F) → (⟨S32768x128, .f32⟩ : BufTy).Contents (Elt F) → (⟨S32768x128, .f32⟩ : BufTy).Contents (Elt F)),
    unary main_v0 main_v157 ((extractStridedSlice S32768x1 ![0, 1] · slices_S32768x4_S32768x1_0_1) : (⟨S32768x4, .f32⟩ : BufTy).Contents (Elt F) → (⟨S32768x1, .f32⟩ : BufTy).Contents (Elt F)),
    unary main_v148 main_v158 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v158 main_v159 rfl shapeCasts_S1x128x128_S128x128,
    binary main_v146 main_v159 main_v160 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v157 main_v161 (broadcastInDim S32768x128 ![0, 1] bcast_S32768x1_S32768x128_0_1 : (⟨S32768x1, .f32⟩ : BufTy).Contents (Elt F) → (⟨S32768x128, .f32⟩ : BufTy).Contents (Elt F)),
    binary main_v161 main_v160 main_v162 (mulf : (⟨S32768x128, .f32⟩ : BufTy).Contents (Elt F) → (⟨S32768x128, .f32⟩ : BufTy).Contents (Elt F) → (⟨S32768x128, .f32⟩ : BufTy).Contents (Elt F)),
    binary main_v156 main_v162 main_v163 (addf : (⟨S32768x128, .f32⟩ : BufTy).Contents (Elt F) → (⟨S32768x128, .f32⟩ : BufTy).Contents (Elt F) → (⟨S32768x128, .f32⟩ : BufTy).Contents (Elt F)),
    unary main_v0 main_v164 ((extractStridedSlice S32768x1 ![0, 2] · slices_S32768x4_S32768x1_0_2) : (⟨S32768x4, .f32⟩ : BufTy).Contents (Elt F) → (⟨S32768x1, .f32⟩ : BufTy).Contents (Elt F)),
    unary main_v148 main_v165 ((extractStridedSlice S1x128x128 ![2, 0, 0] · slices_S4x128x128_S1x128x128_2_0_0) : (⟨S4x128x128, .f32⟩ : BufTy).Contents (Elt F) → (⟨S1x128x128, .f32⟩ : BufTy).Contents (Elt F)) ]

/-- Window 3 of @main: operations 186 … 245 of 320. -/
abbrev win3 : List (HloOp τ sig (Elt F)) :=
  [ reshape main_v165 main_v166 rfl shapeCasts_S1x128x128_S128x128,
    binary main_v146 main_v166 main_v167 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v164 main_v168 (broadcastInDim S32768x128 ![0, 1] bcast_S32768x1_S32768x128_0_1 : (⟨S32768x1, .f32⟩ : BufTy).Contents (Elt F) → (⟨S32768x128, .f32⟩ : BufTy).Contents (Elt F)),
    binary main_v168 main_v167 main_v169 (mulf : (⟨S32768x128, .f32⟩ : BufTy).Contents (Elt F) → (⟨S32768x128, .f32⟩ : BufTy).Contents (Elt F) → (⟨S32768x128, .f32⟩ : BufTy).Contents (Elt F)),
    binary main_v163 main_v169 main_v170 (addf : (⟨S32768x128, .f32⟩ : BufTy).Contents (Elt F) → (⟨S32768x128, .f32⟩ : BufTy).Contents (Elt F) → (⟨S32768x128, .f32⟩ : BufTy).Contents (Elt F)),
    unary main_v0 main_v171 ((extractStridedSlice S32768x1 ![0, 3] · slices_S32768x4_S32768x1_0_3) : (⟨S32768x4, .f32⟩ : BufTy).Contents (Elt F) → (⟨S32768x1, .f32⟩ : BufTy).Contents (Elt F)),
    unary main_v148 main_v172 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v172 main_v173 rfl shapeCasts_S1x128x128_S128x128,
    binary main_v146 main_v173 main_v174 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v171 main_v175 (broadcastInDim S32768x128 ![0, 1] bcast_S32768x1_S32768x128_0_1 : (⟨S32768x1, .f32⟩ : BufTy).Contents (Elt F) → (⟨S32768x128, .f32⟩ : BufTy).Contents (Elt F)),
    binary main_v175 main_v174 main_v176 (mulf : (⟨S32768x128, .f32⟩ : BufTy).Contents (Elt F) → (⟨S32768x128, .f32⟩ : BufTy).Contents (Elt F) → (⟨S32768x128, .f32⟩ : BufTy).Contents (Elt F)),
    binary main_v170 main_v176 main_v177 (addf : (⟨S32768x128, .f32⟩ : BufTy).Contents (Elt F) → (⟨S32768x128, .f32⟩ : BufTy).Contents (Elt F) → (⟨S32768x128, .f32⟩ : BufTy).Contents (Elt F)),
    nullary main_cst_12 (constant S_ .f32 0x3F000000#32),
    unary main_cst_12 main_v178 (broadcastInDim S32768x128 ![] bcast_S_S32768x128 : (⟨S_, .f32⟩ : BufTy).Contents (Elt F) → (⟨S32768x128, .f32⟩ : BufTy).Contents (Elt F)),
    binary main_v178 main_v177 main_v179 (mulf : (⟨S32768x128, .f32⟩ : BufTy).Contents (Elt F) → (⟨S32768x128, .f32⟩ : BufTy).Contents (Elt F) → (⟨S32768x128, .f32⟩ : BufTy).Contents (Elt F)),
    nullary main_c_13 (constantI S_ 32 128#32),
    unary main_c_13 main_v180 (broadcastInDim S1 ![] bcast_S_S1 : (⟨S_, .i32⟩ : BufTy).Contents (Elt F) → (⟨S1, .i32⟩ : BufTy).Contents (Elt F)),
    ternary main_v145 main_v180 main_v179 main_v181 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)),
    unary main_arg0 main_v182 ((extractStridedSlice S32768x128 ![0, 128] · slices_S32768x512_S32768x128_0_128) : (⟨S32768x512, .f32⟩ : BufTy).Contents (Elt F) → (⟨S32768x128, .f32⟩ : BufTy).Contents (Elt F)),
    unary main_arg1 main_v183 ((extractStridedSlice S4x16384 ![0, 81920] · slices_S4x131072_S4x16384_0_81920) : (⟨S4x131072, .f32⟩ : BufTy).Contents (Elt F) → (⟨S4x16384, .f32⟩ : BufTy).Contents (Elt F)),
    reshape main_v183 main_v184 rfl shapeCasts_S4x16384_S4x128x128,
    nullary main_cst_14 (constant S_ .f32 0x00000000#32),
    unary main_cst_14 main_v185 (broadcastInDim S32768x128 ![] bcast_S_S32768x128 : (⟨S_, .f32⟩ : BufTy).Contents (Elt F) → (⟨S32768x128, .f32⟩ : BufTy).Contents (Elt F)),
    unary main_v0 main_v186 ((extractStridedSlice S32768x1 ![0, 0] · slices_S32768x4_S32768x1_0_0) : (⟨S32768x4, .f32⟩ : BufTy).Contents (Elt F) → (⟨S32768x1, .f32⟩ : BufTy).Contents (Elt F)),
    unary main_v184 main_v187 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v187 main_v188 rfl shapeCasts_S1x128x128_S128x128,
    binary main_v182 main_v188 main_v189 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v186 main_v190 (broadcastInDim S32768x128 ![0, 1] bcast_S32768x1_S32768x128_0_1 : (⟨S32768x1, .f32⟩ : BufTy).Contents (Elt F) → (⟨S32768x128, .f32⟩ : BufTy).Contents (Elt F)),
    binary main_v190 main_v189 main_v191 (mulf : (⟨S32768x128, .f32⟩ : BufTy).Contents (Elt F) → (⟨S32768x128, .f32⟩ : BufTy).Contents (Elt F) → (⟨S32768x128, .f32⟩ : BufTy).Contents (Elt F)),
    binary main_v185 main_v191 main_v192 (addf : (⟨S32768x128, .f32⟩ : BufTy).Contents (Elt F) → (⟨S32768x128, .f32⟩ : BufTy).Contents (Elt F) → (⟨S32768x128, .f32⟩ : BufTy).Contents (Elt F)),
    unary main_v0 main_v193 ((extractStridedSlice S32768x1 ![0, 1] · slices_S32768x4_S32768x1_0_1) : (⟨S32768x4, .f32⟩ : BufTy).Contents (Elt F) → (⟨S32768x1, .f32⟩ : BufTy).Contents (Elt F)),
    unary main_v184 main_v194 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v194 main_v195 rfl shapeCasts_S1x128x128_S128x128,
    binary main_v182 main_v195 main_v196 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v193 main_v197 (broadcastInDim S32768x128 ![0, 1] bcast_S32768x1_S32768x128_0_1 : (⟨S32768x1, .f32⟩ : BufTy).Contents (Elt F) → (⟨S32768x128, .f32⟩ : BufTy).Contents (Elt F)),
    binary main_v197 main_v196 main_v198 (mulf : (⟨S32768x128, .f32⟩ : BufTy).Contents (Elt F) → (⟨S32768x128, .f32⟩ : BufTy).Contents (Elt F) → (⟨S32768x128, .f32⟩ : BufTy).Contents (Elt F)),
    binary main_v192 main_v198 main_v199 (addf : (⟨S32768x128, .f32⟩ : BufTy).Contents (Elt F) → (⟨S32768x128, .f32⟩ : BufTy).Contents (Elt F) → (⟨S32768x128, .f32⟩ : BufTy).Contents (Elt F)),
    unary main_v0 main_v200 ((extractStridedSlice S32768x1 ![0, 2] · slices_S32768x4_S32768x1_0_2) : (⟨S32768x4, .f32⟩ : BufTy).Contents (Elt F) → (⟨S32768x1, .f32⟩ : BufTy).Contents (Elt F)),
    unary main_v184 main_v201 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v201 main_v202 rfl shapeCasts_S1x128x128_S128x128,
    binary main_v182 main_v202 main_v203 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v200 main_v204 (broadcastInDim S32768x128 ![0, 1] bcast_S32768x1_S32768x128_0_1 : (⟨S32768x1, .f32⟩ : BufTy).Contents (Elt F) → (⟨S32768x128, .f32⟩ : BufTy).Contents (Elt F)),
    binary main_v204 main_v203 main_v205 (mulf : (⟨S32768x128, .f32⟩ : BufTy).Contents (Elt F) → (⟨S32768x128, .f32⟩ : BufTy).Contents (Elt F) → (⟨S32768x128, .f32⟩ : BufTy).Contents (Elt F)),
    binary main_v199 main_v205 main_v206 (addf : (⟨S32768x128, .f32⟩ : BufTy).Contents (Elt F) → (⟨S32768x128, .f32⟩ : BufTy).Contents (Elt F) → (⟨S32768x128, .f32⟩ : BufTy).Contents (Elt F)),
    unary main_v0 main_v207 ((extractStridedSlice S32768x1 ![0, 3] · slices_S32768x4_S32768x1_0_3) : (⟨S32768x4, .f32⟩ : BufTy).Contents (Elt F) → (⟨S32768x1, .f32⟩ : BufTy).Contents (Elt F)),
    unary main_v184 main_v208 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v208 main_v209 rfl shapeCasts_S1x128x128_S128x128,
    binary main_v182 main_v209 main_v210 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v207 main_v211 (broadcastInDim S32768x128 ![0, 1] bcast_S32768x1_S32768x128_0_1 : (⟨S32768x1, .f32⟩ : BufTy).Contents (Elt F) → (⟨S32768x128, .f32⟩ : BufTy).Contents (Elt F)),
    binary main_v211 main_v210 main_v212 (mulf : (⟨S32768x128, .f32⟩ : BufTy).Contents (Elt F) → (⟨S32768x128, .f32⟩ : BufTy).Contents (Elt F) → (⟨S32768x128, .f32⟩ : BufTy).Contents (Elt F)),
    binary main_v206 main_v212 main_v213 (addf : (⟨S32768x128, .f32⟩ : BufTy).Contents (Elt F) → (⟨S32768x128, .f32⟩ : BufTy).Contents (Elt F) → (⟨S32768x128, .f32⟩ : BufTy).Contents (Elt F)),
    nullary main_cst_15 (constant S_ .f32 0x3F000000#32),
    unary main_cst_15 main_v214 (broadcastInDim S32768x128 ![] bcast_S_S32768x128 : (⟨S_, .f32⟩ : BufTy).Contents (Elt F) → (⟨S32768x128, .f32⟩ : BufTy).Contents (Elt F)),
    binary main_v214 main_v213 main_v215 (mulf : (⟨S32768x128, .f32⟩ : BufTy).Contents (Elt F) → (⟨S32768x128, .f32⟩ : BufTy).Contents (Elt F) → (⟨S32768x128, .f32⟩ : BufTy).Contents (Elt F)),
    nullary main_c_16 (constantI S_ 32 256#32),
    unary main_c_16 main_v216 (broadcastInDim S1 ![] bcast_S_S1 : (⟨S_, .i32⟩ : BufTy).Contents (Elt F) → (⟨S1, .i32⟩ : BufTy).Contents (Elt F)),
    ternary main_v181 main_v216 main_v215 main_v217 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)),
    unary main_arg0 main_v218 ((extractStridedSlice S32768x128 ![0, 256] · slices_S32768x512_S32768x128_0_256) : (⟨S32768x512, .f32⟩ : BufTy).Contents (Elt F) → (⟨S32768x128, .f32⟩ : BufTy).Contents (Elt F)),
    unary main_arg1 main_v219 ((extractStridedSlice S4x16384 ![0, 98304] · slices_S4x131072_S4x16384_0_98304) : (⟨S4x131072, .f32⟩ : BufTy).Contents (Elt F) → (⟨S4x16384, .f32⟩ : BufTy).Contents (Elt F)),
    reshape main_v219 main_v220 rfl shapeCasts_S4x16384_S4x128x128 ]

/-- Window 4 of @main: operations 246 … 305 of 320. -/
abbrev win4 : List (HloOp τ sig (Elt F)) :=
  [ nullary main_cst_17 (constant S_ .f32 0x00000000#32),
    unary main_cst_17 main_v221 (broadcastInDim S32768x128 ![] bcast_S_S32768x128 : (⟨S_, .f32⟩ : BufTy).Contents (Elt F) → (⟨S32768x128, .f32⟩ : BufTy).Contents (Elt F)),
    unary main_v0 main_v222 ((extractStridedSlice S32768x1 ![0, 0] · slices_S32768x4_S32768x1_0_0) : (⟨S32768x4, .f32⟩ : BufTy).Contents (Elt F) → (⟨S32768x1, .f32⟩ : BufTy).Contents (Elt F)),
    unary main_v220 main_v223 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v223 main_v224 rfl shapeCasts_S1x128x128_S128x128,
    binary main_v218 main_v224 main_v225 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v222 main_v226 (broadcastInDim S32768x128 ![0, 1] bcast_S32768x1_S32768x128_0_1 : (⟨S32768x1, .f32⟩ : BufTy).Contents (Elt F) → (⟨S32768x128, .f32⟩ : BufTy).Contents (Elt F)),
    binary main_v226 main_v225 main_v227 (mulf : (⟨S32768x128, .f32⟩ : BufTy).Contents (Elt F) → (⟨S32768x128, .f32⟩ : BufTy).Contents (Elt F) → (⟨S32768x128, .f32⟩ : BufTy).Contents (Elt F)),
    binary main_v221 main_v227 main_v228 (addf : (⟨S32768x128, .f32⟩ : BufTy).Contents (Elt F) → (⟨S32768x128, .f32⟩ : BufTy).Contents (Elt F) → (⟨S32768x128, .f32⟩ : BufTy).Contents (Elt F)),
    unary main_v0 main_v229 ((extractStridedSlice S32768x1 ![0, 1] · slices_S32768x4_S32768x1_0_1) : (⟨S32768x4, .f32⟩ : BufTy).Contents (Elt F) → (⟨S32768x1, .f32⟩ : BufTy).Contents (Elt F)),
    unary main_v220 main_v230 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v230 main_v231 rfl shapeCasts_S1x128x128_S128x128,
    binary main_v218 main_v231 main_v232 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v229 main_v233 (broadcastInDim S32768x128 ![0, 1] bcast_S32768x1_S32768x128_0_1 : (⟨S32768x1, .f32⟩ : BufTy).Contents (Elt F) → (⟨S32768x128, .f32⟩ : BufTy).Contents (Elt F)),
    binary main_v233 main_v232 main_v234 (mulf : (⟨S32768x128, .f32⟩ : BufTy).Contents (Elt F) → (⟨S32768x128, .f32⟩ : BufTy).Contents (Elt F) → (⟨S32768x128, .f32⟩ : BufTy).Contents (Elt F)),
    binary main_v228 main_v234 main_v235 (addf : (⟨S32768x128, .f32⟩ : BufTy).Contents (Elt F) → (⟨S32768x128, .f32⟩ : BufTy).Contents (Elt F) → (⟨S32768x128, .f32⟩ : BufTy).Contents (Elt F)),
    unary main_v0 main_v236 ((extractStridedSlice S32768x1 ![0, 2] · slices_S32768x4_S32768x1_0_2) : (⟨S32768x4, .f32⟩ : BufTy).Contents (Elt F) → (⟨S32768x1, .f32⟩ : BufTy).Contents (Elt F)),
    unary main_v220 main_v237 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v237 main_v238 rfl shapeCasts_S1x128x128_S128x128,
    binary main_v218 main_v238 main_v239 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v236 main_v240 (broadcastInDim S32768x128 ![0, 1] bcast_S32768x1_S32768x128_0_1 : (⟨S32768x1, .f32⟩ : BufTy).Contents (Elt F) → (⟨S32768x128, .f32⟩ : BufTy).Contents (Elt F)),
    binary main_v240 main_v239 main_v241 (mulf : (⟨S32768x128, .f32⟩ : BufTy).Contents (Elt F) → (⟨S32768x128, .f32⟩ : BufTy).Contents (Elt F) → (⟨S32768x128, .f32⟩ : BufTy).Contents (Elt F)),
    binary main_v235 main_v241 main_v242 (addf : (⟨S32768x128, .f32⟩ : BufTy).Contents (Elt F) → (⟨S32768x128, .f32⟩ : BufTy).Contents (Elt F) → (⟨S32768x128, .f32⟩ : BufTy).Contents (Elt F)),
    unary main_v0 main_v243 ((extractStridedSlice S32768x1 ![0, 3] · slices_S32768x4_S32768x1_0_3) : (⟨S32768x4, .f32⟩ : BufTy).Contents (Elt F) → (⟨S32768x1, .f32⟩ : BufTy).Contents (Elt F)),
    unary main_v220 main_v244 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v244 main_v245 rfl shapeCasts_S1x128x128_S128x128,
    binary main_v218 main_v245 main_v246 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v243 main_v247 (broadcastInDim S32768x128 ![0, 1] bcast_S32768x1_S32768x128_0_1 : (⟨S32768x1, .f32⟩ : BufTy).Contents (Elt F) → (⟨S32768x128, .f32⟩ : BufTy).Contents (Elt F)),
    binary main_v247 main_v246 main_v248 (mulf : (⟨S32768x128, .f32⟩ : BufTy).Contents (Elt F) → (⟨S32768x128, .f32⟩ : BufTy).Contents (Elt F) → (⟨S32768x128, .f32⟩ : BufTy).Contents (Elt F)),
    binary main_v242 main_v248 main_v249 (addf : (⟨S32768x128, .f32⟩ : BufTy).Contents (Elt F) → (⟨S32768x128, .f32⟩ : BufTy).Contents (Elt F) → (⟨S32768x128, .f32⟩ : BufTy).Contents (Elt F)),
    nullary main_cst_18 (constant S_ .f32 0x3F000000#32),
    unary main_cst_18 main_v250 (broadcastInDim S32768x128 ![] bcast_S_S32768x128 : (⟨S_, .f32⟩ : BufTy).Contents (Elt F) → (⟨S32768x128, .f32⟩ : BufTy).Contents (Elt F)),
    binary main_v250 main_v249 main_v251 (mulf : (⟨S32768x128, .f32⟩ : BufTy).Contents (Elt F) → (⟨S32768x128, .f32⟩ : BufTy).Contents (Elt F) → (⟨S32768x128, .f32⟩ : BufTy).Contents (Elt F)),
    nullary main_c_19 (constantI S_ 32 384#32),
    unary main_c_19 main_v252 (broadcastInDim S1 ![] bcast_S_S1 : (⟨S_, .i32⟩ : BufTy).Contents (Elt F) → (⟨S1, .i32⟩ : BufTy).Contents (Elt F)),
    ternary main_v217 main_v252 main_v251 main_v253 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)),
    unary main_arg0 main_v254 ((extractStridedSlice S32768x128 ![0, 384] · slices_S32768x512_S32768x128_0_384) : (⟨S32768x512, .f32⟩ : BufTy).Contents (Elt F) → (⟨S32768x128, .f32⟩ : BufTy).Contents (Elt F)),
    unary main_arg1 main_v255 ((extractStridedSlice S4x16384 ![0, 114688] · slices_S4x131072_S4x16384_0_114688) : (⟨S4x131072, .f32⟩ : BufTy).Contents (Elt F) → (⟨S4x16384, .f32⟩ : BufTy).Contents (Elt F)),
    reshape main_v255 main_v256 rfl shapeCasts_S4x16384_S4x128x128,
    nullary main_cst_20 (constant S_ .f32 0x00000000#32),
    unary main_cst_20 main_v257 (broadcastInDim S32768x128 ![] bcast_S_S32768x128 : (⟨S_, .f32⟩ : BufTy).Contents (Elt F) → (⟨S32768x128, .f32⟩ : BufTy).Contents (Elt F)),
    unary main_v0 main_v258 ((extractStridedSlice S32768x1 ![0, 0] · slices_S32768x4_S32768x1_0_0) : (⟨S32768x4, .f32⟩ : BufTy).Contents (Elt F) → (⟨S32768x1, .f32⟩ : BufTy).Contents (Elt F)),
    unary main_v256 main_v259 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v259 main_v260 rfl shapeCasts_S1x128x128_S128x128,
    binary main_v254 main_v260 main_v261 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v258 main_v262 (broadcastInDim S32768x128 ![0, 1] bcast_S32768x1_S32768x128_0_1 : (⟨S32768x1, .f32⟩ : BufTy).Contents (Elt F) → (⟨S32768x128, .f32⟩ : BufTy).Contents (Elt F)),
    binary main_v262 main_v261 main_v263 (mulf : (⟨S32768x128, .f32⟩ : BufTy).Contents (Elt F) → (⟨S32768x128, .f32⟩ : BufTy).Contents (Elt F) → (⟨S32768x128, .f32⟩ : BufTy).Contents (Elt F)),
    binary main_v257 main_v263 main_v264 (addf : (⟨S32768x128, .f32⟩ : BufTy).Contents (Elt F) → (⟨S32768x128, .f32⟩ : BufTy).Contents (Elt F) → (⟨S32768x128, .f32⟩ : BufTy).Contents (Elt F)),
    unary main_v0 main_v265 ((extractStridedSlice S32768x1 ![0, 1] · slices_S32768x4_S32768x1_0_1) : (⟨S32768x4, .f32⟩ : BufTy).Contents (Elt F) → (⟨S32768x1, .f32⟩ : BufTy).Contents (Elt F)),
    unary main_v256 main_v266 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v266 main_v267 rfl shapeCasts_S1x128x128_S128x128,
    binary main_v254 main_v267 main_v268 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v265 main_v269 (broadcastInDim S32768x128 ![0, 1] bcast_S32768x1_S32768x128_0_1 : (⟨S32768x1, .f32⟩ : BufTy).Contents (Elt F) → (⟨S32768x128, .f32⟩ : BufTy).Contents (Elt F)),
    binary main_v269 main_v268 main_v270 (mulf : (⟨S32768x128, .f32⟩ : BufTy).Contents (Elt F) → (⟨S32768x128, .f32⟩ : BufTy).Contents (Elt F) → (⟨S32768x128, .f32⟩ : BufTy).Contents (Elt F)),
    binary main_v264 main_v270 main_v271 (addf : (⟨S32768x128, .f32⟩ : BufTy).Contents (Elt F) → (⟨S32768x128, .f32⟩ : BufTy).Contents (Elt F) → (⟨S32768x128, .f32⟩ : BufTy).Contents (Elt F)),
    unary main_v0 main_v272 ((extractStridedSlice S32768x1 ![0, 2] · slices_S32768x4_S32768x1_0_2) : (⟨S32768x4, .f32⟩ : BufTy).Contents (Elt F) → (⟨S32768x1, .f32⟩ : BufTy).Contents (Elt F)),
    unary main_v256 main_v273 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v273 main_v274 rfl shapeCasts_S1x128x128_S128x128,
    binary main_v254 main_v274 main_v275 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v272 main_v276 (broadcastInDim S32768x128 ![0, 1] bcast_S32768x1_S32768x128_0_1 : (⟨S32768x1, .f32⟩ : BufTy).Contents (Elt F) → (⟨S32768x128, .f32⟩ : BufTy).Contents (Elt F)) ]

/-- Window 5 of @main: operations 306 … 320 of 320. -/
abbrev win5 : List (HloOp τ sig (Elt F)) :=
  [ binary main_v276 main_v275 main_v277 (mulf : (⟨S32768x128, .f32⟩ : BufTy).Contents (Elt F) → (⟨S32768x128, .f32⟩ : BufTy).Contents (Elt F) → (⟨S32768x128, .f32⟩ : BufTy).Contents (Elt F)),
    binary main_v271 main_v277 main_v278 (addf : (⟨S32768x128, .f32⟩ : BufTy).Contents (Elt F) → (⟨S32768x128, .f32⟩ : BufTy).Contents (Elt F) → (⟨S32768x128, .f32⟩ : BufTy).Contents (Elt F)),
    unary main_v0 main_v279 ((extractStridedSlice S32768x1 ![0, 3] · slices_S32768x4_S32768x1_0_3) : (⟨S32768x4, .f32⟩ : BufTy).Contents (Elt F) → (⟨S32768x1, .f32⟩ : BufTy).Contents (Elt F)),
    unary main_v256 main_v280 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v280 main_v281 rfl shapeCasts_S1x128x128_S128x128,
    binary main_v254 main_v281 main_v282 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v279 main_v283 (broadcastInDim S32768x128 ![0, 1] bcast_S32768x1_S32768x128_0_1 : (⟨S32768x1, .f32⟩ : BufTy).Contents (Elt F) → (⟨S32768x128, .f32⟩ : BufTy).Contents (Elt F)),
    binary main_v283 main_v282 main_v284 (mulf : (⟨S32768x128, .f32⟩ : BufTy).Contents (Elt F) → (⟨S32768x128, .f32⟩ : BufTy).Contents (Elt F) → (⟨S32768x128, .f32⟩ : BufTy).Contents (Elt F)),
    binary main_v278 main_v284 main_v285 (addf : (⟨S32768x128, .f32⟩ : BufTy).Contents (Elt F) → (⟨S32768x128, .f32⟩ : BufTy).Contents (Elt F) → (⟨S32768x128, .f32⟩ : BufTy).Contents (Elt F)),
    nullary main_cst_21 (constant S_ .f32 0x3F000000#32),
    unary main_cst_21 main_v286 (broadcastInDim S32768x128 ![] bcast_S_S32768x128 : (⟨S_, .f32⟩ : BufTy).Contents (Elt F) → (⟨S32768x128, .f32⟩ : BufTy).Contents (Elt F)),
    binary main_v286 main_v285 main_v287 (mulf : (⟨S32768x128, .f32⟩ : BufTy).Contents (Elt F) → (⟨S32768x128, .f32⟩ : BufTy).Contents (Elt F) → (⟨S32768x128, .f32⟩ : BufTy).Contents (Elt F)),
    nullary main_c_22 (constantI S_ 32 0#32),
    unary main_c_22 main_v288 (broadcastInDim S1 ![] bcast_S_S1 : (⟨S_, .i32⟩ : BufTy).Contents (Elt F) → (⟨S1, .i32⟩ : BufTy).Contents (Elt F)),
    ternary main_v253 main_v288 main_v287 main_v289 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)) ]

/-! ## The segments, by what they compute -/

/-- The prologue: the one-hot array of the expert ids (the called function's six operations) and the zero array. -/
abbrev seg0 : List (HloOp τ sig (Elt F)) :=
  [ TRef.unary (TRef.of (T := ⟨S32768, .i32⟩) main_arg2) (TRef.of (T := ⟨S32768x1, .i32⟩) main_call0_v0) (broadcastInDim S32768x1 ![0] bcast_S32768_S32768x1_0),
    TRef.nullary (TRef.of (T := ⟨S1x4, .i32⟩) main_call0_v1) (iotaInDim S1x4 32 1),
    TRef.unary (TRef.of (T := ⟨S32768x1, .i32⟩) main_call0_v0) (TRef.of (T := ⟨S32768x4, .i32⟩) main_call0_v2) (broadcastInDim S32768x4 ![0, 1] bcast_S32768x1_S32768x4_0_1),
    TRef.unary (TRef.of (T := ⟨S1x4, .i32⟩) main_call0_v1) (TRef.of (T := ⟨S32768x4, .i32⟩) main_call0_v3) (broadcastInDim S32768x4 ![0, 1] bcast_S1x4_S32768x4_0_1),
    TRef.binary (TRef.of (T := ⟨S32768x4, .i32⟩) main_call0_v2) (TRef.of (T := ⟨S32768x4, .i32⟩) main_call0_v3) (TRef.of (T := ⟨S32768x4, .i1⟩) main_call0_v4) (cmpi .eq),
    TRef.unary (TRef.of (T := ⟨S32768x4, .i1⟩) main_call0_v4) (TRef.of (T := ⟨S32768x4, .f32⟩) main_v0) (uitofp .f32),
    nullary main_cst (constant S_ .f32 0x00000000#32),
    unary main_cst main_v1 (broadcastInDim S32768x512 ![] bcast_S_S32768x512 : (⟨S_, .f32⟩ : BufTy).Contents (Elt F) → (⟨S32768x512, .f32⟩ : BufTy).Contents (Elt F)) ]

/-- Path 0: its input slice, weight slice, four masked products, the coefficient, and the scatter into the result so far. -/
abbrev seg1 : List (HloOp τ sig (Elt F)) :=
  [ unary main_arg0 main_v2 ((extractStridedSlice S32768x128 ![0, 0] · slices_S32768x512_S32768x128_0_0) : (⟨S32768x512, .f32⟩ : BufTy).Contents (Elt F) → (⟨S32768x128, .f32⟩ : BufTy).Contents (Elt F)),
    unary main_arg1 main_v3 ((extractStridedSlice S4x16384 ![0, 0] · slices_S4x131072_S4x16384_0_0) : (⟨S4x131072, .f32⟩ : BufTy).Contents (Elt F) → (⟨S4x16384, .f32⟩ : BufTy).Contents (Elt F)),
    reshape main_v3 main_v4 rfl shapeCasts_S4x16384_S4x128x128,
    nullary main_cst_0 (constant S_ .f32 0x00000000#32),
    unary main_cst_0 main_v5 (broadcastInDim S32768x128 ![] bcast_S_S32768x128 : (⟨S_, .f32⟩ : BufTy).Contents (Elt F) → (⟨S32768x128, .f32⟩ : BufTy).Contents (Elt F)),
    unary main_v0 main_v6 ((extractStridedSlice S32768x1 ![0, 0] · slices_S32768x4_S32768x1_0_0) : (⟨S32768x4, .f32⟩ : BufTy).Contents (Elt F) → (⟨S32768x1, .f32⟩ : BufTy).Contents (Elt F)),
    unary main_v4 main_v7 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v7 main_v8 rfl shapeCasts_S1x128x128_S128x128,
    binary main_v2 main_v8 main_v9 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v6 main_v10 (broadcastInDim S32768x128 ![0, 1] bcast_S32768x1_S32768x128_0_1 : (⟨S32768x1, .f32⟩ : BufTy).Contents (Elt F) → (⟨S32768x128, .f32⟩ : BufTy).Contents (Elt F)),
    binary main_v10 main_v9 main_v11 (mulf : (⟨S32768x128, .f32⟩ : BufTy).Contents (Elt F) → (⟨S32768x128, .f32⟩ : BufTy).Contents (Elt F) → (⟨S32768x128, .f32⟩ : BufTy).Contents (Elt F)),
    binary main_v5 main_v11 main_v12 (addf : (⟨S32768x128, .f32⟩ : BufTy).Contents (Elt F) → (⟨S32768x128, .f32⟩ : BufTy).Contents (Elt F) → (⟨S32768x128, .f32⟩ : BufTy).Contents (Elt F)),
    unary main_v0 main_v13 ((extractStridedSlice S32768x1 ![0, 1] · slices_S32768x4_S32768x1_0_1) : (⟨S32768x4, .f32⟩ : BufTy).Contents (Elt F) → (⟨S32768x1, .f32⟩ : BufTy).Contents (Elt F)),
    unary main_v4 main_v14 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v14 main_v15 rfl shapeCasts_S1x128x128_S128x128,
    binary main_v2 main_v15 main_v16 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v13 main_v17 (broadcastInDim S32768x128 ![0, 1] bcast_S32768x1_S32768x128_0_1 : (⟨S32768x1, .f32⟩ : BufTy).Contents (Elt F) → (⟨S32768x128, .f32⟩ : BufTy).Contents (Elt F)),
    binary main_v17 main_v16 main_v18 (mulf : (⟨S32768x128, .f32⟩ : BufTy).Contents (Elt F) → (⟨S32768x128, .f32⟩ : BufTy).Contents (Elt F) → (⟨S32768x128, .f32⟩ : BufTy).Contents (Elt F)),
    binary main_v12 main_v18 main_v19 (addf : (⟨S32768x128, .f32⟩ : BufTy).Contents (Elt F) → (⟨S32768x128, .f32⟩ : BufTy).Contents (Elt F) → (⟨S32768x128, .f32⟩ : BufTy).Contents (Elt F)),
    unary main_v0 main_v20 ((extractStridedSlice S32768x1 ![0, 2] · slices_S32768x4_S32768x1_0_2) : (⟨S32768x4, .f32⟩ : BufTy).Contents (Elt F) → (⟨S32768x1, .f32⟩ : BufTy).Contents (Elt F)),
    unary main_v4 main_v21 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v21 main_v22 rfl shapeCasts_S1x128x128_S128x128,
    binary main_v2 main_v22 main_v23 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v20 main_v24 (broadcastInDim S32768x128 ![0, 1] bcast_S32768x1_S32768x128_0_1 : (⟨S32768x1, .f32⟩ : BufTy).Contents (Elt F) → (⟨S32768x128, .f32⟩ : BufTy).Contents (Elt F)),
    binary main_v24 main_v23 main_v25 (mulf : (⟨S32768x128, .f32⟩ : BufTy).Contents (Elt F) → (⟨S32768x128, .f32⟩ : BufTy).Contents (Elt F) → (⟨S32768x128, .f32⟩ : BufTy).Contents (Elt F)),
    binary main_v19 main_v25 main_v26 (addf : (⟨S32768x128, .f32⟩ : BufTy).Contents (Elt F) → (⟨S32768x128, .f32⟩ : BufTy).Contents (Elt F) → (⟨S32768x128, .f32⟩ : BufTy).Contents (Elt F)),
    unary main_v0 main_v27 ((extractStridedSlice S32768x1 ![0, 3] · slices_S32768x4_S32768x1_0_3) : (⟨S32768x4, .f32⟩ : BufTy).Contents (Elt F) → (⟨S32768x1, .f32⟩ : BufTy).Contents (Elt F)),
    unary main_v4 main_v28 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v28 main_v29 rfl shapeCasts_S1x128x128_S128x128,
    binary main_v2 main_v29 main_v30 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v27 main_v31 (broadcastInDim S32768x128 ![0, 1] bcast_S32768x1_S32768x128_0_1 : (⟨S32768x1, .f32⟩ : BufTy).Contents (Elt F) → (⟨S32768x128, .f32⟩ : BufTy).Contents (Elt F)),
    binary main_v31 main_v30 main_v32 (mulf : (⟨S32768x128, .f32⟩ : BufTy).Contents (Elt F) → (⟨S32768x128, .f32⟩ : BufTy).Contents (Elt F) → (⟨S32768x128, .f32⟩ : BufTy).Contents (Elt F)),
    binary main_v26 main_v32 main_v33 (addf : (⟨S32768x128, .f32⟩ : BufTy).Contents (Elt F) → (⟨S32768x128, .f32⟩ : BufTy).Contents (Elt F) → (⟨S32768x128, .f32⟩ : BufTy).Contents (Elt F)),
    nullary main_cst_1 (constant S_ .f32 0x3F800000#32),
    unary main_cst_1 main_v34 (broadcastInDim S32768x128 ![] bcast_S_S32768x128 : (⟨S_, .f32⟩ : BufTy).Contents (Elt F) → (⟨S32768x128, .f32⟩ : BufTy).Contents (Elt F)),
    binary main_v34 main_v33 main_v35 (mulf : (⟨S32768x128, .f32⟩ : BufTy).Contents (Elt F) → (⟨S32768x128, .f32⟩ : BufTy).Contents (Elt F) → (⟨S32768x128, .f32⟩ : BufTy).Contents (Elt F)),
    nullary main_c (constantI S_ 32 0#32),
    unary main_c main_v36 (broadcastInDim S1 ![] bcast_S_S1 : (⟨S_, .i32⟩ : BufTy).Contents (Elt F) → (⟨S1, .i32⟩ : BufTy).Contents (Elt F)),
    ternary main_v1 main_v36 main_v35 main_v37 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)) ]

/-- Path 1: its input slice, weight slice, four masked products, the coefficient, and the scatter into the result so far. -/
abbrev seg2 : List (HloOp τ sig (Elt F)) :=
  [ unary main_arg0 main_v38 ((extractStridedSlice S32768x128 ![0, 128] · slices_S32768x512_S32768x128_0_128) : (⟨S32768x512, .f32⟩ : BufTy).Contents (Elt F) → (⟨S32768x128, .f32⟩ : BufTy).Contents (Elt F)),
    unary main_arg1 main_v39 ((extractStridedSlice S4x16384 ![0, 16384] · slices_S4x131072_S4x16384_0_16384) : (⟨S4x131072, .f32⟩ : BufTy).Contents (Elt F) → (⟨S4x16384, .f32⟩ : BufTy).Contents (Elt F)),
    reshape main_v39 main_v40 rfl shapeCasts_S4x16384_S4x128x128,
    nullary main_cst_2 (constant S_ .f32 0x00000000#32),
    unary main_cst_2 main_v41 (broadcastInDim S32768x128 ![] bcast_S_S32768x128 : (⟨S_, .f32⟩ : BufTy).Contents (Elt F) → (⟨S32768x128, .f32⟩ : BufTy).Contents (Elt F)),
    unary main_v0 main_v42 ((extractStridedSlice S32768x1 ![0, 0] · slices_S32768x4_S32768x1_0_0) : (⟨S32768x4, .f32⟩ : BufTy).Contents (Elt F) → (⟨S32768x1, .f32⟩ : BufTy).Contents (Elt F)),
    unary main_v40 main_v43 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v43 main_v44 rfl shapeCasts_S1x128x128_S128x128,
    binary main_v38 main_v44 main_v45 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v42 main_v46 (broadcastInDim S32768x128 ![0, 1] bcast_S32768x1_S32768x128_0_1 : (⟨S32768x1, .f32⟩ : BufTy).Contents (Elt F) → (⟨S32768x128, .f32⟩ : BufTy).Contents (Elt F)),
    binary main_v46 main_v45 main_v47 (mulf : (⟨S32768x128, .f32⟩ : BufTy).Contents (Elt F) → (⟨S32768x128, .f32⟩ : BufTy).Contents (Elt F) → (⟨S32768x128, .f32⟩ : BufTy).Contents (Elt F)),
    binary main_v41 main_v47 main_v48 (addf : (⟨S32768x128, .f32⟩ : BufTy).Contents (Elt F) → (⟨S32768x128, .f32⟩ : BufTy).Contents (Elt F) → (⟨S32768x128, .f32⟩ : BufTy).Contents (Elt F)),
    unary main_v0 main_v49 ((extractStridedSlice S32768x1 ![0, 1] · slices_S32768x4_S32768x1_0_1) : (⟨S32768x4, .f32⟩ : BufTy).Contents (Elt F) → (⟨S32768x1, .f32⟩ : BufTy).Contents (Elt F)),
    unary main_v40 main_v50 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v50 main_v51 rfl shapeCasts_S1x128x128_S128x128,
    binary main_v38 main_v51 main_v52 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v49 main_v53 (broadcastInDim S32768x128 ![0, 1] bcast_S32768x1_S32768x128_0_1 : (⟨S32768x1, .f32⟩ : BufTy).Contents (Elt F) → (⟨S32768x128, .f32⟩ : BufTy).Contents (Elt F)),
    binary main_v53 main_v52 main_v54 (mulf : (⟨S32768x128, .f32⟩ : BufTy).Contents (Elt F) → (⟨S32768x128, .f32⟩ : BufTy).Contents (Elt F) → (⟨S32768x128, .f32⟩ : BufTy).Contents (Elt F)),
    binary main_v48 main_v54 main_v55 (addf : (⟨S32768x128, .f32⟩ : BufTy).Contents (Elt F) → (⟨S32768x128, .f32⟩ : BufTy).Contents (Elt F) → (⟨S32768x128, .f32⟩ : BufTy).Contents (Elt F)),
    unary main_v0 main_v56 ((extractStridedSlice S32768x1 ![0, 2] · slices_S32768x4_S32768x1_0_2) : (⟨S32768x4, .f32⟩ : BufTy).Contents (Elt F) → (⟨S32768x1, .f32⟩ : BufTy).Contents (Elt F)),
    unary main_v40 main_v57 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v57 main_v58 rfl shapeCasts_S1x128x128_S128x128,
    binary main_v38 main_v58 main_v59 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v56 main_v60 (broadcastInDim S32768x128 ![0, 1] bcast_S32768x1_S32768x128_0_1 : (⟨S32768x1, .f32⟩ : BufTy).Contents (Elt F) → (⟨S32768x128, .f32⟩ : BufTy).Contents (Elt F)),
    binary main_v60 main_v59 main_v61 (mulf : (⟨S32768x128, .f32⟩ : BufTy).Contents (Elt F) → (⟨S32768x128, .f32⟩ : BufTy).Contents (Elt F) → (⟨S32768x128, .f32⟩ : BufTy).Contents (Elt F)),
    binary main_v55 main_v61 main_v62 (addf : (⟨S32768x128, .f32⟩ : BufTy).Contents (Elt F) → (⟨S32768x128, .f32⟩ : BufTy).Contents (Elt F) → (⟨S32768x128, .f32⟩ : BufTy).Contents (Elt F)),
    unary main_v0 main_v63 ((extractStridedSlice S32768x1 ![0, 3] · slices_S32768x4_S32768x1_0_3) : (⟨S32768x4, .f32⟩ : BufTy).Contents (Elt F) → (⟨S32768x1, .f32⟩ : BufTy).Contents (Elt F)),
    unary main_v40 main_v64 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v64 main_v65 rfl shapeCasts_S1x128x128_S128x128,
    binary main_v38 main_v65 main_v66 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v63 main_v67 (broadcastInDim S32768x128 ![0, 1] bcast_S32768x1_S32768x128_0_1 : (⟨S32768x1, .f32⟩ : BufTy).Contents (Elt F) → (⟨S32768x128, .f32⟩ : BufTy).Contents (Elt F)),
    binary main_v67 main_v66 main_v68 (mulf : (⟨S32768x128, .f32⟩ : BufTy).Contents (Elt F) → (⟨S32768x128, .f32⟩ : BufTy).Contents (Elt F) → (⟨S32768x128, .f32⟩ : BufTy).Contents (Elt F)),
    binary main_v62 main_v68 main_v69 (addf : (⟨S32768x128, .f32⟩ : BufTy).Contents (Elt F) → (⟨S32768x128, .f32⟩ : BufTy).Contents (Elt F) → (⟨S32768x128, .f32⟩ : BufTy).Contents (Elt F)),
    nullary main_cst_3 (constant S_ .f32 0x3F800000#32),
    unary main_cst_3 main_v70 (broadcastInDim S32768x128 ![] bcast_S_S32768x128 : (⟨S_, .f32⟩ : BufTy).Contents (Elt F) → (⟨S32768x128, .f32⟩ : BufTy).Contents (Elt F)),
    binary main_v70 main_v69 main_v71 (mulf : (⟨S32768x128, .f32⟩ : BufTy).Contents (Elt F) → (⟨S32768x128, .f32⟩ : BufTy).Contents (Elt F) → (⟨S32768x128, .f32⟩ : BufTy).Contents (Elt F)),
    nullary main_c_4 (constantI S_ 32 128#32),
    unary main_c_4 main_v72 (broadcastInDim S1 ![] bcast_S_S1 : (⟨S_, .i32⟩ : BufTy).Contents (Elt F) → (⟨S1, .i32⟩ : BufTy).Contents (Elt F)),
    ternary main_v37 main_v72 main_v71 main_v73 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)) ]

/-- Path 2: its input slice, weight slice, four masked products, the coefficient, and the scatter into the result so far. -/
abbrev seg3 : List (HloOp τ sig (Elt F)) :=
  [ unary main_arg0 main_v74 ((extractStridedSlice S32768x128 ![0, 256] · slices_S32768x512_S32768x128_0_256) : (⟨S32768x512, .f32⟩ : BufTy).Contents (Elt F) → (⟨S32768x128, .f32⟩ : BufTy).Contents (Elt F)),
    unary main_arg1 main_v75 ((extractStridedSlice S4x16384 ![0, 32768] · slices_S4x131072_S4x16384_0_32768) : (⟨S4x131072, .f32⟩ : BufTy).Contents (Elt F) → (⟨S4x16384, .f32⟩ : BufTy).Contents (Elt F)),
    reshape main_v75 main_v76 rfl shapeCasts_S4x16384_S4x128x128,
    nullary main_cst_5 (constant S_ .f32 0x00000000#32),
    unary main_cst_5 main_v77 (broadcastInDim S32768x128 ![] bcast_S_S32768x128 : (⟨S_, .f32⟩ : BufTy).Contents (Elt F) → (⟨S32768x128, .f32⟩ : BufTy).Contents (Elt F)),
    unary main_v0 main_v78 ((extractStridedSlice S32768x1 ![0, 0] · slices_S32768x4_S32768x1_0_0) : (⟨S32768x4, .f32⟩ : BufTy).Contents (Elt F) → (⟨S32768x1, .f32⟩ : BufTy).Contents (Elt F)),
    unary main_v76 main_v79 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v79 main_v80 rfl shapeCasts_S1x128x128_S128x128,
    binary main_v74 main_v80 main_v81 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v78 main_v82 (broadcastInDim S32768x128 ![0, 1] bcast_S32768x1_S32768x128_0_1 : (⟨S32768x1, .f32⟩ : BufTy).Contents (Elt F) → (⟨S32768x128, .f32⟩ : BufTy).Contents (Elt F)),
    binary main_v82 main_v81 main_v83 (mulf : (⟨S32768x128, .f32⟩ : BufTy).Contents (Elt F) → (⟨S32768x128, .f32⟩ : BufTy).Contents (Elt F) → (⟨S32768x128, .f32⟩ : BufTy).Contents (Elt F)),
    binary main_v77 main_v83 main_v84 (addf : (⟨S32768x128, .f32⟩ : BufTy).Contents (Elt F) → (⟨S32768x128, .f32⟩ : BufTy).Contents (Elt F) → (⟨S32768x128, .f32⟩ : BufTy).Contents (Elt F)),
    unary main_v0 main_v85 ((extractStridedSlice S32768x1 ![0, 1] · slices_S32768x4_S32768x1_0_1) : (⟨S32768x4, .f32⟩ : BufTy).Contents (Elt F) → (⟨S32768x1, .f32⟩ : BufTy).Contents (Elt F)),
    unary main_v76 main_v86 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v86 main_v87 rfl shapeCasts_S1x128x128_S128x128,
    binary main_v74 main_v87 main_v88 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v85 main_v89 (broadcastInDim S32768x128 ![0, 1] bcast_S32768x1_S32768x128_0_1 : (⟨S32768x1, .f32⟩ : BufTy).Contents (Elt F) → (⟨S32768x128, .f32⟩ : BufTy).Contents (Elt F)),
    binary main_v89 main_v88 main_v90 (mulf : (⟨S32768x128, .f32⟩ : BufTy).Contents (Elt F) → (⟨S32768x128, .f32⟩ : BufTy).Contents (Elt F) → (⟨S32768x128, .f32⟩ : BufTy).Contents (Elt F)),
    binary main_v84 main_v90 main_v91 (addf : (⟨S32768x128, .f32⟩ : BufTy).Contents (Elt F) → (⟨S32768x128, .f32⟩ : BufTy).Contents (Elt F) → (⟨S32768x128, .f32⟩ : BufTy).Contents (Elt F)),
    unary main_v0 main_v92 ((extractStridedSlice S32768x1 ![0, 2] · slices_S32768x4_S32768x1_0_2) : (⟨S32768x4, .f32⟩ : BufTy).Contents (Elt F) → (⟨S32768x1, .f32⟩ : BufTy).Contents (Elt F)),
    unary main_v76 main_v93 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v93 main_v94 rfl shapeCasts_S1x128x128_S128x128,
    binary main_v74 main_v94 main_v95 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v92 main_v96 (broadcastInDim S32768x128 ![0, 1] bcast_S32768x1_S32768x128_0_1 : (⟨S32768x1, .f32⟩ : BufTy).Contents (Elt F) → (⟨S32768x128, .f32⟩ : BufTy).Contents (Elt F)),
    binary main_v96 main_v95 main_v97 (mulf : (⟨S32768x128, .f32⟩ : BufTy).Contents (Elt F) → (⟨S32768x128, .f32⟩ : BufTy).Contents (Elt F) → (⟨S32768x128, .f32⟩ : BufTy).Contents (Elt F)),
    binary main_v91 main_v97 main_v98 (addf : (⟨S32768x128, .f32⟩ : BufTy).Contents (Elt F) → (⟨S32768x128, .f32⟩ : BufTy).Contents (Elt F) → (⟨S32768x128, .f32⟩ : BufTy).Contents (Elt F)),
    unary main_v0 main_v99 ((extractStridedSlice S32768x1 ![0, 3] · slices_S32768x4_S32768x1_0_3) : (⟨S32768x4, .f32⟩ : BufTy).Contents (Elt F) → (⟨S32768x1, .f32⟩ : BufTy).Contents (Elt F)),
    unary main_v76 main_v100 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v100 main_v101 rfl shapeCasts_S1x128x128_S128x128,
    binary main_v74 main_v101 main_v102 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v99 main_v103 (broadcastInDim S32768x128 ![0, 1] bcast_S32768x1_S32768x128_0_1 : (⟨S32768x1, .f32⟩ : BufTy).Contents (Elt F) → (⟨S32768x128, .f32⟩ : BufTy).Contents (Elt F)),
    binary main_v103 main_v102 main_v104 (mulf : (⟨S32768x128, .f32⟩ : BufTy).Contents (Elt F) → (⟨S32768x128, .f32⟩ : BufTy).Contents (Elt F) → (⟨S32768x128, .f32⟩ : BufTy).Contents (Elt F)),
    binary main_v98 main_v104 main_v105 (addf : (⟨S32768x128, .f32⟩ : BufTy).Contents (Elt F) → (⟨S32768x128, .f32⟩ : BufTy).Contents (Elt F) → (⟨S32768x128, .f32⟩ : BufTy).Contents (Elt F)),
    nullary main_cst_6 (constant S_ .f32 0x3F800000#32),
    unary main_cst_6 main_v106 (broadcastInDim S32768x128 ![] bcast_S_S32768x128 : (⟨S_, .f32⟩ : BufTy).Contents (Elt F) → (⟨S32768x128, .f32⟩ : BufTy).Contents (Elt F)),
    binary main_v106 main_v105 main_v107 (mulf : (⟨S32768x128, .f32⟩ : BufTy).Contents (Elt F) → (⟨S32768x128, .f32⟩ : BufTy).Contents (Elt F) → (⟨S32768x128, .f32⟩ : BufTy).Contents (Elt F)),
    nullary main_c_7 (constantI S_ 32 256#32),
    unary main_c_7 main_v108 (broadcastInDim S1 ![] bcast_S_S1 : (⟨S_, .i32⟩ : BufTy).Contents (Elt F) → (⟨S1, .i32⟩ : BufTy).Contents (Elt F)),
    ternary main_v73 main_v108 main_v107 main_v109 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)) ]

/-- Path 3: its input slice, weight slice, four masked products, the coefficient, and the scatter into the result so far. -/
abbrev seg4 : List (HloOp τ sig (Elt F)) :=
  [ unary main_arg0 main_v110 ((extractStridedSlice S32768x128 ![0, 384] · slices_S32768x512_S32768x128_0_384) : (⟨S32768x512, .f32⟩ : BufTy).Contents (Elt F) → (⟨S32768x128, .f32⟩ : BufTy).Contents (Elt F)),
    unary main_arg1 main_v111 ((extractStridedSlice S4x16384 ![0, 49152] · slices_S4x131072_S4x16384_0_49152) : (⟨S4x131072, .f32⟩ : BufTy).Contents (Elt F) → (⟨S4x16384, .f32⟩ : BufTy).Contents (Elt F)),
    reshape main_v111 main_v112 rfl shapeCasts_S4x16384_S4x128x128,
    nullary main_cst_8 (constant S_ .f32 0x00000000#32),
    unary main_cst_8 main_v113 (broadcastInDim S32768x128 ![] bcast_S_S32768x128 : (⟨S_, .f32⟩ : BufTy).Contents (Elt F) → (⟨S32768x128, .f32⟩ : BufTy).Contents (Elt F)),
    unary main_v0 main_v114 ((extractStridedSlice S32768x1 ![0, 0] · slices_S32768x4_S32768x1_0_0) : (⟨S32768x4, .f32⟩ : BufTy).Contents (Elt F) → (⟨S32768x1, .f32⟩ : BufTy).Contents (Elt F)),
    unary main_v112 main_v115 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v115 main_v116 rfl shapeCasts_S1x128x128_S128x128,
    binary main_v110 main_v116 main_v117 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v114 main_v118 (broadcastInDim S32768x128 ![0, 1] bcast_S32768x1_S32768x128_0_1 : (⟨S32768x1, .f32⟩ : BufTy).Contents (Elt F) → (⟨S32768x128, .f32⟩ : BufTy).Contents (Elt F)),
    binary main_v118 main_v117 main_v119 (mulf : (⟨S32768x128, .f32⟩ : BufTy).Contents (Elt F) → (⟨S32768x128, .f32⟩ : BufTy).Contents (Elt F) → (⟨S32768x128, .f32⟩ : BufTy).Contents (Elt F)),
    binary main_v113 main_v119 main_v120 (addf : (⟨S32768x128, .f32⟩ : BufTy).Contents (Elt F) → (⟨S32768x128, .f32⟩ : BufTy).Contents (Elt F) → (⟨S32768x128, .f32⟩ : BufTy).Contents (Elt F)),
    unary main_v0 main_v121 ((extractStridedSlice S32768x1 ![0, 1] · slices_S32768x4_S32768x1_0_1) : (⟨S32768x4, .f32⟩ : BufTy).Contents (Elt F) → (⟨S32768x1, .f32⟩ : BufTy).Contents (Elt F)),
    unary main_v112 main_v122 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v122 main_v123 rfl shapeCasts_S1x128x128_S128x128,
    binary main_v110 main_v123 main_v124 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v121 main_v125 (broadcastInDim S32768x128 ![0, 1] bcast_S32768x1_S32768x128_0_1 : (⟨S32768x1, .f32⟩ : BufTy).Contents (Elt F) → (⟨S32768x128, .f32⟩ : BufTy).Contents (Elt F)),
    binary main_v125 main_v124 main_v126 (mulf : (⟨S32768x128, .f32⟩ : BufTy).Contents (Elt F) → (⟨S32768x128, .f32⟩ : BufTy).Contents (Elt F) → (⟨S32768x128, .f32⟩ : BufTy).Contents (Elt F)),
    binary main_v120 main_v126 main_v127 (addf : (⟨S32768x128, .f32⟩ : BufTy).Contents (Elt F) → (⟨S32768x128, .f32⟩ : BufTy).Contents (Elt F) → (⟨S32768x128, .f32⟩ : BufTy).Contents (Elt F)),
    unary main_v0 main_v128 ((extractStridedSlice S32768x1 ![0, 2] · slices_S32768x4_S32768x1_0_2) : (⟨S32768x4, .f32⟩ : BufTy).Contents (Elt F) → (⟨S32768x1, .f32⟩ : BufTy).Contents (Elt F)),
    unary main_v112 main_v129 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v129 main_v130 rfl shapeCasts_S1x128x128_S128x128,
    binary main_v110 main_v130 main_v131 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v128 main_v132 (broadcastInDim S32768x128 ![0, 1] bcast_S32768x1_S32768x128_0_1 : (⟨S32768x1, .f32⟩ : BufTy).Contents (Elt F) → (⟨S32768x128, .f32⟩ : BufTy).Contents (Elt F)),
    binary main_v132 main_v131 main_v133 (mulf : (⟨S32768x128, .f32⟩ : BufTy).Contents (Elt F) → (⟨S32768x128, .f32⟩ : BufTy).Contents (Elt F) → (⟨S32768x128, .f32⟩ : BufTy).Contents (Elt F)),
    binary main_v127 main_v133 main_v134 (addf : (⟨S32768x128, .f32⟩ : BufTy).Contents (Elt F) → (⟨S32768x128, .f32⟩ : BufTy).Contents (Elt F) → (⟨S32768x128, .f32⟩ : BufTy).Contents (Elt F)),
    unary main_v0 main_v135 ((extractStridedSlice S32768x1 ![0, 3] · slices_S32768x4_S32768x1_0_3) : (⟨S32768x4, .f32⟩ : BufTy).Contents (Elt F) → (⟨S32768x1, .f32⟩ : BufTy).Contents (Elt F)),
    unary main_v112 main_v136 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v136 main_v137 rfl shapeCasts_S1x128x128_S128x128,
    binary main_v110 main_v137 main_v138 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v135 main_v139 (broadcastInDim S32768x128 ![0, 1] bcast_S32768x1_S32768x128_0_1 : (⟨S32768x1, .f32⟩ : BufTy).Contents (Elt F) → (⟨S32768x128, .f32⟩ : BufTy).Contents (Elt F)),
    binary main_v139 main_v138 main_v140 (mulf : (⟨S32768x128, .f32⟩ : BufTy).Contents (Elt F) → (⟨S32768x128, .f32⟩ : BufTy).Contents (Elt F) → (⟨S32768x128, .f32⟩ : BufTy).Contents (Elt F)),
    binary main_v134 main_v140 main_v141 (addf : (⟨S32768x128, .f32⟩ : BufTy).Contents (Elt F) → (⟨S32768x128, .f32⟩ : BufTy).Contents (Elt F) → (⟨S32768x128, .f32⟩ : BufTy).Contents (Elt F)),
    nullary main_cst_9 (constant S_ .f32 0x3F800000#32),
    unary main_cst_9 main_v142 (broadcastInDim S32768x128 ![] bcast_S_S32768x128 : (⟨S_, .f32⟩ : BufTy).Contents (Elt F) → (⟨S32768x128, .f32⟩ : BufTy).Contents (Elt F)),
    binary main_v142 main_v141 main_v143 (mulf : (⟨S32768x128, .f32⟩ : BufTy).Contents (Elt F) → (⟨S32768x128, .f32⟩ : BufTy).Contents (Elt F) → (⟨S32768x128, .f32⟩ : BufTy).Contents (Elt F)),
    nullary main_c_10 (constantI S_ 32 384#32),
    unary main_c_10 main_v144 (broadcastInDim S1 ![] bcast_S_S1 : (⟨S_, .i32⟩ : BufTy).Contents (Elt F) → (⟨S1, .i32⟩ : BufTy).Contents (Elt F)),
    ternary main_v109 main_v144 main_v143 main_v145 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)) ]

/-- Path 4: its input slice, weight slice, four masked products, the coefficient, and the scatter into the result so far. -/
abbrev seg5 : List (HloOp τ sig (Elt F)) :=
  [ unary main_arg0 main_v146 ((extractStridedSlice S32768x128 ![0, 0] · slices_S32768x512_S32768x128_0_0) : (⟨S32768x512, .f32⟩ : BufTy).Contents (Elt F) → (⟨S32768x128, .f32⟩ : BufTy).Contents (Elt F)),
    unary main_arg1 main_v147 ((extractStridedSlice S4x16384 ![0, 65536] · slices_S4x131072_S4x16384_0_65536) : (⟨S4x131072, .f32⟩ : BufTy).Contents (Elt F) → (⟨S4x16384, .f32⟩ : BufTy).Contents (Elt F)),
    reshape main_v147 main_v148 rfl shapeCasts_S4x16384_S4x128x128,
    nullary main_cst_11 (constant S_ .f32 0x00000000#32),
    unary main_cst_11 main_v149 (broadcastInDim S32768x128 ![] bcast_S_S32768x128 : (⟨S_, .f32⟩ : BufTy).Contents (Elt F) → (⟨S32768x128, .f32⟩ : BufTy).Contents (Elt F)),
    unary main_v0 main_v150 ((extractStridedSlice S32768x1 ![0, 0] · slices_S32768x4_S32768x1_0_0) : (⟨S32768x4, .f32⟩ : BufTy).Contents (Elt F) → (⟨S32768x1, .f32⟩ : BufTy).Contents (Elt F)),
    unary main_v148 main_v151 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v151 main_v152 rfl shapeCasts_S1x128x128_S128x128,
    binary main_v146 main_v152 main_v153 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v150 main_v154 (broadcastInDim S32768x128 ![0, 1] bcast_S32768x1_S32768x128_0_1 : (⟨S32768x1, .f32⟩ : BufTy).Contents (Elt F) → (⟨S32768x128, .f32⟩ : BufTy).Contents (Elt F)),
    binary main_v154 main_v153 main_v155 (mulf : (⟨S32768x128, .f32⟩ : BufTy).Contents (Elt F) → (⟨S32768x128, .f32⟩ : BufTy).Contents (Elt F) → (⟨S32768x128, .f32⟩ : BufTy).Contents (Elt F)),
    binary main_v149 main_v155 main_v156 (addf : (⟨S32768x128, .f32⟩ : BufTy).Contents (Elt F) → (⟨S32768x128, .f32⟩ : BufTy).Contents (Elt F) → (⟨S32768x128, .f32⟩ : BufTy).Contents (Elt F)),
    unary main_v0 main_v157 ((extractStridedSlice S32768x1 ![0, 1] · slices_S32768x4_S32768x1_0_1) : (⟨S32768x4, .f32⟩ : BufTy).Contents (Elt F) → (⟨S32768x1, .f32⟩ : BufTy).Contents (Elt F)),
    unary main_v148 main_v158 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v158 main_v159 rfl shapeCasts_S1x128x128_S128x128,
    binary main_v146 main_v159 main_v160 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v157 main_v161 (broadcastInDim S32768x128 ![0, 1] bcast_S32768x1_S32768x128_0_1 : (⟨S32768x1, .f32⟩ : BufTy).Contents (Elt F) → (⟨S32768x128, .f32⟩ : BufTy).Contents (Elt F)),
    binary main_v161 main_v160 main_v162 (mulf : (⟨S32768x128, .f32⟩ : BufTy).Contents (Elt F) → (⟨S32768x128, .f32⟩ : BufTy).Contents (Elt F) → (⟨S32768x128, .f32⟩ : BufTy).Contents (Elt F)),
    binary main_v156 main_v162 main_v163 (addf : (⟨S32768x128, .f32⟩ : BufTy).Contents (Elt F) → (⟨S32768x128, .f32⟩ : BufTy).Contents (Elt F) → (⟨S32768x128, .f32⟩ : BufTy).Contents (Elt F)),
    unary main_v0 main_v164 ((extractStridedSlice S32768x1 ![0, 2] · slices_S32768x4_S32768x1_0_2) : (⟨S32768x4, .f32⟩ : BufTy).Contents (Elt F) → (⟨S32768x1, .f32⟩ : BufTy).Contents (Elt F)),
    unary main_v148 main_v165 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v165 main_v166 rfl shapeCasts_S1x128x128_S128x128,
    binary main_v146 main_v166 main_v167 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v164 main_v168 (broadcastInDim S32768x128 ![0, 1] bcast_S32768x1_S32768x128_0_1 : (⟨S32768x1, .f32⟩ : BufTy).Contents (Elt F) → (⟨S32768x128, .f32⟩ : BufTy).Contents (Elt F)),
    binary main_v168 main_v167 main_v169 (mulf : (⟨S32768x128, .f32⟩ : BufTy).Contents (Elt F) → (⟨S32768x128, .f32⟩ : BufTy).Contents (Elt F) → (⟨S32768x128, .f32⟩ : BufTy).Contents (Elt F)),
    binary main_v163 main_v169 main_v170 (addf : (⟨S32768x128, .f32⟩ : BufTy).Contents (Elt F) → (⟨S32768x128, .f32⟩ : BufTy).Contents (Elt F) → (⟨S32768x128, .f32⟩ : BufTy).Contents (Elt F)),
    unary main_v0 main_v171 ((extractStridedSlice S32768x1 ![0, 3] · slices_S32768x4_S32768x1_0_3) : (⟨S32768x4, .f32⟩ : BufTy).Contents (Elt F) → (⟨S32768x1, .f32⟩ : BufTy).Contents (Elt F)),
    unary main_v148 main_v172 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v172 main_v173 rfl shapeCasts_S1x128x128_S128x128,
    binary main_v146 main_v173 main_v174 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v171 main_v175 (broadcastInDim S32768x128 ![0, 1] bcast_S32768x1_S32768x128_0_1 : (⟨S32768x1, .f32⟩ : BufTy).Contents (Elt F) → (⟨S32768x128, .f32⟩ : BufTy).Contents (Elt F)),
    binary main_v175 main_v174 main_v176 (mulf : (⟨S32768x128, .f32⟩ : BufTy).Contents (Elt F) → (⟨S32768x128, .f32⟩ : BufTy).Contents (Elt F) → (⟨S32768x128, .f32⟩ : BufTy).Contents (Elt F)),
    binary main_v170 main_v176 main_v177 (addf : (⟨S32768x128, .f32⟩ : BufTy).Contents (Elt F) → (⟨S32768x128, .f32⟩ : BufTy).Contents (Elt F) → (⟨S32768x128, .f32⟩ : BufTy).Contents (Elt F)),
    nullary main_cst_12 (constant S_ .f32 0x3F000000#32),
    unary main_cst_12 main_v178 (broadcastInDim S32768x128 ![] bcast_S_S32768x128 : (⟨S_, .f32⟩ : BufTy).Contents (Elt F) → (⟨S32768x128, .f32⟩ : BufTy).Contents (Elt F)),
    binary main_v178 main_v177 main_v179 (mulf : (⟨S32768x128, .f32⟩ : BufTy).Contents (Elt F) → (⟨S32768x128, .f32⟩ : BufTy).Contents (Elt F) → (⟨S32768x128, .f32⟩ : BufTy).Contents (Elt F)),
    nullary main_c_13 (constantI S_ 32 128#32),
    unary main_c_13 main_v180 (broadcastInDim S1 ![] bcast_S_S1 : (⟨S_, .i32⟩ : BufTy).Contents (Elt F) → (⟨S1, .i32⟩ : BufTy).Contents (Elt F)),
    ternary main_v145 main_v180 main_v179 main_v181 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)) ]

/-- Path 5: its input slice, weight slice, four masked products, the coefficient, and the scatter into the result so far. -/
abbrev seg6 : List (HloOp τ sig (Elt F)) :=
  [ unary main_arg0 main_v182 ((extractStridedSlice S32768x128 ![0, 128] · slices_S32768x512_S32768x128_0_128) : (⟨S32768x512, .f32⟩ : BufTy).Contents (Elt F) → (⟨S32768x128, .f32⟩ : BufTy).Contents (Elt F)),
    unary main_arg1 main_v183 ((extractStridedSlice S4x16384 ![0, 81920] · slices_S4x131072_S4x16384_0_81920) : (⟨S4x131072, .f32⟩ : BufTy).Contents (Elt F) → (⟨S4x16384, .f32⟩ : BufTy).Contents (Elt F)),
    reshape main_v183 main_v184 rfl shapeCasts_S4x16384_S4x128x128,
    nullary main_cst_14 (constant S_ .f32 0x00000000#32),
    unary main_cst_14 main_v185 (broadcastInDim S32768x128 ![] bcast_S_S32768x128 : (⟨S_, .f32⟩ : BufTy).Contents (Elt F) → (⟨S32768x128, .f32⟩ : BufTy).Contents (Elt F)),
    unary main_v0 main_v186 ((extractStridedSlice S32768x1 ![0, 0] · slices_S32768x4_S32768x1_0_0) : (⟨S32768x4, .f32⟩ : BufTy).Contents (Elt F) → (⟨S32768x1, .f32⟩ : BufTy).Contents (Elt F)),
    unary main_v184 main_v187 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v187 main_v188 rfl shapeCasts_S1x128x128_S128x128,
    binary main_v182 main_v188 main_v189 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v186 main_v190 (broadcastInDim S32768x128 ![0, 1] bcast_S32768x1_S32768x128_0_1 : (⟨S32768x1, .f32⟩ : BufTy).Contents (Elt F) → (⟨S32768x128, .f32⟩ : BufTy).Contents (Elt F)),
    binary main_v190 main_v189 main_v191 (mulf : (⟨S32768x128, .f32⟩ : BufTy).Contents (Elt F) → (⟨S32768x128, .f32⟩ : BufTy).Contents (Elt F) → (⟨S32768x128, .f32⟩ : BufTy).Contents (Elt F)),
    binary main_v185 main_v191 main_v192 (addf : (⟨S32768x128, .f32⟩ : BufTy).Contents (Elt F) → (⟨S32768x128, .f32⟩ : BufTy).Contents (Elt F) → (⟨S32768x128, .f32⟩ : BufTy).Contents (Elt F)),
    unary main_v0 main_v193 ((extractStridedSlice S32768x1 ![0, 1] · slices_S32768x4_S32768x1_0_1) : (⟨S32768x4, .f32⟩ : BufTy).Contents (Elt F) → (⟨S32768x1, .f32⟩ : BufTy).Contents (Elt F)),
    unary main_v184 main_v194 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v194 main_v195 rfl shapeCasts_S1x128x128_S128x128,
    binary main_v182 main_v195 main_v196 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v193 main_v197 (broadcastInDim S32768x128 ![0, 1] bcast_S32768x1_S32768x128_0_1 : (⟨S32768x1, .f32⟩ : BufTy).Contents (Elt F) → (⟨S32768x128, .f32⟩ : BufTy).Contents (Elt F)),
    binary main_v197 main_v196 main_v198 (mulf : (⟨S32768x128, .f32⟩ : BufTy).Contents (Elt F) → (⟨S32768x128, .f32⟩ : BufTy).Contents (Elt F) → (⟨S32768x128, .f32⟩ : BufTy).Contents (Elt F)),
    binary main_v192 main_v198 main_v199 (addf : (⟨S32768x128, .f32⟩ : BufTy).Contents (Elt F) → (⟨S32768x128, .f32⟩ : BufTy).Contents (Elt F) → (⟨S32768x128, .f32⟩ : BufTy).Contents (Elt F)),
    unary main_v0 main_v200 ((extractStridedSlice S32768x1 ![0, 2] · slices_S32768x4_S32768x1_0_2) : (⟨S32768x4, .f32⟩ : BufTy).Contents (Elt F) → (⟨S32768x1, .f32⟩ : BufTy).Contents (Elt F)),
    unary main_v184 main_v201 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v201 main_v202 rfl shapeCasts_S1x128x128_S128x128,
    binary main_v182 main_v202 main_v203 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v200 main_v204 (broadcastInDim S32768x128 ![0, 1] bcast_S32768x1_S32768x128_0_1 : (⟨S32768x1, .f32⟩ : BufTy).Contents (Elt F) → (⟨S32768x128, .f32⟩ : BufTy).Contents (Elt F)),
    binary main_v204 main_v203 main_v205 (mulf : (⟨S32768x128, .f32⟩ : BufTy).Contents (Elt F) → (⟨S32768x128, .f32⟩ : BufTy).Contents (Elt F) → (⟨S32768x128, .f32⟩ : BufTy).Contents (Elt F)),
    binary main_v199 main_v205 main_v206 (addf : (⟨S32768x128, .f32⟩ : BufTy).Contents (Elt F) → (⟨S32768x128, .f32⟩ : BufTy).Contents (Elt F) → (⟨S32768x128, .f32⟩ : BufTy).Contents (Elt F)),
    unary main_v0 main_v207 ((extractStridedSlice S32768x1 ![0, 3] · slices_S32768x4_S32768x1_0_3) : (⟨S32768x4, .f32⟩ : BufTy).Contents (Elt F) → (⟨S32768x1, .f32⟩ : BufTy).Contents (Elt F)),
    unary main_v184 main_v208 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v208 main_v209 rfl shapeCasts_S1x128x128_S128x128,
    binary main_v182 main_v209 main_v210 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v207 main_v211 (broadcastInDim S32768x128 ![0, 1] bcast_S32768x1_S32768x128_0_1 : (⟨S32768x1, .f32⟩ : BufTy).Contents (Elt F) → (⟨S32768x128, .f32⟩ : BufTy).Contents (Elt F)),
    binary main_v211 main_v210 main_v212 (mulf : (⟨S32768x128, .f32⟩ : BufTy).Contents (Elt F) → (⟨S32768x128, .f32⟩ : BufTy).Contents (Elt F) → (⟨S32768x128, .f32⟩ : BufTy).Contents (Elt F)),
    binary main_v206 main_v212 main_v213 (addf : (⟨S32768x128, .f32⟩ : BufTy).Contents (Elt F) → (⟨S32768x128, .f32⟩ : BufTy).Contents (Elt F) → (⟨S32768x128, .f32⟩ : BufTy).Contents (Elt F)),
    nullary main_cst_15 (constant S_ .f32 0x3F000000#32),
    unary main_cst_15 main_v214 (broadcastInDim S32768x128 ![] bcast_S_S32768x128 : (⟨S_, .f32⟩ : BufTy).Contents (Elt F) → (⟨S32768x128, .f32⟩ : BufTy).Contents (Elt F)),
    binary main_v214 main_v213 main_v215 (mulf : (⟨S32768x128, .f32⟩ : BufTy).Contents (Elt F) → (⟨S32768x128, .f32⟩ : BufTy).Contents (Elt F) → (⟨S32768x128, .f32⟩ : BufTy).Contents (Elt F)),
    nullary main_c_16 (constantI S_ 32 256#32),
    unary main_c_16 main_v216 (broadcastInDim S1 ![] bcast_S_S1 : (⟨S_, .i32⟩ : BufTy).Contents (Elt F) → (⟨S1, .i32⟩ : BufTy).Contents (Elt F)),
    ternary main_v181 main_v216 main_v215 main_v217 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)) ]

/-- Path 6: its input slice, weight slice, four masked products, the coefficient, and the scatter into the result so far. -/
abbrev seg7 : List (HloOp τ sig (Elt F)) :=
  [ unary main_arg0 main_v218 ((extractStridedSlice S32768x128 ![0, 256] · slices_S32768x512_S32768x128_0_256) : (⟨S32768x512, .f32⟩ : BufTy).Contents (Elt F) → (⟨S32768x128, .f32⟩ : BufTy).Contents (Elt F)),
    unary main_arg1 main_v219 ((extractStridedSlice S4x16384 ![0, 98304] · slices_S4x131072_S4x16384_0_98304) : (⟨S4x131072, .f32⟩ : BufTy).Contents (Elt F) → (⟨S4x16384, .f32⟩ : BufTy).Contents (Elt F)),
    reshape main_v219 main_v220 rfl shapeCasts_S4x16384_S4x128x128,
    nullary main_cst_17 (constant S_ .f32 0x00000000#32),
    unary main_cst_17 main_v221 (broadcastInDim S32768x128 ![] bcast_S_S32768x128 : (⟨S_, .f32⟩ : BufTy).Contents (Elt F) → (⟨S32768x128, .f32⟩ : BufTy).Contents (Elt F)),
    unary main_v0 main_v222 ((extractStridedSlice S32768x1 ![0, 0] · slices_S32768x4_S32768x1_0_0) : (⟨S32768x4, .f32⟩ : BufTy).Contents (Elt F) → (⟨S32768x1, .f32⟩ : BufTy).Contents (Elt F)),
    unary main_v220 main_v223 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v223 main_v224 rfl shapeCasts_S1x128x128_S128x128,
    binary main_v218 main_v224 main_v225 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v222 main_v226 (broadcastInDim S32768x128 ![0, 1] bcast_S32768x1_S32768x128_0_1 : (⟨S32768x1, .f32⟩ : BufTy).Contents (Elt F) → (⟨S32768x128, .f32⟩ : BufTy).Contents (Elt F)),
    binary main_v226 main_v225 main_v227 (mulf : (⟨S32768x128, .f32⟩ : BufTy).Contents (Elt F) → (⟨S32768x128, .f32⟩ : BufTy).Contents (Elt F) → (⟨S32768x128, .f32⟩ : BufTy).Contents (Elt F)),
    binary main_v221 main_v227 main_v228 (addf : (⟨S32768x128, .f32⟩ : BufTy).Contents (Elt F) → (⟨S32768x128, .f32⟩ : BufTy).Contents (Elt F) → (⟨S32768x128, .f32⟩ : BufTy).Contents (Elt F)),
    unary main_v0 main_v229 ((extractStridedSlice S32768x1 ![0, 1] · slices_S32768x4_S32768x1_0_1) : (⟨S32768x4, .f32⟩ : BufTy).Contents (Elt F) → (⟨S32768x1, .f32⟩ : BufTy).Contents (Elt F)),
    unary main_v220 main_v230 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v230 main_v231 rfl shapeCasts_S1x128x128_S128x128,
    binary main_v218 main_v231 main_v232 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v229 main_v233 (broadcastInDim S32768x128 ![0, 1] bcast_S32768x1_S32768x128_0_1 : (⟨S32768x1, .f32⟩ : BufTy).Contents (Elt F) → (⟨S32768x128, .f32⟩ : BufTy).Contents (Elt F)),
    binary main_v233 main_v232 main_v234 (mulf : (⟨S32768x128, .f32⟩ : BufTy).Contents (Elt F) → (⟨S32768x128, .f32⟩ : BufTy).Contents (Elt F) → (⟨S32768x128, .f32⟩ : BufTy).Contents (Elt F)),
    binary main_v228 main_v234 main_v235 (addf : (⟨S32768x128, .f32⟩ : BufTy).Contents (Elt F) → (⟨S32768x128, .f32⟩ : BufTy).Contents (Elt F) → (⟨S32768x128, .f32⟩ : BufTy).Contents (Elt F)),
    unary main_v0 main_v236 ((extractStridedSlice S32768x1 ![0, 2] · slices_S32768x4_S32768x1_0_2) : (⟨S32768x4, .f32⟩ : BufTy).Contents (Elt F) → (⟨S32768x1, .f32⟩ : BufTy).Contents (Elt F)),
    unary main_v220 main_v237 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v237 main_v238 rfl shapeCasts_S1x128x128_S128x128,
    binary main_v218 main_v238 main_v239 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v236 main_v240 (broadcastInDim S32768x128 ![0, 1] bcast_S32768x1_S32768x128_0_1 : (⟨S32768x1, .f32⟩ : BufTy).Contents (Elt F) → (⟨S32768x128, .f32⟩ : BufTy).Contents (Elt F)),
    binary main_v240 main_v239 main_v241 (mulf : (⟨S32768x128, .f32⟩ : BufTy).Contents (Elt F) → (⟨S32768x128, .f32⟩ : BufTy).Contents (Elt F) → (⟨S32768x128, .f32⟩ : BufTy).Contents (Elt F)),
    binary main_v235 main_v241 main_v242 (addf : (⟨S32768x128, .f32⟩ : BufTy).Contents (Elt F) → (⟨S32768x128, .f32⟩ : BufTy).Contents (Elt F) → (⟨S32768x128, .f32⟩ : BufTy).Contents (Elt F)),
    unary main_v0 main_v243 ((extractStridedSlice S32768x1 ![0, 3] · slices_S32768x4_S32768x1_0_3) : (⟨S32768x4, .f32⟩ : BufTy).Contents (Elt F) → (⟨S32768x1, .f32⟩ : BufTy).Contents (Elt F)),
    unary main_v220 main_v244 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v244 main_v245 rfl shapeCasts_S1x128x128_S128x128,
    binary main_v218 main_v245 main_v246 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v243 main_v247 (broadcastInDim S32768x128 ![0, 1] bcast_S32768x1_S32768x128_0_1 : (⟨S32768x1, .f32⟩ : BufTy).Contents (Elt F) → (⟨S32768x128, .f32⟩ : BufTy).Contents (Elt F)),
    binary main_v247 main_v246 main_v248 (mulf : (⟨S32768x128, .f32⟩ : BufTy).Contents (Elt F) → (⟨S32768x128, .f32⟩ : BufTy).Contents (Elt F) → (⟨S32768x128, .f32⟩ : BufTy).Contents (Elt F)),
    binary main_v242 main_v248 main_v249 (addf : (⟨S32768x128, .f32⟩ : BufTy).Contents (Elt F) → (⟨S32768x128, .f32⟩ : BufTy).Contents (Elt F) → (⟨S32768x128, .f32⟩ : BufTy).Contents (Elt F)),
    nullary main_cst_18 (constant S_ .f32 0x3F000000#32),
    unary main_cst_18 main_v250 (broadcastInDim S32768x128 ![] bcast_S_S32768x128 : (⟨S_, .f32⟩ : BufTy).Contents (Elt F) → (⟨S32768x128, .f32⟩ : BufTy).Contents (Elt F)),
    binary main_v250 main_v249 main_v251 (mulf : (⟨S32768x128, .f32⟩ : BufTy).Contents (Elt F) → (⟨S32768x128, .f32⟩ : BufTy).Contents (Elt F) → (⟨S32768x128, .f32⟩ : BufTy).Contents (Elt F)),
    nullary main_c_19 (constantI S_ 32 384#32),
    unary main_c_19 main_v252 (broadcastInDim S1 ![] bcast_S_S1 : (⟨S_, .i32⟩ : BufTy).Contents (Elt F) → (⟨S1, .i32⟩ : BufTy).Contents (Elt F)),
    ternary main_v217 main_v252 main_v251 main_v253 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)) ]

/-- Path 7: its input slice, weight slice, four masked products, the coefficient, and the scatter into the result so far. -/
abbrev seg8 : List (HloOp τ sig (Elt F)) :=
  [ unary main_arg0 main_v254 ((extractStridedSlice S32768x128 ![0, 384] · slices_S32768x512_S32768x128_0_384) : (⟨S32768x512, .f32⟩ : BufTy).Contents (Elt F) → (⟨S32768x128, .f32⟩ : BufTy).Contents (Elt F)),
    unary main_arg1 main_v255 ((extractStridedSlice S4x16384 ![0, 114688] · slices_S4x131072_S4x16384_0_114688) : (⟨S4x131072, .f32⟩ : BufTy).Contents (Elt F) → (⟨S4x16384, .f32⟩ : BufTy).Contents (Elt F)),
    reshape main_v255 main_v256 rfl shapeCasts_S4x16384_S4x128x128,
    nullary main_cst_20 (constant S_ .f32 0x00000000#32),
    unary main_cst_20 main_v257 (broadcastInDim S32768x128 ![] bcast_S_S32768x128 : (⟨S_, .f32⟩ : BufTy).Contents (Elt F) → (⟨S32768x128, .f32⟩ : BufTy).Contents (Elt F)),
    unary main_v0 main_v258 ((extractStridedSlice S32768x1 ![0, 0] · slices_S32768x4_S32768x1_0_0) : (⟨S32768x4, .f32⟩ : BufTy).Contents (Elt F) → (⟨S32768x1, .f32⟩ : BufTy).Contents (Elt F)),
    unary main_v256 main_v259 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v259 main_v260 rfl shapeCasts_S1x128x128_S128x128,
    binary main_v254 main_v260 main_v261 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v258 main_v262 (broadcastInDim S32768x128 ![0, 1] bcast_S32768x1_S32768x128_0_1 : (⟨S32768x1, .f32⟩ : BufTy).Contents (Elt F) → (⟨S32768x128, .f32⟩ : BufTy).Contents (Elt F)),
    binary main_v262 main_v261 main_v263 (mulf : (⟨S32768x128, .f32⟩ : BufTy).Contents (Elt F) → (⟨S32768x128, .f32⟩ : BufTy).Contents (Elt F) → (⟨S32768x128, .f32⟩ : BufTy).Contents (Elt F)),
    binary main_v257 main_v263 main_v264 (addf : (⟨S32768x128, .f32⟩ : BufTy).Contents (Elt F) → (⟨S32768x128, .f32⟩ : BufTy).Contents (Elt F) → (⟨S32768x128, .f32⟩ : BufTy).Contents (Elt F)),
    unary main_v0 main_v265 ((extractStridedSlice S32768x1 ![0, 1] · slices_S32768x4_S32768x1_0_1) : (⟨S32768x4, .f32⟩ : BufTy).Contents (Elt F) → (⟨S32768x1, .f32⟩ : BufTy).Contents (Elt F)),
    unary main_v256 main_v266 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v266 main_v267 rfl shapeCasts_S1x128x128_S128x128,
    binary main_v254 main_v267 main_v268 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v265 main_v269 (broadcastInDim S32768x128 ![0, 1] bcast_S32768x1_S32768x128_0_1 : (⟨S32768x1, .f32⟩ : BufTy).Contents (Elt F) → (⟨S32768x128, .f32⟩ : BufTy).Contents (Elt F)),
    binary main_v269 main_v268 main_v270 (mulf : (⟨S32768x128, .f32⟩ : BufTy).Contents (Elt F) → (⟨S32768x128, .f32⟩ : BufTy).Contents (Elt F) → (⟨S32768x128, .f32⟩ : BufTy).Contents (Elt F)),
    binary main_v264 main_v270 main_v271 (addf : (⟨S32768x128, .f32⟩ : BufTy).Contents (Elt F) → (⟨S32768x128, .f32⟩ : BufTy).Contents (Elt F) → (⟨S32768x128, .f32⟩ : BufTy).Contents (Elt F)),
    unary main_v0 main_v272 ((extractStridedSlice S32768x1 ![0, 2] · slices_S32768x4_S32768x1_0_2) : (⟨S32768x4, .f32⟩ : BufTy).Contents (Elt F) → (⟨S32768x1, .f32⟩ : BufTy).Contents (Elt F)),
    unary main_v256 main_v273 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v273 main_v274 rfl shapeCasts_S1x128x128_S128x128,
    binary main_v254 main_v274 main_v275 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v272 main_v276 (broadcastInDim S32768x128 ![0, 1] bcast_S32768x1_S32768x128_0_1 : (⟨S32768x1, .f32⟩ : BufTy).Contents (Elt F) → (⟨S32768x128, .f32⟩ : BufTy).Contents (Elt F)),
    binary main_v276 main_v275 main_v277 (mulf : (⟨S32768x128, .f32⟩ : BufTy).Contents (Elt F) → (⟨S32768x128, .f32⟩ : BufTy).Contents (Elt F) → (⟨S32768x128, .f32⟩ : BufTy).Contents (Elt F)),
    binary main_v271 main_v277 main_v278 (addf : (⟨S32768x128, .f32⟩ : BufTy).Contents (Elt F) → (⟨S32768x128, .f32⟩ : BufTy).Contents (Elt F) → (⟨S32768x128, .f32⟩ : BufTy).Contents (Elt F)),
    unary main_v0 main_v279 ((extractStridedSlice S32768x1 ![0, 3] · slices_S32768x4_S32768x1_0_3) : (⟨S32768x4, .f32⟩ : BufTy).Contents (Elt F) → (⟨S32768x1, .f32⟩ : BufTy).Contents (Elt F)),
    unary main_v256 main_v280 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v280 main_v281 rfl shapeCasts_S1x128x128_S128x128,
    binary main_v254 main_v281 main_v282 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v279 main_v283 (broadcastInDim S32768x128 ![0, 1] bcast_S32768x1_S32768x128_0_1 : (⟨S32768x1, .f32⟩ : BufTy).Contents (Elt F) → (⟨S32768x128, .f32⟩ : BufTy).Contents (Elt F)),
    binary main_v283 main_v282 main_v284 (mulf : (⟨S32768x128, .f32⟩ : BufTy).Contents (Elt F) → (⟨S32768x128, .f32⟩ : BufTy).Contents (Elt F) → (⟨S32768x128, .f32⟩ : BufTy).Contents (Elt F)),
    binary main_v278 main_v284 main_v285 (addf : (⟨S32768x128, .f32⟩ : BufTy).Contents (Elt F) → (⟨S32768x128, .f32⟩ : BufTy).Contents (Elt F) → (⟨S32768x128, .f32⟩ : BufTy).Contents (Elt F)),
    nullary main_cst_21 (constant S_ .f32 0x3F000000#32),
    unary main_cst_21 main_v286 (broadcastInDim S32768x128 ![] bcast_S_S32768x128 : (⟨S_, .f32⟩ : BufTy).Contents (Elt F) → (⟨S32768x128, .f32⟩ : BufTy).Contents (Elt F)),
    binary main_v286 main_v285 main_v287 (mulf : (⟨S32768x128, .f32⟩ : BufTy).Contents (Elt F) → (⟨S32768x128, .f32⟩ : BufTy).Contents (Elt F) → (⟨S32768x128, .f32⟩ : BufTy).Contents (Elt F)),
    nullary main_c_22 (constantI S_ 32 0#32),
    unary main_c_22 main_v288 (broadcastInDim S1 ![] bcast_S_S1 : (⟨S_, .i32⟩ : BufTy).Contents (Elt F) → (⟨S1, .i32⟩ : BufTy).Contents (Elt F)),
    ternary main_v253 main_v288 main_v287 main_v289 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)) ]

/-- All 320 operations, segment after segment. -/
abbrev allOps : List (HloOp τ sig (Elt F)) :=
  seg0 ++ (seg1 ++ (seg2 ++ (seg3 ++ (seg4 ++ (seg5 ++ (seg6 ++ (seg7 ++ seg8)))))))

/-! ## @main is the line of its operations -/

set_option maxRecDepth 8192 in
set_option maxHeartbeats 4000000 in
theorem main_part0_eq (c : Dev nD) : main_part0 (F := F) c = seq win0 := rfl
set_option maxRecDepth 8192 in
set_option maxHeartbeats 4000000 in
theorem main_part1_eq (c : Dev nD) : main_part1 (F := F) c = seq win1 := rfl
set_option maxRecDepth 8192 in
set_option maxHeartbeats 4000000 in
theorem main_part2_eq (c : Dev nD) : main_part2 (F := F) c = seq win2 := rfl
set_option maxRecDepth 8192 in
set_option maxHeartbeats 4000000 in
theorem main_part3_eq (c : Dev nD) : main_part3 (F := F) c = seq win3 := rfl
set_option maxRecDepth 8192 in
set_option maxHeartbeats 4000000 in
theorem main_part4_eq (c : Dev nD) : main_part4 (F := F) c = seq win4 := rfl
set_option maxRecDepth 8192 in
set_option maxHeartbeats 4000000 in
theorem main_part5_eq (c : Dev nD) : main_part5 (F := F) c = seq win5 := rfl

/-- The two cuts are one list. -/
theorem windows_eq_segments :
    (win0 ++ (win1 ++ (win2 ++ (win3 ++ (win4 ++ win5)))) : List (HloOp τ sig (Elt F))) = allOps := rfl

theorem main_eq (c : Dev nD) : main (F := F) c = seq allOps := by
  rw [← windows_eq_segments]
  simp only [seq_append]
  show (main_part0 (F := F) c >>= fun _ => main_part1 (F := F) c >>= fun _ => main_part2 (F := F) c >>= fun _ =>
    main_part3 (F := F) c >>= fun _ => main_part4 (F := F) c >>= fun _ => main_part5 (F := F) c) = _
  rw [main_part0_eq, main_part1_eq, main_part2_eq, main_part3_eq, main_part4_eq, main_part5_eq]

theorem scopedRefs_eq : (Finset.univ.filter fun b : Ref sig .tc => b.isScoped) = ∅ := by decide
theorem scopedSems_eq : (Finset.univ.filter fun sm : SemLoc sig => sm.isScoped .tc) = ∅ := by decide

/-! ## The operations' buffers, and that none is allocated -/

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

theorem seg0_sub : (seg0 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub ..⟩
theorem seg0_fresh : (seg0 : List (HloOp τ sig (Elt F))).Forall fun op => op.fresh = ∅ := by
  simp only [List.Forall]; repeat' constructor
theorem seg1_sub : (seg1 : List (HloOp τ sig (Elt F))).Forall fun op => op.bufs ⊆ tcRefs τ sig :=
  ⟨unary_bufs_sub .., unary_bufs_sub .., reshape_bufs_sub .., nullary_bufs_sub .., unary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., nullary_bufs_sub .., unary_bufs_sub .., binary_bufs_sub .., nullary_bufs_sub .., unary_bufs_sub .., ternary_bufs_sub ..⟩
theorem seg1_fresh : (seg1 : List (HloOp τ sig (Elt F))).Forall fun op => op.fresh = ∅ := by
  simp only [List.Forall]; repeat' constructor
theorem seg2_sub : (seg2 : List (HloOp τ sig (Elt F))).Forall fun op => op.bufs ⊆ tcRefs τ sig :=
  ⟨unary_bufs_sub .., unary_bufs_sub .., reshape_bufs_sub .., nullary_bufs_sub .., unary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., nullary_bufs_sub .., unary_bufs_sub .., binary_bufs_sub .., nullary_bufs_sub .., unary_bufs_sub .., ternary_bufs_sub ..⟩
theorem seg2_fresh : (seg2 : List (HloOp τ sig (Elt F))).Forall fun op => op.fresh = ∅ := by
  simp only [List.Forall]; repeat' constructor
theorem seg3_sub : (seg3 : List (HloOp τ sig (Elt F))).Forall fun op => op.bufs ⊆ tcRefs τ sig :=
  ⟨unary_bufs_sub .., unary_bufs_sub .., reshape_bufs_sub .., nullary_bufs_sub .., unary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., nullary_bufs_sub .., unary_bufs_sub .., binary_bufs_sub .., nullary_bufs_sub .., unary_bufs_sub .., ternary_bufs_sub ..⟩
theorem seg3_fresh : (seg3 : List (HloOp τ sig (Elt F))).Forall fun op => op.fresh = ∅ := by
  simp only [List.Forall]; repeat' constructor
theorem seg4_sub : (seg4 : List (HloOp τ sig (Elt F))).Forall fun op => op.bufs ⊆ tcRefs τ sig :=
  ⟨unary_bufs_sub .., unary_bufs_sub .., reshape_bufs_sub .., nullary_bufs_sub .., unary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., nullary_bufs_sub .., unary_bufs_sub .., binary_bufs_sub .., nullary_bufs_sub .., unary_bufs_sub .., ternary_bufs_sub ..⟩
theorem seg4_fresh : (seg4 : List (HloOp τ sig (Elt F))).Forall fun op => op.fresh = ∅ := by
  simp only [List.Forall]; repeat' constructor
theorem seg5_sub : (seg5 : List (HloOp τ sig (Elt F))).Forall fun op => op.bufs ⊆ tcRefs τ sig :=
  ⟨unary_bufs_sub .., unary_bufs_sub .., reshape_bufs_sub .., nullary_bufs_sub .., unary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., nullary_bufs_sub .., unary_bufs_sub .., binary_bufs_sub .., nullary_bufs_sub .., unary_bufs_sub .., ternary_bufs_sub ..⟩
theorem seg5_fresh : (seg5 : List (HloOp τ sig (Elt F))).Forall fun op => op.fresh = ∅ := by
  simp only [List.Forall]; repeat' constructor
theorem seg6_sub : (seg6 : List (HloOp τ sig (Elt F))).Forall fun op => op.bufs ⊆ tcRefs τ sig :=
  ⟨unary_bufs_sub .., unary_bufs_sub .., reshape_bufs_sub .., nullary_bufs_sub .., unary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., nullary_bufs_sub .., unary_bufs_sub .., binary_bufs_sub .., nullary_bufs_sub .., unary_bufs_sub .., ternary_bufs_sub ..⟩
theorem seg6_fresh : (seg6 : List (HloOp τ sig (Elt F))).Forall fun op => op.fresh = ∅ := by
  simp only [List.Forall]; repeat' constructor
theorem seg7_sub : (seg7 : List (HloOp τ sig (Elt F))).Forall fun op => op.bufs ⊆ tcRefs τ sig :=
  ⟨unary_bufs_sub .., unary_bufs_sub .., reshape_bufs_sub .., nullary_bufs_sub .., unary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., nullary_bufs_sub .., unary_bufs_sub .., binary_bufs_sub .., nullary_bufs_sub .., unary_bufs_sub .., ternary_bufs_sub ..⟩
theorem seg7_fresh : (seg7 : List (HloOp τ sig (Elt F))).Forall fun op => op.fresh = ∅ := by
  simp only [List.Forall]; repeat' constructor
theorem seg8_sub : (seg8 : List (HloOp τ sig (Elt F))).Forall fun op => op.bufs ⊆ tcRefs τ sig :=
  ⟨unary_bufs_sub .., unary_bufs_sub .., reshape_bufs_sub .., nullary_bufs_sub .., unary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., nullary_bufs_sub .., unary_bufs_sub .., binary_bufs_sub .., nullary_bufs_sub .., unary_bufs_sub .., ternary_bufs_sub ..⟩
theorem seg8_fresh : (seg8 : List (HloOp τ sig (Elt F))).Forall fun op => op.fresh = ∅ := by
  simp only [List.Forall]; repeat' constructor

theorem allOps_sub : (allOps : List (HloOp τ sig (Elt F))).Forall fun op => op.bufs ⊆ tcRefs τ sig :=
  forall_append seg0_sub (forall_append seg1_sub (forall_append seg2_sub (forall_append seg3_sub (forall_append seg4_sub
    (forall_append seg5_sub (forall_append seg6_sub (forall_append seg7_sub seg8_sub)))))))

theorem allOps_fresh : ∀ op ∈ (allOps : List (HloOp τ sig (Elt F))), op.fresh = ∅ :=
  List.forall_iff_forall_mem.mp
    (forall_append seg0_fresh (forall_append seg1_fresh (forall_append seg2_fresh (forall_append seg3_fresh (forall_append seg4_fresh
      (forall_append seg5_fresh (forall_append seg6_fresh (forall_append seg7_fresh seg8_fresh))))))))

end Cert.ReferenceIdeal.HandRun

end
-- ==== Proof.ReferenceValue.lean ====
/-
  The reference's run, read one segment at a time.

  The contents of the TensorCore's buffers after a line of operations is a fold over the line; the fold over
  two lines one after the other is the second line's fold started from the first's. So the buffers after all
  320 operations are reached through nine stops: after the prologue, then after each path's segment. At every
  stop five buffers matter — the three arguments, which no operation writes; the one-hot array, written once in
  the prologue; and the result so far — and each segment's 39 operations compute the next result so far from
  exactly these. Reading a segment's fold therefore gives the next stage of the program read one operation at a
  time (the `val_` stages) from the previous one, and chaining the nine stops gives the run: every weakly fair
  execution of @main terminates with the result buffer at the last stage's value of the arguments, the
  arguments unchanged.
-/
import proofs.«104890_j59356448030869_2_alg».proof.Proof.ReferenceOps
import proofs.«104890_j59356448030869_2_alg».proof.Proof.ReferenceRead

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The fold over two lines is the second's from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## One segment at a time -/

/-- What matters of the buffers at a stop: the arguments as given, the one-hot array of the ids, and the result so
    far at its stage's value. -/
structure Stop (W : Valuation τ sig (Elt F)) (acc : Ref sig .tc)
    (x0 : (⟨S32768x512, .f32⟩ : BufTy).Contents (Elt F)) (x1 : (⟨S4x131072, .f32⟩ : BufTy).Contents (Elt F))
    (x2 : (⟨S32768, .i32⟩ : BufTy).Contents (Elt F)) : Prop where
  arg0 : W (Proc.devRef .tc main_arg0) = x0
  arg1 : W (Proc.devRef .tc main_arg1) = x1
  arg2 : W (Proc.devRef .tc main_arg2) = x2
  onehot : W (Proc.devRef .tc main_v0) = ReadP.val_main_v0 (F := F) x2

set_option maxHeartbeats 4000000 in
/-- After the prologue: the one-hot array and the zero array are written, the arguments untouched. -/
theorem stop0 (V : Valuation τ sig (Elt F)) :
    Stop (after seg0 V) main_v1 (V (Proc.devRef .tc main_arg0)) (V (Proc.devRef .tc main_arg1)) (V (Proc.devRef .tc main_arg2))
      ∧ after seg0 V (Proc.devRef .tc main_v1) = ReadP.val_main_v1 (F := F) := by
  refine ⟨⟨?_, ?_, ?_, ?_⟩, ?_⟩
  · dsimp only [seg0]; after_results_simp
  · dsimp only [seg0]; after_results_simp
  · dsimp only [seg0]; after_results_simp
  · dsimp only [seg0]; after_results_simp; rfl
  · dsimp only [seg0]; after_results_simp; rfl

set_option maxHeartbeats 4000000 in
/-- Path 0's segment: the next result so far from the previous one, everything else that matters untouched. -/
theorem stop1 (W : Valuation τ sig (Elt F)) (x0 : (⟨S32768x512, .f32⟩ : BufTy).Contents (Elt F))
    (x1 : (⟨S4x131072, .f32⟩ : BufTy).Contents (Elt F)) (x2 : (⟨S32768, .i32⟩ : BufTy).Contents (Elt F))
    (h : Stop W main_v1 x0 x1 x2) (hacc : W (Proc.devRef .tc main_v1) = ReadP.val_main_v1 (F := F)) :
    Stop (after seg1 W) main_v37 x0 x1 x2
      ∧ after seg1 W (Proc.devRef .tc main_v37) = ReadP.val_main_v37 (F := F) x0 x1 x2 := by
  obtain ⟨h0, h1, h2, hoh⟩ := h
  refine ⟨⟨?_, ?_, ?_, ?_⟩, ?_⟩
  · dsimp only [seg1]; after_results_simp; exact h0
  · dsimp only [seg1]; after_results_simp; exact h1
  · dsimp only [seg1]; after_results_simp; exact h2
  · dsimp only [seg1]; after_results_simp; exact hoh
  · dsimp only [seg1]; after_results_simp; rw [h0, h1, hoh, hacc]; rfl

set_option maxHeartbeats 4000000 in
/-- Path 1's segment: the next result so far from the previous one, everything else that matters untouched. -/
theorem stop2 (W : Valuation τ sig (Elt F)) (x0 : (⟨S32768x512, .f32⟩ : BufTy).Contents (Elt F))
    (x1 : (⟨S4x131072, .f32⟩ : BufTy).Contents (Elt F)) (x2 : (⟨S32768, .i32⟩ : BufTy).Contents (Elt F))
    (h : Stop W main_v37 x0 x1 x2) (hacc : W (Proc.devRef .tc main_v37) = ReadP.val_main_v37 (F := F) x0 x1 x2) :
    Stop (after seg2 W) main_v73 x0 x1 x2
      ∧ after seg2 W (Proc.devRef .tc main_v73) = ReadP.val_main_v73 (F := F) x0 x1 x2 := by
  obtain ⟨h0, h1, h2, hoh⟩ := h
  refine ⟨⟨?_, ?_, ?_, ?_⟩, ?_⟩
  · dsimp only [seg2]; after_results_simp; exact h0
  · dsimp only [seg2]; after_results_simp; exact h1
  · dsimp only [seg2]; after_results_simp; exact h2
  · dsimp only [seg2]; after_results_simp; exact hoh
  · dsimp only [seg2]; after_results_simp; rw [h0, h1, hoh, hacc]; rfl

set_option maxHeartbeats 4000000 in
/-- Path 2's segment: the next result so far from the previous one, everything else that matters untouched. -/
theorem stop3 (W : Valuation τ sig (Elt F)) (x0 : (⟨S32768x512, .f32⟩ : BufTy).Contents (Elt F))
    (x1 : (⟨S4x131072, .f32⟩ : BufTy).Contents (Elt F)) (x2 : (⟨S32768, .i32⟩ : BufTy).Contents (Elt F))
    (h : Stop W main_v73 x0 x1 x2) (hacc : W (Proc.devRef .tc main_v73) = ReadP.val_main_v73 (F := F) x0 x1 x2) :
    Stop (after seg3 W) main_v109 x0 x1 x2
      ∧ after seg3 W (Proc.devRef .tc main_v109) = ReadP.val_main_v109 (F := F) x0 x1 x2 := by
  obtain ⟨h0, h1, h2, hoh⟩ := h
  refine ⟨⟨?_, ?_, ?_, ?_⟩, ?_⟩
  · dsimp only [seg3]; after_results_simp; exact h0
  · dsimp only [seg3]; after_results_simp; exact h1
  · dsimp only [seg3]; after_results_simp; exact h2
  · dsimp only [seg3]; after_results_simp; exact hoh
  · dsimp only [seg3]; after_results_simp; rw [h0, h1, hoh, hacc]; rfl

set_option maxHeartbeats 4000000 in
/-- Path 3's segment: the next result so far from the previous one, everything else that matters untouched. -/
theorem stop4 (W : Valuation τ sig (Elt F)) (x0 : (⟨S32768x512, .f32⟩ : BufTy).Contents (Elt F))
    (x1 : (⟨S4x131072, .f32⟩ : BufTy).Contents (Elt F)) (x2 : (⟨S32768, .i32⟩ : BufTy).Contents (Elt F))
    (h : Stop W main_v109 x0 x1 x2) (hacc : W (Proc.devRef .tc main_v109) = ReadP.val_main_v109 (F := F) x0 x1 x2) :
    Stop (after seg4 W) main_v145 x0 x1 x2
      ∧ after seg4 W (Proc.devRef .tc main_v145) = ReadP.val_main_v145 (F := F) x0 x1 x2 := by
  obtain ⟨h0, h1, h2, hoh⟩ := h
  refine ⟨⟨?_, ?_, ?_, ?_⟩, ?_⟩
  · dsimp only [seg4]; after_results_simp; exact h0
  · dsimp only [seg4]; after_results_simp; exact h1
  · dsimp only [seg4]; after_results_simp; exact h2
  · dsimp only [seg4]; after_results_simp; exact hoh
  · dsimp only [seg4]; after_results_simp; rw [h0, h1, hoh, hacc]; rfl

set_option maxHeartbeats 4000000 in
/-- Path 4's segment: the next result so far from the previous one, everything else that matters untouched. -/
theorem stop5 (W : Valuation τ sig (Elt F)) (x0 : (⟨S32768x512, .f32⟩ : BufTy).Contents (Elt F))
    (x1 : (⟨S4x131072, .f32⟩ : BufTy).Contents (Elt F)) (x2 : (⟨S32768, .i32⟩ : BufTy).Contents (Elt F))
    (h : Stop W main_v145 x0 x1 x2) (hacc : W (Proc.devRef .tc main_v145) = ReadP.val_main_v145 (F := F) x0 x1 x2) :
    Stop (after seg5 W) main_v181 x0 x1 x2
      ∧ after seg5 W (Proc.devRef .tc main_v181) = ReadP.val_main_v181 (F := F) x0 x1 x2 := by
  obtain ⟨h0, h1, h2, hoh⟩ := h
  refine ⟨⟨?_, ?_, ?_, ?_⟩, ?_⟩
  · dsimp only [seg5]; after_results_simp; exact h0
  · dsimp only [seg5]; after_results_simp; exact h1
  · dsimp only [seg5]; after_results_simp; exact h2
  · dsimp only [seg5]; after_results_simp; exact hoh
  · dsimp only [seg5]; after_results_simp; rw [h0, h1, hoh, hacc]; rfl

set_option maxHeartbeats 4000000 in
/-- Path 5's segment: the next result so far from the previous one, everything else that matters untouched. -/
theorem stop6 (W : Valuation τ sig (Elt F)) (x0 : (⟨S32768x512, .f32⟩ : BufTy).Contents (Elt F))
    (x1 : (⟨S4x131072, .f32⟩ : BufTy).Contents (Elt F)) (x2 : (⟨S32768, .i32⟩ : BufTy).Contents (Elt F))
    (h : Stop W main_v181 x0 x1 x2) (hacc : W (Proc.devRef .tc main_v181) = ReadP.val_main_v181 (F := F) x0 x1 x2) :
    Stop (after seg6 W) main_v217 x0 x1 x2
      ∧ after seg6 W (Proc.devRef .tc main_v217) = ReadP.val_main_v217 (F := F) x0 x1 x2 := by
  obtain ⟨h0, h1, h2, hoh⟩ := h
  refine ⟨⟨?_, ?_, ?_, ?_⟩, ?_⟩
  · dsimp only [seg6]; after_results_simp; exact h0
  · dsimp only [seg6]; after_results_simp; exact h1
  · dsimp only [seg6]; after_results_simp; exact h2
  · dsimp only [seg6]; after_results_simp; exact hoh
  · dsimp only [seg6]; after_results_simp; rw [h0, h1, hoh, hacc]; rfl

set_option maxHeartbeats 4000000 in
/-- Path 6's segment: the next result so far from the previous one, everything else that matters untouched. -/
theorem stop7 (W : Valuation τ sig (Elt F)) (x0 : (⟨S32768x512, .f32⟩ : BufTy).Contents (Elt F))
    (x1 : (⟨S4x131072, .f32⟩ : BufTy).Contents (Elt F)) (x2 : (⟨S32768, .i32⟩ : BufTy).Contents (Elt F))
    (h : Stop W main_v217 x0 x1 x2) (hacc : W (Proc.devRef .tc main_v217) = ReadP.val_main_v217 (F := F) x0 x1 x2) :
    Stop (after seg7 W) main_v253 x0 x1 x2
      ∧ after seg7 W (Proc.devRef .tc main_v253) = ReadP.val_main_v253 (F := F) x0 x1 x2 := by
  obtain ⟨h0, h1, h2, hoh⟩ := h
  refine ⟨⟨?_, ?_, ?_, ?_⟩, ?_⟩
  · dsimp only [seg7]; after_results_simp; exact h0
  · dsimp only [seg7]; after_results_simp; exact h1
  · dsimp only [seg7]; after_results_simp; exact h2
  · dsimp only [seg7]; after_results_simp; exact hoh
  · dsimp only [seg7]; after_results_simp; rw [h0, h1, hoh, hacc]; rfl

set_option maxHeartbeats 4000000 in
/-- Path 7's segment: the next result so far from the previous one, everything else that matters untouched. -/
theorem stop8 (W : Valuation τ sig (Elt F)) (x0 : (⟨S32768x512, .f32⟩ : BufTy).Contents (Elt F))
    (x1 : (⟨S4x131072, .f32⟩ : BufTy).Contents (Elt F)) (x2 : (⟨S32768, .i32⟩ : BufTy).Contents (Elt F))
    (h : Stop W main_v253 x0 x1 x2) (hacc : W (Proc.devRef .tc main_v253) = ReadP.val_main_v253 (F := F) x0 x1 x2) :
    Stop (after seg8 W) main_v289 x0 x1 x2
      ∧ after seg8 W (Proc.devRef .tc main_v289) = ReadP.val_main_v289 (F := F) x0 x1 x2 := by
  obtain ⟨h0, h1, h2, hoh⟩ := h
  refine ⟨⟨?_, ?_, ?_, ?_⟩, ?_⟩
  · dsimp only [seg8]; after_results_simp; exact h0
  · dsimp only [seg8]; after_results_simp; exact h1
  · dsimp only [seg8]; after_results_simp; exact h2
  · dsimp only [seg8]; after_results_simp; exact hoh
  · dsimp only [seg8]; after_results_simp; rw [h0, h1, hoh, hacc]; rfl

/-! ## The nine stops in a row -/

/-- After all 320 operations the result buffer holds the last stage's value of the argument buffers' launch
    contents, and the argument buffers hold what they held. -/
theorem after_allOps (V : Valuation τ sig (Elt F)) :
    after allOps V (Proc.devRef .tc main_v289)
        = ReadP.val_main_v289 (F := F) (V (Proc.devRef .tc main_arg0)) (V (Proc.devRef .tc main_arg1)) (V (Proc.devRef .tc main_arg2))
      ∧ after allOps V (Proc.devRef .tc main_arg0) = V (Proc.devRef .tc main_arg0)
      ∧ after allOps V (Proc.devRef .tc main_arg1) = V (Proc.devRef .tc main_arg1)
      ∧ after allOps V (Proc.devRef .tc main_arg2) = V (Proc.devRef .tc main_arg2) := by
  obtain ⟨s0, a0⟩ := stop0 (F := F) V
  obtain ⟨s1, a1⟩ := stop1 _ _ _ _ s0 a0
  obtain ⟨s2, a2⟩ := stop2 _ _ _ _ s1 a1
  obtain ⟨s3, a3⟩ := stop3 _ _ _ _ s2 a2
  obtain ⟨s4, a4⟩ := stop4 _ _ _ _ s3 a3
  obtain ⟨s5, a5⟩ := stop5 _ _ _ _ s4 a4
  obtain ⟨s6, a6⟩ := stop6 _ _ _ _ s5 a5
  obtain ⟨s7, a7⟩ := stop7 _ _ _ _ s6 a6
  obtain ⟨s8, a8⟩ := stop8 _ _ _ _ s7 a7
  have hall : after (allOps : List (HloOp τ sig (Elt F))) V
      = after seg8 (after seg7 (after seg6 (after seg5 (after seg4 (after seg3 (after seg2 (after seg1 (after seg0 V)))))))) := by
    unfold allOps
    simp only [after_append]
  rw [hall]
  exact ⟨a8, s8.arg0, s8.arg1, s8.arg2⟩

/-! ## The run -/

/-- On every device, from any memory with zero counters: every weakly fair execution of @main terminates with the
    result at the last stage's value of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v289)
          = ReadP.val_main_v289 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      have ha := after_allOps (F := F) (launchContents m c)
      ⟨(h c main_v289).trans ha.1, (h c main_arg0).trans ha.2.1, (h c main_arg1).trans ha.2.2.1, (h c main_arg2).trans ha.2.2.2⟩)
    (run_seq scopedRefs_eq scopedSems_eq defs main (fun _ => allOps) main_eq (fun _ => allOps_sub) m ρ (fun _ => allOps_fresh))

end Cert.ReferenceIdeal.HandRun

end
-- ==== Proof.LibScatterFold.lean ====
/-
  A host scatter read at an index.

  `Host.scatter d f x idx upd` is a left fold over the update indices, in row-major order: each update
  index `j` whose result index `d.resultIdx? j idx` lies inside the operand replaces the operand's element
  there by `f` of that element and the update's element at `j`; an update index that lands outside is
  dropped. Read at ONE operand index `i`, the fold is decided by the update indices that land on `i`:
  if none does, the element is the operand's (`scatter_apply_of_miss`); if exactly one `j` does, the
  element is `f (x i) (upd j)` (`scatter_apply_of_hit`) — the steps of the other update indices leave
  position `i` alone, whatever they write elsewhere. Nothing here evaluates the fold: the two facts are
  proved by induction over an arbitrary duplicate-free list of steps, for any step function that leaves
  position `i` alone when its step does not land there and writes `f` of the old value and the step's
  update when it does.
-/
import Idealize.ShloMosaic.PureOps

namespace Idealize.ShloMosaic.ScatterFold

variable {ι κ α : Type}

/-- A fold of steps read at a position that no step of the list lands on: the initial value. -/
theorem foldl_apply_of_forall_ne (stp : (κ → α) → ι → κ → α) (g : ι → Option κ) (i : κ)
    (hmiss : ∀ r n, g n ≠ some i → stp r n i = r i) (L : List ι) (x : κ → α)
    (h : ∀ n ∈ L, g n ≠ some i) : L.foldl stp x i = x i := by
  induction L generalizing x with
  | nil => rfl
  | cons a L ih =>
    rw [List.foldl_cons, ih _ (fun n hn => h n (List.mem_cons_of_mem _ hn))]
    exact hmiss x a (h a List.mem_cons_self)

/-- A fold of steps over a duplicate-free list, read at a position that exactly one step `n` lands on:
    `f` of the initial value there and that step's update. -/
theorem foldl_apply_of_unique (stp : (κ → α) → ι → κ → α) (g : ι → Option κ) (f : α → α → α) (u : ι → α) (i : κ)
    (hmiss : ∀ r n, g n ≠ some i → stp r n i = r i) (hhit : ∀ r n, g n = some i → stp r n i = f (r i) (u n))
    (L : List ι) (hL : L.Nodup) (x : κ → α) (n : ι) (hn : n ∈ L) (hg : g n = some i)
    (huniq : ∀ n' ∈ L, g n' = some i → n' = n) : L.foldl stp x i = f (x i) (u n) := by
  induction L generalizing x with
  | nil => exact absurd hn List.not_mem_nil
  | cons a L ih =>
    rw [List.foldl_cons]
    have hnd := List.nodup_cons.1 hL
    by_cases han : a = n
    · subst han
      rw [foldl_apply_of_forall_ne stp g i hmiss L _ (fun n' hn' hg' => by
        have := huniq n' (List.mem_cons_of_mem _ hn') hg'
        exact hnd.1 (this ▸ hn'))]
      exact hhit x a hg
    · have hnL : n ∈ L := by
        rcases List.mem_cons.1 hn with h | h
        · exact absurd h.symm han
        · exact h
      rw [ih hnd.2 _ hnL (fun n' hn' hg' => huniq n' (List.mem_cons_of_mem _ hn') hg')]
      congr 1
      exact hmiss x a (fun hga => han (huniq a List.mem_cons_self hga))

variable {s si u : Shape} {w : Nat}

/-- A scatter read at an operand index on which no update index lands: the operand's element. -/
theorem scatter_apply_of_miss (d : ScatterDims s si u) (f : α → α → α) (x : s.Idx → α) (idx : IVec si w) (upd : u.Idx → α)
    (i : s.Idx) (h : ∀ j : u.Idx, d.resultIdx? j idx ≠ some i) :
    Host.scatter d f x idx upd i = x i := by
  unfold Host.scatter
  refine foldl_apply_of_forall_ne _ (fun n => d.resultIdx? (u.rowMajor.symm n) idx) i ?_ _ x (fun n _ => h _)
  intro r n hne
  try dsimp only at hne ⊢
  generalize d.resultIdx? (u.rowMajor.symm n) idx = o at hne ⊢
  cases o with
  | none => rfl
  | some k =>
    show (if i = k then _ else r i) = r i
    rw [if_neg]
    intro hik
    exact hne (by rw [hik])

/-- A scatter read at an operand index on which exactly one update index `j` lands: `f` of the operand's
    element and the update's element at `j`. -/
theorem scatter_apply_of_hit (d : ScatterDims s si u) (f : α → α → α) (x : s.Idx → α) (idx : IVec si w) (upd : u.Idx → α)
    (i : s.Idx) (j : u.Idx) (hj : d.resultIdx? j idx = some i) (huniq : ∀ j' : u.Idx, d.resultIdx? j' idx = some i → j' = j) :
    Host.scatter d f x idx upd i = f (x i) (upd j) := by
  unfold Host.scatter
  refine (foldl_apply_of_unique _ (fun n => d.resultIdx? (u.rowMajor.symm n) idx) f (fun n => upd (u.rowMajor.symm n)) i
    ?_ ?_ (List.finRange u.numel) (List.nodup_finRange _) x (u.rowMajor j) (List.mem_finRange _)
    (by show d.resultIdx? (u.rowMajor.symm (u.rowMajor j)) idx = some i; rw [Equiv.symm_apply_apply]; exact hj)
    (fun n' _ hg' => by
      have := huniq _ hg'
      rw [← this, Equiv.apply_symm_apply])).trans ?_
  · intro r n hne
    try dsimp only at hne ⊢
    generalize d.resultIdx? (u.rowMajor.symm n) idx = o at hne ⊢
    cases o with
    | none => rfl
    | some k =>
      show (if i = k then _ else r i) = r i
      rw [if_neg]
      intro hik
      exact hne (by rw [hik])
  · intro r n hg
    try dsimp only at hg ⊢
    generalize d.resultIdx? (u.rowMajor.symm n) idx = o at hg ⊢
    cases o with
    | none => exact absurd hg (by simp)
    | some k =>
      have hki : k = i := Option.some.inj hg
      subst hki
      show (if k = k then _ else r k) = _
      rw [if_pos rfl]
  · show f (x i) (upd (u.rowMajor.symm (u.rowMajor j))) = _
    rw [Equiv.symm_apply_apply]

end Idealize.ShloMosaic.ScatterFold
-- ==== Proof.ScatterWindow.lean ====
/-
  The reference's scatter, read at an index.

  Every scatter of the reference adds a whole [32768, 128] update array into a [32768, 512] operand at a
  literal column offset c0 (one scatter index, holding c0; the update window is the whole update). Update
  index (r, t) lands on operand index (r, c0 + t). Hence, read at operand index (b, q): if q lies in
  [c0, c0 + 128) exactly one update index lands there, (b, q - c0), and the element is f of the operand's
  element and that update element; otherwise no update index lands there and the element is the operand's.
-/
import proofs.«104890_j59356448030869_2_alg».proof.Proof.Gen.ReferenceIdeal
import proofs.«104890_j59356448030869_2_alg».proof.Proof.LibScatterFold
import Idealize.ShloMosaic.Lib.ValueIdx

namespace Cert.ReferenceIdeal.ArrayValue

open Cert.ReferenceIdeal Cert.ReferenceIdeal.Gen Idealize.ShloMosaic Idealize.ShloMosaic.ValueIdx

theorem start_row (j : S32768x128.Idx) (idx : IVec S1 32) :
    scatter_S32768x512_S1_S32768x128_01_n_1_0.start j idx 0 = 0 := by
  unfold ScatterDims.start
  rw [dif_neg (by decide)]

theorem start_col (j : S32768x128.Idx) (idx : IVec S1 32) (c : BitVec 32) (hidx : ∀ k, idx k = c) :
    scatter_S32768x512_S1_S32768x128_01_n_1_0.start j idx 1 = c.toInt := by
  unfold ScatterDims.start
  rw [dif_pos (by decide), hidx]

theorem window_row (j : S32768x128.Idx) :
    scatter_S32768x512_S1_S32768x128_01_n_1_0.window j 0 = (j 0).val := by
  unfold ScatterDims.window
  rw [dif_pos (by decide)]
  rfl

theorem window_col (j : S32768x128.Idx) :
    scatter_S32768x512_S1_S32768x128_01_n_1_0.window j 1 = (j 1).val := by
  unfold ScatterDims.window
  rw [dif_pos (by decide)]
  rfl

/-- Update index j = (r, t) lands on (r, c0 + t), always inside the operand when c0 + 128 ≤ 512. -/
theorem resultIdx_eq (idx : IVec S1 32) (c : BitVec 32) (c0 : Nat) (hc : c.toInt = (c0 : Int)) (hb : c0 + 128 ≤ 512)
    (hidx : ∀ k, idx k = c) (j : S32768x128.Idx) :
    scatter_S32768x512_S1_S32768x128_01_n_1_0.resultIdx? j idx
      = some (ix2 (j 0) (⟨c0 + (j 1).val, by have := idx2_lt1 j; omega⟩ : Fin 512)) := by
  have h0 := idx2_lt0 j
  have h1 := idx2_lt1 j
  unfold ScatterDims.resultIdx?
  rw [dif_pos (fun a => by
    match a with
    | ⟨0, _⟩ => rw [show (⟨0, by decide⟩ : Fin S32768x512.rank) = 0 from rfl, start_row, window_row]; show _ ∧ _ < (32768 : Int); omega
    | ⟨1, _⟩ => rw [show (⟨1, by decide⟩ : Fin S32768x512.rank) = 1 from rfl, start_col j idx c hidx, window_col, hc]; show _ ∧ _ < (512 : Int); omega)]
  congr 1
  funext a
  match a with
  | ⟨0, _⟩ =>
    refine Fin.ext ?_
    show (scatter_S32768x512_S1_S32768x128_01_n_1_0.start j idx 0 + (scatter_S32768x512_S1_S32768x128_01_n_1_0.window j 0 : Int)).toNat = (j 0).val
    rw [start_row, window_row]; omega
  | ⟨1, _⟩ =>
    refine Fin.ext ?_
    show (scatter_S32768x512_S1_S32768x128_01_n_1_0.start j idx 1 + (scatter_S32768x512_S1_S32768x128_01_n_1_0.window j 1 : Int)).toNat = c0 + (j 1).val
    rw [start_col j idx c hidx, window_col, hc]; omega

/-- Two rank-2 indices built from coordinates are equal only if the coordinates are. -/
theorem ix2_inj {n0 n1 : Nat} {a a' : Fin n0} {b b' : Fin n1} (h : ix2 a b = ix2 a' b') : a = a' ∧ b = b' :=
  ⟨congrFun h 0, congrFun h 1⟩

/-- The scatter read at (b, q) with q outside the window's columns: the operand's element. -/
theorem scatter_apply_outside {α : Type} (f : α → α → α) (x : S32768x512.Idx → α) (idx : IVec S1 32) (upd : S32768x128.Idx → α)
    (c : BitVec 32) (c0 : Nat) (hc : c.toInt = (c0 : Int)) (hb : c0 + 128 ≤ 512) (hidx : ∀ k, idx k = c)
    (b : Fin 32768) (q : Fin 512) (hq : ¬ (c0 ≤ q.val ∧ q.val < c0 + 128)) :
    Host.scatter scatter_S32768x512_S1_S32768x128_01_n_1_0 f x idx upd (ix2 b q) = x (ix2 b q) := by
  refine ScatterFold.scatter_apply_of_miss _ f x idx upd _ (fun j hj => ?_)
  rw [resultIdx_eq idx c c0 hc hb hidx j] at hj
  have h1 := idx2_lt1 j
  have := congrArg Fin.val (ix2_inj (Option.some.inj hj)).2
  simp only at this
  omega

/-- The scatter read at (b, c0 + t), inside the window's columns: f of the operand's element and the
    update's element at (b, t). -/
theorem scatter_apply_inside {α : Type} (f : α → α → α) (x : S32768x512.Idx → α) (idx : IVec S1 32) (upd : S32768x128.Idx → α)
    (c : BitVec 32) (c0 : Nat) (hc : c.toInt = (c0 : Int)) (hb : c0 + 128 ≤ 512) (hidx : ∀ k, idx k = c)
    (b : Fin 32768) (q : Fin 512) (t : Fin 128) (hq : q.val = c0 + t.val) :
    Host.scatter scatter_S32768x512_S1_S32768x128_01_n_1_0 f x idx upd (ix2 b q) = f (x (ix2 b q)) (upd (ix2 b t)) := by
  refine ScatterFold.scatter_apply_of_hit _ f x idx upd _ (ix2 b t) ?_ (fun j hj => ?_)
  · rw [resultIdx_eq idx c c0 hc hb hidx (ix2 b t)]
    exact congrArg some (congrArg (ix2 b) (Fin.ext hq.symm))
  · rw [resultIdx_eq idx c c0 hc hb hidx j] at hj
    obtain ⟨e0, e1⟩ := ix2_inj (Option.some.inj hj)
    have e1' := congrArg Fin.val e1
    simp only at e1'
    rw [eq_ix2 j]
    exact congr (congrArg ix2 e0) (Fin.ext (by omega))

/-- Both cases in one statement. -/
theorem scatter_apply {α : Type} (f : α → α → α) (x : S32768x512.Idx → α) (idx : IVec S1 32) (upd : S32768x128.Idx → α)
    (c : BitVec 32) (c0 : Nat) (hc : c.toInt = (c0 : Int)) (hb : c0 + 128 ≤ 512) (hidx : ∀ k, idx k = c)
    (b : Fin 32768) (q : Fin 512) :
    Host.scatter scatter_S32768x512_S1_S32768x128_01_n_1_0 f x idx upd (ix2 b q)
      = if h : c0 ≤ q.val ∧ q.val < c0 + 128 then f (x (ix2 b q)) (upd (ix2 b (⟨q.val - c0, by omega⟩ : Fin 128)))
        else x (ix2 b q) := by
  by_cases h : c0 ≤ q.val ∧ q.val < c0 + 128
  · rw [dif_pos h]
    exact scatter_apply_inside f x idx upd c c0 hc hb hidx b q ⟨q.val - c0, by omega⟩ (by show q.val = c0 + (q.val - c0); omega)
  · rw [dif_neg h]
    exact scatter_apply_outside f x idx upd c c0 hc hb hidx b q h

end Cert.ReferenceIdeal.ArrayValue
-- ==== Proof.ReferenceArray.lean ====
/-
  The reference's result array, index by index.

  The reference computes, for each of eight paths (input segment i, weight segment j, output segment k,
  coefficient a), the masked sum over the four experts e of onehot(b, e) · (x[b, segment i] · W[e, segment j]),
  scales it by a, and adds it into columns [128 k, 128 k + 128) of an array that starts at zero. Each output
  column block is the target of exactly two paths: one with coefficient 1.0 (paths 0‥3, output segment = path
  number) and, later in program order, one with coefficient 0.5 (paths 4‥7, output segments 1, 2, 3, 0).

  Here each stage of the program is read at an index: the input slice and the reshaped weight slice at their
  source columns, each matrix product as a sum over 128 terms, the one-hot column as the 0/1 value of the
  comparison, the update of each path as coefficient · Y, and each of the eight scatters as "add the update
  inside its column window, leave the operand outside" (the scatter read at an index is the imported module's).
  Chaining the eight scatters inside one column block leaves the zero array's element plus the two updates that
  hit the block, in program order; that is Blk, and RefOut chooses the block by the column.
-/
import proofs.«104890_j59356448030869_2_alg».proof.Proof.ReferenceRead
import proofs.«104890_j59356448030869_2_alg».proof.Proof.ScatterWindow
import Idealize.ShloMosaic.Lib.ValueIdx
import Idealize.ShloMosaic.PureOps.Ideal.Laws

noncomputable section

namespace Cert.ReferenceIdeal.ArrayValue

open Cert.ReferenceIdeal Cert.ReferenceIdeal.Gen Idealize.ShloMosaic Idealize.ShloMosaic.ValueIdx

/-! ## The pieces of the closed form -/

/-- The one-hot weight of row b for expert e: the 0/1 value of "x2 b = e", as the unsigned conversion of
    the one-bit comparison gives it. -/
def oh (x2 : S32768.Idx → BitVec 32) (b : Fin 32768) (e : Fin 4) : EReal :=
  FloatOps.uitofp (F := Ideal) .f32 (IntOp.cmpi .eq (x2 (ix1 b)) (BitVec.ofNat 32 e.val))

/-- Column 128 i + u of the input: element u of input segment i. -/
abbrev xcol (i : Fin 4) (u : Fin 128) : Fin 512 := ⟨128 * i.val + u.val, by omega⟩
/-- Column 16384 j + 128 u + v of the weights: entry (u, v) of weight segment j read as a 128 × 128 matrix. -/
abbrev wcol (j : Fin 8) (u v : Fin 128) : Fin 131072 := ⟨16384 * j.val + 128 * u.val + v.val, by omega⟩

/-- Row b of input segment i times expert e's weight segment j, at output column v. -/
def D (x0 : S32768x512.Idx → EReal) (x1 : S4x131072.Idx → EReal) (i : Fin 4) (j : Fin 8) (e : Fin 4) (b : Fin 32768) (v : Fin 128) : EReal :=
  ∑ u : Fin 128, x0 (ix2 b (xcol i u)) * x1 (ix2 e (wcol j u v))

/-- The masked sum over the four experts, in the order the reference adds them, from the f32 zero. -/
def Y (x0 : S32768x512.Idx → EReal) (x1 : S4x131072.Idx → EReal) (x2 : S32768.Idx → BitVec 32) (i : Fin 4) (j : Fin 8) (b : Fin 32768) (v : Fin 128) : EReal :=
  (((Ideal.ofBits .f32 0x00000000#32 + oh x2 b (⟨0, by decide⟩ : Fin 4) * D x0 x1 i j (⟨0, by decide⟩ : Fin 4) b v)
      + oh x2 b (⟨1, by decide⟩ : Fin 4) * D x0 x1 i j (⟨1, by decide⟩ : Fin 4) b v)
      + oh x2 b (⟨2, by decide⟩ : Fin 4) * D x0 x1 i j (⟨2, by decide⟩ : Fin 4) b v)
      + oh x2 b (⟨3, by decide⟩ : Fin 4) * D x0 x1 i j (⟨3, by decide⟩ : Fin 4) b v

/-- One output column block: the f32 zero, plus 1.0 times the path (i1, j1), plus 0.5 times the path (i2, j2),
    added in that order. -/
def Blk (x0 : S32768x512.Idx → EReal) (x1 : S4x131072.Idx → EReal) (x2 : S32768.Idx → BitVec 32) (i1 : Fin 4) (j1 : Fin 8) (i2 : Fin 4) (j2 : Fin 8) (b : Fin 32768) (v : Fin 128) : EReal :=
  (Ideal.ofBits .f32 0x00000000#32 + Ideal.ofBits .f32 0x3F800000#32 * Y x0 x1 x2 i1 j1 b v)
    + Ideal.ofBits .f32 0x3F000000#32 * Y x0 x1 x2 i2 j2 b v

/-- The reference's result at row b, column q: column block q / 128 receives the path with coefficient 1.0
    and then the path with coefficient 0.5 whose output segment it is. -/
def RefAt (x0 : S32768x512.Idx → EReal) (x1 : S4x131072.Idx → EReal) (x2 : S32768.Idx → BitVec 32) (b : Fin 32768) (q : Fin 512) : EReal :=
  if h0 : q.val < 128 then Blk x0 x1 x2 (⟨0, by decide⟩ : Fin 4) (⟨0, by decide⟩ : Fin 8) (⟨3, by decide⟩ : Fin 4) (⟨7, by decide⟩ : Fin 8) b ⟨q.val, h0⟩
  else if h1 : q.val < 256 then Blk x0 x1 x2 (⟨1, by decide⟩ : Fin 4) (⟨1, by decide⟩ : Fin 8) (⟨0, by decide⟩ : Fin 4) (⟨4, by decide⟩ : Fin 8) b ⟨q.val - 128, by omega⟩
  else if h2 : q.val < 384 then Blk x0 x1 x2 (⟨2, by decide⟩ : Fin 4) (⟨2, by decide⟩ : Fin 8) (⟨1, by decide⟩ : Fin 4) (⟨5, by decide⟩ : Fin 8) b ⟨q.val - 256, by omega⟩
  else Blk x0 x1 x2 (⟨3, by decide⟩ : Fin 4) (⟨3, by decide⟩ : Fin 8) (⟨2, by decide⟩ : Fin 4) (⟨6, by decide⟩ : Fin 8) b ⟨q.val - 384, by omega⟩

/-- The reference's result array as an explicit function of the three argument arrays. -/
def RefOut (x0 : S32768x512.Idx → EReal) (x1 : S4x131072.Idx → EReal) (x2 : S32768.Idx → BitVec 32) : S32768x512.Idx → EReal :=
  fun i => RefAt x0 x1 x2 (i 0) (i 1)

/-! ## The one-hot array at an index -/

theorem onehot_apply (x2 : S32768.Idx → BitVec 32) (b : Fin 32768) (e : Fin 4) :
    ReadP.val_main_v0 (F := Ideal) x2 (ix2 b e) = oh x2 b e := by
  rw [ReadP.val_main_v0_apply, ReadP.val_main_call0_v4_apply, ReadP.val_main_call0_v2_apply, ReadP.val_main_call0_v0_apply,
    ReadP.val_main_call0_v3_apply, ReadP.val_main_call0_v1_apply]
  have hx : ReadP.idx_main_call0_v0 (ReadP.idx_main_call0_v2 (ix2 b e)) = ix1 b :=
    funext fun a => match a with | ⟨0, _⟩ => rfl
  rw [hx]
  rfl

theorem base_apply (b : Fin 32768) (q : Fin 512) :
    ReadP.val_main_v1 (F := Ideal) (ix2 b q) = Ideal.ofBits .f32 0x00000000#32 := by
  rw [ReadP.val_main_v1_apply, ReadP.val_main_cst_apply]
  rfl

/-! ## Path 0: input segment 0, weight segment 0, output segment 0 -/

theorem xs_0 {F : FTy → Type} [FloatOps F] (x0 : S32768x512.Idx → F .f32) (b : Fin 32768) (u : Fin 128) :
    ReadP.val_main_v2 (F := F) x0 (ix2 b u) = x0 (ix2 b (xcol (⟨0, by decide⟩ : Fin 4) u)) := by
  rw [ReadP.val_main_v2_apply]
  exact congrArg x0 (funext fun a => match a with
    | ⟨0, _⟩ => rfl
    | ⟨1, _⟩ => Fin.ext (by dsimp only [ReadP.idx_main_v2, ix2, xcol] <;> omega))

theorem ws_0_0 {F : FTy → Type} [FloatOps F] (x1 : S4x131072.Idx → F .f32) (u v : Fin 128) :
    ReadP.val_main_v8 (F := F) x1 (ix2 u v) = x1 (ix2 (⟨0, by decide⟩ : Fin 4) (wcol (⟨0, by decide⟩ : Fin 8) u v)) := by
  rw [ReadP.val_main_v8_apply, ReadP.val_main_v7_apply, ReadP.val_main_v4_apply, ReadP.val_main_v3_apply]
  exact congrArg x1 (funext fun a => match a with
    | ⟨0, _⟩ => Fin.ext (by dsimp only [ReadP.idx_main_v3, ReadP.idx_main_v4, ReadP.idx_main_v7, ReadP.idx_main_v8, ix2, wcol] <;> omega)
    | ⟨1, _⟩ => Fin.ext (by dsimp only [ReadP.idx_main_v3, ReadP.idx_main_v4, ReadP.idx_main_v7, ReadP.idx_main_v8, ix2, wcol] <;> omega))

theorem dot_0_0 (x0 : S32768x512.Idx → EReal) (x1 : S4x131072.Idx → EReal) (b : Fin 32768) (v : Fin 128) :
    ReadP.val_main_v9 (F := Ideal) x0 x1 (ix2 b v) = D x0 x1 (⟨0, by decide⟩ : Fin 4) (⟨0, by decide⟩ : Fin 8) (⟨0, by decide⟩ : Fin 4) b v := by
  rw [ReadP.val_main_v9_apply]
  refine Finset.sum_congr rfl fun u _ => ?_
  have hl : ReadP.lidx_main_v9 (ix2 b v) u = ix2 b u := funext fun a => match a with | ⟨0, _⟩ => rfl | ⟨1, _⟩ => rfl
  have hr : ReadP.ridx_main_v9 (ix2 b v) u = ix2 u v := funext fun a => match a with | ⟨0, _⟩ => rfl | ⟨1, _⟩ => rfl
  rw [hl, hr, xs_0, ws_0_0]

theorem oh_0_0 (x2 : S32768.Idx → BitVec 32) (b : Fin 32768) (v : Fin 128) :
    ReadP.val_main_v10 (F := Ideal) x2 (ix2 b v) = oh x2 b (⟨0, by decide⟩ : Fin 4) := by
  rw [ReadP.val_main_v10_apply, ReadP.val_main_v6_apply]
  have hi : ReadP.idx_main_v6 (ReadP.idx_main_v10 (ix2 b v)) = ix2 b (⟨0, by decide⟩ : Fin 4) :=
    funext fun a => match a with | ⟨0, _⟩ => rfl | ⟨1, _⟩ => rfl
  rw [hi, onehot_apply]

theorem ws_0_1 {F : FTy → Type} [FloatOps F] (x1 : S4x131072.Idx → F .f32) (u v : Fin 128) :
    ReadP.val_main_v15 (F := F) x1 (ix2 u v) = x1 (ix2 (⟨1, by decide⟩ : Fin 4) (wcol (⟨0, by decide⟩ : Fin 8) u v)) := by
  rw [ReadP.val_main_v15_apply, ReadP.val_main_v14_apply, ReadP.val_main_v4_apply, ReadP.val_main_v3_apply]
  exact congrArg x1 (funext fun a => match a with
    | ⟨0, _⟩ => Fin.ext (by dsimp only [ReadP.idx_main_v3, ReadP.idx_main_v4, ReadP.idx_main_v14, ReadP.idx_main_v15, ix2, wcol] <;> omega)
    | ⟨1, _⟩ => Fin.ext (by dsimp only [ReadP.idx_main_v3, ReadP.idx_main_v4, ReadP.idx_main_v14, ReadP.idx_main_v15, ix2, wcol] <;> omega))

theorem dot_0_1 (x0 : S32768x512.Idx → EReal) (x1 : S4x131072.Idx → EReal) (b : Fin 32768) (v : Fin 128) :
    ReadP.val_main_v16 (F := Ideal) x0 x1 (ix2 b v) = D x0 x1 (⟨0, by decide⟩ : Fin 4) (⟨0, by decide⟩ : Fin 8) (⟨1, by decide⟩ : Fin 4) b v := by
  rw [ReadP.val_main_v16_apply]
  refine Finset.sum_congr rfl fun u _ => ?_
  have hl : ReadP.lidx_main_v16 (ix2 b v) u = ix2 b u := funext fun a => match a with | ⟨0, _⟩ => rfl | ⟨1, _⟩ => rfl
  have hr : ReadP.ridx_main_v16 (ix2 b v) u = ix2 u v := funext fun a => match a with | ⟨0, _⟩ => rfl | ⟨1, _⟩ => rfl
  rw [hl, hr, xs_0, ws_0_1]

theorem oh_0_1 (x2 : S32768.Idx → BitVec 32) (b : Fin 32768) (v : Fin 128) :
    ReadP.val_main_v17 (F := Ideal) x2 (ix2 b v) = oh x2 b (⟨1, by decide⟩ : Fin 4) := by
  rw [ReadP.val_main_v17_apply, ReadP.val_main_v13_apply]
  have hi : ReadP.idx_main_v13 (ReadP.idx_main_v17 (ix2 b v)) = ix2 b (⟨1, by decide⟩ : Fin 4) :=
    funext fun a => match a with | ⟨0, _⟩ => rfl | ⟨1, _⟩ => rfl
  rw [hi, onehot_apply]

theorem ws_0_2 {F : FTy → Type} [FloatOps F] (x1 : S4x131072.Idx → F .f32) (u v : Fin 128) :
    ReadP.val_main_v22 (F := F) x1 (ix2 u v) = x1 (ix2 (⟨2, by decide⟩ : Fin 4) (wcol (⟨0, by decide⟩ : Fin 8) u v)) := by
  rw [ReadP.val_main_v22_apply, ReadP.val_main_v21_apply, ReadP.val_main_v4_apply, ReadP.val_main_v3_apply]
  exact congrArg x1 (funext fun a => match a with
    | ⟨0, _⟩ => Fin.ext (by dsimp only [ReadP.idx_main_v3, ReadP.idx_main_v4, ReadP.idx_main_v21, ReadP.idx_main_v22, ix2, wcol] <;> omega)
    | ⟨1, _⟩ => Fin.ext (by dsimp only [ReadP.idx_main_v3, ReadP.idx_main_v4, ReadP.idx_main_v21, ReadP.idx_main_v22, ix2, wcol] <;> omega))

theorem dot_0_2 (x0 : S32768x512.Idx → EReal) (x1 : S4x131072.Idx → EReal) (b : Fin 32768) (v : Fin 128) :
    ReadP.val_main_v23 (F := Ideal) x0 x1 (ix2 b v) = D x0 x1 (⟨0, by decide⟩ : Fin 4) (⟨0, by decide⟩ : Fin 8) (⟨2, by decide⟩ : Fin 4) b v := by
  rw [ReadP.val_main_v23_apply]
  refine Finset.sum_congr rfl fun u _ => ?_
  have hl : ReadP.lidx_main_v23 (ix2 b v) u = ix2 b u := funext fun a => match a with | ⟨0, _⟩ => rfl | ⟨1, _⟩ => rfl
  have hr : ReadP.ridx_main_v23 (ix2 b v) u = ix2 u v := funext fun a => match a with | ⟨0, _⟩ => rfl | ⟨1, _⟩ => rfl
  rw [hl, hr, xs_0, ws_0_2]

theorem oh_0_2 (x2 : S32768.Idx → BitVec 32) (b : Fin 32768) (v : Fin 128) :
    ReadP.val_main_v24 (F := Ideal) x2 (ix2 b v) = oh x2 b (⟨2, by decide⟩ : Fin 4) := by
  rw [ReadP.val_main_v24_apply, ReadP.val_main_v20_apply]
  have hi : ReadP.idx_main_v20 (ReadP.idx_main_v24 (ix2 b v)) = ix2 b (⟨2, by decide⟩ : Fin 4) :=
    funext fun a => match a with | ⟨0, _⟩ => rfl | ⟨1, _⟩ => rfl
  rw [hi, onehot_apply]

theorem ws_0_3 {F : FTy → Type} [FloatOps F] (x1 : S4x131072.Idx → F .f32) (u v : Fin 128) :
    ReadP.val_main_v29 (F := F) x1 (ix2 u v) = x1 (ix2 (⟨3, by decide⟩ : Fin 4) (wcol (⟨0, by decide⟩ : Fin 8) u v)) := by
  rw [ReadP.val_main_v29_apply, ReadP.val_main_v28_apply, ReadP.val_main_v4_apply, ReadP.val_main_v3_apply]
  exact congrArg x1 (funext fun a => match a with
    | ⟨0, _⟩ => Fin.ext (by dsimp only [ReadP.idx_main_v3, ReadP.idx_main_v4, ReadP.idx_main_v28, ReadP.idx_main_v29, ix2, wcol] <;> omega)
    | ⟨1, _⟩ => Fin.ext (by dsimp only [ReadP.idx_main_v3, ReadP.idx_main_v4, ReadP.idx_main_v28, ReadP.idx_main_v29, ix2, wcol] <;> omega))

theorem dot_0_3 (x0 : S32768x512.Idx → EReal) (x1 : S4x131072.Idx → EReal) (b : Fin 32768) (v : Fin 128) :
    ReadP.val_main_v30 (F := Ideal) x0 x1 (ix2 b v) = D x0 x1 (⟨0, by decide⟩ : Fin 4) (⟨0, by decide⟩ : Fin 8) (⟨3, by decide⟩ : Fin 4) b v := by
  rw [ReadP.val_main_v30_apply]
  refine Finset.sum_congr rfl fun u _ => ?_
  have hl : ReadP.lidx_main_v30 (ix2 b v) u = ix2 b u := funext fun a => match a with | ⟨0, _⟩ => rfl | ⟨1, _⟩ => rfl
  have hr : ReadP.ridx_main_v30 (ix2 b v) u = ix2 u v := funext fun a => match a with | ⟨0, _⟩ => rfl | ⟨1, _⟩ => rfl
  rw [hl, hr, xs_0, ws_0_3]

theorem oh_0_3 (x2 : S32768.Idx → BitVec 32) (b : Fin 32768) (v : Fin 128) :
    ReadP.val_main_v31 (F := Ideal) x2 (ix2 b v) = oh x2 b (⟨3, by decide⟩ : Fin 4) := by
  rw [ReadP.val_main_v31_apply, ReadP.val_main_v27_apply]
  have hi : ReadP.idx_main_v27 (ReadP.idx_main_v31 (ix2 b v)) = ix2 b (⟨3, by decide⟩ : Fin 4) :=
    funext fun a => match a with | ⟨0, _⟩ => rfl | ⟨1, _⟩ => rfl
  rw [hi, onehot_apply]

theorem y_0 (x0 : S32768x512.Idx → EReal) (x1 : S4x131072.Idx → EReal) (x2 : S32768.Idx → BitVec 32) (b : Fin 32768) (v : Fin 128) :
    ReadP.val_main_v33 (F := Ideal) x0 x1 x2 (ix2 b v) = Y x0 x1 x2 (⟨0, by decide⟩ : Fin 4) (⟨0, by decide⟩ : Fin 8) b v := by
  rw [ReadP.val_main_v33_apply, ReadP.val_main_v26_apply, ReadP.val_main_v19_apply, ReadP.val_main_v12_apply, ReadP.val_main_v5_apply, ReadP.val_main_cst_0_apply,
    ReadP.val_main_v11_apply, ReadP.val_main_v18_apply, ReadP.val_main_v25_apply, ReadP.val_main_v32_apply,
    oh_0_0, oh_0_1, oh_0_2, oh_0_3, dot_0_0, dot_0_1, dot_0_2, dot_0_3]
  rfl

theorem upd_0 (x0 : S32768x512.Idx → EReal) (x1 : S4x131072.Idx → EReal) (x2 : S32768.Idx → BitVec 32) (b : Fin 32768) (v : Fin 128) :
    ReadP.val_main_v35 (F := Ideal) x0 x1 x2 (ix2 b v) = Ideal.ofBits .f32 0x3F800000#32 * Y x0 x1 x2 (⟨0, by decide⟩ : Fin 4) (⟨0, by decide⟩ : Fin 8) b v := by
  rw [ReadP.val_main_v35_apply, ReadP.val_main_v34_apply, ReadP.val_main_cst_1_apply, y_0]
  rfl

theorem off_0 (k : S1.Idx) : ReadP.val_main_v36 (F := Ideal) k = 0#32 := by
  rw [ReadP.val_main_v36_apply]
  rfl

theorem stage_0_in (x0 : S32768x512.Idx → EReal) (x1 : S4x131072.Idx → EReal) (x2 : S32768.Idx → BitVec 32) (b : Fin 32768) (q : Fin 512) (t : Fin 128) (hq : q.val = 0 + t.val) :
    ReadP.val_main_v37 (F := Ideal) x0 x1 x2 (ix2 b q)
      = ReadP.val_main_v1 (F := Ideal) (ix2 b q) + Ideal.ofBits .f32 0x3F800000#32 * Y x0 x1 x2 (⟨0, by decide⟩ : Fin 4) (⟨0, by decide⟩ : Fin 8) b t := by
  unfold ReadP.val_main_v37
  rw [scatter_apply_inside FloatOps.addf _ _ _ 0#32 0 (by decide) (by decide) off_0 b q t hq, upd_0]
  rfl

theorem stage_0_out (x0 : S32768x512.Idx → EReal) (x1 : S4x131072.Idx → EReal) (x2 : S32768.Idx → BitVec 32) (b : Fin 32768) (q : Fin 512) (hq : ¬ (0 ≤ q.val ∧ q.val < 0 + 128)) :
    ReadP.val_main_v37 (F := Ideal) x0 x1 x2 (ix2 b q) = ReadP.val_main_v1 (F := Ideal) (ix2 b q) := by
  unfold ReadP.val_main_v37
  exact scatter_apply_outside FloatOps.addf _ _ _ 0#32 0 (by decide) (by decide) off_0 b q hq

/-! ## Path 1: input segment 1, weight segment 1, output segment 1 -/

theorem xs_1 {F : FTy → Type} [FloatOps F] (x0 : S32768x512.Idx → F .f32) (b : Fin 32768) (u : Fin 128) :
    ReadP.val_main_v38 (F := F) x0 (ix2 b u) = x0 (ix2 b (xcol (⟨1, by decide⟩ : Fin 4) u)) := by
  rw [ReadP.val_main_v38_apply]
  exact congrArg x0 (funext fun a => match a with
    | ⟨0, _⟩ => rfl
    | ⟨1, _⟩ => Fin.ext (by dsimp only [ReadP.idx_main_v38, ix2, xcol] <;> omega))

theorem ws_1_0 {F : FTy → Type} [FloatOps F] (x1 : S4x131072.Idx → F .f32) (u v : Fin 128) :
    ReadP.val_main_v44 (F := F) x1 (ix2 u v) = x1 (ix2 (⟨0, by decide⟩ : Fin 4) (wcol (⟨1, by decide⟩ : Fin 8) u v)) := by
  rw [ReadP.val_main_v44_apply, ReadP.val_main_v43_apply, ReadP.val_main_v40_apply, ReadP.val_main_v39_apply]
  exact congrArg x1 (funext fun a => match a with
    | ⟨0, _⟩ => Fin.ext (by dsimp only [ReadP.idx_main_v39, ReadP.idx_main_v40, ReadP.idx_main_v43, ReadP.idx_main_v44, ix2, wcol] <;> omega)
    | ⟨1, _⟩ => Fin.ext (by dsimp only [ReadP.idx_main_v39, ReadP.idx_main_v40, ReadP.idx_main_v43, ReadP.idx_main_v44, ix2, wcol] <;> omega))

theorem dot_1_0 (x0 : S32768x512.Idx → EReal) (x1 : S4x131072.Idx → EReal) (b : Fin 32768) (v : Fin 128) :
    ReadP.val_main_v45 (F := Ideal) x0 x1 (ix2 b v) = D x0 x1 (⟨1, by decide⟩ : Fin 4) (⟨1, by decide⟩ : Fin 8) (⟨0, by decide⟩ : Fin 4) b v := by
  rw [ReadP.val_main_v45_apply]
  refine Finset.sum_congr rfl fun u _ => ?_
  have hl : ReadP.lidx_main_v45 (ix2 b v) u = ix2 b u := funext fun a => match a with | ⟨0, _⟩ => rfl | ⟨1, _⟩ => rfl
  have hr : ReadP.ridx_main_v45 (ix2 b v) u = ix2 u v := funext fun a => match a with | ⟨0, _⟩ => rfl | ⟨1, _⟩ => rfl
  rw [hl, hr, xs_1, ws_1_0]

theorem oh_1_0 (x2 : S32768.Idx → BitVec 32) (b : Fin 32768) (v : Fin 128) :
    ReadP.val_main_v46 (F := Ideal) x2 (ix2 b v) = oh x2 b (⟨0, by decide⟩ : Fin 4) := by
  rw [ReadP.val_main_v46_apply, ReadP.val_main_v42_apply]
  have hi : ReadP.idx_main_v42 (ReadP.idx_main_v46 (ix2 b v)) = ix2 b (⟨0, by decide⟩ : Fin 4) :=
    funext fun a => match a with | ⟨0, _⟩ => rfl | ⟨1, _⟩ => rfl
  rw [hi, onehot_apply]

theorem ws_1_1 {F : FTy → Type} [FloatOps F] (x1 : S4x131072.Idx → F .f32) (u v : Fin 128) :
    ReadP.val_main_v51 (F := F) x1 (ix2 u v) = x1 (ix2 (⟨1, by decide⟩ : Fin 4) (wcol (⟨1, by decide⟩ : Fin 8) u v)) := by
  rw [ReadP.val_main_v51_apply, ReadP.val_main_v50_apply, ReadP.val_main_v40_apply, ReadP.val_main_v39_apply]
  exact congrArg x1 (funext fun a => match a with
    | ⟨0, _⟩ => Fin.ext (by dsimp only [ReadP.idx_main_v39, ReadP.idx_main_v40, ReadP.idx_main_v50, ReadP.idx_main_v51, ix2, wcol] <;> omega)
    | ⟨1, _⟩ => Fin.ext (by dsimp only [ReadP.idx_main_v39, ReadP.idx_main_v40, ReadP.idx_main_v50, ReadP.idx_main_v51, ix2, wcol] <;> omega))

theorem dot_1_1 (x0 : S32768x512.Idx → EReal) (x1 : S4x131072.Idx → EReal) (b : Fin 32768) (v : Fin 128) :
    ReadP.val_main_v52 (F := Ideal) x0 x1 (ix2 b v) = D x0 x1 (⟨1, by decide⟩ : Fin 4) (⟨1, by decide⟩ : Fin 8) (⟨1, by decide⟩ : Fin 4) b v := by
  rw [ReadP.val_main_v52_apply]
  refine Finset.sum_congr rfl fun u _ => ?_
  have hl : ReadP.lidx_main_v52 (ix2 b v) u = ix2 b u := funext fun a => match a with | ⟨0, _⟩ => rfl | ⟨1, _⟩ => rfl
  have hr : ReadP.ridx_main_v52 (ix2 b v) u = ix2 u v := funext fun a => match a with | ⟨0, _⟩ => rfl | ⟨1, _⟩ => rfl
  rw [hl, hr, xs_1, ws_1_1]

theorem oh_1_1 (x2 : S32768.Idx → BitVec 32) (b : Fin 32768) (v : Fin 128) :
    ReadP.val_main_v53 (F := Ideal) x2 (ix2 b v) = oh x2 b (⟨1, by decide⟩ : Fin 4) := by
  rw [ReadP.val_main_v53_apply, ReadP.val_main_v49_apply]
  have hi : ReadP.idx_main_v49 (ReadP.idx_main_v53 (ix2 b v)) = ix2 b (⟨1, by decide⟩ : Fin 4) :=
    funext fun a => match a with | ⟨0, _⟩ => rfl | ⟨1, _⟩ => rfl
  rw [hi, onehot_apply]

theorem ws_1_2 {F : FTy → Type} [FloatOps F] (x1 : S4x131072.Idx → F .f32) (u v : Fin 128) :
    ReadP.val_main_v58 (F := F) x1 (ix2 u v) = x1 (ix2 (⟨2, by decide⟩ : Fin 4) (wcol (⟨1, by decide⟩ : Fin 8) u v)) := by
  rw [ReadP.val_main_v58_apply, ReadP.val_main_v57_apply, ReadP.val_main_v40_apply, ReadP.val_main_v39_apply]
  exact congrArg x1 (funext fun a => match a with
    | ⟨0, _⟩ => Fin.ext (by dsimp only [ReadP.idx_main_v39, ReadP.idx_main_v40, ReadP.idx_main_v57, ReadP.idx_main_v58, ix2, wcol] <;> omega)
    | ⟨1, _⟩ => Fin.ext (by dsimp only [ReadP.idx_main_v39, ReadP.idx_main_v40, ReadP.idx_main_v57, ReadP.idx_main_v58, ix2, wcol] <;> omega))

theorem dot_1_2 (x0 : S32768x512.Idx → EReal) (x1 : S4x131072.Idx → EReal) (b : Fin 32768) (v : Fin 128) :
    ReadP.val_main_v59 (F := Ideal) x0 x1 (ix2 b v) = D x0 x1 (⟨1, by decide⟩ : Fin 4) (⟨1, by decide⟩ : Fin 8) (⟨2, by decide⟩ : Fin 4) b v := by
  rw [ReadP.val_main_v59_apply]
  refine Finset.sum_congr rfl fun u _ => ?_
  have hl : ReadP.lidx_main_v59 (ix2 b v) u = ix2 b u := funext fun a => match a with | ⟨0, _⟩ => rfl | ⟨1, _⟩ => rfl
  have hr : ReadP.ridx_main_v59 (ix2 b v) u = ix2 u v := funext fun a => match a with | ⟨0, _⟩ => rfl | ⟨1, _⟩ => rfl
  rw [hl, hr, xs_1, ws_1_2]

theorem oh_1_2 (x2 : S32768.Idx → BitVec 32) (b : Fin 32768) (v : Fin 128) :
    ReadP.val_main_v60 (F := Ideal) x2 (ix2 b v) = oh x2 b (⟨2, by decide⟩ : Fin 4) := by
  rw [ReadP.val_main_v60_apply, ReadP.val_main_v56_apply]
  have hi : ReadP.idx_main_v56 (ReadP.idx_main_v60 (ix2 b v)) = ix2 b (⟨2, by decide⟩ : Fin 4) :=
    funext fun a => match a with | ⟨0, _⟩ => rfl | ⟨1, _⟩ => rfl
  rw [hi, onehot_apply]

theorem ws_1_3 {F : FTy → Type} [FloatOps F] (x1 : S4x131072.Idx → F .f32) (u v : Fin 128) :
    ReadP.val_main_v65 (F := F) x1 (ix2 u v) = x1 (ix2 (⟨3, by decide⟩ : Fin 4) (wcol (⟨1, by decide⟩ : Fin 8) u v)) := by
  rw [ReadP.val_main_v65_apply, ReadP.val_main_v64_apply, ReadP.val_main_v40_apply, ReadP.val_main_v39_apply]
  exact congrArg x1 (funext fun a => match a with
    | ⟨0, _⟩ => Fin.ext (by dsimp only [ReadP.idx_main_v39, ReadP.idx_main_v40, ReadP.idx_main_v64, ReadP.idx_main_v65, ix2, wcol] <;> omega)
    | ⟨1, _⟩ => Fin.ext (by dsimp only [ReadP.idx_main_v39, ReadP.idx_main_v40, ReadP.idx_main_v64, ReadP.idx_main_v65, ix2, wcol] <;> omega))

theorem dot_1_3 (x0 : S32768x512.Idx → EReal) (x1 : S4x131072.Idx → EReal) (b : Fin 32768) (v : Fin 128) :
    ReadP.val_main_v66 (F := Ideal) x0 x1 (ix2 b v) = D x0 x1 (⟨1, by decide⟩ : Fin 4) (⟨1, by decide⟩ : Fin 8) (⟨3, by decide⟩ : Fin 4) b v := by
  rw [ReadP.val_main_v66_apply]
  refine Finset.sum_congr rfl fun u _ => ?_
  have hl : ReadP.lidx_main_v66 (ix2 b v) u = ix2 b u := funext fun a => match a with | ⟨0, _⟩ => rfl | ⟨1, _⟩ => rfl
  have hr : ReadP.ridx_main_v66 (ix2 b v) u = ix2 u v := funext fun a => match a with | ⟨0, _⟩ => rfl | ⟨1, _⟩ => rfl
  rw [hl, hr, xs_1, ws_1_3]

theorem oh_1_3 (x2 : S32768.Idx → BitVec 32) (b : Fin 32768) (v : Fin 128) :
    ReadP.val_main_v67 (F := Ideal) x2 (ix2 b v) = oh x2 b (⟨3, by decide⟩ : Fin 4) := by
  rw [ReadP.val_main_v67_apply, ReadP.val_main_v63_apply]
  have hi : ReadP.idx_main_v63 (ReadP.idx_main_v67 (ix2 b v)) = ix2 b (⟨3, by decide⟩ : Fin 4) :=
    funext fun a => match a with | ⟨0, _⟩ => rfl | ⟨1, _⟩ => rfl
  rw [hi, onehot_apply]

theorem y_1 (x0 : S32768x512.Idx → EReal) (x1 : S4x131072.Idx → EReal) (x2 : S32768.Idx → BitVec 32) (b : Fin 32768) (v : Fin 128) :
    ReadP.val_main_v69 (F := Ideal) x0 x1 x2 (ix2 b v) = Y x0 x1 x2 (⟨1, by decide⟩ : Fin 4) (⟨1, by decide⟩ : Fin 8) b v := by
  rw [ReadP.val_main_v69_apply, ReadP.val_main_v62_apply, ReadP.val_main_v55_apply, ReadP.val_main_v48_apply, ReadP.val_main_v41_apply, ReadP.val_main_cst_2_apply,
    ReadP.val_main_v47_apply, ReadP.val_main_v54_apply, ReadP.val_main_v61_apply, ReadP.val_main_v68_apply,
    oh_1_0, oh_1_1, oh_1_2, oh_1_3, dot_1_0, dot_1_1, dot_1_2, dot_1_3]
  rfl

theorem upd_1 (x0 : S32768x512.Idx → EReal) (x1 : S4x131072.Idx → EReal) (x2 : S32768.Idx → BitVec 32) (b : Fin 32768) (v : Fin 128) :
    ReadP.val_main_v71 (F := Ideal) x0 x1 x2 (ix2 b v) = Ideal.ofBits .f32 0x3F800000#32 * Y x0 x1 x2 (⟨1, by decide⟩ : Fin 4) (⟨1, by decide⟩ : Fin 8) b v := by
  rw [ReadP.val_main_v71_apply, ReadP.val_main_v70_apply, ReadP.val_main_cst_3_apply, y_1]
  rfl

theorem off_1 (k : S1.Idx) : ReadP.val_main_v72 (F := Ideal) k = 128#32 := by
  rw [ReadP.val_main_v72_apply]
  rfl

theorem stage_1_in (x0 : S32768x512.Idx → EReal) (x1 : S4x131072.Idx → EReal) (x2 : S32768.Idx → BitVec 32) (b : Fin 32768) (q : Fin 512) (t : Fin 128) (hq : q.val = 128 + t.val) :
    ReadP.val_main_v73 (F := Ideal) x0 x1 x2 (ix2 b q)
      = ReadP.val_main_v37 (F := Ideal) x0 x1 x2 (ix2 b q) + Ideal.ofBits .f32 0x3F800000#32 * Y x0 x1 x2 (⟨1, by decide⟩ : Fin 4) (⟨1, by decide⟩ : Fin 8) b t := by
  unfold ReadP.val_main_v73
  rw [scatter_apply_inside FloatOps.addf _ _ _ 128#32 128 (by decide) (by decide) off_1 b q t hq, upd_1]
  rfl

theorem stage_1_out (x0 : S32768x512.Idx → EReal) (x1 : S4x131072.Idx → EReal) (x2 : S32768.Idx → BitVec 32) (b : Fin 32768) (q : Fin 512) (hq : ¬ (128 ≤ q.val ∧ q.val < 128 + 128)) :
    ReadP.val_main_v73 (F := Ideal) x0 x1 x2 (ix2 b q) = ReadP.val_main_v37 (F := Ideal) x0 x1 x2 (ix2 b q) := by
  unfold ReadP.val_main_v73
  exact scatter_apply_outside FloatOps.addf _ _ _ 128#32 128 (by decide) (by decide) off_1 b q hq

/-! ## Path 2: input segment 2, weight segment 2, output segment 2 -/

theorem xs_2 {F : FTy → Type} [FloatOps F] (x0 : S32768x512.Idx → F .f32) (b : Fin 32768) (u : Fin 128) :
    ReadP.val_main_v74 (F := F) x0 (ix2 b u) = x0 (ix2 b (xcol (⟨2, by decide⟩ : Fin 4) u)) := by
  rw [ReadP.val_main_v74_apply]
  exact congrArg x0 (funext fun a => match a with
    | ⟨0, _⟩ => rfl
    | ⟨1, _⟩ => Fin.ext (by dsimp only [ReadP.idx_main_v74, ix2, xcol] <;> omega))

theorem ws_2_0 {F : FTy → Type} [FloatOps F] (x1 : S4x131072.Idx → F .f32) (u v : Fin 128) :
    ReadP.val_main_v80 (F := F) x1 (ix2 u v) = x1 (ix2 (⟨0, by decide⟩ : Fin 4) (wcol (⟨2, by decide⟩ : Fin 8) u v)) := by
  rw [ReadP.val_main_v80_apply, ReadP.val_main_v79_apply, ReadP.val_main_v76_apply, ReadP.val_main_v75_apply]
  exact congrArg x1 (funext fun a => match a with
    | ⟨0, _⟩ => Fin.ext (by dsimp only [ReadP.idx_main_v75, ReadP.idx_main_v76, ReadP.idx_main_v79, ReadP.idx_main_v80, ix2, wcol] <;> omega)
    | ⟨1, _⟩ => Fin.ext (by dsimp only [ReadP.idx_main_v75, ReadP.idx_main_v76, ReadP.idx_main_v79, ReadP.idx_main_v80, ix2, wcol] <;> omega))

theorem dot_2_0 (x0 : S32768x512.Idx → EReal) (x1 : S4x131072.Idx → EReal) (b : Fin 32768) (v : Fin 128) :
    ReadP.val_main_v81 (F := Ideal) x0 x1 (ix2 b v) = D x0 x1 (⟨2, by decide⟩ : Fin 4) (⟨2, by decide⟩ : Fin 8) (⟨0, by decide⟩ : Fin 4) b v := by
  rw [ReadP.val_main_v81_apply]
  refine Finset.sum_congr rfl fun u _ => ?_
  have hl : ReadP.lidx_main_v81 (ix2 b v) u = ix2 b u := funext fun a => match a with | ⟨0, _⟩ => rfl | ⟨1, _⟩ => rfl
  have hr : ReadP.ridx_main_v81 (ix2 b v) u = ix2 u v := funext fun a => match a with | ⟨0, _⟩ => rfl | ⟨1, _⟩ => rfl
  rw [hl, hr, xs_2, ws_2_0]

theorem oh_2_0 (x2 : S32768.Idx → BitVec 32) (b : Fin 32768) (v : Fin 128) :
    ReadP.val_main_v82 (F := Ideal) x2 (ix2 b v) = oh x2 b (⟨0, by decide⟩ : Fin 4) := by
  rw [ReadP.val_main_v82_apply, ReadP.val_main_v78_apply]
  have hi : ReadP.idx_main_v78 (ReadP.idx_main_v82 (ix2 b v)) = ix2 b (⟨0, by decide⟩ : Fin 4) :=
    funext fun a => match a with | ⟨0, _⟩ => rfl | ⟨1, _⟩ => rfl
  rw [hi, onehot_apply]

theorem ws_2_1 {F : FTy → Type} [FloatOps F] (x1 : S4x131072.Idx → F .f32) (u v : Fin 128) :
    ReadP.val_main_v87 (F := F) x1 (ix2 u v) = x1 (ix2 (⟨1, by decide⟩ : Fin 4) (wcol (⟨2, by decide⟩ : Fin 8) u v)) := by
  rw [ReadP.val_main_v87_apply, ReadP.val_main_v86_apply, ReadP.val_main_v76_apply, ReadP.val_main_v75_apply]
  exact congrArg x1 (funext fun a => match a with
    | ⟨0, _⟩ => Fin.ext (by dsimp only [ReadP.idx_main_v75, ReadP.idx_main_v76, ReadP.idx_main_v86, ReadP.idx_main_v87, ix2, wcol] <;> omega)
    | ⟨1, _⟩ => Fin.ext (by dsimp only [ReadP.idx_main_v75, ReadP.idx_main_v76, ReadP.idx_main_v86, ReadP.idx_main_v87, ix2, wcol] <;> omega))

theorem dot_2_1 (x0 : S32768x512.Idx → EReal) (x1 : S4x131072.Idx → EReal) (b : Fin 32768) (v : Fin 128) :
    ReadP.val_main_v88 (F := Ideal) x0 x1 (ix2 b v) = D x0 x1 (⟨2, by decide⟩ : Fin 4) (⟨2, by decide⟩ : Fin 8) (⟨1, by decide⟩ : Fin 4) b v := by
  rw [ReadP.val_main_v88_apply]
  refine Finset.sum_congr rfl fun u _ => ?_
  have hl : ReadP.lidx_main_v88 (ix2 b v) u = ix2 b u := funext fun a => match a with | ⟨0, _⟩ => rfl | ⟨1, _⟩ => rfl
  have hr : ReadP.ridx_main_v88 (ix2 b v) u = ix2 u v := funext fun a => match a with | ⟨0, _⟩ => rfl | ⟨1, _⟩ => rfl
  rw [hl, hr, xs_2, ws_2_1]

theorem oh_2_1 (x2 : S32768.Idx → BitVec 32) (b : Fin 32768) (v : Fin 128) :
    ReadP.val_main_v89 (F := Ideal) x2 (ix2 b v) = oh x2 b (⟨1, by decide⟩ : Fin 4) := by
  rw [ReadP.val_main_v89_apply, ReadP.val_main_v85_apply]
  have hi : ReadP.idx_main_v85 (ReadP.idx_main_v89 (ix2 b v)) = ix2 b (⟨1, by decide⟩ : Fin 4) :=
    funext fun a => match a with | ⟨0, _⟩ => rfl | ⟨1, _⟩ => rfl
  rw [hi, onehot_apply]

theorem ws_2_2 {F : FTy → Type} [FloatOps F] (x1 : S4x131072.Idx → F .f32) (u v : Fin 128) :
    ReadP.val_main_v94 (F := F) x1 (ix2 u v) = x1 (ix2 (⟨2, by decide⟩ : Fin 4) (wcol (⟨2, by decide⟩ : Fin 8) u v)) := by
  rw [ReadP.val_main_v94_apply, ReadP.val_main_v93_apply, ReadP.val_main_v76_apply, ReadP.val_main_v75_apply]
  exact congrArg x1 (funext fun a => match a with
    | ⟨0, _⟩ => Fin.ext (by dsimp only [ReadP.idx_main_v75, ReadP.idx_main_v76, ReadP.idx_main_v93, ReadP.idx_main_v94, ix2, wcol] <;> omega)
    | ⟨1, _⟩ => Fin.ext (by dsimp only [ReadP.idx_main_v75, ReadP.idx_main_v76, ReadP.idx_main_v93, ReadP.idx_main_v94, ix2, wcol] <;> omega))

theorem dot_2_2 (x0 : S32768x512.Idx → EReal) (x1 : S4x131072.Idx → EReal) (b : Fin 32768) (v : Fin 128) :
    ReadP.val_main_v95 (F := Ideal) x0 x1 (ix2 b v) = D x0 x1 (⟨2, by decide⟩ : Fin 4) (⟨2, by decide⟩ : Fin 8) (⟨2, by decide⟩ : Fin 4) b v := by
  rw [ReadP.val_main_v95_apply]
  refine Finset.sum_congr rfl fun u _ => ?_
  have hl : ReadP.lidx_main_v95 (ix2 b v) u = ix2 b u := funext fun a => match a with | ⟨0, _⟩ => rfl | ⟨1, _⟩ => rfl
  have hr : ReadP.ridx_main_v95 (ix2 b v) u = ix2 u v := funext fun a => match a with | ⟨0, _⟩ => rfl | ⟨1, _⟩ => rfl
  rw [hl, hr, xs_2, ws_2_2]

theorem oh_2_2 (x2 : S32768.Idx → BitVec 32) (b : Fin 32768) (v : Fin 128) :
    ReadP.val_main_v96 (F := Ideal) x2 (ix2 b v) = oh x2 b (⟨2, by decide⟩ : Fin 4) := by
  rw [ReadP.val_main_v96_apply, ReadP.val_main_v92_apply]
  have hi : ReadP.idx_main_v92 (ReadP.idx_main_v96 (ix2 b v)) = ix2 b (⟨2, by decide⟩ : Fin 4) :=
    funext fun a => match a with | ⟨0, _⟩ => rfl | ⟨1, _⟩ => rfl
  rw [hi, onehot_apply]

theorem ws_2_3 {F : FTy → Type} [FloatOps F] (x1 : S4x131072.Idx → F .f32) (u v : Fin 128) :
    ReadP.val_main_v101 (F := F) x1 (ix2 u v) = x1 (ix2 (⟨3, by decide⟩ : Fin 4) (wcol (⟨2, by decide⟩ : Fin 8) u v)) := by
  rw [ReadP.val_main_v101_apply, ReadP.val_main_v100_apply, ReadP.val_main_v76_apply, ReadP.val_main_v75_apply]
  exact congrArg x1 (funext fun a => match a with
    | ⟨0, _⟩ => Fin.ext (by dsimp only [ReadP.idx_main_v75, ReadP.idx_main_v76, ReadP.idx_main_v100, ReadP.idx_main_v101, ix2, wcol] <;> omega)
    | ⟨1, _⟩ => Fin.ext (by dsimp only [ReadP.idx_main_v75, ReadP.idx_main_v76, ReadP.idx_main_v100, ReadP.idx_main_v101, ix2, wcol] <;> omega))

theorem dot_2_3 (x0 : S32768x512.Idx → EReal) (x1 : S4x131072.Idx → EReal) (b : Fin 32768) (v : Fin 128) :
    ReadP.val_main_v102 (F := Ideal) x0 x1 (ix2 b v) = D x0 x1 (⟨2, by decide⟩ : Fin 4) (⟨2, by decide⟩ : Fin 8) (⟨3, by decide⟩ : Fin 4) b v := by
  rw [ReadP.val_main_v102_apply]
  refine Finset.sum_congr rfl fun u _ => ?_
  have hl : ReadP.lidx_main_v102 (ix2 b v) u = ix2 b u := funext fun a => match a with | ⟨0, _⟩ => rfl | ⟨1, _⟩ => rfl
  have hr : ReadP.ridx_main_v102 (ix2 b v) u = ix2 u v := funext fun a => match a with | ⟨0, _⟩ => rfl | ⟨1, _⟩ => rfl
  rw [hl, hr, xs_2, ws_2_3]

theorem oh_2_3 (x2 : S32768.Idx → BitVec 32) (b : Fin 32768) (v : Fin 128) :
    ReadP.val_main_v103 (F := Ideal) x2 (ix2 b v) = oh x2 b (⟨3, by decide⟩ : Fin 4) := by
  rw [ReadP.val_main_v103_apply, ReadP.val_main_v99_apply]
  have hi : ReadP.idx_main_v99 (ReadP.idx_main_v103 (ix2 b v)) = ix2 b (⟨3, by decide⟩ : Fin 4) :=
    funext fun a => match a with | ⟨0, _⟩ => rfl | ⟨1, _⟩ => rfl
  rw [hi, onehot_apply]

theorem y_2 (x0 : S32768x512.Idx → EReal) (x1 : S4x131072.Idx → EReal) (x2 : S32768.Idx → BitVec 32) (b : Fin 32768) (v : Fin 128) :
    ReadP.val_main_v105 (F := Ideal) x0 x1 x2 (ix2 b v) = Y x0 x1 x2 (⟨2, by decide⟩ : Fin 4) (⟨2, by decide⟩ : Fin 8) b v := by
  rw [ReadP.val_main_v105_apply, ReadP.val_main_v98_apply, ReadP.val_main_v91_apply, ReadP.val_main_v84_apply, ReadP.val_main_v77_apply, ReadP.val_main_cst_5_apply,
    ReadP.val_main_v83_apply, ReadP.val_main_v90_apply, ReadP.val_main_v97_apply, ReadP.val_main_v104_apply,
    oh_2_0, oh_2_1, oh_2_2, oh_2_3, dot_2_0, dot_2_1, dot_2_2, dot_2_3]
  rfl

theorem upd_2 (x0 : S32768x512.Idx → EReal) (x1 : S4x131072.Idx → EReal) (x2 : S32768.Idx → BitVec 32) (b : Fin 32768) (v : Fin 128) :
    ReadP.val_main_v107 (F := Ideal) x0 x1 x2 (ix2 b v) = Ideal.ofBits .f32 0x3F800000#32 * Y x0 x1 x2 (⟨2, by decide⟩ : Fin 4) (⟨2, by decide⟩ : Fin 8) b v := by
  rw [ReadP.val_main_v107_apply, ReadP.val_main_v106_apply, ReadP.val_main_cst_6_apply, y_2]
  rfl

theorem off_2 (k : S1.Idx) : ReadP.val_main_v108 (F := Ideal) k = 256#32 := by
  rw [ReadP.val_main_v108_apply]
  rfl

theorem stage_2_in (x0 : S32768x512.Idx → EReal) (x1 : S4x131072.Idx → EReal) (x2 : S32768.Idx → BitVec 32) (b : Fin 32768) (q : Fin 512) (t : Fin 128) (hq : q.val = 256 + t.val) :
    ReadP.val_main_v109 (F := Ideal) x0 x1 x2 (ix2 b q)
      = ReadP.val_main_v73 (F := Ideal) x0 x1 x2 (ix2 b q) + Ideal.ofBits .f32 0x3F800000#32 * Y x0 x1 x2 (⟨2, by decide⟩ : Fin 4) (⟨2, by decide⟩ : Fin 8) b t := by
  unfold ReadP.val_main_v109
  rw [scatter_apply_inside FloatOps.addf _ _ _ 256#32 256 (by decide) (by decide) off_2 b q t hq, upd_2]
  rfl

theorem stage_2_out (x0 : S32768x512.Idx → EReal) (x1 : S4x131072.Idx → EReal) (x2 : S32768.Idx → BitVec 32) (b : Fin 32768) (q : Fin 512) (hq : ¬ (256 ≤ q.val ∧ q.val < 256 + 128)) :
    ReadP.val_main_v109 (F := Ideal) x0 x1 x2 (ix2 b q) = ReadP.val_main_v73 (F := Ideal) x0 x1 x2 (ix2 b q) := by
  unfold ReadP.val_main_v109
  exact scatter_apply_outside FloatOps.addf _ _ _ 256#32 256 (by decide) (by decide) off_2 b q hq

/-! ## Path 3: input segment 3, weight segment 3, output segment 3 -/

theorem xs_3 {F : FTy → Type} [FloatOps F] (x0 : S32768x512.Idx → F .f32) (b : Fin 32768) (u : Fin 128) :
    ReadP.val_main_v110 (F := F) x0 (ix2 b u) = x0 (ix2 b (xcol (⟨3, by decide⟩ : Fin 4) u)) := by
  rw [ReadP.val_main_v110_apply]
  exact congrArg x0 (funext fun a => match a with
    | ⟨0, _⟩ => rfl
    | ⟨1, _⟩ => Fin.ext (by dsimp only [ReadP.idx_main_v110, ix2, xcol] <;> omega))

theorem ws_3_0 {F : FTy → Type} [FloatOps F] (x1 : S4x131072.Idx → F .f32) (u v : Fin 128) :
    ReadP.val_main_v116 (F := F) x1 (ix2 u v) = x1 (ix2 (⟨0, by decide⟩ : Fin 4) (wcol (⟨3, by decide⟩ : Fin 8) u v)) := by
  rw [ReadP.val_main_v116_apply, ReadP.val_main_v115_apply, ReadP.val_main_v112_apply, ReadP.val_main_v111_apply]
  exact congrArg x1 (funext fun a => match a with
    | ⟨0, _⟩ => Fin.ext (by dsimp only [ReadP.idx_main_v111, ReadP.idx_main_v112, ReadP.idx_main_v115, ReadP.idx_main_v116, ix2, wcol] <;> omega)
    | ⟨1, _⟩ => Fin.ext (by dsimp only [ReadP.idx_main_v111, ReadP.idx_main_v112, ReadP.idx_main_v115, ReadP.idx_main_v116, ix2, wcol] <;> omega))

theorem dot_3_0 (x0 : S32768x512.Idx → EReal) (x1 : S4x131072.Idx → EReal) (b : Fin 32768) (v : Fin 128) :
    ReadP.val_main_v117 (F := Ideal) x0 x1 (ix2 b v) = D x0 x1 (⟨3, by decide⟩ : Fin 4) (⟨3, by decide⟩ : Fin 8) (⟨0, by decide⟩ : Fin 4) b v := by
  rw [ReadP.val_main_v117_apply]
  refine Finset.sum_congr rfl fun u _ => ?_
  have hl : ReadP.lidx_main_v117 (ix2 b v) u = ix2 b u := funext fun a => match a with | ⟨0, _⟩ => rfl | ⟨1, _⟩ => rfl
  have hr : ReadP.ridx_main_v117 (ix2 b v) u = ix2 u v := funext fun a => match a with | ⟨0, _⟩ => rfl | ⟨1, _⟩ => rfl
  rw [hl, hr, xs_3, ws_3_0]

theorem oh_3_0 (x2 : S32768.Idx → BitVec 32) (b : Fin 32768) (v : Fin 128) :
    ReadP.val_main_v118 (F := Ideal) x2 (ix2 b v) = oh x2 b (⟨0, by decide⟩ : Fin 4) := by
  rw [ReadP.val_main_v118_apply, ReadP.val_main_v114_apply]
  have hi : ReadP.idx_main_v114 (ReadP.idx_main_v118 (ix2 b v)) = ix2 b (⟨0, by decide⟩ : Fin 4) :=
    funext fun a => match a with | ⟨0, _⟩ => rfl | ⟨1, _⟩ => rfl
  rw [hi, onehot_apply]

theorem ws_3_1 {F : FTy → Type} [FloatOps F] (x1 : S4x131072.Idx → F .f32) (u v : Fin 128) :
    ReadP.val_main_v123 (F := F) x1 (ix2 u v) = x1 (ix2 (⟨1, by decide⟩ : Fin 4) (wcol (⟨3, by decide⟩ : Fin 8) u v)) := by
  rw [ReadP.val_main_v123_apply, ReadP.val_main_v122_apply, ReadP.val_main_v112_apply, ReadP.val_main_v111_apply]
  exact congrArg x1 (funext fun a => match a with
    | ⟨0, _⟩ => Fin.ext (by dsimp only [ReadP.idx_main_v111, ReadP.idx_main_v112, ReadP.idx_main_v122, ReadP.idx_main_v123, ix2, wcol] <;> omega)
    | ⟨1, _⟩ => Fin.ext (by dsimp only [ReadP.idx_main_v111, ReadP.idx_main_v112, ReadP.idx_main_v122, ReadP.idx_main_v123, ix2, wcol] <;> omega))

theorem dot_3_1 (x0 : S32768x512.Idx → EReal) (x1 : S4x131072.Idx → EReal) (b : Fin 32768) (v : Fin 128) :
    ReadP.val_main_v124 (F := Ideal) x0 x1 (ix2 b v) = D x0 x1 (⟨3, by decide⟩ : Fin 4) (⟨3, by decide⟩ : Fin 8) (⟨1, by decide⟩ : Fin 4) b v := by
  rw [ReadP.val_main_v124_apply]
  refine Finset.sum_congr rfl fun u _ => ?_
  have hl : ReadP.lidx_main_v124 (ix2 b v) u = ix2 b u := funext fun a => match a with | ⟨0, _⟩ => rfl | ⟨1, _⟩ => rfl
  have hr : ReadP.ridx_main_v124 (ix2 b v) u = ix2 u v := funext fun a => match a with | ⟨0, _⟩ => rfl | ⟨1, _⟩ => rfl
  rw [hl, hr, xs_3, ws_3_1]

theorem oh_3_1 (x2 : S32768.Idx → BitVec 32) (b : Fin 32768) (v : Fin 128) :
    ReadP.val_main_v125 (F := Ideal) x2 (ix2 b v) = oh x2 b (⟨1, by decide⟩ : Fin 4) := by
  rw [ReadP.val_main_v125_apply, ReadP.val_main_v121_apply]
  have hi : ReadP.idx_main_v121 (ReadP.idx_main_v125 (ix2 b v)) = ix2 b (⟨1, by decide⟩ : Fin 4) :=
    funext fun a => match a with | ⟨0, _⟩ => rfl | ⟨1, _⟩ => rfl
  rw [hi, onehot_apply]

theorem ws_3_2 {F : FTy → Type} [FloatOps F] (x1 : S4x131072.Idx → F .f32) (u v : Fin 128) :
    ReadP.val_main_v130 (F := F) x1 (ix2 u v) = x1 (ix2 (⟨2, by decide⟩ : Fin 4) (wcol (⟨3, by decide⟩ : Fin 8) u v)) := by
  rw [ReadP.val_main_v130_apply, ReadP.val_main_v129_apply, ReadP.val_main_v112_apply, ReadP.val_main_v111_apply]
  exact congrArg x1 (funext fun a => match a with
    | ⟨0, _⟩ => Fin.ext (by dsimp only [ReadP.idx_main_v111, ReadP.idx_main_v112, ReadP.idx_main_v129, ReadP.idx_main_v130, ix2, wcol] <;> omega)
    | ⟨1, _⟩ => Fin.ext (by dsimp only [ReadP.idx_main_v111, ReadP.idx_main_v112, ReadP.idx_main_v129, ReadP.idx_main_v130, ix2, wcol] <;> omega))

theorem dot_3_2 (x0 : S32768x512.Idx → EReal) (x1 : S4x131072.Idx → EReal) (b : Fin 32768) (v : Fin 128) :
    ReadP.val_main_v131 (F := Ideal) x0 x1 (ix2 b v) = D x0 x1 (⟨3, by decide⟩ : Fin 4) (⟨3, by decide⟩ : Fin 8) (⟨2, by decide⟩ : Fin 4) b v := by
  rw [ReadP.val_main_v131_apply]
  refine Finset.sum_congr rfl fun u _ => ?_
  have hl : ReadP.lidx_main_v131 (ix2 b v) u = ix2 b u := funext fun a => match a with | ⟨0, _⟩ => rfl | ⟨1, _⟩ => rfl
  have hr : ReadP.ridx_main_v131 (ix2 b v) u = ix2 u v := funext fun a => match a with | ⟨0, _⟩ => rfl | ⟨1, _⟩ => rfl
  rw [hl, hr, xs_3, ws_3_2]

theorem oh_3_2 (x2 : S32768.Idx → BitVec 32) (b : Fin 32768) (v : Fin 128) :
    ReadP.val_main_v132 (F := Ideal) x2 (ix2 b v) = oh x2 b (⟨2, by decide⟩ : Fin 4) := by
  rw [ReadP.val_main_v132_apply, ReadP.val_main_v128_apply]
  have hi : ReadP.idx_main_v128 (ReadP.idx_main_v132 (ix2 b v)) = ix2 b (⟨2, by decide⟩ : Fin 4) :=
    funext fun a => match a with | ⟨0, _⟩ => rfl | ⟨1, _⟩ => rfl
  rw [hi, onehot_apply]

theorem ws_3_3 {F : FTy → Type} [FloatOps F] (x1 : S4x131072.Idx → F .f32) (u v : Fin 128) :
    ReadP.val_main_v137 (F := F) x1 (ix2 u v) = x1 (ix2 (⟨3, by decide⟩ : Fin 4) (wcol (⟨3, by decide⟩ : Fin 8) u v)) := by
  rw [ReadP.val_main_v137_apply, ReadP.val_main_v136_apply, ReadP.val_main_v112_apply, ReadP.val_main_v111_apply]
  exact congrArg x1 (funext fun a => match a with
    | ⟨0, _⟩ => Fin.ext (by dsimp only [ReadP.idx_main_v111, ReadP.idx_main_v112, ReadP.idx_main_v136, ReadP.idx_main_v137, ix2, wcol] <;> omega)
    | ⟨1, _⟩ => Fin.ext (by dsimp only [ReadP.idx_main_v111, ReadP.idx_main_v112, ReadP.idx_main_v136, ReadP.idx_main_v137, ix2, wcol] <;> omega))

theorem dot_3_3 (x0 : S32768x512.Idx → EReal) (x1 : S4x131072.Idx → EReal) (b : Fin 32768) (v : Fin 128) :
    ReadP.val_main_v138 (F := Ideal) x0 x1 (ix2 b v) = D x0 x1 (⟨3, by decide⟩ : Fin 4) (⟨3, by decide⟩ : Fin 8) (⟨3, by decide⟩ : Fin 4) b v := by
  rw [ReadP.val_main_v138_apply]
  refine Finset.sum_congr rfl fun u _ => ?_
  have hl : ReadP.lidx_main_v138 (ix2 b v) u = ix2 b u := funext fun a => match a with | ⟨0, _⟩ => rfl | ⟨1, _⟩ => rfl
  have hr : ReadP.ridx_main_v138 (ix2 b v) u = ix2 u v := funext fun a => match a with | ⟨0, _⟩ => rfl | ⟨1, _⟩ => rfl
  rw [hl, hr, xs_3, ws_3_3]

theorem oh_3_3 (x2 : S32768.Idx → BitVec 32) (b : Fin 32768) (v : Fin 128) :
    ReadP.val_main_v139 (F := Ideal) x2 (ix2 b v) = oh x2 b (⟨3, by decide⟩ : Fin 4) := by
  rw [ReadP.val_main_v139_apply, ReadP.val_main_v135_apply]
  have hi : ReadP.idx_main_v135 (ReadP.idx_main_v139 (ix2 b v)) = ix2 b (⟨3, by decide⟩ : Fin 4) :=
    funext fun a => match a with | ⟨0, _⟩ => rfl | ⟨1, _⟩ => rfl
  rw [hi, onehot_apply]

theorem y_3 (x0 : S32768x512.Idx → EReal) (x1 : S4x131072.Idx → EReal) (x2 : S32768.Idx → BitVec 32) (b : Fin 32768) (v : Fin 128) :
    ReadP.val_main_v141 (F := Ideal) x0 x1 x2 (ix2 b v) = Y x0 x1 x2 (⟨3, by decide⟩ : Fin 4) (⟨3, by decide⟩ : Fin 8) b v := by
  rw [ReadP.val_main_v141_apply, ReadP.val_main_v134_apply, ReadP.val_main_v127_apply, ReadP.val_main_v120_apply, ReadP.val_main_v113_apply, ReadP.val_main_cst_8_apply,
    ReadP.val_main_v119_apply, ReadP.val_main_v126_apply, ReadP.val_main_v133_apply, ReadP.val_main_v140_apply,
    oh_3_0, oh_3_1, oh_3_2, oh_3_3, dot_3_0, dot_3_1, dot_3_2, dot_3_3]
  rfl

theorem upd_3 (x0 : S32768x512.Idx → EReal) (x1 : S4x131072.Idx → EReal) (x2 : S32768.Idx → BitVec 32) (b : Fin 32768) (v : Fin 128) :
    ReadP.val_main_v143 (F := Ideal) x0 x1 x2 (ix2 b v) = Ideal.ofBits .f32 0x3F800000#32 * Y x0 x1 x2 (⟨3, by decide⟩ : Fin 4) (⟨3, by decide⟩ : Fin 8) b v := by
  rw [ReadP.val_main_v143_apply, ReadP.val_main_v142_apply, ReadP.val_main_cst_9_apply, y_3]
  rfl

theorem off_3 (k : S1.Idx) : ReadP.val_main_v144 (F := Ideal) k = 384#32 := by
  rw [ReadP.val_main_v144_apply]
  rfl

theorem stage_3_in (x0 : S32768x512.Idx → EReal) (x1 : S4x131072.Idx → EReal) (x2 : S32768.Idx → BitVec 32) (b : Fin 32768) (q : Fin 512) (t : Fin 128) (hq : q.val = 384 + t.val) :
    ReadP.val_main_v145 (F := Ideal) x0 x1 x2 (ix2 b q)
      = ReadP.val_main_v109 (F := Ideal) x0 x1 x2 (ix2 b q) + Ideal.ofBits .f32 0x3F800000#32 * Y x0 x1 x2 (⟨3, by decide⟩ : Fin 4) (⟨3, by decide⟩ : Fin 8) b t := by
  unfold ReadP.val_main_v145
  rw [scatter_apply_inside FloatOps.addf _ _ _ 384#32 384 (by decide) (by decide) off_3 b q t hq, upd_3]
  rfl

theorem stage_3_out (x0 : S32768x512.Idx → EReal) (x1 : S4x131072.Idx → EReal) (x2 : S32768.Idx → BitVec 32) (b : Fin 32768) (q : Fin 512) (hq : ¬ (384 ≤ q.val ∧ q.val < 384 + 128)) :
    ReadP.val_main_v145 (F := Ideal) x0 x1 x2 (ix2 b q) = ReadP.val_main_v109 (F := Ideal) x0 x1 x2 (ix2 b q) := by
  unfold ReadP.val_main_v145
  exact scatter_apply_outside FloatOps.addf _ _ _ 384#32 384 (by decide) (by decide) off_3 b q hq

/-! ## Path 4: input segment 0, weight segment 4, output segment 1 -/

theorem xs_4 {F : FTy → Type} [FloatOps F] (x0 : S32768x512.Idx → F .f32) (b : Fin 32768) (u : Fin 128) :
    ReadP.val_main_v146 (F := F) x0 (ix2 b u) = x0 (ix2 b (xcol (⟨0, by decide⟩ : Fin 4) u)) := by
  rw [ReadP.val_main_v146_apply]
  exact congrArg x0 (funext fun a => match a with
    | ⟨0, _⟩ => rfl
    | ⟨1, _⟩ => Fin.ext (by dsimp only [ReadP.idx_main_v146, ix2, xcol] <;> omega))

theorem ws_4_0 {F : FTy → Type} [FloatOps F] (x1 : S4x131072.Idx → F .f32) (u v : Fin 128) :
    ReadP.val_main_v152 (F := F) x1 (ix2 u v) = x1 (ix2 (⟨0, by decide⟩ : Fin 4) (wcol (⟨4, by decide⟩ : Fin 8) u v)) := by
  rw [ReadP.val_main_v152_apply, ReadP.val_main_v151_apply, ReadP.val_main_v148_apply, ReadP.val_main_v147_apply]
  exact congrArg x1 (funext fun a => match a with
    | ⟨0, _⟩ => Fin.ext (by dsimp only [ReadP.idx_main_v147, ReadP.idx_main_v148, ReadP.idx_main_v151, ReadP.idx_main_v152, ix2, wcol] <;> omega)
    | ⟨1, _⟩ => Fin.ext (by dsimp only [ReadP.idx_main_v147, ReadP.idx_main_v148, ReadP.idx_main_v151, ReadP.idx_main_v152, ix2, wcol] <;> omega))

theorem dot_4_0 (x0 : S32768x512.Idx → EReal) (x1 : S4x131072.Idx → EReal) (b : Fin 32768) (v : Fin 128) :
    ReadP.val_main_v153 (F := Ideal) x0 x1 (ix2 b v) = D x0 x1 (⟨0, by decide⟩ : Fin 4) (⟨4, by decide⟩ : Fin 8) (⟨0, by decide⟩ : Fin 4) b v := by
  rw [ReadP.val_main_v153_apply]
  refine Finset.sum_congr rfl fun u _ => ?_
  have hl : ReadP.lidx_main_v153 (ix2 b v) u = ix2 b u := funext fun a => match a with | ⟨0, _⟩ => rfl | ⟨1, _⟩ => rfl
  have hr : ReadP.ridx_main_v153 (ix2 b v) u = ix2 u v := funext fun a => match a with | ⟨0, _⟩ => rfl | ⟨1, _⟩ => rfl
  rw [hl, hr, xs_4, ws_4_0]

theorem oh_4_0 (x2 : S32768.Idx → BitVec 32) (b : Fin 32768) (v : Fin 128) :
    ReadP.val_main_v154 (F := Ideal) x2 (ix2 b v) = oh x2 b (⟨0, by decide⟩ : Fin 4) := by
  rw [ReadP.val_main_v154_apply, ReadP.val_main_v150_apply]
  have hi : ReadP.idx_main_v150 (ReadP.idx_main_v154 (ix2 b v)) = ix2 b (⟨0, by decide⟩ : Fin 4) :=
    funext fun a => match a with | ⟨0, _⟩ => rfl | ⟨1, _⟩ => rfl
  rw [hi, onehot_apply]

theorem ws_4_1 {F : FTy → Type} [FloatOps F] (x1 : S4x131072.Idx → F .f32) (u v : Fin 128) :
    ReadP.val_main_v159 (F := F) x1 (ix2 u v) = x1 (ix2 (⟨1, by decide⟩ : Fin 4) (wcol (⟨4, by decide⟩ : Fin 8) u v)) := by
  rw [ReadP.val_main_v159_apply, ReadP.val_main_v158_apply, ReadP.val_main_v148_apply, ReadP.val_main_v147_apply]
  exact congrArg x1 (funext fun a => match a with
    | ⟨0, _⟩ => Fin.ext (by dsimp only [ReadP.idx_main_v147, ReadP.idx_main_v148, ReadP.idx_main_v158, ReadP.idx_main_v159, ix2, wcol] <;> omega)
    | ⟨1, _⟩ => Fin.ext (by dsimp only [ReadP.idx_main_v147, ReadP.idx_main_v148, ReadP.idx_main_v158, ReadP.idx_main_v159, ix2, wcol] <;> omega))

theorem dot_4_1 (x0 : S32768x512.Idx → EReal) (x1 : S4x131072.Idx → EReal) (b : Fin 32768) (v : Fin 128) :
    ReadP.val_main_v160 (F := Ideal) x0 x1 (ix2 b v) = D x0 x1 (⟨0, by decide⟩ : Fin 4) (⟨4, by decide⟩ : Fin 8) (⟨1, by decide⟩ : Fin 4) b v := by
  rw [ReadP.val_main_v160_apply]
  refine Finset.sum_congr rfl fun u _ => ?_
  have hl : ReadP.lidx_main_v160 (ix2 b v) u = ix2 b u := funext fun a => match a with | ⟨0, _⟩ => rfl | ⟨1, _⟩ => rfl
  have hr : ReadP.ridx_main_v160 (ix2 b v) u = ix2 u v := funext fun a => match a with | ⟨0, _⟩ => rfl | ⟨1, _⟩ => rfl
  rw [hl, hr, xs_4, ws_4_1]

theorem oh_4_1 (x2 : S32768.Idx → BitVec 32) (b : Fin 32768) (v : Fin 128) :
    ReadP.val_main_v161 (F := Ideal) x2 (ix2 b v) = oh x2 b (⟨1, by decide⟩ : Fin 4) := by
  rw [ReadP.val_main_v161_apply, ReadP.val_main_v157_apply]
  have hi : ReadP.idx_main_v157 (ReadP.idx_main_v161 (ix2 b v)) = ix2 b (⟨1, by decide⟩ : Fin 4) :=
    funext fun a => match a with | ⟨0, _⟩ => rfl | ⟨1, _⟩ => rfl
  rw [hi, onehot_apply]

theorem ws_4_2 {F : FTy → Type} [FloatOps F] (x1 : S4x131072.Idx → F .f32) (u v : Fin 128) :
    ReadP.val_main_v166 (F := F) x1 (ix2 u v) = x1 (ix2 (⟨2, by decide⟩ : Fin 4) (wcol (⟨4, by decide⟩ : Fin 8) u v)) := by
  rw [ReadP.val_main_v166_apply, ReadP.val_main_v165_apply, ReadP.val_main_v148_apply, ReadP.val_main_v147_apply]
  exact congrArg x1 (funext fun a => match a with
    | ⟨0, _⟩ => Fin.ext (by dsimp only [ReadP.idx_main_v147, ReadP.idx_main_v148, ReadP.idx_main_v165, ReadP.idx_main_v166, ix2, wcol] <;> omega)
    | ⟨1, _⟩ => Fin.ext (by dsimp only [ReadP.idx_main_v147, ReadP.idx_main_v148, ReadP.idx_main_v165, ReadP.idx_main_v166, ix2, wcol] <;> omega))

theorem dot_4_2 (x0 : S32768x512.Idx → EReal) (x1 : S4x131072.Idx → EReal) (b : Fin 32768) (v : Fin 128) :
    ReadP.val_main_v167 (F := Ideal) x0 x1 (ix2 b v) = D x0 x1 (⟨0, by decide⟩ : Fin 4) (⟨4, by decide⟩ : Fin 8) (⟨2, by decide⟩ : Fin 4) b v := by
  rw [ReadP.val_main_v167_apply]
  refine Finset.sum_congr rfl fun u _ => ?_
  have hl : ReadP.lidx_main_v167 (ix2 b v) u = ix2 b u := funext fun a => match a with | ⟨0, _⟩ => rfl | ⟨1, _⟩ => rfl
  have hr : ReadP.ridx_main_v167 (ix2 b v) u = ix2 u v := funext fun a => match a with | ⟨0, _⟩ => rfl | ⟨1, _⟩ => rfl
  rw [hl, hr, xs_4, ws_4_2]

theorem oh_4_2 (x2 : S32768.Idx → BitVec 32) (b : Fin 32768) (v : Fin 128) :
    ReadP.val_main_v168 (F := Ideal) x2 (ix2 b v) = oh x2 b (⟨2, by decide⟩ : Fin 4) := by
  rw [ReadP.val_main_v168_apply, ReadP.val_main_v164_apply]
  have hi : ReadP.idx_main_v164 (ReadP.idx_main_v168 (ix2 b v)) = ix2 b (⟨2, by decide⟩ : Fin 4) :=
    funext fun a => match a with | ⟨0, _⟩ => rfl | ⟨1, _⟩ => rfl
  rw [hi, onehot_apply]

theorem ws_4_3 {F : FTy → Type} [FloatOps F] (x1 : S4x131072.Idx → F .f32) (u v : Fin 128) :
    ReadP.val_main_v173 (F := F) x1 (ix2 u v) = x1 (ix2 (⟨3, by decide⟩ : Fin 4) (wcol (⟨4, by decide⟩ : Fin 8) u v)) := by
  rw [ReadP.val_main_v173_apply, ReadP.val_main_v172_apply, ReadP.val_main_v148_apply, ReadP.val_main_v147_apply]
  exact congrArg x1 (funext fun a => match a with
    | ⟨0, _⟩ => Fin.ext (by dsimp only [ReadP.idx_main_v147, ReadP.idx_main_v148, ReadP.idx_main_v172, ReadP.idx_main_v173, ix2, wcol] <;> omega)
    | ⟨1, _⟩ => Fin.ext (by dsimp only [ReadP.idx_main_v147, ReadP.idx_main_v148, ReadP.idx_main_v172, ReadP.idx_main_v173, ix2, wcol] <;> omega))

theorem dot_4_3 (x0 : S32768x512.Idx → EReal) (x1 : S4x131072.Idx → EReal) (b : Fin 32768) (v : Fin 128) :
    ReadP.val_main_v174 (F := Ideal) x0 x1 (ix2 b v) = D x0 x1 (⟨0, by decide⟩ : Fin 4) (⟨4, by decide⟩ : Fin 8) (⟨3, by decide⟩ : Fin 4) b v := by
  rw [ReadP.val_main_v174_apply]
  refine Finset.sum_congr rfl fun u _ => ?_
  have hl : ReadP.lidx_main_v174 (ix2 b v) u = ix2 b u := funext fun a => match a with | ⟨0, _⟩ => rfl | ⟨1, _⟩ => rfl
  have hr : ReadP.ridx_main_v174 (ix2 b v) u = ix2 u v := funext fun a => match a with | ⟨0, _⟩ => rfl | ⟨1, _⟩ => rfl
  rw [hl, hr, xs_4, ws_4_3]

theorem oh_4_3 (x2 : S32768.Idx → BitVec 32) (b : Fin 32768) (v : Fin 128) :
    ReadP.val_main_v175 (F := Ideal) x2 (ix2 b v) = oh x2 b (⟨3, by decide⟩ : Fin 4) := by
  rw [ReadP.val_main_v175_apply, ReadP.val_main_v171_apply]
  have hi : ReadP.idx_main_v171 (ReadP.idx_main_v175 (ix2 b v)) = ix2 b (⟨3, by decide⟩ : Fin 4) :=
    funext fun a => match a with | ⟨0, _⟩ => rfl | ⟨1, _⟩ => rfl
  rw [hi, onehot_apply]

theorem y_4 (x0 : S32768x512.Idx → EReal) (x1 : S4x131072.Idx → EReal) (x2 : S32768.Idx → BitVec 32) (b : Fin 32768) (v : Fin 128) :
    ReadP.val_main_v177 (F := Ideal) x0 x1 x2 (ix2 b v) = Y x0 x1 x2 (⟨0, by decide⟩ : Fin 4) (⟨4, by decide⟩ : Fin 8) b v := by
  rw [ReadP.val_main_v177_apply, ReadP.val_main_v170_apply, ReadP.val_main_v163_apply, ReadP.val_main_v156_apply, ReadP.val_main_v149_apply, ReadP.val_main_cst_11_apply,
    ReadP.val_main_v155_apply, ReadP.val_main_v162_apply, ReadP.val_main_v169_apply, ReadP.val_main_v176_apply,
    oh_4_0, oh_4_1, oh_4_2, oh_4_3, dot_4_0, dot_4_1, dot_4_2, dot_4_3]
  rfl

theorem upd_4 (x0 : S32768x512.Idx → EReal) (x1 : S4x131072.Idx → EReal) (x2 : S32768.Idx → BitVec 32) (b : Fin 32768) (v : Fin 128) :
    ReadP.val_main_v179 (F := Ideal) x0 x1 x2 (ix2 b v) = Ideal.ofBits .f32 0x3F000000#32 * Y x0 x1 x2 (⟨0, by decide⟩ : Fin 4) (⟨4, by decide⟩ : Fin 8) b v := by
  rw [ReadP.val_main_v179_apply, ReadP.val_main_v178_apply, ReadP.val_main_cst_12_apply, y_4]
  rfl

theorem off_4 (k : S1.Idx) : ReadP.val_main_v180 (F := Ideal) k = 128#32 := by
  rw [ReadP.val_main_v180_apply]
  rfl

theorem stage_4_in (x0 : S32768x512.Idx → EReal) (x1 : S4x131072.Idx → EReal) (x2 : S32768.Idx → BitVec 32) (b : Fin 32768) (q : Fin 512) (t : Fin 128) (hq : q.val = 128 + t.val) :
    ReadP.val_main_v181 (F := Ideal) x0 x1 x2 (ix2 b q)
      = ReadP.val_main_v145 (F := Ideal) x0 x1 x2 (ix2 b q) + Ideal.ofBits .f32 0x3F000000#32 * Y x0 x1 x2 (⟨0, by decide⟩ : Fin 4) (⟨4, by decide⟩ : Fin 8) b t := by
  unfold ReadP.val_main_v181
  rw [scatter_apply_inside FloatOps.addf _ _ _ 128#32 128 (by decide) (by decide) off_4 b q t hq, upd_4]
  rfl

theorem stage_4_out (x0 : S32768x512.Idx → EReal) (x1 : S4x131072.Idx → EReal) (x2 : S32768.Idx → BitVec 32) (b : Fin 32768) (q : Fin 512) (hq : ¬ (128 ≤ q.val ∧ q.val < 128 + 128)) :
    ReadP.val_main_v181 (F := Ideal) x0 x1 x2 (ix2 b q) = ReadP.val_main_v145 (F := Ideal) x0 x1 x2 (ix2 b q) := by
  unfold ReadP.val_main_v181
  exact scatter_apply_outside FloatOps.addf _ _ _ 128#32 128 (by decide) (by decide) off_4 b q hq

/-! ## Path 5: input segment 1, weight segment 5, output segment 2 -/

theorem xs_5 {F : FTy → Type} [FloatOps F] (x0 : S32768x512.Idx → F .f32) (b : Fin 32768) (u : Fin 128) :
    ReadP.val_main_v182 (F := F) x0 (ix2 b u) = x0 (ix2 b (xcol (⟨1, by decide⟩ : Fin 4) u)) := by
  rw [ReadP.val_main_v182_apply]
  exact congrArg x0 (funext fun a => match a with
    | ⟨0, _⟩ => rfl
    | ⟨1, _⟩ => Fin.ext (by dsimp only [ReadP.idx_main_v182, ix2, xcol] <;> omega))

theorem ws_5_0 {F : FTy → Type} [FloatOps F] (x1 : S4x131072.Idx → F .f32) (u v : Fin 128) :
    ReadP.val_main_v188 (F := F) x1 (ix2 u v) = x1 (ix2 (⟨0, by decide⟩ : Fin 4) (wcol (⟨5, by decide⟩ : Fin 8) u v)) := by
  rw [ReadP.val_main_v188_apply, ReadP.val_main_v187_apply, ReadP.val_main_v184_apply, ReadP.val_main_v183_apply]
  exact congrArg x1 (funext fun a => match a with
    | ⟨0, _⟩ => Fin.ext (by dsimp only [ReadP.idx_main_v183, ReadP.idx_main_v184, ReadP.idx_main_v187, ReadP.idx_main_v188, ix2, wcol] <;> omega)
    | ⟨1, _⟩ => Fin.ext (by dsimp only [ReadP.idx_main_v183, ReadP.idx_main_v184, ReadP.idx_main_v187, ReadP.idx_main_v188, ix2, wcol] <;> omega))

theorem dot_5_0 (x0 : S32768x512.Idx → EReal) (x1 : S4x131072.Idx → EReal) (b : Fin 32768) (v : Fin 128) :
    ReadP.val_main_v189 (F := Ideal) x0 x1 (ix2 b v) = D x0 x1 (⟨1, by decide⟩ : Fin 4) (⟨5, by decide⟩ : Fin 8) (⟨0, by decide⟩ : Fin 4) b v := by
  rw [ReadP.val_main_v189_apply]
  refine Finset.sum_congr rfl fun u _ => ?_
  have hl : ReadP.lidx_main_v189 (ix2 b v) u = ix2 b u := funext fun a => match a with | ⟨0, _⟩ => rfl | ⟨1, _⟩ => rfl
  have hr : ReadP.ridx_main_v189 (ix2 b v) u = ix2 u v := funext fun a => match a with | ⟨0, _⟩ => rfl | ⟨1, _⟩ => rfl
  rw [hl, hr, xs_5, ws_5_0]

theorem oh_5_0 (x2 : S32768.Idx → BitVec 32) (b : Fin 32768) (v : Fin 128) :
    ReadP.val_main_v190 (F := Ideal) x2 (ix2 b v) = oh x2 b (⟨0, by decide⟩ : Fin 4) := by
  rw [ReadP.val_main_v190_apply, ReadP.val_main_v186_apply]
  have hi : ReadP.idx_main_v186 (ReadP.idx_main_v190 (ix2 b v)) = ix2 b (⟨0, by decide⟩ : Fin 4) :=
    funext fun a => match a with | ⟨0, _⟩ => rfl | ⟨1, _⟩ => rfl
  rw [hi, onehot_apply]

theorem ws_5_1 {F : FTy → Type} [FloatOps F] (x1 : S4x131072.Idx → F .f32) (u v : Fin 128) :
    ReadP.val_main_v195 (F := F) x1 (ix2 u v) = x1 (ix2 (⟨1, by decide⟩ : Fin 4) (wcol (⟨5, by decide⟩ : Fin 8) u v)) := by
  rw [ReadP.val_main_v195_apply, ReadP.val_main_v194_apply, ReadP.val_main_v184_apply, ReadP.val_main_v183_apply]
  exact congrArg x1 (funext fun a => match a with
    | ⟨0, _⟩ => Fin.ext (by dsimp only [ReadP.idx_main_v183, ReadP.idx_main_v184, ReadP.idx_main_v194, ReadP.idx_main_v195, ix2, wcol] <;> omega)
    | ⟨1, _⟩ => Fin.ext (by dsimp only [ReadP.idx_main_v183, ReadP.idx_main_v184, ReadP.idx_main_v194, ReadP.idx_main_v195, ix2, wcol] <;> omega))

theorem dot_5_1 (x0 : S32768x512.Idx → EReal) (x1 : S4x131072.Idx → EReal) (b : Fin 32768) (v : Fin 128) :
    ReadP.val_main_v196 (F := Ideal) x0 x1 (ix2 b v) = D x0 x1 (⟨1, by decide⟩ : Fin 4) (⟨5, by decide⟩ : Fin 8) (⟨1, by decide⟩ : Fin 4) b v := by
  rw [ReadP.val_main_v196_apply]
  refine Finset.sum_congr rfl fun u _ => ?_
  have hl : ReadP.lidx_main_v196 (ix2 b v) u = ix2 b u := funext fun a => match a with | ⟨0, _⟩ => rfl | ⟨1, _⟩ => rfl
  have hr : ReadP.ridx_main_v196 (ix2 b v) u = ix2 u v := funext fun a => match a with | ⟨0, _⟩ => rfl | ⟨1, _⟩ => rfl
  rw [hl, hr, xs_5, ws_5_1]

theorem oh_5_1 (x2 : S32768.Idx → BitVec 32) (b : Fin 32768) (v : Fin 128) :
    ReadP.val_main_v197 (F := Ideal) x2 (ix2 b v) = oh x2 b (⟨1, by decide⟩ : Fin 4) := by
  rw [ReadP.val_main_v197_apply, ReadP.val_main_v193_apply]
  have hi : ReadP.idx_main_v193 (ReadP.idx_main_v197 (ix2 b v)) = ix2 b (⟨1, by decide⟩ : Fin 4) :=
    funext fun a => match a with | ⟨0, _⟩ => rfl | ⟨1, _⟩ => rfl
  rw [hi, onehot_apply]

theorem ws_5_2 {F : FTy → Type} [FloatOps F] (x1 : S4x131072.Idx → F .f32) (u v : Fin 128) :
    ReadP.val_main_v202 (F := F) x1 (ix2 u v) = x1 (ix2 (⟨2, by decide⟩ : Fin 4) (wcol (⟨5, by decide⟩ : Fin 8) u v)) := by
  rw [ReadP.val_main_v202_apply, ReadP.val_main_v201_apply, ReadP.val_main_v184_apply, ReadP.val_main_v183_apply]
  exact congrArg x1 (funext fun a => match a with
    | ⟨0, _⟩ => Fin.ext (by dsimp only [ReadP.idx_main_v183, ReadP.idx_main_v184, ReadP.idx_main_v201, ReadP.idx_main_v202, ix2, wcol] <;> omega)
    | ⟨1, _⟩ => Fin.ext (by dsimp only [ReadP.idx_main_v183, ReadP.idx_main_v184, ReadP.idx_main_v201, ReadP.idx_main_v202, ix2, wcol] <;> omega))

theorem dot_5_2 (x0 : S32768x512.Idx → EReal) (x1 : S4x131072.Idx → EReal) (b : Fin 32768) (v : Fin 128) :
    ReadP.val_main_v203 (F := Ideal) x0 x1 (ix2 b v) = D x0 x1 (⟨1, by decide⟩ : Fin 4) (⟨5, by decide⟩ : Fin 8) (⟨2, by decide⟩ : Fin 4) b v := by
  rw [ReadP.val_main_v203_apply]
  refine Finset.sum_congr rfl fun u _ => ?_
  have hl : ReadP.lidx_main_v203 (ix2 b v) u = ix2 b u := funext fun a => match a with | ⟨0, _⟩ => rfl | ⟨1, _⟩ => rfl
  have hr : ReadP.ridx_main_v203 (ix2 b v) u = ix2 u v := funext fun a => match a with | ⟨0, _⟩ => rfl | ⟨1, _⟩ => rfl
  rw [hl, hr, xs_5, ws_5_2]

theorem oh_5_2 (x2 : S32768.Idx → BitVec 32) (b : Fin 32768) (v : Fin 128) :
    ReadP.val_main_v204 (F := Ideal) x2 (ix2 b v) = oh x2 b (⟨2, by decide⟩ : Fin 4) := by
  rw [ReadP.val_main_v204_apply, ReadP.val_main_v200_apply]
  have hi : ReadP.idx_main_v200 (ReadP.idx_main_v204 (ix2 b v)) = ix2 b (⟨2, by decide⟩ : Fin 4) :=
    funext fun a => match a with | ⟨0, _⟩ => rfl | ⟨1, _⟩ => rfl
  rw [hi, onehot_apply]

theorem ws_5_3 {F : FTy → Type} [FloatOps F] (x1 : S4x131072.Idx → F .f32) (u v : Fin 128) :
    ReadP.val_main_v209 (F := F) x1 (ix2 u v) = x1 (ix2 (⟨3, by decide⟩ : Fin 4) (wcol (⟨5, by decide⟩ : Fin 8) u v)) := by
  rw [ReadP.val_main_v209_apply, ReadP.val_main_v208_apply, ReadP.val_main_v184_apply, ReadP.val_main_v183_apply]
  exact congrArg x1 (funext fun a => match a with
    | ⟨0, _⟩ => Fin.ext (by dsimp only [ReadP.idx_main_v183, ReadP.idx_main_v184, ReadP.idx_main_v208, ReadP.idx_main_v209, ix2, wcol] <;> omega)
    | ⟨1, _⟩ => Fin.ext (by dsimp only [ReadP.idx_main_v183, ReadP.idx_main_v184, ReadP.idx_main_v208, ReadP.idx_main_v209, ix2, wcol] <;> omega))

theorem dot_5_3 (x0 : S32768x512.Idx → EReal) (x1 : S4x131072.Idx → EReal) (b : Fin 32768) (v : Fin 128) :
    ReadP.val_main_v210 (F := Ideal) x0 x1 (ix2 b v) = D x0 x1 (⟨1, by decide⟩ : Fin 4) (⟨5, by decide⟩ : Fin 8) (⟨3, by decide⟩ : Fin 4) b v := by
  rw [ReadP.val_main_v210_apply]
  refine Finset.sum_congr rfl fun u _ => ?_
  have hl : ReadP.lidx_main_v210 (ix2 b v) u = ix2 b u := funext fun a => match a with | ⟨0, _⟩ => rfl | ⟨1, _⟩ => rfl
  have hr : ReadP.ridx_main_v210 (ix2 b v) u = ix2 u v := funext fun a => match a with | ⟨0, _⟩ => rfl | ⟨1, _⟩ => rfl
  rw [hl, hr, xs_5, ws_5_3]

theorem oh_5_3 (x2 : S32768.Idx → BitVec 32) (b : Fin 32768) (v : Fin 128) :
    ReadP.val_main_v211 (F := Ideal) x2 (ix2 b v) = oh x2 b (⟨3, by decide⟩ : Fin 4) := by
  rw [ReadP.val_main_v211_apply, ReadP.val_main_v207_apply]
  have hi : ReadP.idx_main_v207 (ReadP.idx_main_v211 (ix2 b v)) = ix2 b (⟨3, by decide⟩ : Fin 4) :=
    funext fun a => match a with | ⟨0, _⟩ => rfl | ⟨1, _⟩ => rfl
  rw [hi, onehot_apply]

theorem y_5 (x0 : S32768x512.Idx → EReal) (x1 : S4x131072.Idx → EReal) (x2 : S32768.Idx → BitVec 32) (b : Fin 32768) (v : Fin 128) :
    ReadP.val_main_v213 (F := Ideal) x0 x1 x2 (ix2 b v) = Y x0 x1 x2 (⟨1, by decide⟩ : Fin 4) (⟨5, by decide⟩ : Fin 8) b v := by
  rw [ReadP.val_main_v213_apply, ReadP.val_main_v206_apply, ReadP.val_main_v199_apply, ReadP.val_main_v192_apply, ReadP.val_main_v185_apply, ReadP.val_main_cst_14_apply,
    ReadP.val_main_v191_apply, ReadP.val_main_v198_apply, ReadP.val_main_v205_apply, ReadP.val_main_v212_apply,
    oh_5_0, oh_5_1, oh_5_2, oh_5_3, dot_5_0, dot_5_1, dot_5_2, dot_5_3]
  rfl

theorem upd_5 (x0 : S32768x512.Idx → EReal) (x1 : S4x131072.Idx → EReal) (x2 : S32768.Idx → BitVec 32) (b : Fin 32768) (v : Fin 128) :
    ReadP.val_main_v215 (F := Ideal) x0 x1 x2 (ix2 b v) = Ideal.ofBits .f32 0x3F000000#32 * Y x0 x1 x2 (⟨1, by decide⟩ : Fin 4) (⟨5, by decide⟩ : Fin 8) b v := by
  rw [ReadP.val_main_v215_apply, ReadP.val_main_v214_apply, ReadP.val_main_cst_15_apply, y_5]
  rfl

theorem off_5 (k : S1.Idx) : ReadP.val_main_v216 (F := Ideal) k = 256#32 := by
  rw [ReadP.val_main_v216_apply]
  rfl

theorem stage_5_in (x0 : S32768x512.Idx → EReal) (x1 : S4x131072.Idx → EReal) (x2 : S32768.Idx → BitVec 32) (b : Fin 32768) (q : Fin 512) (t : Fin 128) (hq : q.val = 256 + t.val) :
    ReadP.val_main_v217 (F := Ideal) x0 x1 x2 (ix2 b q)
      = ReadP.val_main_v181 (F := Ideal) x0 x1 x2 (ix2 b q) + Ideal.ofBits .f32 0x3F000000#32 * Y x0 x1 x2 (⟨1, by decide⟩ : Fin 4) (⟨5, by decide⟩ : Fin 8) b t := by
  unfold ReadP.val_main_v217
  rw [scatter_apply_inside FloatOps.addf _ _ _ 256#32 256 (by decide) (by decide) off_5 b q t hq, upd_5]
  rfl

theorem stage_5_out (x0 : S32768x512.Idx → EReal) (x1 : S4x131072.Idx → EReal) (x2 : S32768.Idx → BitVec 32) (b : Fin 32768) (q : Fin 512) (hq : ¬ (256 ≤ q.val ∧ q.val < 256 + 128)) :
    ReadP.val_main_v217 (F := Ideal) x0 x1 x2 (ix2 b q) = ReadP.val_main_v181 (F := Ideal) x0 x1 x2 (ix2 b q) := by
  unfold ReadP.val_main_v217
  exact scatter_apply_outside FloatOps.addf _ _ _ 256#32 256 (by decide) (by decide) off_5 b q hq

/-! ## Path 6: input segment 2, weight segment 6, output segment 3 -/

theorem xs_6 {F : FTy → Type} [FloatOps F] (x0 : S32768x512.Idx → F .f32) (b : Fin 32768) (u : Fin 128) :
    ReadP.val_main_v218 (F := F) x0 (ix2 b u) = x0 (ix2 b (xcol (⟨2, by decide⟩ : Fin 4) u)) := by
  rw [ReadP.val_main_v218_apply]
  exact congrArg x0 (funext fun a => match a with
    | ⟨0, _⟩ => rfl
    | ⟨1, _⟩ => Fin.ext (by dsimp only [ReadP.idx_main_v218, ix2, xcol] <;> omega))

theorem ws_6_0 {F : FTy → Type} [FloatOps F] (x1 : S4x131072.Idx → F .f32) (u v : Fin 128) :
    ReadP.val_main_v224 (F := F) x1 (ix2 u v) = x1 (ix2 (⟨0, by decide⟩ : Fin 4) (wcol (⟨6, by decide⟩ : Fin 8) u v)) := by
  rw [ReadP.val_main_v224_apply, ReadP.val_main_v223_apply, ReadP.val_main_v220_apply, ReadP.val_main_v219_apply]
  exact congrArg x1 (funext fun a => match a with
    | ⟨0, _⟩ => Fin.ext (by dsimp only [ReadP.idx_main_v219, ReadP.idx_main_v220, ReadP.idx_main_v223, ReadP.idx_main_v224, ix2, wcol] <;> omega)
    | ⟨1, _⟩ => Fin.ext (by dsimp only [ReadP.idx_main_v219, ReadP.idx_main_v220, ReadP.idx_main_v223, ReadP.idx_main_v224, ix2, wcol] <;> omega))

theorem dot_6_0 (x0 : S32768x512.Idx → EReal) (x1 : S4x131072.Idx → EReal) (b : Fin 32768) (v : Fin 128) :
    ReadP.val_main_v225 (F := Ideal) x0 x1 (ix2 b v) = D x0 x1 (⟨2, by decide⟩ : Fin 4) (⟨6, by decide⟩ : Fin 8) (⟨0, by decide⟩ : Fin 4) b v := by
  rw [ReadP.val_main_v225_apply]
  refine Finset.sum_congr rfl fun u _ => ?_
  have hl : ReadP.lidx_main_v225 (ix2 b v) u = ix2 b u := funext fun a => match a with | ⟨0, _⟩ => rfl | ⟨1, _⟩ => rfl
  have hr : ReadP.ridx_main_v225 (ix2 b v) u = ix2 u v := funext fun a => match a with | ⟨0, _⟩ => rfl | ⟨1, _⟩ => rfl
  rw [hl, hr, xs_6, ws_6_0]

theorem oh_6_0 (x2 : S32768.Idx → BitVec 32) (b : Fin 32768) (v : Fin 128) :
    ReadP.val_main_v226 (F := Ideal) x2 (ix2 b v) = oh x2 b (⟨0, by decide⟩ : Fin 4) := by
  rw [ReadP.val_main_v226_apply, ReadP.val_main_v222_apply]
  have hi : ReadP.idx_main_v222 (ReadP.idx_main_v226 (ix2 b v)) = ix2 b (⟨0, by decide⟩ : Fin 4) :=
    funext fun a => match a with | ⟨0, _⟩ => rfl | ⟨1, _⟩ => rfl
  rw [hi, onehot_apply]

theorem ws_6_1 {F : FTy → Type} [FloatOps F] (x1 : S4x131072.Idx → F .f32) (u v : Fin 128) :
    ReadP.val_main_v231 (F := F) x1 (ix2 u v) = x1 (ix2 (⟨1, by decide⟩ : Fin 4) (wcol (⟨6, by decide⟩ : Fin 8) u v)) := by
  rw [ReadP.val_main_v231_apply, ReadP.val_main_v230_apply, ReadP.val_main_v220_apply, ReadP.val_main_v219_apply]
  exact congrArg x1 (funext fun a => match a with
    | ⟨0, _⟩ => Fin.ext (by dsimp only [ReadP.idx_main_v219, ReadP.idx_main_v220, ReadP.idx_main_v230, ReadP.idx_main_v231, ix2, wcol] <;> omega)
    | ⟨1, _⟩ => Fin.ext (by dsimp only [ReadP.idx_main_v219, ReadP.idx_main_v220, ReadP.idx_main_v230, ReadP.idx_main_v231, ix2, wcol] <;> omega))

theorem dot_6_1 (x0 : S32768x512.Idx → EReal) (x1 : S4x131072.Idx → EReal) (b : Fin 32768) (v : Fin 128) :
    ReadP.val_main_v232 (F := Ideal) x0 x1 (ix2 b v) = D x0 x1 (⟨2, by decide⟩ : Fin 4) (⟨6, by decide⟩ : Fin 8) (⟨1, by decide⟩ : Fin 4) b v := by
  rw [ReadP.val_main_v232_apply]
  refine Finset.sum_congr rfl fun u _ => ?_
  have hl : ReadP.lidx_main_v232 (ix2 b v) u = ix2 b u := funext fun a => match a with | ⟨0, _⟩ => rfl | ⟨1, _⟩ => rfl
  have hr : ReadP.ridx_main_v232 (ix2 b v) u = ix2 u v := funext fun a => match a with | ⟨0, _⟩ => rfl | ⟨1, _⟩ => rfl
  rw [hl, hr, xs_6, ws_6_1]

theorem oh_6_1 (x2 : S32768.Idx → BitVec 32) (b : Fin 32768) (v : Fin 128) :
    ReadP.val_main_v233 (F := Ideal) x2 (ix2 b v) = oh x2 b (⟨1, by decide⟩ : Fin 4) := by
  rw [ReadP.val_main_v233_apply, ReadP.val_main_v229_apply]
  have hi : ReadP.idx_main_v229 (ReadP.idx_main_v233 (ix2 b v)) = ix2 b (⟨1, by decide⟩ : Fin 4) :=
    funext fun a => match a with | ⟨0, _⟩ => rfl | ⟨1, _⟩ => rfl
  rw [hi, onehot_apply]

theorem ws_6_2 {F : FTy → Type} [FloatOps F] (x1 : S4x131072.Idx → F .f32) (u v : Fin 128) :
    ReadP.val_main_v238 (F := F) x1 (ix2 u v) = x1 (ix2 (⟨2, by decide⟩ : Fin 4) (wcol (⟨6, by decide⟩ : Fin 8) u v)) := by
  rw [ReadP.val_main_v238_apply, ReadP.val_main_v237_apply, ReadP.val_main_v220_apply, ReadP.val_main_v219_apply]
  exact congrArg x1 (funext fun a => match a with
    | ⟨0, _⟩ => Fin.ext (by dsimp only [ReadP.idx_main_v219, ReadP.idx_main_v220, ReadP.idx_main_v237, ReadP.idx_main_v238, ix2, wcol] <;> omega)
    | ⟨1, _⟩ => Fin.ext (by dsimp only [ReadP.idx_main_v219, ReadP.idx_main_v220, ReadP.idx_main_v237, ReadP.idx_main_v238, ix2, wcol] <;> omega))

theorem dot_6_2 (x0 : S32768x512.Idx → EReal) (x1 : S4x131072.Idx → EReal) (b : Fin 32768) (v : Fin 128) :
    ReadP.val_main_v239 (F := Ideal) x0 x1 (ix2 b v) = D x0 x1 (⟨2, by decide⟩ : Fin 4) (⟨6, by decide⟩ : Fin 8) (⟨2, by decide⟩ : Fin 4) b v := by
  rw [ReadP.val_main_v239_apply]
  refine Finset.sum_congr rfl fun u _ => ?_
  have hl : ReadP.lidx_main_v239 (ix2 b v) u = ix2 b u := funext fun a => match a with | ⟨0, _⟩ => rfl | ⟨1, _⟩ => rfl
  have hr : ReadP.ridx_main_v239 (ix2 b v) u = ix2 u v := funext fun a => match a with | ⟨0, _⟩ => rfl | ⟨1, _⟩ => rfl
  rw [hl, hr, xs_6, ws_6_2]

theorem oh_6_2 (x2 : S32768.Idx → BitVec 32) (b : Fin 32768) (v : Fin 128) :
    ReadP.val_main_v240 (F := Ideal) x2 (ix2 b v) = oh x2 b (⟨2, by decide⟩ : Fin 4) := by
  rw [ReadP.val_main_v240_apply, ReadP.val_main_v236_apply]
  have hi : ReadP.idx_main_v236 (ReadP.idx_main_v240 (ix2 b v)) = ix2 b (⟨2, by decide⟩ : Fin 4) :=
    funext fun a => match a with | ⟨0, _⟩ => rfl | ⟨1, _⟩ => rfl
  rw [hi, onehot_apply]

theorem ws_6_3 {F : FTy → Type} [FloatOps F] (x1 : S4x131072.Idx → F .f32) (u v : Fin 128) :
    ReadP.val_main_v245 (F := F) x1 (ix2 u v) = x1 (ix2 (⟨3, by decide⟩ : Fin 4) (wcol (⟨6, by decide⟩ : Fin 8) u v)) := by
  rw [ReadP.val_main_v245_apply, ReadP.val_main_v244_apply, ReadP.val_main_v220_apply, ReadP.val_main_v219_apply]
  exact congrArg x1 (funext fun a => match a with
    | ⟨0, _⟩ => Fin.ext (by dsimp only [ReadP.idx_main_v219, ReadP.idx_main_v220, ReadP.idx_main_v244, ReadP.idx_main_v245, ix2, wcol] <;> omega)
    | ⟨1, _⟩ => Fin.ext (by dsimp only [ReadP.idx_main_v219, ReadP.idx_main_v220, ReadP.idx_main_v244, ReadP.idx_main_v245, ix2, wcol] <;> omega))

theorem dot_6_3 (x0 : S32768x512.Idx → EReal) (x1 : S4x131072.Idx → EReal) (b : Fin 32768) (v : Fin 128) :
    ReadP.val_main_v246 (F := Ideal) x0 x1 (ix2 b v) = D x0 x1 (⟨2, by decide⟩ : Fin 4) (⟨6, by decide⟩ : Fin 8) (⟨3, by decide⟩ : Fin 4) b v := by
  rw [ReadP.val_main_v246_apply]
  refine Finset.sum_congr rfl fun u _ => ?_
  have hl : ReadP.lidx_main_v246 (ix2 b v) u = ix2 b u := funext fun a => match a with | ⟨0, _⟩ => rfl | ⟨1, _⟩ => rfl
  have hr : ReadP.ridx_main_v246 (ix2 b v) u = ix2 u v := funext fun a => match a with | ⟨0, _⟩ => rfl | ⟨1, _⟩ => rfl
  rw [hl, hr, xs_6, ws_6_3]

theorem oh_6_3 (x2 : S32768.Idx → BitVec 32) (b : Fin 32768) (v : Fin 128) :
    ReadP.val_main_v247 (F := Ideal) x2 (ix2 b v) = oh x2 b (⟨3, by decide⟩ : Fin 4) := by
  rw [ReadP.val_main_v247_apply, ReadP.val_main_v243_apply]
  have hi : ReadP.idx_main_v243 (ReadP.idx_main_v247 (ix2 b v)) = ix2 b (⟨3, by decide⟩ : Fin 4) :=
    funext fun a => match a with | ⟨0, _⟩ => rfl | ⟨1, _⟩ => rfl
  rw [hi, onehot_apply]

theorem y_6 (x0 : S32768x512.Idx → EReal) (x1 : S4x131072.Idx → EReal) (x2 : S32768.Idx → BitVec 32) (b : Fin 32768) (v : Fin 128) :
    ReadP.val_main_v249 (F := Ideal) x0 x1 x2 (ix2 b v) = Y x0 x1 x2 (⟨2, by decide⟩ : Fin 4) (⟨6, by decide⟩ : Fin 8) b v := by
  rw [ReadP.val_main_v249_apply, ReadP.val_main_v242_apply, ReadP.val_main_v235_apply, ReadP.val_main_v228_apply, ReadP.val_main_v221_apply, ReadP.val_main_cst_17_apply,
    ReadP.val_main_v227_apply, ReadP.val_main_v234_apply, ReadP.val_main_v241_apply, ReadP.val_main_v248_apply,
    oh_6_0, oh_6_1, oh_6_2, oh_6_3, dot_6_0, dot_6_1, dot_6_2, dot_6_3]
  rfl

theorem upd_6 (x0 : S32768x512.Idx → EReal) (x1 : S4x131072.Idx → EReal) (x2 : S32768.Idx → BitVec 32) (b : Fin 32768) (v : Fin 128) :
    ReadP.val_main_v251 (F := Ideal) x0 x1 x2 (ix2 b v) = Ideal.ofBits .f32 0x3F000000#32 * Y x0 x1 x2 (⟨2, by decide⟩ : Fin 4) (⟨6, by decide⟩ : Fin 8) b v := by
  rw [ReadP.val_main_v251_apply, ReadP.val_main_v250_apply, ReadP.val_main_cst_18_apply, y_6]
  rfl

theorem off_6 (k : S1.Idx) : ReadP.val_main_v252 (F := Ideal) k = 384#32 := by
  rw [ReadP.val_main_v252_apply]
  rfl

theorem stage_6_in (x0 : S32768x512.Idx → EReal) (x1 : S4x131072.Idx → EReal) (x2 : S32768.Idx → BitVec 32) (b : Fin 32768) (q : Fin 512) (t : Fin 128) (hq : q.val = 384 + t.val) :
    ReadP.val_main_v253 (F := Ideal) x0 x1 x2 (ix2 b q)
      = ReadP.val_main_v217 (F := Ideal) x0 x1 x2 (ix2 b q) + Ideal.ofBits .f32 0x3F000000#32 * Y x0 x1 x2 (⟨2, by decide⟩ : Fin 4) (⟨6, by decide⟩ : Fin 8) b t := by
  unfold ReadP.val_main_v253
  rw [scatter_apply_inside FloatOps.addf _ _ _ 384#32 384 (by decide) (by decide) off_6 b q t hq, upd_6]
  rfl

theorem stage_6_out (x0 : S32768x512.Idx → EReal) (x1 : S4x131072.Idx → EReal) (x2 : S32768.Idx → BitVec 32) (b : Fin 32768) (q : Fin 512) (hq : ¬ (384 ≤ q.val ∧ q.val < 384 + 128)) :
    ReadP.val_main_v253 (F := Ideal) x0 x1 x2 (ix2 b q) = ReadP.val_main_v217 (F := Ideal) x0 x1 x2 (ix2 b q) := by
  unfold ReadP.val_main_v253
  exact scatter_apply_outside FloatOps.addf _ _ _ 384#32 384 (by decide) (by decide) off_6 b q hq

/-! ## Path 7: input segment 3, weight segment 7, output segment 0 -/

theorem xs_7 {F : FTy → Type} [FloatOps F] (x0 : S32768x512.Idx → F .f32) (b : Fin 32768) (u : Fin 128) :
    ReadP.val_main_v254 (F := F) x0 (ix2 b u) = x0 (ix2 b (xcol (⟨3, by decide⟩ : Fin 4) u)) := by
  rw [ReadP.val_main_v254_apply]
  exact congrArg x0 (funext fun a => match a with
    | ⟨0, _⟩ => rfl
    | ⟨1, _⟩ => Fin.ext (by dsimp only [ReadP.idx_main_v254, ix2, xcol] <;> omega))

theorem ws_7_0 {F : FTy → Type} [FloatOps F] (x1 : S4x131072.Idx → F .f32) (u v : Fin 128) :
    ReadP.val_main_v260 (F := F) x1 (ix2 u v) = x1 (ix2 (⟨0, by decide⟩ : Fin 4) (wcol (⟨7, by decide⟩ : Fin 8) u v)) := by
  rw [ReadP.val_main_v260_apply, ReadP.val_main_v259_apply, ReadP.val_main_v256_apply, ReadP.val_main_v255_apply]
  exact congrArg x1 (funext fun a => match a with
    | ⟨0, _⟩ => Fin.ext (by dsimp only [ReadP.idx_main_v255, ReadP.idx_main_v256, ReadP.idx_main_v259, ReadP.idx_main_v260, ix2, wcol] <;> omega)
    | ⟨1, _⟩ => Fin.ext (by dsimp only [ReadP.idx_main_v255, ReadP.idx_main_v256, ReadP.idx_main_v259, ReadP.idx_main_v260, ix2, wcol] <;> omega))

theorem dot_7_0 (x0 : S32768x512.Idx → EReal) (x1 : S4x131072.Idx → EReal) (b : Fin 32768) (v : Fin 128) :
    ReadP.val_main_v261 (F := Ideal) x0 x1 (ix2 b v) = D x0 x1 (⟨3, by decide⟩ : Fin 4) (⟨7, by decide⟩ : Fin 8) (⟨0, by decide⟩ : Fin 4) b v := by
  rw [ReadP.val_main_v261_apply]
  refine Finset.sum_congr rfl fun u _ => ?_
  have hl : ReadP.lidx_main_v261 (ix2 b v) u = ix2 b u := funext fun a => match a with | ⟨0, _⟩ => rfl | ⟨1, _⟩ => rfl
  have hr : ReadP.ridx_main_v261 (ix2 b v) u = ix2 u v := funext fun a => match a with | ⟨0, _⟩ => rfl | ⟨1, _⟩ => rfl
  rw [hl, hr, xs_7, ws_7_0]

theorem oh_7_0 (x2 : S32768.Idx → BitVec 32) (b : Fin 32768) (v : Fin 128) :
    ReadP.val_main_v262 (F := Ideal) x2 (ix2 b v) = oh x2 b (⟨0, by decide⟩ : Fin 4) := by
  rw [ReadP.val_main_v262_apply, ReadP.val_main_v258_apply]
  have hi : ReadP.idx_main_v258 (ReadP.idx_main_v262 (ix2 b v)) = ix2 b (⟨0, by decide⟩ : Fin 4) :=
    funext fun a => match a with | ⟨0, _⟩ => rfl | ⟨1, _⟩ => rfl
  rw [hi, onehot_apply]

theorem ws_7_1 {F : FTy → Type} [FloatOps F] (x1 : S4x131072.Idx → F .f32) (u v : Fin 128) :
    ReadP.val_main_v267 (F := F) x1 (ix2 u v) = x1 (ix2 (⟨1, by decide⟩ : Fin 4) (wcol (⟨7, by decide⟩ : Fin 8) u v)) := by
  rw [ReadP.val_main_v267_apply, ReadP.val_main_v266_apply, ReadP.val_main_v256_apply, ReadP.val_main_v255_apply]
  exact congrArg x1 (funext fun a => match a with
    | ⟨0, _⟩ => Fin.ext (by dsimp only [ReadP.idx_main_v255, ReadP.idx_main_v256, ReadP.idx_main_v266, ReadP.idx_main_v267, ix2, wcol] <;> omega)
    | ⟨1, _⟩ => Fin.ext (by dsimp only [ReadP.idx_main_v255, ReadP.idx_main_v256, ReadP.idx_main_v266, ReadP.idx_main_v267, ix2, wcol] <;> omega))

theorem dot_7_1 (x0 : S32768x512.Idx → EReal) (x1 : S4x131072.Idx → EReal) (b : Fin 32768) (v : Fin 128) :
    ReadP.val_main_v268 (F := Ideal) x0 x1 (ix2 b v) = D x0 x1 (⟨3, by decide⟩ : Fin 4) (⟨7, by decide⟩ : Fin 8) (⟨1, by decide⟩ : Fin 4) b v := by
  rw [ReadP.val_main_v268_apply]
  refine Finset.sum_congr rfl fun u _ => ?_
  have hl : ReadP.lidx_main_v268 (ix2 b v) u = ix2 b u := funext fun a => match a with | ⟨0, _⟩ => rfl | ⟨1, _⟩ => rfl
  have hr : ReadP.ridx_main_v268 (ix2 b v) u = ix2 u v := funext fun a => match a with | ⟨0, _⟩ => rfl | ⟨1, _⟩ => rfl
  rw [hl, hr, xs_7, ws_7_1]

theorem oh_7_1 (x2 : S32768.Idx → BitVec 32) (b : Fin 32768) (v : Fin 128) :
    ReadP.val_main_v269 (F := Ideal) x2 (ix2 b v) = oh x2 b (⟨1, by decide⟩ : Fin 4) := by
  rw [ReadP.val_main_v269_apply, ReadP.val_main_v265_apply]
  have hi : ReadP.idx_main_v265 (ReadP.idx_main_v269 (ix2 b v)) = ix2 b (⟨1, by decide⟩ : Fin 4) :=
    funext fun a => match a with | ⟨0, _⟩ => rfl | ⟨1, _⟩ => rfl
  rw [hi, onehot_apply]

theorem ws_7_2 {F : FTy → Type} [FloatOps F] (x1 : S4x131072.Idx → F .f32) (u v : Fin 128) :
    ReadP.val_main_v274 (F := F) x1 (ix2 u v) = x1 (ix2 (⟨2, by decide⟩ : Fin 4) (wcol (⟨7, by decide⟩ : Fin 8) u v)) := by
  rw [ReadP.val_main_v274_apply, ReadP.val_main_v273_apply, ReadP.val_main_v256_apply, ReadP.val_main_v255_apply]
  exact congrArg x1 (funext fun a => match a with
    | ⟨0, _⟩ => Fin.ext (by dsimp only [ReadP.idx_main_v255, ReadP.idx_main_v256, ReadP.idx_main_v273, ReadP.idx_main_v274, ix2, wcol] <;> omega)
    | ⟨1, _⟩ => Fin.ext (by dsimp only [ReadP.idx_main_v255, ReadP.idx_main_v256, ReadP.idx_main_v273, ReadP.idx_main_v274, ix2, wcol] <;> omega))

theorem dot_7_2 (x0 : S32768x512.Idx → EReal) (x1 : S4x131072.Idx → EReal) (b : Fin 32768) (v : Fin 128) :
    ReadP.val_main_v275 (F := Ideal) x0 x1 (ix2 b v) = D x0 x1 (⟨3, by decide⟩ : Fin 4) (⟨7, by decide⟩ : Fin 8) (⟨2, by decide⟩ : Fin 4) b v := by
  rw [ReadP.val_main_v275_apply]
  refine Finset.sum_congr rfl fun u _ => ?_
  have hl : ReadP.lidx_main_v275 (ix2 b v) u = ix2 b u := funext fun a => match a with | ⟨0, _⟩ => rfl | ⟨1, _⟩ => rfl
  have hr : ReadP.ridx_main_v275 (ix2 b v) u = ix2 u v := funext fun a => match a with | ⟨0, _⟩ => rfl | ⟨1, _⟩ => rfl
  rw [hl, hr, xs_7, ws_7_2]

theorem oh_7_2 (x2 : S32768.Idx → BitVec 32) (b : Fin 32768) (v : Fin 128) :
    ReadP.val_main_v276 (F := Ideal) x2 (ix2 b v) = oh x2 b (⟨2, by decide⟩ : Fin 4) := by
  rw [ReadP.val_main_v276_apply, ReadP.val_main_v272_apply]
  have hi : ReadP.idx_main_v272 (ReadP.idx_main_v276 (ix2 b v)) = ix2 b (⟨2, by decide⟩ : Fin 4) :=
    funext fun a => match a with | ⟨0, _⟩ => rfl | ⟨1, _⟩ => rfl
  rw [hi, onehot_apply]

theorem ws_7_3 {F : FTy → Type} [FloatOps F] (x1 : S4x131072.Idx → F .f32) (u v : Fin 128) :
    ReadP.val_main_v281 (F := F) x1 (ix2 u v) = x1 (ix2 (⟨3, by decide⟩ : Fin 4) (wcol (⟨7, by decide⟩ : Fin 8) u v)) := by
  rw [ReadP.val_main_v281_apply, ReadP.val_main_v280_apply, ReadP.val_main_v256_apply, ReadP.val_main_v255_apply]
  exact congrArg x1 (funext fun a => match a with
    | ⟨0, _⟩ => Fin.ext (by dsimp only [ReadP.idx_main_v255, ReadP.idx_main_v256, ReadP.idx_main_v280, ReadP.idx_main_v281, ix2, wcol] <;> omega)
    | ⟨1, _⟩ => Fin.ext (by dsimp only [ReadP.idx_main_v255, ReadP.idx_main_v256, ReadP.idx_main_v280, ReadP.idx_main_v281, ix2, wcol] <;> omega))

theorem dot_7_3 (x0 : S32768x512.Idx → EReal) (x1 : S4x131072.Idx → EReal) (b : Fin 32768) (v : Fin 128) :
    ReadP.val_main_v282 (F := Ideal) x0 x1 (ix2 b v) = D x0 x1 (⟨3, by decide⟩ : Fin 4) (⟨7, by decide⟩ : Fin 8) (⟨3, by decide⟩ : Fin 4) b v := by
  rw [ReadP.val_main_v282_apply]
  refine Finset.sum_congr rfl fun u _ => ?_
  have hl : ReadP.lidx_main_v282 (ix2 b v) u = ix2 b u := funext fun a => match a with | ⟨0, _⟩ => rfl | ⟨1, _⟩ => rfl
  have hr : ReadP.ridx_main_v282 (ix2 b v) u = ix2 u v := funext fun a => match a with | ⟨0, _⟩ => rfl | ⟨1, _⟩ => rfl
  rw [hl, hr, xs_7, ws_7_3]

theorem oh_7_3 (x2 : S32768.Idx → BitVec 32) (b : Fin 32768) (v : Fin 128) :
    ReadP.val_main_v283 (F := Ideal) x2 (ix2 b v) = oh x2 b (⟨3, by decide⟩ : Fin 4) := by
  rw [ReadP.val_main_v283_apply, ReadP.val_main_v279_apply]
  have hi : ReadP.idx_main_v279 (ReadP.idx_main_v283 (ix2 b v)) = ix2 b (⟨3, by decide⟩ : Fin 4) :=
    funext fun a => match a with | ⟨0, _⟩ => rfl | ⟨1, _⟩ => rfl
  rw [hi, onehot_apply]

theorem y_7 (x0 : S32768x512.Idx → EReal) (x1 : S4x131072.Idx → EReal) (x2 : S32768.Idx → BitVec 32) (b : Fin 32768) (v : Fin 128) :
    ReadP.val_main_v285 (F := Ideal) x0 x1 x2 (ix2 b v) = Y x0 x1 x2 (⟨3, by decide⟩ : Fin 4) (⟨7, by decide⟩ : Fin 8) b v := by
  rw [ReadP.val_main_v285_apply, ReadP.val_main_v278_apply, ReadP.val_main_v271_apply, ReadP.val_main_v264_apply, ReadP.val_main_v257_apply, ReadP.val_main_cst_20_apply,
    ReadP.val_main_v263_apply, ReadP.val_main_v270_apply, ReadP.val_main_v277_apply, ReadP.val_main_v284_apply,
    oh_7_0, oh_7_1, oh_7_2, oh_7_3, dot_7_0, dot_7_1, dot_7_2, dot_7_3]
  rfl

theorem upd_7 (x0 : S32768x512.Idx → EReal) (x1 : S4x131072.Idx → EReal) (x2 : S32768.Idx → BitVec 32) (b : Fin 32768) (v : Fin 128) :
    ReadP.val_main_v287 (F := Ideal) x0 x1 x2 (ix2 b v) = Ideal.ofBits .f32 0x3F000000#32 * Y x0 x1 x2 (⟨3, by decide⟩ : Fin 4) (⟨7, by decide⟩ : Fin 8) b v := by
  rw [ReadP.val_main_v287_apply, ReadP.val_main_v286_apply, ReadP.val_main_cst_21_apply, y_7]
  rfl

theorem off_7 (k : S1.Idx) : ReadP.val_main_v288 (F := Ideal) k = 0#32 := by
  rw [ReadP.val_main_v288_apply]
  rfl

theorem stage_7_in (x0 : S32768x512.Idx → EReal) (x1 : S4x131072.Idx → EReal) (x2 : S32768.Idx → BitVec 32) (b : Fin 32768) (q : Fin 512) (t : Fin 128) (hq : q.val = 0 + t.val) :
    ReadP.val_main_v289 (F := Ideal) x0 x1 x2 (ix2 b q)
      = ReadP.val_main_v253 (F := Ideal) x0 x1 x2 (ix2 b q) + Ideal.ofBits .f32 0x3F000000#32 * Y x0 x1 x2 (⟨3, by decide⟩ : Fin 4) (⟨7, by decide⟩ : Fin 8) b t := by
  unfold ReadP.val_main_v289
  rw [scatter_apply_inside FloatOps.addf _ _ _ 0#32 0 (by decide) (by decide) off_7 b q t hq, upd_7]
  rfl

theorem stage_7_out (x0 : S32768x512.Idx → EReal) (x1 : S4x131072.Idx → EReal) (x2 : S32768.Idx → BitVec 32) (b : Fin 32768) (q : Fin 512) (hq : ¬ (0 ≤ q.val ∧ q.val < 0 + 128)) :
    ReadP.val_main_v289 (F := Ideal) x0 x1 x2 (ix2 b q) = ReadP.val_main_v253 (F := Ideal) x0 x1 x2 (ix2 b q) := by
  unfold ReadP.val_main_v289
  exact scatter_apply_outside FloatOps.addf _ _ _ 0#32 0 (by decide) (by decide) off_7 b q hq

/-! ## The eight scatters in order, read inside one column block -/

theorem block_0 (x0 : S32768x512.Idx → EReal) (x1 : S4x131072.Idx → EReal) (x2 : S32768.Idx → BitVec 32) (b : Fin 32768) (q : Fin 512) (v : Fin 128) (hq : q.val = 0 + v.val) :
    ReadP.val_main_v289 (F := Ideal) x0 x1 x2 (ix2 b q) = Blk x0 x1 x2 (⟨0, by decide⟩ : Fin 4) (⟨0, by decide⟩ : Fin 8) (⟨3, by decide⟩ : Fin 4) (⟨7, by decide⟩ : Fin 8) b v := by
  rw [stage_7_in x0 x1 x2 b q v (by omega),
    stage_6_out x0 x1 x2 b q (by omega),
    stage_5_out x0 x1 x2 b q (by omega),
    stage_4_out x0 x1 x2 b q (by omega),
    stage_3_out x0 x1 x2 b q (by omega),
    stage_2_out x0 x1 x2 b q (by omega),
    stage_1_out x0 x1 x2 b q (by omega),
    stage_0_in x0 x1 x2 b q v (by omega),
    base_apply]
  rfl

theorem block_1 (x0 : S32768x512.Idx → EReal) (x1 : S4x131072.Idx → EReal) (x2 : S32768.Idx → BitVec 32) (b : Fin 32768) (q : Fin 512) (v : Fin 128) (hq : q.val = 128 + v.val) :
    ReadP.val_main_v289 (F := Ideal) x0 x1 x2 (ix2 b q) = Blk x0 x1 x2 (⟨1, by decide⟩ : Fin 4) (⟨1, by decide⟩ : Fin 8) (⟨0, by decide⟩ : Fin 4) (⟨4, by decide⟩ : Fin 8) b v := by
  rw [stage_7_out x0 x1 x2 b q (by omega),
    stage_6_out x0 x1 x2 b q (by omega),
    stage_5_out x0 x1 x2 b q (by omega),
    stage_4_in x0 x1 x2 b q v (by omega),
    stage_3_out x0 x1 x2 b q (by omega),
    stage_2_out x0 x1 x2 b q (by omega),
    stage_1_in x0 x1 x2 b q v (by omega),
    stage_0_out x0 x1 x2 b q (by omega),
    base_apply]
  rfl

theorem block_2 (x0 : S32768x512.Idx → EReal) (x1 : S4x131072.Idx → EReal) (x2 : S32768.Idx → BitVec 32) (b : Fin 32768) (q : Fin 512) (v : Fin 128) (hq : q.val = 256 + v.val) :
    ReadP.val_main_v289 (F := Ideal) x0 x1 x2 (ix2 b q) = Blk x0 x1 x2 (⟨2, by decide⟩ : Fin 4) (⟨2, by decide⟩ : Fin 8) (⟨1, by decide⟩ : Fin 4) (⟨5, by decide⟩ : Fin 8) b v := by
  rw [stage_7_out x0 x1 x2 b q (by omega),
    stage_6_out x0 x1 x2 b q (by omega),
    stage_5_in x0 x1 x2 b q v (by omega),
    stage_4_out x0 x1 x2 b q (by omega),
    stage_3_out x0 x1 x2 b q (by omega),
    stage_2_in x0 x1 x2 b q v (by omega),
    stage_1_out x0 x1 x2 b q (by omega),
    stage_0_out x0 x1 x2 b q (by omega),
    base_apply]
  rfl

theorem block_3 (x0 : S32768x512.Idx → EReal) (x1 : S4x131072.Idx → EReal) (x2 : S32768.Idx → BitVec 32) (b : Fin 32768) (q : Fin 512) (v : Fin 128) (hq : q.val = 384 + v.val) :
    ReadP.val_main_v289 (F := Ideal) x0 x1 x2 (ix2 b q) = Blk x0 x1 x2 (⟨3, by decide⟩ : Fin 4) (⟨3, by decide⟩ : Fin 8) (⟨2, by decide⟩ : Fin 4) (⟨6, by decide⟩ : Fin 8) b v := by
  rw [stage_7_out x0 x1 x2 b q (by omega),
    stage_6_in x0 x1 x2 b q v (by omega),
    stage_5_out x0 x1 x2 b q (by omega),
    stage_4_out x0 x1 x2 b q (by omega),
    stage_3_in x0 x1 x2 b q v (by omega),
    stage_2_out x0 x1 x2 b q (by omega),
    stage_1_out x0 x1 x2 b q (by omega),
    stage_0_out x0 x1 x2 b q (by omega),
    base_apply]
  rfl

/-! ## The result array -/

/-- The reference's result is RefOut of the three argument arrays. -/
theorem ref_eq (x0 : S32768x512.Idx → EReal) (x1 : S4x131072.Idx → EReal) (x2 : S32768.Idx → BitVec 32) :
    ReadP.val_main_v289 (F := Ideal) x0 x1 x2 = RefOut x0 x1 x2 := by
  funext i
  obtain ⟨b, q, rfl⟩ : ∃ (b : Fin 32768) (q : Fin 512), i = ix2 b q := ⟨i 0, i 1, eq_ix2 i⟩
  show _ = RefAt x0 x1 x2 b q
  unfold RefAt
  by_cases h0 : q.val < 128
  · rw [dif_pos h0]
    exact block_0 x0 x1 x2 b q ⟨q.val, h0⟩ (by show q.val = 0 + q.val; omega)
  · rw [dif_neg h0]
    by_cases h1 : q.val < 256
    · rw [dif_pos h1]
      exact block_1 x0 x1 x2 b q ⟨q.val - 128, by omega⟩ (by show q.val = 128 + (q.val - 128); omega)
    · rw [dif_neg h1]
      by_cases h2 : q.val < 384
      · rw [dif_pos h2]
        exact block_2 x0 x1 x2 b q ⟨q.val - 256, by omega⟩ (by show q.val = 256 + (q.val - 256); omega)
      · rw [dif_neg h2]
        exact block_3 x0 x1 x2 b q ⟨q.val - 384, by omega⟩ (by show q.val = 384 + (q.val - 384); omega)

/-- RefOut inside column block k, at column 128 k + v. -/
theorem RefOut_block0 (x0 : S32768x512.Idx → EReal) (x1 : S4x131072.Idx → EReal) (x2 : S32768.Idx → BitVec 32) (b : Fin 32768) (v : Fin 128) :
    RefOut x0 x1 x2 (ix2 b (⟨v.val, by omega⟩ : Fin 512)) = Blk x0 x1 x2 (⟨0, by decide⟩ : Fin 4) (⟨0, by decide⟩ : Fin 8) (⟨3, by decide⟩ : Fin 4) (⟨7, by decide⟩ : Fin 8) b v := by
  rw [← ref_eq]; exact block_0 x0 x1 x2 b _ v (by show v.val = 0 + v.val; omega)
theorem RefOut_block1 (x0 : S32768x512.Idx → EReal) (x1 : S4x131072.Idx → EReal) (x2 : S32768.Idx → BitVec 32) (b : Fin 32768) (v : Fin 128) :
    RefOut x0 x1 x2 (ix2 b (⟨128 + v.val, by omega⟩ : Fin 512)) = Blk x0 x1 x2 (⟨1, by decide⟩ : Fin 4) (⟨1, by decide⟩ : Fin 8) (⟨0, by decide⟩ : Fin 4) (⟨4, by decide⟩ : Fin 8) b v := by
  rw [← ref_eq]; exact block_1 x0 x1 x2 b _ v rfl
theorem RefOut_block2 (x0 : S32768x512.Idx → EReal) (x1 : S4x131072.Idx → EReal) (x2 : S32768.Idx → BitVec 32) (b : Fin 32768) (v : Fin 128) :
    RefOut x0 x1 x2 (ix2 b (⟨256 + v.val, by omega⟩ : Fin 512)) = Blk x0 x1 x2 (⟨2, by decide⟩ : Fin 4) (⟨2, by decide⟩ : Fin 8) (⟨1, by decide⟩ : Fin 4) (⟨5, by decide⟩ : Fin 8) b v := by
  rw [← ref_eq]; exact block_2 x0 x1 x2 b _ v rfl
theorem RefOut_block3 (x0 : S32768x512.Idx → EReal) (x1 : S4x131072.Idx → EReal) (x2 : S32768.Idx → BitVec 32) (b : Fin 32768) (v : Fin 128) :
    RefOut x0 x1 x2 (ix2 b (⟨384 + v.val, by omega⟩ : Fin 512)) = Blk x0 x1 x2 (⟨3, by decide⟩ : Fin 4) (⟨3, by decide⟩ : Fin 8) (⟨2, by decide⟩ : Fin 4) (⟨6, by decide⟩ : Fin 8) b v := by
  rw [← ref_eq]; exact block_3 x0 x1 x2 b _ v rfl

/-! ## The literals as extended reals -/

/-- The f32 pattern 0x3F800000 denotes 1. -/
theorem ofBits_one : Ideal.ofBits .f32 0x3F800000#32 = (1 : EReal) := by
  simp [Ideal.ofBits, Ideal.ieee]
  rw [← EReal.coe_mul, ← EReal.coe_one, EReal.coe_eq_coe_iff]
  norm_num

/-- The f32 pattern 0x3F000000 denotes 1/2. -/
theorem ofBits_half : Ideal.ofBits .f32 0x3F000000#32 = (((1 : ℝ) / 2 : ℝ) : EReal) := by
  simp [Ideal.ofBits, Ideal.ieee]
  rw [← EReal.coe_mul, EReal.coe_eq_coe_iff]
  norm_num

/-- The one-hot weight is 1 where the row's expert id is e and 0 elsewhere. -/
theorem oh_eq (x2 : S32768.Idx → BitVec 32) (b : Fin 32768) (e : Fin 4) :
    oh x2 b e = if x2 (ix1 b) = BitVec.ofNat 32 e.val then (1 : EReal) else 0 := by
  unfold oh
  by_cases h : x2 (ix1 b) = BitVec.ofNat 32 e.val
  · rw [if_pos h, h]
    show (((IntOp.cmpi .eq (BitVec.ofNat 32 e.val) (BitVec.ofNat 32 e.val)).toNat : ℝ) : EReal) = 1
    simp [IntOp.cmpi]
  · rw [if_neg h]
    show (((IntOp.cmpi .eq (x2 (ix1 b)) (BitVec.ofNat 32 e.val)).toNat : ℝ) : EReal) = 0
    simp [IntOp.cmpi, h]

end Cert.ReferenceIdeal.ArrayValue

end
-- ==== Proof.FiniteInputs.lean ====
/-
  Finiteness of the float inputs, read off the precondition.

  The precondition states, for each of the two float input arrays, that the conjunction over all
  elements of the comparison |x| < +∞ is true, and that both conjunctions hold. On the extended
  reals |x| is max x (-x), and +∞ is the value the f32 pattern 0x7F800000 denotes; an extended real
  whose absolute value lies strictly below ⊤ is neither ⊤ nor ⊥, hence (the coercion of) a real.
-/
import proofs.«104890_j59356448030869_2_alg».proof.Defs
import proofs.«104890_j59356448030869_2_alg».proof.Proof.Gen.Pre_finite_inputs
import Idealize.ShloMosaic.Lib.ReduceAll
import Idealize.ShloMosaic.Lib.ValueIdx
import Idealize.ShloMosaic.Lib.IdealHost
import Idealize.ShloMosaic.PureOps.Ideal
import Idealize.ShloMosaic.PureOps.Ideal.Laws

namespace Cert.Proof.FiniteInputs

open Idealize.ShloMosaic Idealize.ShloMosaic.ValueIdx Idealize.SL.Sem

/-- The rank-0 shape has exactly one index. -/
instance subsingleton_scalar_idx : Subsingleton Cert.Pre_finite_inputs.S_.Idx :=
  ⟨fun a b => funext fun d => d.elim0⟩

/-- The f32 pattern 0x7F800000 (sign 0, exponent all ones, significand 0) denotes +∞. -/
theorem ofBits_pos_inf : Ideal.ofBits .f32 0x7F800000#32 = (⊤ : EReal) := by
  simp [Ideal.ofBits, Ideal.ieee]

/-- An extended real whose absolute value max x (-x) lies strictly below ⊤ is a real:
    at ⊤ the maximum is ⊤, at ⊥ it is -⊥ = ⊤. -/
theorem real_of_abs_lt_top (x : EReal) (h : max x (-x) < ⊤) : ∃ r : ℝ, x = (r : EReal) := by
  induction x using EReal.rec with
  | bot => simp at h
  | top => simp at h
  | coe r => exact ⟨r, rfl⟩

/-- One element of the compared array: if |a i| < +∞ evaluates to true, a i is a real. -/
theorem real_of_elt {S : Shape} (a : FVec Ideal S .f32)
    (hb : Cert.Pre_finite_inputs.S_.BroadcastsInDim S (![] : Fin 0 → Fin S.rank)) (i : S.Idx)
    (h : cmpf .olt (Host.absf a)
          (broadcastInDim S ![] hb (constant (F := Ideal) Cert.Pre_finite_inputs.S_ .f32 0x7F800000#32)) i = 1#1) :
    ∃ r : ℝ, a i = (r : EReal) := by
  rw [cmpf_apply, broadcastInDim_scalar_apply, constant_apply, ofBits_pos_inf] at h
  refine real_of_abs_lt_top (a i) ?_
  by_contra hn
  have : Ideal.cmp .olt (max (a i) (-(a i))) (⊤ : EReal) = 0#1 := by
    simp [Ideal.cmp, hn]
  have h' : Ideal.cmp .olt (max (a i) (-(a i))) (⊤ : EReal) = 1#1 := h
  rw [this] at h'
  exact absurd h' (by decide)

/-- The precondition gives: every element of both float inputs is a real. -/
theorem real_of_pre [hF : Cert.Pre_finite_inputs.Facts]
    (a0 : FVec Ideal Cert.Pre_finite_inputs.S32768x512 .f32)
    (a1 : FVec Ideal Cert.Pre_finite_inputs.S4x131072 .f32)
    (a2 : IVec Cert.Pre_finite_inputs.S32768 32)
    (h : Cert.Pre_finite_inputs.fn (F := Ideal) a0 a1 a2 = (fun _ => 1#1)) :
    (∀ i, ∃ r : ℝ, a0 i = (r : EReal)) ∧ (∀ i, ∃ r : ℝ, a1 i = (r : EReal)) := by
  have h0 := congrFun h ix0
  dsimp only [Cert.Pre_finite_inputs.fn] at h0
  obtain ⟨h1, h2⟩ := IntOp.andi_eq_one.1 h0
  exact ⟨fun i => real_of_elt a0 _ i (Host.reduce_andi_all _ _ _ _ ix0 h1 i),
         fun i => real_of_elt a1 _ i (Host.reduce_andi_all _ _ _ _ ix0 h2 i)⟩

/-- The same over the idealized kernel's memory: under its precondition, on every device both float
    argument arrays hold reals only. -/
theorem real_of_pre_kernelIdeal
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) :=
  real_of_pre (hF := Cert.Pre_finite_inputs.Gen.facts) _ _ _ (h c)

end Cert.Proof.FiniteInputs
-- ==== Proof.KernelWeights.lean ====
/-
  The kernel's dense per-expert weight, read at an index.

  Before the kernel is launched the host folds the eight path blocks of the weight argument
  `w : f32[4, 131072]` into one dense array `wf : [4, 512, 512]`: starting from zeros, path
  `(i, j, k, a)` adds the block `w[e, 16384 j + 128 r + s] · a` (`r, s < 128`) onto the square
  `rows 128 i .. 128 i + 127, columns 128 k .. 128 k + 127` of every expert `e`. Each of the eight steps is
  a scatter with ONE start index `(128 i, 128 k)` and the whole `[4, 128, 128]` update as its window, so
  an update index `(e, r, s)` lands on `(e, 128 i + r, 128 k + s)`: an injective map, inside the operand.
  Hence the step, read at `(e, p, q)`, adds the update's element at `(e, p - 128 i, q - 128 k)` when
  `(p, q)` lies in the square and leaves the element alone otherwise.
-/
import proofs.«104890_j59356448030869_2_alg».proof.KernelIdeal
import proofs.«104890_j59356448030869_2_alg».proof.Proof.LibScatterFold
import Idealize.ShloMosaic.Lib.ValueIdx

noncomputable section

namespace Cert.KernelIdeal.HostValue

open Idealize.ShloMosaic Idealize.ShloMosaic.ValueIdx Cert.KernelIdeal

variable [Facts]

/-! ## Where an update index lands -/

theorem start_axis0 (idx : IVec S2 32) (j : S4x128x128.Idx) :
    (scatter_S4x512x512_S2_S4x128x128_012_n_12_0).start j idx 0 = 0 := by
  unfold ScatterDims.start
  rw [dif_neg (by show (0 : Fin 3) ∉ ([1, 2] : List (Fin 3)); decide)]

theorem start_axis1 (idx : IVec S2 32) (r0 : Nat) (h0 : ∀ k : S2.Idx, (k 0).val = 0 → (idx k).toInt = (r0 : Int))
    (j : S4x128x128.Idx) : (scatter_S4x512x512_S2_S4x128x128_012_n_12_0).start j idx 1 = (r0 : Int) := by
  unfold ScatterDims.start
  rw [dif_pos (by show (1 : Fin 3) ∈ ([1, 2] : List (Fin 3)); decide)]
  exact h0 _ rfl

theorem start_axis2 (idx : IVec S2 32) (c0 : Nat) (h1 : ∀ k : S2.Idx, (k 0).val = 1 → (idx k).toInt = (c0 : Int))
    (j : S4x128x128.Idx) : (scatter_S4x512x512_S2_S4x128x128_012_n_12_0).start j idx 2 = (c0 : Int) := by
  unfold ScatterDims.start
  rw [dif_pos (by show (2 : Fin 3) ∈ ([1, 2] : List (Fin 3)); decide)]
  exact h1 _ rfl

theorem window_axis0 (j : S4x128x128.Idx) : (scatter_S4x512x512_S2_S4x128x128_012_n_12_0).window j 0 = (j 0).val := rfl
theorem window_axis1 (j : S4x128x128.Idx) : (scatter_S4x512x512_S2_S4x128x128_012_n_12_0).window j 1 = (j 1).val := rfl
theorem window_axis2 (j : S4x128x128.Idx) : (scatter_S4x512x512_S2_S4x128x128_012_n_12_0).window j 2 = (j 2).val := rfl

/-- With the start index `(r0, c0)`, the square inside the operand, update index `(e, r, s)` lands on
    `(e, r0 + r, c0 + s)`. -/
theorem resultIdx_square (idx : IVec S2 32) (r0 c0 : Nat) (hr : r0 + 128 ≤ 512) (hc : c0 + 128 ≤ 512)
    (h0 : ∀ k : S2.Idx, (k 0).val = 0 → (idx k).toInt = (r0 : Int))
    (h1 : ∀ k : S2.Idx, (k 0).val = 1 → (idx k).toInt = (c0 : Int)) (j : S4x128x128.Idx) :
    (scatter_S4x512x512_S2_S4x128x128_012_n_12_0).resultIdx? j idx
      = some (ix3 (n0 := 4) (n1 := 512) (n2 := 512) ⟨(j 0).val, (j 0).isLt⟩ ⟨r0 + (j 1).val, by have := (j 1).isLt; change (j 1).val < 128 at this; omega⟩
          ⟨c0 + (j 2).val, by have := (j 2).isLt; change (j 2).val < 128 at this; omega⟩) := by
  have hj0 : (j 0).val < 4 := (j 0).isLt
  have hj1 : (j 1).val < 128 := (j 1).isLt
  have hj2 : (j 2).val < 128 := (j 2).isLt
  unfold ScatterDims.resultIdx?
  have hall : ∀ a : Fin 3, 0 ≤ (scatter_S4x512x512_S2_S4x128x128_012_n_12_0).start j idx a + (scatter_S4x512x512_S2_S4x128x128_012_n_12_0).window j a
      ∧ (scatter_S4x512x512_S2_S4x128x128_012_n_12_0).start j idx a + (scatter_S4x512x512_S2_S4x128x128_012_n_12_0).window j a < S4x512x512.size a := by
    intro a
    match a with
    | ⟨0, _⟩ =>
      rw [show (⟨0, by decide⟩ : Fin 3) = 0 from rfl, start_axis0, window_axis0]
      show 0 ≤ (0 : Int) + ((j 0).val : Int) ∧ (0 : Int) + ((j 0).val : Int) < ((4 : Nat) : Int)
      omega
    | ⟨1, _⟩ =>
      rw [show (⟨1, by decide⟩ : Fin 3) = 1 from rfl, start_axis1 idx r0 h0, window_axis1]
      show 0 ≤ (r0 : Int) + ((j 1).val : Int) ∧ (r0 : Int) + ((j 1).val : Int) < ((512 : Nat) : Int)
      omega
    | ⟨2, _⟩ =>
      rw [show (⟨2, by decide⟩ : Fin 3) = 2 from rfl, start_axis2 idx c0 h1, window_axis2]
      show 0 ≤ (c0 : Int) + ((j 2).val : Int) ∧ (c0 : Int) + ((j 2).val : Int) < ((512 : Nat) : Int)
      omega
  rw [dif_pos hall]
  congr 1
  funext a
  match a with
  | ⟨0, _⟩ =>
    apply Fin.ext
    show ((scatter_S4x512x512_S2_S4x128x128_012_n_12_0).start j idx 0 + (scatter_S4x512x512_S2_S4x128x128_012_n_12_0).window j 0).toNat = (j 0).val
    rw [start_axis0, window_axis0]; omega
  | ⟨1, _⟩ =>
    apply Fin.ext
    show ((scatter_S4x512x512_S2_S4x128x128_012_n_12_0).start j idx 1 + (scatter_S4x512x512_S2_S4x128x128_012_n_12_0).window j 1).toNat = r0 + (j 1).val
    rw [start_axis1 idx r0 h0, window_axis1]; omega
  | ⟨2, _⟩ =>
    apply Fin.ext
    show ((scatter_S4x512x512_S2_S4x128x128_012_n_12_0).start j idx 2 + (scatter_S4x512x512_S2_S4x128x128_012_n_12_0).window j 2).toNat = c0 + (j 2).val
    rw [start_axis2 idx c0 h1, window_axis2]; omega

/-! ## One step of the fold, read at an index -/

/-- A step with start index `(r0, c0)`, read at `(e, p, q)`: inside the square `[r0, r0 + 128) × [c0, c0 + 128)`
    the operand's element combined with the update's at `(e, p - r0, q - c0)`, outside it the operand's. -/
theorem scatter_square_apply {α : Type} (f : α → α → α) (x : S4x512x512.Idx → α) (idx : IVec S2 32) (upd : S4x128x128.Idx → α)
    (r0 c0 : Nat) (hr : r0 + 128 ≤ 512) (hc : c0 + 128 ≤ 512)
    (h0 : ∀ k : S2.Idx, (k 0).val = 0 → (idx k).toInt = (r0 : Int))
    (h1 : ∀ k : S2.Idx, (k 0).val = 1 → (idx k).toInt = (c0 : Int))
    (e : Fin 4) (p q : Fin 512) :
    Host.scatter scatter_S4x512x512_S2_S4x128x128_012_n_12_0 f x idx upd (ix3 e p q)
      = if h : (r0 ≤ p.val ∧ p.val < r0 + 128) ∧ (c0 ≤ q.val ∧ q.val < c0 + 128) then
          f (x (ix3 e p q)) (upd (ix3 (n0 := 4) (n1 := 128) (n2 := 128) e ⟨p.val - r0, by omega⟩ ⟨q.val - c0, by omega⟩))
        else x (ix3 e p q) := by
  by_cases h : (r0 ≤ p.val ∧ p.val < r0 + 128) ∧ (c0 ≤ q.val ∧ q.val < c0 + 128)
  · rw [dif_pos h]
    refine ScatterFold.scatter_apply_of_hit _ f x idx upd _ (ix3 (n0 := 4) (n1 := 128) (n2 := 128) e ⟨p.val - r0, by omega⟩ ⟨q.val - c0, by omega⟩) ?_ ?_
    · rw [resultIdx_square idx r0 c0 hr hc h0 h1]
      congr 1
      funext a
      match a with
      | ⟨0, _⟩ => rfl
      | ⟨1, _⟩ => exact Fin.ext (by show r0 + (p.val - r0) = p.val; omega)
      | ⟨2, _⟩ => exact Fin.ext (by show c0 + (q.val - c0) = q.val; omega)
    · intro j' hj'
      rw [resultIdx_square idx r0 c0 hr hc h0 h1] at hj'
      have hj := Option.some.inj hj'
      have e0 := congrArg Fin.val (congrFun hj (0 : Fin 3))
      have e1 := congrArg Fin.val (congrFun hj (1 : Fin 3))
      have e2 := congrArg Fin.val (congrFun hj (2 : Fin 3))
      change (j' 0).val = e.val at e0
      change r0 + (j' 1).val = p.val at e1
      change c0 + (j' 2).val = q.val at e2
      funext a
      match a with
      | ⟨0, _⟩ => exact Fin.ext e0
      | ⟨1, _⟩ => exact Fin.ext (by show (j' 1).val = p.val - r0; omega)
      | ⟨2, _⟩ => exact Fin.ext (by show (j' 2).val = q.val - c0; omega)
  · rw [dif_neg h]
    refine ScatterFold.scatter_apply_of_miss _ f x idx upd _ ?_
    intro j hj
    rw [resultIdx_square idx r0 c0 hr hc h0 h1] at hj
    have hj' := Option.some.inj hj
    have e1 := congrArg Fin.val (congrFun hj' (1 : Fin 3))
    have e2 := congrArg Fin.val (congrFun hj' (2 : Fin 3))
    change r0 + (j 1).val = p.val at e1
    change c0 + (j 2).val = q.val at e2
    have hj1 : (j 1).val < 128 := (j 1).isLt
    have hj2 : (j 2).val < 128 := (j 2).isLt
    exact h ⟨⟨by omega, by omega⟩, ⟨by omega, by omega⟩⟩

end Cert.KernelIdeal.HostValue

end
-- ==== Proof.KernelDense.lean ====
/-
  The dense per-expert weight at block coordinates.

  Rows and columns of the dense weight `wf : [4, 512, 512]` split into four blocks of 128. The eight paths
  `(i, j, k, a)` — in block `i`, weight segment `j`, out block `k`, coefficient `a` — are
  (0,0,0,1) (1,1,1,1) (2,2,2,1) (3,3,3,1) (0,4,1,½) (1,5,2,½) (2,6,3,½) (3,7,0,½): the sixteen squares
  `(i, k)` are each the target of at most one path, so `wf[e, 128 i + r, 128 k + s]` is
  `0 + w[e, 16384 j + 128 r + s] · a` on the square of path `(i, j, k, a)` and `0` on the eight squares no path
  targets. Each of the sixteen facts is read off the eight steps one at a time: a step whose square is
  elsewhere leaves the element alone, the one step that targets the square adds its block's element.
-/
import proofs.«104890_j59356448030869_2_alg».proof.Proof.KernelHost
import proofs.«104890_j59356448030869_2_alg».proof.Proof.KernelWeights

noncomputable section

namespace Cert.KernelIdeal.HostValue

open Idealize.ShloMosaic Idealize.ShloMosaic.TcCoe Idealize.ShloMosaic.ValueIdx
open Cert.KernelIdeal

variable [Facts]

/-! ## The pieces of one step, read at an index -/

theorem startVec_fst (r0 c0 : BitVec 32) (k : S2.Idx) (hk : (k 0).val = 0) : startVec r0 c0 k = r0 := by
  have hk' : k = ix1 (0 : Fin 2) := by
    rw [eq_ix1 k]
    exact congrArg ix1 (Fin.ext hk)
  subst hk'
  rfl

theorem startVec_snd (r0 c0 : BitVec 32) (k : S2.Idx) (hk : (k 0).val = 1) : startVec r0 c0 k = c0 := by
  have hk' : k = ix1 (1 : Fin 2) := by
    rw [eq_ix1 k]
    exact congrArg ix1 (Fin.ext hk)
  subst hk'
  rfl

/-- One step at `(e, p, q)`: inside its square the accumulator's element plus the block's, outside it the
    accumulator's. -/
theorem addPath_apply (acc : FVec Ideal S4x512x512 .f32) (R0 C0 : BitVec 32) (blk : FVec Ideal S4x128x128 .f32)
    (r0 c0 : Nat) (hr : r0 + 128 ≤ 512) (hc : c0 + 128 ≤ 512) (hR : R0.toInt = (r0 : Int)) (hC : C0.toInt = (c0 : Int))
    (e : Fin 4) (p q : Nat) (hp : p < 512) (hq : q < 512) :
    addPath acc R0 C0 blk (ix3 (n0 := 4) (n1 := 512) (n2 := 512) e ⟨p, hp⟩ ⟨q, hq⟩)
      = if h : (r0 ≤ p ∧ p < r0 + 128) ∧ (c0 ≤ q ∧ q < c0 + 128) then
          acc (ix3 (n0 := 4) (n1 := 512) (n2 := 512) e ⟨p, hp⟩ ⟨q, hq⟩)
            + blk (ix3 (n0 := 4) (n1 := 128) (n2 := 128) e ⟨p - r0, by omega⟩ ⟨q - c0, by omega⟩)
        else acc (ix3 (n0 := 4) (n1 := 512) (n2 := 512) e ⟨p, hp⟩ ⟨q, hq⟩) := by
  unfold addPath
  exact scatter_square_apply FloatOps.addf acc (startVec R0 C0) blk r0 c0 hr hc
    (fun k hk => by rw [startVec_fst R0 C0 k hk]; exact hR) (fun k hk => by rw [startVec_snd R0 C0 k hk]; exact hC) e ⟨p, hp⟩ ⟨q, hq⟩

/-- A path block at `(e, r, s)`: the weight argument at column `off + 128 r + s` of row `e`, times the coefficient. -/
theorem pathBlock_apply (w : FVec Ideal S4x131072 .f32) (off : Nat) (hs : S4x131072.Slices ![0, off] S4x16384) (coef : BitVec 32)
    (e : Fin 4) (r s : Nat) (hr : r < 128) (hs' : s < 128) :
    pathBlock w off hs coef (ix3 (n0 := 4) (n1 := 128) (n2 := 128) e ⟨r, hr⟩ ⟨s, hs'⟩)
      = w (ix2 (n0 := 4) (n1 := 131072) e ⟨off + (128 * r + s), by
          have := hs.2 (1 : Fin 2); change off + 16384 ≤ 131072 at this; omega⟩) * Ideal.ofBits .f32 coef := by
  have hoff : off + 16384 ≤ 131072 := hs.2 (1 : Fin 2)
  unfold pathBlock
  rw [mulf_apply]
  congr 1
  · rw [shapeCast_apply _ Facts₀.shapeCasts_S4x16384_S4x128x128 _ (ix2 (n0 := 4) (n1 := 16384) e ⟨128 * r + s, by omega⟩) (by
      rewrite [Shape.rowMajor_val_two, Shape.rowMajor_val_three]
      show e.val * 16384 + (128 * r + s) = (e.val * 128 + r) * 128 + s
      omega)]
    exact extractStridedSlice_apply ![0, off] w hs _ _ (fun a => match a with
      | ⟨0, _⟩ => by show e.val = 0 + e.val; omega
      | ⟨1, _⟩ => by show off + (128 * r + s) = off + (128 * r + s); rfl)

theorem zeroWeights_apply (i : S4x512x512.Idx) : zeroWeights i = Ideal.ofBits .f32 0x00000000#32 := by
  unfold zeroWeights
  rw [broadcastInDim_apply _ Facts₀.bcast_S_S4x512x512 _ i ix0 (fun a => a.elim0)]
  rfl

/-- Two columns of the weight argument that are the same number are the same element. -/
theorem arg_congr (w : FVec Ideal S4x131072 .f32) (e : Fin 4) (a b : Nat) (ha : a < 131072) (hb : b < 131072) (h : a = b) :
    w (ix2 (n0 := 4) (n1 := 131072) e ⟨a, ha⟩) = w (ix2 (n0 := 4) (n1 := 131072) e ⟨b, hb⟩) := by
  subst h; rfl

/-! ## The sixteen squares -/

theorem dense_at_0_0 (w : FVec Ideal S4x131072 .f32) (e : Fin 4) (r s : Fin 128) :
    denseWeights w (ix3 (n0 := 4) (n1 := 512) (n2 := 512) e ⟨r.val, by omega⟩ ⟨s.val, by omega⟩)
      = Ideal.ofBits .f32 0x00000000#32 + w (ix2 (n0 := 4) (n1 := 131072) e ⟨128 * r.val + s.val, by omega⟩) * Ideal.ofBits .f32 0x3F800000#32 := by
  have hr := r.isLt
  have hs := s.isLt
  unfold denseWeights denseWeights32
  rw [truncf_apply]
  rw [addPath_apply _ 384#32 0#32 _ 384 0 (by omega) (by omega) (by decide) (by decide)]
  split <;> try (exfalso; omega)
  try rw [pathBlock_apply]
  rw [addPath_apply _ 256#32 384#32 _ 256 384 (by omega) (by omega) (by decide) (by decide)]
  split <;> try (exfalso; omega)
  try rw [pathBlock_apply]
  rw [addPath_apply _ 128#32 256#32 _ 128 256 (by omega) (by omega) (by decide) (by decide)]
  split <;> try (exfalso; omega)
  try rw [pathBlock_apply]
  rw [addPath_apply _ 0#32 128#32 _ 0 128 (by omega) (by omega) (by decide) (by decide)]
  split <;> try (exfalso; omega)
  try rw [pathBlock_apply]
  rw [addPath_apply _ 384#32 384#32 _ 384 384 (by omega) (by omega) (by decide) (by decide)]
  split <;> try (exfalso; omega)
  try rw [pathBlock_apply]
  rw [addPath_apply _ 256#32 256#32 _ 256 256 (by omega) (by omega) (by decide) (by decide)]
  split <;> try (exfalso; omega)
  try rw [pathBlock_apply]
  rw [addPath_apply _ 128#32 128#32 _ 128 128 (by omega) (by omega) (by decide) (by decide)]
  split <;> try (exfalso; omega)
  try rw [pathBlock_apply]
  rw [addPath_apply _ 0#32 0#32 _ 0 0 (by omega) (by omega) (by decide) (by decide)]
  split <;> try (exfalso; omega)
  try rw [pathBlock_apply]
  rw [zeroWeights_apply]
  all_goals first | rfl | (congr 2 <;> (apply arg_congr; omega))

theorem dense_at_0_1 (w : FVec Ideal S4x131072 .f32) (e : Fin 4) (r s : Fin 128) :
    denseWeights w (ix3 (n0 := 4) (n1 := 512) (n2 := 512) e ⟨r.val, by omega⟩ ⟨128 + s.val, by omega⟩)
      = Ideal.ofBits .f32 0x00000000#32 + w (ix2 (n0 := 4) (n1 := 131072) e ⟨65536 + 128 * r.val + s.val, by omega⟩) * Ideal.ofBits .f32 0x3F000000#32 := by
  have hr := r.isLt
  have hs := s.isLt
  unfold denseWeights denseWeights32
  rw [truncf_apply]
  rw [addPath_apply _ 384#32 0#32 _ 384 0 (by omega) (by omega) (by decide) (by decide)]
  split <;> try (exfalso; omega)
  try rw [pathBlock_apply]
  rw [addPath_apply _ 256#32 384#32 _ 256 384 (by omega) (by omega) (by decide) (by decide)]
  split <;> try (exfalso; omega)
  try rw [pathBlock_apply]
  rw [addPath_apply _ 128#32 256#32 _ 128 256 (by omega) (by omega) (by decide) (by decide)]
  split <;> try (exfalso; omega)
  try rw [pathBlock_apply]
  rw [addPath_apply _ 0#32 128#32 _ 0 128 (by omega) (by omega) (by decide) (by decide)]
  split <;> try (exfalso; omega)
  try rw [pathBlock_apply]
  rw [addPath_apply _ 384#32 384#32 _ 384 384 (by omega) (by omega) (by decide) (by decide)]
  split <;> try (exfalso; omega)
  try rw [pathBlock_apply]
  rw [addPath_apply _ 256#32 256#32 _ 256 256 (by omega) (by omega) (by decide) (by decide)]
  split <;> try (exfalso; omega)
  try rw [pathBlock_apply]
  rw [addPath_apply _ 128#32 128#32 _ 128 128 (by omega) (by omega) (by decide) (by decide)]
  split <;> try (exfalso; omega)
  try rw [pathBlock_apply]
  rw [addPath_apply _ 0#32 0#32 _ 0 0 (by omega) (by omega) (by decide) (by decide)]
  split <;> try (exfalso; omega)
  try rw [pathBlock_apply]
  rw [zeroWeights_apply]
  all_goals first | rfl | (congr 2 <;> (apply arg_congr; omega))

theorem dense_at_0_2 (w : FVec Ideal S4x131072 .f32) (e : Fin 4) (r s : Fin 128) :
    denseWeights w (ix3 (n0 := 4) (n1 := 512) (n2 := 512) e ⟨r.val, by omega⟩ ⟨256 + s.val, by omega⟩)
      = Ideal.ofBits .f32 0x00000000#32 := by
  have hr := r.isLt
  have hs := s.isLt
  unfold denseWeights denseWeights32
  rw [truncf_apply]
  rw [addPath_apply _ 384#32 0#32 _ 384 0 (by omega) (by omega) (by decide) (by decide)]
  split <;> try (exfalso; omega)
  try rw [pathBlock_apply]
  rw [addPath_apply _ 256#32 384#32 _ 256 384 (by omega) (by omega) (by decide) (by decide)]
  split <;> try (exfalso; omega)
  try rw [pathBlock_apply]
  rw [addPath_apply _ 128#32 256#32 _ 128 256 (by omega) (by omega) (by decide) (by decide)]
  split <;> try (exfalso; omega)
  try rw [pathBlock_apply]
  rw [addPath_apply _ 0#32 128#32 _ 0 128 (by omega) (by omega) (by decide) (by decide)]
  split <;> try (exfalso; omega)
  try rw [pathBlock_apply]
  rw [addPath_apply _ 384#32 384#32 _ 384 384 (by omega) (by omega) (by decide) (by decide)]
  split <;> try (exfalso; omega)
  try rw [pathBlock_apply]
  rw [addPath_apply _ 256#32 256#32 _ 256 256 (by omega) (by omega) (by decide) (by decide)]
  split <;> try (exfalso; omega)
  try rw [pathBlock_apply]
  rw [addPath_apply _ 128#32 128#32 _ 128 128 (by omega) (by omega) (by decide) (by decide)]
  split <;> try (exfalso; omega)
  try rw [pathBlock_apply]
  rw [addPath_apply _ 0#32 0#32 _ 0 0 (by omega) (by omega) (by decide) (by decide)]
  split <;> try (exfalso; omega)
  try rw [pathBlock_apply]
  rw [zeroWeights_apply]
  all_goals first | rfl | (congr 2 <;> (apply arg_congr; omega))

theorem dense_at_0_3 (w : FVec Ideal S4x131072 .f32) (e : Fin 4) (r s : Fin 128) :
    denseWeights w (ix3 (n0 := 4) (n1 := 512) (n2 := 512) e ⟨r.val, by omega⟩ ⟨384 + s.val, by omega⟩)
      = Ideal.ofBits .f32 0x00000000#32 := by
  have hr := r.isLt
  have hs := s.isLt
  unfold denseWeights denseWeights32
  rw [truncf_apply]
  rw [addPath_apply _ 384#32 0#32 _ 384 0 (by omega) (by omega) (by decide) (by decide)]
  split <;> try (exfalso; omega)
  try rw [pathBlock_apply]
  rw [addPath_apply _ 256#32 384#32 _ 256 384 (by omega) (by omega) (by decide) (by decide)]
  split <;> try (exfalso; omega)
  try rw [pathBlock_apply]
  rw [addPath_apply _ 128#32 256#32 _ 128 256 (by omega) (by omega) (by decide) (by decide)]
  split <;> try (exfalso; omega)
  try rw [pathBlock_apply]
  rw [addPath_apply _ 0#32 128#32 _ 0 128 (by omega) (by omega) (by decide) (by decide)]
  split <;> try (exfalso; omega)
  try rw [pathBlock_apply]
  rw [addPath_apply _ 384#32 384#32 _ 384 384 (by omega) (by omega) (by decide) (by decide)]
  split <;> try (exfalso; omega)
  try rw [pathBlock_apply]
  rw [addPath_apply _ 256#32 256#32 _ 256 256 (by omega) (by omega) (by decide) (by decide)]
  split <;> try (exfalso; omega)
  try rw [pathBlock_apply]
  rw [addPath_apply _ 128#32 128#32 _ 128 128 (by omega) (by omega) (by decide) (by decide)]
  split <;> try (exfalso; omega)
  try rw [pathBlock_apply]
  rw [addPath_apply _ 0#32 0#32 _ 0 0 (by omega) (by omega) (by decide) (by decide)]
  split <;> try (exfalso; omega)
  try rw [pathBlock_apply]
  rw [zeroWeights_apply]
  all_goals first | rfl | (congr 2 <;> (apply arg_congr; omega))

theorem dense_at_1_0 (w : FVec Ideal S4x131072 .f32) (e : Fin 4) (r s : Fin 128) :
    denseWeights w (ix3 (n0 := 4) (n1 := 512) (n2 := 512) e ⟨128 + r.val, by omega⟩ ⟨s.val, by omega⟩)
      = Ideal.ofBits .f32 0x00000000#32 := by
  have hr := r.isLt
  have hs := s.isLt
  unfold denseWeights denseWeights32
  rw [truncf_apply]
  rw [addPath_apply _ 384#32 0#32 _ 384 0 (by omega) (by omega) (by decide) (by decide)]
  split <;> try (exfalso; omega)
  try rw [pathBlock_apply]
  rw [addPath_apply _ 256#32 384#32 _ 256 384 (by omega) (by omega) (by decide) (by decide)]
  split <;> try (exfalso; omega)
  try rw [pathBlock_apply]
  rw [addPath_apply _ 128#32 256#32 _ 128 256 (by omega) (by omega) (by decide) (by decide)]
  split <;> try (exfalso; omega)
  try rw [pathBlock_apply]
  rw [addPath_apply _ 0#32 128#32 _ 0 128 (by omega) (by omega) (by decide) (by decide)]
  split <;> try (exfalso; omega)
  try rw [pathBlock_apply]
  rw [addPath_apply _ 384#32 384#32 _ 384 384 (by omega) (by omega) (by decide) (by decide)]
  split <;> try (exfalso; omega)
  try rw [pathBlock_apply]
  rw [addPath_apply _ 256#32 256#32 _ 256 256 (by omega) (by omega) (by decide) (by decide)]
  split <;> try (exfalso; omega)
  try rw [pathBlock_apply]
  rw [addPath_apply _ 128#32 128#32 _ 128 128 (by omega) (by omega) (by decide) (by decide)]
  split <;> try (exfalso; omega)
  try rw [pathBlock_apply]
  rw [addPath_apply _ 0#32 0#32 _ 0 0 (by omega) (by omega) (by decide) (by decide)]
  split <;> try (exfalso; omega)
  try rw [pathBlock_apply]
  rw [zeroWeights_apply]
  all_goals first | rfl | (congr 2 <;> (apply arg_congr; omega))

theorem dense_at_1_1 (w : FVec Ideal S4x131072 .f32) (e : Fin 4) (r s : Fin 128) :
    denseWeights w (ix3 (n0 := 4) (n1 := 512) (n2 := 512) e ⟨128 + r.val, by omega⟩ ⟨128 + s.val, by omega⟩)
      = Ideal.ofBits .f32 0x00000000#32 + w (ix2 (n0 := 4) (n1 := 131072) e ⟨16384 + 128 * r.val + s.val, by omega⟩) * Ideal.ofBits .f32 0x3F800000#32 := by
  have hr := r.isLt
  have hs := s.isLt
  unfold denseWeights denseWeights32
  rw [truncf_apply]
  rw [addPath_apply _ 384#32 0#32 _ 384 0 (by omega) (by omega) (by decide) (by decide)]
  split <;> try (exfalso; omega)
  try rw [pathBlock_apply]
  rw [addPath_apply _ 256#32 384#32 _ 256 384 (by omega) (by omega) (by decide) (by decide)]
  split <;> try (exfalso; omega)
  try rw [pathBlock_apply]
  rw [addPath_apply _ 128#32 256#32 _ 128 256 (by omega) (by omega) (by decide) (by decide)]
  split <;> try (exfalso; omega)
  try rw [pathBlock_apply]
  rw [addPath_apply _ 0#32 128#32 _ 0 128 (by omega) (by omega) (by decide) (by decide)]
  split <;> try (exfalso; omega)
  try rw [pathBlock_apply]
  rw [addPath_apply _ 384#32 384#32 _ 384 384 (by omega) (by omega) (by decide) (by decide)]
  split <;> try (exfalso; omega)
  try rw [pathBlock_apply]
  rw [addPath_apply _ 256#32 256#32 _ 256 256 (by omega) (by omega) (by decide) (by decide)]
  split <;> try (exfalso; omega)
  try rw [pathBlock_apply]
  rw [addPath_apply _ 128#32 128#32 _ 128 128 (by omega) (by omega) (by decide) (by decide)]
  split <;> try (exfalso; omega)
  try rw [pathBlock_apply]
  rw [addPath_apply _ 0#32 0#32 _ 0 0 (by omega) (by omega) (by decide) (by decide)]
  split <;> try (exfalso; omega)
  try rw [pathBlock_apply]
  rw [zeroWeights_apply]
  all_goals first | rfl | (congr 2 <;> (apply arg_congr; omega))

theorem dense_at_1_2 (w : FVec Ideal S4x131072 .f32) (e : Fin 4) (r s : Fin 128) :
    denseWeights w (ix3 (n0 := 4) (n1 := 512) (n2 := 512) e ⟨128 + r.val, by omega⟩ ⟨256 + s.val, by omega⟩)
      = Ideal.ofBits .f32 0x00000000#32 + w (ix2 (n0 := 4) (n1 := 131072) e ⟨81920 + 128 * r.val + s.val, by omega⟩) * Ideal.ofBits .f32 0x3F000000#32 := by
  have hr := r.isLt
  have hs := s.isLt
  unfold denseWeights denseWeights32
  rw [truncf_apply]
  rw [addPath_apply _ 384#32 0#32 _ 384 0 (by omega) (by omega) (by decide) (by decide)]
  split <;> try (exfalso; omega)
  try rw [pathBlock_apply]
  rw [addPath_apply _ 256#32 384#32 _ 256 384 (by omega) (by omega) (by decide) (by decide)]
  split <;> try (exfalso; omega)
  try rw [pathBlock_apply]
  rw [addPath_apply _ 128#32 256#32 _ 128 256 (by omega) (by omega) (by decide) (by decide)]
  split <;> try (exfalso; omega)
  try rw [pathBlock_apply]
  rw [addPath_apply _ 0#32 128#32 _ 0 128 (by omega) (by omega) (by decide) (by decide)]
  split <;> try (exfalso; omega)
  try rw [pathBlock_apply]
  rw [addPath_apply _ 384#32 384#32 _ 384 384 (by omega) (by omega) (by decide) (by decide)]
  split <;> try (exfalso; omega)
  try rw [pathBlock_apply]
  rw [addPath_apply _ 256#32 256#32 _ 256 256 (by omega) (by omega) (by decide) (by decide)]
  split <;> try (exfalso; omega)
  try rw [pathBlock_apply]
  rw [addPath_apply _ 128#32 128#32 _ 128 128 (by omega) (by omega) (by decide) (by decide)]
  split <;> try (exfalso; omega)
  try rw [pathBlock_apply]
  rw [addPath_apply _ 0#32 0#32 _ 0 0 (by omega) (by omega) (by decide) (by decide)]
  split <;> try (exfalso; omega)
  try rw [pathBlock_apply]
  rw [zeroWeights_apply]
  all_goals first | rfl | (congr 2 <;> (apply arg_congr; omega))

theorem dense_at_1_3 (w : FVec Ideal S4x131072 .f32) (e : Fin 4) (r s : Fin 128) :
    denseWeights w (ix3 (n0 := 4) (n1 := 512) (n2 := 512) e ⟨128 + r.val, by omega⟩ ⟨384 + s.val, by omega⟩)
      = Ideal.ofBits .f32 0x00000000#32 := by
  have hr := r.isLt
  have hs := s.isLt
  unfold denseWeights denseWeights32
  rw [truncf_apply]
  rw [addPath_apply _ 384#32 0#32 _ 384 0 (by omega) (by omega) (by decide) (by decide)]
  split <;> try (exfalso; omega)
  try rw [pathBlock_apply]
  rw [addPath_apply _ 256#32 384#32 _ 256 384 (by omega) (by omega) (by decide) (by decide)]
  split <;> try (exfalso; omega)
  try rw [pathBlock_apply]
  rw [addPath_apply _ 128#32 256#32 _ 128 256 (by omega) (by omega) (by decide) (by decide)]
  split <;> try (exfalso; omega)
  try rw [pathBlock_apply]
  rw [addPath_apply _ 0#32 128#32 _ 0 128 (by omega) (by omega) (by decide) (by decide)]
  split <;> try (exfalso; omega)
  try rw [pathBlock_apply]
  rw [addPath_apply _ 384#32 384#32 _ 384 384 (by omega) (by omega) (by decide) (by decide)]
  split <;> try (exfalso; omega)
  try rw [pathBlock_apply]
  rw [addPath_apply _ 256#32 256#32 _ 256 256 (by omega) (by omega) (by decide) (by decide)]
  split <;> try (exfalso; omega)
  try rw [pathBlock_apply]
  rw [addPath_apply _ 128#32 128#32 _ 128 128 (by omega) (by omega) (by decide) (by decide)]
  split <;> try (exfalso; omega)
  try rw [pathBlock_apply]
  rw [addPath_apply _ 0#32 0#32 _ 0 0 (by omega) (by omega) (by decide) (by decide)]
  split <;> try (exfalso; omega)
  try rw [pathBlock_apply]
  rw [zeroWeights_apply]
  all_goals first | rfl | (congr 2 <;> (apply arg_congr; omega))

theorem dense_at_2_0 (w : FVec Ideal S4x131072 .f32) (e : Fin 4) (r s : Fin 128) :
    denseWeights w (ix3 (n0 := 4) (n1 := 512) (n2 := 512) e ⟨256 + r.val, by omega⟩ ⟨s.val, by omega⟩)
      = Ideal.ofBits .f32 0x00000000#32 := by
  have hr := r.isLt
  have hs := s.isLt
  unfold denseWeights denseWeights32
  rw [truncf_apply]
  rw [addPath_apply _ 384#32 0#32 _ 384 0 (by omega) (by omega) (by decide) (by decide)]
  split <;> try (exfalso; omega)
  try rw [pathBlock_apply]
  rw [addPath_apply _ 256#32 384#32 _ 256 384 (by omega) (by omega) (by decide) (by decide)]
  split <;> try (exfalso; omega)
  try rw [pathBlock_apply]
  rw [addPath_apply _ 128#32 256#32 _ 128 256 (by omega) (by omega) (by decide) (by decide)]
  split <;> try (exfalso; omega)
  try rw [pathBlock_apply]
  rw [addPath_apply _ 0#32 128#32 _ 0 128 (by omega) (by omega) (by decide) (by decide)]
  split <;> try (exfalso; omega)
  try rw [pathBlock_apply]
  rw [addPath_apply _ 384#32 384#32 _ 384 384 (by omega) (by omega) (by decide) (by decide)]
  split <;> try (exfalso; omega)
  try rw [pathBlock_apply]
  rw [addPath_apply _ 256#32 256#32 _ 256 256 (by omega) (by omega) (by decide) (by decide)]
  split <;> try (exfalso; omega)
  try rw [pathBlock_apply]
  rw [addPath_apply _ 128#32 128#32 _ 128 128 (by omega) (by omega) (by decide) (by decide)]
  split <;> try (exfalso; omega)
  try rw [pathBlock_apply]
  rw [addPath_apply _ 0#32 0#32 _ 0 0 (by omega) (by omega) (by decide) (by decide)]
  split <;> try (exfalso; omega)
  try rw [pathBlock_apply]
  rw [zeroWeights_apply]
  all_goals first | rfl | (congr 2 <;> (apply arg_congr; omega))

theorem dense_at_2_1 (w : FVec Ideal S4x131072 .f32) (e : Fin 4) (r s : Fin 128) :
    denseWeights w (ix3 (n0 := 4) (n1 := 512) (n2 := 512) e ⟨256 + r.val, by omega⟩ ⟨128 + s.val, by omega⟩)
      = Ideal.ofBits .f32 0x00000000#32 := by
  have hr := r.isLt
  have hs := s.isLt
  unfold denseWeights denseWeights32
  rw [truncf_apply]
  rw [addPath_apply _ 384#32 0#32 _ 384 0 (by omega) (by omega) (by decide) (by decide)]
  split <;> try (exfalso; omega)
  try rw [pathBlock_apply]
  rw [addPath_apply _ 256#32 384#32 _ 256 384 (by omega) (by omega) (by decide) (by decide)]
  split <;> try (exfalso; omega)
  try rw [pathBlock_apply]
  rw [addPath_apply _ 128#32 256#32 _ 128 256 (by omega) (by omega) (by decide) (by decide)]
  split <;> try (exfalso; omega)
  try rw [pathBlock_apply]
  rw [addPath_apply _ 0#32 128#32 _ 0 128 (by omega) (by omega) (by decide) (by decide)]
  split <;> try (exfalso; omega)
  try rw [pathBlock_apply]
  rw [addPath_apply _ 384#32 384#32 _ 384 384 (by omega) (by omega) (by decide) (by decide)]
  split <;> try (exfalso; omega)
  try rw [pathBlock_apply]
  rw [addPath_apply _ 256#32 256#32 _ 256 256 (by omega) (by omega) (by decide) (by decide)]
  split <;> try (exfalso; omega)
  try rw [pathBlock_apply]
  rw [addPath_apply _ 128#32 128#32 _ 128 128 (by omega) (by omega) (by decide) (by decide)]
  split <;> try (exfalso; omega)
  try rw [pathBlock_apply]
  rw [addPath_apply _ 0#32 0#32 _ 0 0 (by omega) (by omega) (by decide) (by decide)]
  split <;> try (exfalso; omega)
  try rw [pathBlock_apply]
  rw [zeroWeights_apply]
  all_goals first | rfl | (congr 2 <;> (apply arg_congr; omega))

theorem dense_at_2_2 (w : FVec Ideal S4x131072 .f32) (e : Fin 4) (r s : Fin 128) :
    denseWeights w (ix3 (n0 := 4) (n1 := 512) (n2 := 512) e ⟨256 + r.val, by omega⟩ ⟨256 + s.val, by omega⟩)
      = Ideal.ofBits .f32 0x00000000#32 + w (ix2 (n0 := 4) (n1 := 131072) e ⟨32768 + 128 * r.val + s.val, by omega⟩) * Ideal.ofBits .f32 0x3F800000#32 := by
  have hr := r.isLt
  have hs := s.isLt
  unfold denseWeights denseWeights32
  rw [truncf_apply]
  rw [addPath_apply _ 384#32 0#32 _ 384 0 (by omega) (by omega) (by decide) (by decide)]
  split <;> try (exfalso; omega)
  try rw [pathBlock_apply]
  rw [addPath_apply _ 256#32 384#32 _ 256 384 (by omega) (by omega) (by decide) (by decide)]
  split <;> try (exfalso; omega)
  try rw [pathBlock_apply]
  rw [addPath_apply _ 128#32 256#32 _ 128 256 (by omega) (by omega) (by decide) (by decide)]
  split <;> try (exfalso; omega)
  try rw [pathBlock_apply]
  rw [addPath_apply _ 0#32 128#32 _ 0 128 (by omega) (by omega) (by decide) (by decide)]
  split <;> try (exfalso; omega)
  try rw [pathBlock_apply]
  rw [addPath_apply _ 384#32 384#32 _ 384 384 (by omega) (by omega) (by decide) (by decide)]
  split <;> try (exfalso; omega)
  try rw [pathBlock_apply]
  rw [addPath_apply _ 256#32 256#32 _ 256 256 (by omega) (by omega) (by decide) (by decide)]
  split <;> try (exfalso; omega)
  try rw [pathBlock_apply]
  rw [addPath_apply _ 128#32 128#32 _ 128 128 (by omega) (by omega) (by decide) (by decide)]
  split <;> try (exfalso; omega)
  try rw [pathBlock_apply]
  rw [addPath_apply _ 0#32 0#32 _ 0 0 (by omega) (by omega) (by decide) (by decide)]
  split <;> try (exfalso; omega)
  try rw [pathBlock_apply]
  rw [zeroWeights_apply]
  all_goals first | rfl | (congr 2 <;> (apply arg_congr; omega))

theorem dense_at_2_3 (w : FVec Ideal S4x131072 .f32) (e : Fin 4) (r s : Fin 128) :
    denseWeights w (ix3 (n0 := 4) (n1 := 512) (n2 := 512) e ⟨256 + r.val, by omega⟩ ⟨384 + s.val, by omega⟩)
      = Ideal.ofBits .f32 0x00000000#32 + w (ix2 (n0 := 4) (n1 := 131072) e ⟨98304 + 128 * r.val + s.val, by omega⟩) * Ideal.ofBits .f32 0x3F000000#32 := by
  have hr := r.isLt
  have hs := s.isLt
  unfold denseWeights denseWeights32
  rw [truncf_apply]
  rw [addPath_apply _ 384#32 0#32 _ 384 0 (by omega) (by omega) (by decide) (by decide)]
  split <;> try (exfalso; omega)
  try rw [pathBlock_apply]
  rw [addPath_apply _ 256#32 384#32 _ 256 384 (by omega) (by omega) (by decide) (by decide)]
  split <;> try (exfalso; omega)
  try rw [pathBlock_apply]
  rw [addPath_apply _ 128#32 256#32 _ 128 256 (by omega) (by omega) (by decide) (by decide)]
  split <;> try (exfalso; omega)
  try rw [pathBlock_apply]
  rw [addPath_apply _ 0#32 128#32 _ 0 128 (by omega) (by omega) (by decide) (by decide)]
  split <;> try (exfalso; omega)
  try rw [pathBlock_apply]
  rw [addPath_apply _ 384#32 384#32 _ 384 384 (by omega) (by omega) (by decide) (by decide)]
  split <;> try (exfalso; omega)
  try rw [pathBlock_apply]
  rw [addPath_apply _ 256#32 256#32 _ 256 256 (by omega) (by omega) (by decide) (by decide)]
  split <;> try (exfalso; omega)
  try rw [pathBlock_apply]
  rw [addPath_apply _ 128#32 128#32 _ 128 128 (by omega) (by omega) (by decide) (by decide)]
  split <;> try (exfalso; omega)
  try rw [pathBlock_apply]
  rw [addPath_apply _ 0#32 0#32 _ 0 0 (by omega) (by omega) (by decide) (by decide)]
  split <;> try (exfalso; omega)
  try rw [pathBlock_apply]
  rw [zeroWeights_apply]
  all_goals first | rfl | (congr 2 <;> (apply arg_congr; omega))

theorem dense_at_3_0 (w : FVec Ideal S4x131072 .f32) (e : Fin 4) (r s : Fin 128) :
    denseWeights w (ix3 (n0 := 4) (n1 := 512) (n2 := 512) e ⟨384 + r.val, by omega⟩ ⟨s.val, by omega⟩)
      = Ideal.ofBits .f32 0x00000000#32 + w (ix2 (n0 := 4) (n1 := 131072) e ⟨114688 + 128 * r.val + s.val, by omega⟩) * Ideal.ofBits .f32 0x3F000000#32 := by
  have hr := r.isLt
  have hs := s.isLt
  unfold denseWeights denseWeights32
  rw [truncf_apply]
  rw [addPath_apply _ 384#32 0#32 _ 384 0 (by omega) (by omega) (by decide) (by decide)]
  split <;> try (exfalso; omega)
  try rw [pathBlock_apply]
  rw [addPath_apply _ 256#32 384#32 _ 256 384 (by omega) (by omega) (by decide) (by decide)]
  split <;> try (exfalso; omega)
  try rw [pathBlock_apply]
  rw [addPath_apply _ 128#32 256#32 _ 128 256 (by omega) (by omega) (by decide) (by decide)]
  split <;> try (exfalso; omega)
  try rw [pathBlock_apply]
  rw [addPath_apply _ 0#32 128#32 _ 0 128 (by omega) (by omega) (by decide) (by decide)]
  split <;> try (exfalso; omega)
  try rw [pathBlock_apply]
  rw [addPath_apply _ 384#32 384#32 _ 384 384 (by omega) (by omega) (by decide) (by decide)]
  split <;> try (exfalso; omega)
  try rw [pathBlock_apply]
  rw [addPath_apply _ 256#32 256#32 _ 256 256 (by omega) (by omega) (by decide) (by decide)]
  split <;> try (exfalso; omega)
  try rw [pathBlock_apply]
  rw [addPath_apply _ 128#32 128#32 _ 128 128 (by omega) (by omega) (by decide) (by decide)]
  split <;> try (exfalso; omega)
  try rw [pathBlock_apply]
  rw [addPath_apply _ 0#32 0#32 _ 0 0 (by omega) (by omega) (by decide) (by decide)]
  split <;> try (exfalso; omega)
  try rw [pathBlock_apply]
  rw [zeroWeights_apply]
  all_goals first | rfl | (congr 2 <;> (apply arg_congr; omega))

theorem dense_at_3_1 (w : FVec Ideal S4x131072 .f32) (e : Fin 4) (r s : Fin 128) :
    denseWeights w (ix3 (n0 := 4) (n1 := 512) (n2 := 512) e ⟨384 + r.val, by omega⟩ ⟨128 + s.val, by omega⟩)
      = Ideal.ofBits .f32 0x00000000#32 := by
  have hr := r.isLt
  have hs := s.isLt
  unfold denseWeights denseWeights32
  rw [truncf_apply]
  rw [addPath_apply _ 384#32 0#32 _ 384 0 (by omega) (by omega) (by decide) (by decide)]
  split <;> try (exfalso; omega)
  try rw [pathBlock_apply]
  rw [addPath_apply _ 256#32 384#32 _ 256 384 (by omega) (by omega) (by decide) (by decide)]
  split <;> try (exfalso; omega)
  try rw [pathBlock_apply]
  rw [addPath_apply _ 128#32 256#32 _ 128 256 (by omega) (by omega) (by decide) (by decide)]
  split <;> try (exfalso; omega)
  try rw [pathBlock_apply]
  rw [addPath_apply _ 0#32 128#32 _ 0 128 (by omega) (by omega) (by decide) (by decide)]
  split <;> try (exfalso; omega)
  try rw [pathBlock_apply]
  rw [addPath_apply _ 384#32 384#32 _ 384 384 (by omega) (by omega) (by decide) (by decide)]
  split <;> try (exfalso; omega)
  try rw [pathBlock_apply]
  rw [addPath_apply _ 256#32 256#32 _ 256 256 (by omega) (by omega) (by decide) (by decide)]
  split <;> try (exfalso; omega)
  try rw [pathBlock_apply]
  rw [addPath_apply _ 128#32 128#32 _ 128 128 (by omega) (by omega) (by decide) (by decide)]
  split <;> try (exfalso; omega)
  try rw [pathBlock_apply]
  rw [addPath_apply _ 0#32 0#32 _ 0 0 (by omega) (by omega) (by decide) (by decide)]
  split <;> try (exfalso; omega)
  try rw [pathBlock_apply]
  rw [zeroWeights_apply]
  all_goals first | rfl | (congr 2 <;> (apply arg_congr; omega))

theorem dense_at_3_2 (w : FVec Ideal S4x131072 .f32) (e : Fin 4) (r s : Fin 128) :
    denseWeights w (ix3 (n0 := 4) (n1 := 512) (n2 := 512) e ⟨384 + r.val, by omega⟩ ⟨256 + s.val, by omega⟩)
      = Ideal.ofBits .f32 0x00000000#32 := by
  have hr := r.isLt
  have hs := s.isLt
  unfold denseWeights denseWeights32
  rw [truncf_apply]
  rw [addPath_apply _ 384#32 0#32 _ 384 0 (by omega) (by omega) (by decide) (by decide)]
  split <;> try (exfalso; omega)
  try rw [pathBlock_apply]
  rw [addPath_apply _ 256#32 384#32 _ 256 384 (by omega) (by omega) (by decide) (by decide)]
  split <;> try (exfalso; omega)
  try rw [pathBlock_apply]
  rw [addPath_apply _ 128#32 256#32 _ 128 256 (by omega) (by omega) (by decide) (by decide)]
  split <;> try (exfalso; omega)
  try rw [pathBlock_apply]
  rw [addPath_apply _ 0#32 128#32 _ 0 128 (by omega) (by omega) (by decide) (by decide)]
  split <;> try (exfalso; omega)
  try rw [pathBlock_apply]
  rw [addPath_apply _ 384#32 384#32 _ 384 384 (by omega) (by omega) (by decide) (by decide)]
  split <;> try (exfalso; omega)
  try rw [pathBlock_apply]
  rw [addPath_apply _ 256#32 256#32 _ 256 256 (by omega) (by omega) (by decide) (by decide)]
  split <;> try (exfalso; omega)
  try rw [pathBlock_apply]
  rw [addPath_apply _ 128#32 128#32 _ 128 128 (by omega) (by omega) (by decide) (by decide)]
  split <;> try (exfalso; omega)
  try rw [pathBlock_apply]
  rw [addPath_apply _ 0#32 0#32 _ 0 0 (by omega) (by omega) (by decide) (by decide)]
  split <;> try (exfalso; omega)
  try rw [pathBlock_apply]
  rw [zeroWeights_apply]
  all_goals first | rfl | (congr 2 <;> (apply arg_congr; omega))

theorem dense_at_3_3 (w : FVec Ideal S4x131072 .f32) (e : Fin 4) (r s : Fin 128) :
    denseWeights w (ix3 (n0 := 4) (n1 := 512) (n2 := 512) e ⟨384 + r.val, by omega⟩ ⟨384 + s.val, by omega⟩)
      = Ideal.ofBits .f32 0x00000000#32 + w (ix2 (n0 := 4) (n1 := 131072) e ⟨49152 + 128 * r.val + s.val, by omega⟩) * Ideal.ofBits .f32 0x3F800000#32 := by
  have hr := r.isLt
  have hs := s.isLt
  unfold denseWeights denseWeights32
  rw [truncf_apply]
  rw [addPath_apply _ 384#32 0#32 _ 384 0 (by omega) (by omega) (by decide) (by decide)]
  split <;> try (exfalso; omega)
  try rw [pathBlock_apply]
  rw [addPath_apply _ 256#32 384#32 _ 256 384 (by omega) (by omega) (by decide) (by decide)]
  split <;> try (exfalso; omega)
  try rw [pathBlock_apply]
  rw [addPath_apply _ 128#32 256#32 _ 128 256 (by omega) (by omega) (by decide) (by decide)]
  split <;> try (exfalso; omega)
  try rw [pathBlock_apply]
  rw [addPath_apply _ 0#32 128#32 _ 0 128 (by omega) (by omega) (by decide) (by decide)]
  split <;> try (exfalso; omega)
  try rw [pathBlock_apply]
  rw [addPath_apply _ 384#32 384#32 _ 384 384 (by omega) (by omega) (by decide) (by decide)]
  split <;> try (exfalso; omega)
  try rw [pathBlock_apply]
  rw [addPath_apply _ 256#32 256#32 _ 256 256 (by omega) (by omega) (by decide) (by decide)]
  split <;> try (exfalso; omega)
  try rw [pathBlock_apply]
  rw [addPath_apply _ 128#32 128#32 _ 128 128 (by omega) (by omega) (by decide) (by decide)]
  split <;> try (exfalso; omega)
  try rw [pathBlock_apply]
  rw [addPath_apply _ 0#32 0#32 _ 0 0 (by omega) (by omega) (by decide) (by decide)]
  split <;> try (exfalso; omega)
  try rw [pathBlock_apply]
  rw [zeroWeights_apply]
  all_goals first | rfl | (congr 2 <;> (apply arg_congr; omega))

end Cert.KernelIdeal.HostValue

end
-- ==== Proof.BridgeLemmas.lean ====
/-
  Small facts the comparison of the two programs needs, about no program in particular.

  The three float words that occur — `0x00000000`, `0x3F800000`, `0x3F000000` — denote the reals `0`, `1`, `1/2`.
  A finite sum of reals, cast to the extended reals, is the sum of the casts. A sum over 512 columns is the
  sum over four blocks of the sums over a block's 128 columns. The kernel's mask (the comparison bit widened
  to a word and read as a signed integer) and the reference's (the comparison bit read as an unsigned integer)
  are one number: `1` where the two words are equal, `0` where they are not.
-/
import Idealize.ShloMosaic.PureOps.Ideal
import Idealize.ShloMosaic.Lib.ValueIdx
import Mathlib.Tactic
import Mathlib.Algebra.BigOperators.Fin

noncomputable section

namespace Cert.Proof.BridgeLemmas

open Idealize.ShloMosaic

theorem ofBits_one : Ideal.ofBits .f32 0x3F800000#32 = ((1 : ℝ) : EReal) := by
  simp [Ideal.ofBits, Ideal.ieee]
  norm_cast
  norm_num

theorem ofBits_half : Ideal.ofBits .f32 0x3F000000#32 = ((1 / 2 : ℝ) : EReal) := by
  simp [Ideal.ofBits, Ideal.ieee]
  norm_cast
  norm_num

theorem ofBits_zero : Ideal.ofBits .f32 0x00000000#32 = ((0 : ℝ) : EReal) := by
  simp [Ideal.ofBits, Ideal.ieee]

/-- The cast of a finite sum of reals is the sum of the casts. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 512 columns, block by block. -/
theorem sum_blocks {M : Type} [AddCommMonoid M] (f : Fin 512 → M) :
    ∑ p : Fin 512, f p = ∑ i : Fin 4, ∑ r : Fin 128, f ⟨128 * i.val + r.val, by omega⟩ := by
  rw [← Fintype.sum_prod_type']
  refine (Fintype.sum_equiv (finProdFinEquiv (m := 4) (n := 128)) _ _ (fun x => ?_)).symm
  congr 1
  apply Fin.ext
  simp [finProdFinEquiv]
  omega

/-- The same, the four blocks written out. -/
theorem sum_blocks4 {M : Type} [AddCommMonoid M] (f : Fin 512 → M) :
    ∑ p : Fin 512, f p
      = (∑ r : Fin 128, f ⟨r.val, by omega⟩) + (∑ r : Fin 128, f ⟨128 + r.val, by omega⟩)
        + (∑ r : Fin 128, f ⟨256 + r.val, by omega⟩) + (∑ r : Fin 128, f ⟨384 + r.val, by omega⟩) := by
  rw [sum_blocks, Fin.sum_univ_four]
  congr 1

/-- Whether two words are equal, as a real number. -/
def ind (a e : BitVec 32) : ℝ := if a = e then 1 else 0

theorem cmpi_of_eq (a e : BitVec 32) (h : a = e) : IntOp.cmpi .eq a e = 1#1 := by
  subst h; simp [IntOp.cmpi]

theorem cmpi_of_ne (a e : BitVec 32) (h : a ≠ e) : IntOp.cmpi .eq a e = 0#1 := by
  have hb : (a == e) = false := beq_eq_false_iff_ne.2 h
  show BitVec.ofBool (a == e) = 0#1
  rw [hb]
  rfl

/-- The comparison bit widened to a word and read signed. -/
theorem mask_signed (a e : BitVec 32) :
    FloatOps.sitofp (F := Ideal) .f32 ((IntOp.cmpi .eq a e).setWidth 32) = ((ind a e : ℝ) : EReal) := by
  show ((((IntOp.cmpi .eq a e).setWidth 32).toInt : ℝ) : EReal) = _
  unfold ind
  by_cases h : a = e
  · rw [if_pos h, cmpi_of_eq a e h]
    norm_num
  · rw [if_neg h, cmpi_of_ne a e h]
    norm_num

/-- The comparison bit read unsigned. -/
theorem mask_unsigned (a e : BitVec 32) :
    FloatOps.uitofp (F := Ideal) .f32 (IntOp.cmpi .eq a e) = ((ind a e : ℝ) : EReal) := by
  show (((IntOp.cmpi .eq a e).toNat : ℝ) : EReal) = _
  unfold ind
  by_cases h : a = e
  · rw [if_pos h, cmpi_of_eq a e h]
    norm_num
  · rw [if_neg h, cmpi_of_ne a e h]
    norm_num

end Cert.Proof.BridgeLemmas

end
-- ==== Proof.Bridge.lean ====
/-
  The kernel's array and the reference's array are one function of finite arguments.

  At row `b` and column `q = 128 k + v` the kernel computes, for each expert `e`, the sum over all 512 input
  columns `p` of `(x[b, p] · mask_e[b]) · wf[e, p, q]` and adds the four. Split the 512 columns into the four
  input blocks: on block `i` the dense weight is the path block `w[e, 16384 j + 128 r + v] · a` when a path
  `(i, j, k, a)` targets `(i, k)`, and zero otherwise; exactly two blocks contribute, the path with coefficient
  `1` (`i = k`) and the path with coefficient `1/2` (`i = k - 1 mod 4`). The reference computes, for the same
  two paths, `a · Σ_e mask_e[b] · Σ_r x[b, 128 i + r] · w[e, 16384 j + 128 r + v]` and adds them onto zero. With
  every input a real number both sides are real polynomials in the same products, and the masks are the same
  0/1 numbers; the two agree by distributing the coefficient and the mask over the sums (this is where
  finiteness is used: on the extended reals a product does not distribute over a sum at the infinities).
-/
import proofs.«104890_j59356448030869_2_alg».proof.Proof.KernelArray
import proofs.«104890_j59356448030869_2_alg».proof.Proof.KernelDense
import proofs.«104890_j59356448030869_2_alg».proof.Proof.ReferenceArray
import proofs.«104890_j59356448030869_2_alg».proof.Proof.BridgeLemmas

noncomputable section

namespace Cert.Proof.Bridge

open Idealize.ShloMosaic Idealize.ShloMosaic.ValueIdx Cert.Proof.BridgeLemmas
open Cert.KernelIdeal (S32768x512 S4x131072 S32768 S32768x1)
open Cert.KernelIdeal.ArrayValue (KAt KOut weight)
open Cert.KernelIdeal.HostValue
open Cert.ReferenceIdeal.ArrayValue (Blk Y D oh xcol wcol RefOut RefOut_block0 RefOut_block1 RefOut_block2 RefOut_block3)

/-! ## One output column block at a time -/

/-- The four expert indices, written as a pair of a number and its bound, are the numerals. -/
theorem fin4_zero (h : 0 < 4) : (⟨0, h⟩ : Fin 4) = 0 := rfl
theorem fin4_one (h : 1 < 4) : (⟨1, h⟩ : Fin 4) = 1 := rfl
theorem fin4_two (h : 2 < 4) : (⟨2, h⟩ : Fin 4) = 2 := rfl
theorem fin4_three (h : 3 < 4) : (⟨3, h⟩ : Fin 4) = 3 := rfl

/-- Output column block 0: the kernel's four masked products against the dense weight are the reference's
    path (0, 0) plus half its path (3, 7). -/
theorem bridge_0 (xr : S32768x512.Idx → ℝ) (wr : S4x131072.Idx → ℝ) (x2 : S32768.Idx → BitVec 32)
    (wid : S32768x1.Idx → BitVec 32) (b : Fin 32768) (hw : wid (ix2 b (0 : Fin 1)) = x2 (ix1 b)) (v : Fin 128) :
    KAt (fun i => ((xr i : ℝ) : EReal)) (denseWeights (fun i => ((wr i : ℝ) : EReal))) wid b (⟨v.val, by omega⟩ : Fin 512)
      = Blk (fun i => ((xr i : ℝ) : EReal)) (fun i => ((wr i : ℝ) : EReal)) x2
          (⟨0, by decide⟩ : Fin 4) (⟨0, by decide⟩ : Fin 8) (⟨3, by decide⟩ : Fin 4) (⟨7, by decide⟩ : Fin 8) b v := by
  unfold KAt Blk Y D oh weight
  simp only [sum_blocks4]
  simp only [dense_at_0_0, dense_at_1_0, dense_at_2_0, dense_at_3_0]
  simp only [hw, mask_signed, mask_unsigned, ofBits_zero, ofBits_one, ofBits_half]
  simp only [xcol, wcol, Fin.val_mk, Nat.reduceMul, Nat.zero_add]
  simp only [fin4_zero, fin4_one, fin4_two, fin4_three]
  simp only [← EReal.coe_mul, ← EReal.coe_add, ← coe_sum]
  congr 1
  simp only [mul_zero, zero_add, add_zero, Finset.sum_const_zero, mul_one, one_mul, mul_add, Finset.mul_sum,
    ← Finset.sum_add_distrib]
  refine Finset.sum_congr rfl fun r _ => ?_
  ring

/-- Output column block 1: the kernel's four masked products against the dense weight are the reference's
    path (1, 1) plus half its path (0, 4). -/
theorem bridge_1 (xr : S32768x512.Idx → ℝ) (wr : S4x131072.Idx → ℝ) (x2 : S32768.Idx → BitVec 32)
    (wid : S32768x1.Idx → BitVec 32) (b : Fin 32768) (hw : wid (ix2 b (0 : Fin 1)) = x2 (ix1 b)) (v : Fin 128) :
    KAt (fun i => ((xr i : ℝ) : EReal)) (denseWeights (fun i => ((wr i : ℝ) : EReal))) wid b (⟨128 + v.val, by omega⟩ : Fin 512)
      = Blk (fun i => ((xr i : ℝ) : EReal)) (fun i => ((wr i : ℝ) : EReal)) x2
          (⟨1, by decide⟩ : Fin 4) (⟨1, by decide⟩ : Fin 8) (⟨0, by decide⟩ : Fin 4) (⟨4, by decide⟩ : Fin 8) b v := by
  unfold KAt Blk Y D oh weight
  simp only [sum_blocks4]
  simp only [dense_at_0_1, dense_at_1_1, dense_at_2_1, dense_at_3_1]
  simp only [hw, mask_signed, mask_unsigned, ofBits_zero, ofBits_one, ofBits_half]
  simp only [xcol, wcol, Fin.val_mk, Nat.reduceMul, Nat.zero_add]
  simp only [fin4_zero, fin4_one, fin4_two, fin4_three]
  simp only [← EReal.coe_mul, ← EReal.coe_add, ← coe_sum]
  congr 1
  simp only [mul_zero, zero_add, add_zero, Finset.sum_const_zero, mul_one, one_mul, mul_add, Finset.mul_sum,
    ← Finset.sum_add_distrib]
  refine Finset.sum_congr rfl fun r _ => ?_
  ring

/-- Output column block 2: the kernel's four masked products against the dense weight are the reference's
    path (2, 2) plus half its path (1, 5). -/
theorem bridge_2 (xr : S32768x512.Idx → ℝ) (wr : S4x131072.Idx → ℝ) (x2 : S32768.Idx → BitVec 32)
    (wid : S32768x1.Idx → BitVec 32) (b : Fin 32768) (hw : wid (ix2 b (0 : Fin 1)) = x2 (ix1 b)) (v : Fin 128) :
    KAt (fun i => ((xr i : ℝ) : EReal)) (denseWeights (fun i => ((wr i : ℝ) : EReal))) wid b (⟨256 + v.val, by omega⟩ : Fin 512)
      = Blk (fun i => ((xr i : ℝ) : EReal)) (fun i => ((wr i : ℝ) : EReal)) x2
          (⟨2, by decide⟩ : Fin 4) (⟨2, by decide⟩ : Fin 8) (⟨1, by decide⟩ : Fin 4) (⟨5, by decide⟩ : Fin 8) b v := by
  unfold KAt Blk Y D oh weight
  simp only [sum_blocks4]
  simp only [dense_at_0_2, dense_at_1_2, dense_at_2_2, dense_at_3_2]
  simp only [hw, mask_signed, mask_unsigned, ofBits_zero, ofBits_one, ofBits_half]
  simp only [xcol, wcol, Fin.val_mk, Nat.reduceMul, Nat.zero_add]
  simp only [fin4_zero, fin4_one, fin4_two, fin4_three]
  simp only [← EReal.coe_mul, ← EReal.coe_add, ← coe_sum]
  congr 1
  simp only [mul_zero, zero_add, add_zero, Finset.sum_const_zero, mul_one, one_mul, mul_add, Finset.mul_sum,
    ← Finset.sum_add_distrib]
  refine Finset.sum_congr rfl fun r _ => ?_
  ring

/-- Output column block 3: the kernel's four masked products against the dense weight are the reference's
    path (3, 3) plus half its path (2, 6). -/
theorem bridge_3 (xr : S32768x512.Idx → ℝ) (wr : S4x131072.Idx → ℝ) (x2 : S32768.Idx → BitVec 32)
    (wid : S32768x1.Idx → BitVec 32) (b : Fin 32768) (hw : wid (ix2 b (0 : Fin 1)) = x2 (ix1 b)) (v : Fin 128) :
    KAt (fun i => ((xr i : ℝ) : EReal)) (denseWeights (fun i => ((wr i : ℝ) : EReal))) wid b (⟨384 + v.val, by omega⟩ : Fin 512)
      = Blk (fun i => ((xr i : ℝ) : EReal)) (fun i => ((wr i : ℝ) : EReal)) x2
          (⟨3, by decide⟩ : Fin 4) (⟨3, by decide⟩ : Fin 8) (⟨2, by decide⟩ : Fin 4) (⟨6, by decide⟩ : Fin 8) b v := by
  unfold KAt Blk Y D oh weight
  simp only [sum_blocks4]
  simp only [dense_at_0_3, dense_at_1_3, dense_at_2_3, dense_at_3_3]
  simp only [hw, mask_signed, mask_unsigned, ofBits_zero, ofBits_one, ofBits_half]
  simp only [xcol, wcol, Fin.val_mk, Nat.reduceMul, Nat.zero_add]
  simp only [fin4_zero, fin4_one, fin4_two, fin4_three]
  simp only [← EReal.coe_mul, ← EReal.coe_add, ← coe_sum]
  congr 1
  simp only [mul_zero, zero_add, add_zero, Finset.sum_const_zero, mul_one, one_mul, mul_add, Finset.mul_sum,
    ← Finset.sum_add_distrib]
  refine Finset.sum_congr rfl fun r _ => ?_
  ring

/-! ## The whole array -/

/-- With finite inputs the kernel's output array — its closed form over the input, the dense weight of the
    weight argument and the expert ids as a column — is the reference's result array. -/
theorem kernel_eq_reference (x0 : S32768x512.Idx → EReal) (x1 : S4x131072.Idx → EReal) (x2 : S32768.Idx → BitVec 32)
    (h0 : ∀ i, ∃ r : ℝ, x0 i = (r : EReal)) (h1 : ∀ i, ∃ r : ℝ, x1 i = (r : EReal)) :
    KOut x0 (denseWeights x1) (shapeCast S32768x1 x2 Cert.KernelIdeal.Facts₀.shapeCasts_S32768_S32768x1) = RefOut x0 x1 x2 := by
  choose xr hxr using h0
  choose wr hwr using h1
  obtain rfl : x0 = fun i => ((xr i : ℝ) : EReal) := funext hxr
  obtain rfl : x1 = fun i => ((wr i : ℝ) : EReal) := funext hwr
  funext i
  obtain ⟨b, q, rfl⟩ : ∃ (b : Fin 32768) (q : Fin 512), i = ix2 b q := ⟨i 0, i 1, eq_ix2 i⟩
  show KAt _ _ _ b q = _
  have hw : shapeCast S32768x1 x2 Cert.KernelIdeal.Facts₀.shapeCasts_S32768_S32768x1 (ix2 b (0 : Fin 1)) = x2 (ix1 b) :=
    shapeCast_apply x2 _ (ix2 b (0 : Fin 1)) (ix1 b) (by
      rw [Shape.rowMajor_val_one, Shape.rowMajor_val_two]
      show b.val = b.val * 1 + 0
      omega)
  have hq := q.isLt
  by_cases c0 : q.val < 128
  · have hv : q = (⟨(⟨q.val, c0⟩ : Fin 128).val, Nat.lt_of_lt_of_le c0 (by decide)⟩ : Fin 512) := rfl
    rw [hv]
    exact (bridge_0 xr wr x2 _ b hw ⟨q.val, c0⟩).trans (RefOut_block0 _ _ x2 b ⟨q.val, c0⟩).symm
  by_cases c1 : q.val < 256
  · have hlt : q.val - 128 < 128 := by omega
    have hv : q = (⟨128 + (⟨q.val - 128, hlt⟩ : Fin 128).val, by show 128 + (q.val - 128) < 512; omega⟩ : Fin 512) :=
      Fin.ext (by show q.val = 128 + (q.val - 128); omega)
    rw [hv]
    exact (bridge_1 xr wr x2 _ b hw ⟨q.val - 128, hlt⟩).trans (RefOut_block1 _ _ x2 b ⟨q.val - 128, hlt⟩).symm
  by_cases c2 : q.val < 384
  · have hlt : q.val - 256 < 128 := by omega
    have hv : q = (⟨256 + (⟨q.val - 256, hlt⟩ : Fin 128).val, by show 256 + (q.val - 256) < 512; omega⟩ : Fin 512) :=
      Fin.ext (by show q.val = 256 + (q.val - 256); omega)
    rw [hv]
    exact (bridge_2 xr wr x2 _ b hw ⟨q.val - 256, hlt⟩).trans (RefOut_block2 _ _ x2 b ⟨q.val - 256, hlt⟩).symm
  · have hlt : q.val - 384 < 128 := by omega
    have hv : q = (⟨384 + (⟨q.val - 384, hlt⟩ : Fin 128).val, by show 384 + (q.val - 384) < 512; omega⟩ : Fin 512) :=
      Fin.ext (by show q.val = 384 + (q.val - 384); omega)
    rw [hv]
    exact (bridge_3 xr wr x2 _ b hw ⟨q.val - 384, hlt⟩).trans (RefOut_block3 _ _ x2 b ⟨q.val - 384, hlt⟩).symm

end Cert.Proof.Bridge

end
-- ==== Proof.lean ====
/-
  The masked dense-matmul kernel against the path-by-path reference, over the extended reals.

  The reference computes, for eight paths (input block `i`, weight segment `j`, output block `k`, coefficient
  `a` in `{1, 1/2}`), the masked sum over the four experts of `x[b, block i] · W[e, segment j]`, scales it by
  `a` and adds it into output block `k`. The kernel first folds the eight weight segments, each times its
  coefficient, into one dense `[4, 512, 512]` weight on the host, and then, over 16 row tiles, adds the four
  products of the masked input rows with the four experts' dense matrices. Both are the same function of finite
  inputs: `algebraic` below sets the kernel's run (its output array as one function of the arrays the call
  reads, which in turn are terms of the arguments) beside the reference's run (read one path's segment at a time, its result then read index by index),
  and joins them by the identity of `Proof/Bridge.lean`, which needs the precondition that every float input
  is finite. The kernels' frames are the generated ones; the reference's is its run with the result dropped, and the
  idealization rewrote nothing, so `preserves` has nothing to state.
-/
import proofs.«104890_j59356448030869_2_alg».proof.Defs
import proofs.«104890_j59356448030869_2_alg».proof.Proof.Gen.Kernel
import proofs.«104890_j59356448030869_2_alg».proof.Proof.Gen.Kernel.Skeleton
import proofs.«104890_j59356448030869_2_alg».proof.Proof.Gen.Kernel.Launch
import proofs.«104890_j59356448030869_2_alg».proof.Proof.Gen.Kernel.Points
import proofs.«104890_j59356448030869_2_alg».proof.Proof.Gen.Kernel.Frame
import proofs.«104890_j59356448030869_2_alg».proof.Proof.Gen.KernelIdeal
import proofs.«104890_j59356448030869_2_alg».proof.Proof.Gen.KernelIdeal.Skeleton
import proofs.«104890_j59356448030869_2_alg».proof.Proof.Gen.KernelIdeal.Launch
import proofs.«104890_j59356448030869_2_alg».proof.Proof.Gen.KernelIdeal.Points
import proofs.«104890_j59356448030869_2_alg».proof.Proof.Gen.KernelIdeal.Frame
import proofs.«104890_j59356448030869_2_alg».proof.Proof.Gen.ReferenceIdeal
import proofs.«104890_j59356448030869_2_alg».proof.Proof.Gen.Pre_finite_inputs
import proofs.«104890_j59356448030869_2_alg».proof.Proof.Gen.KernelIdeal.Value
import proofs.«104890_j59356448030869_2_alg».proof.Proof.KernelArray
import proofs.«104890_j59356448030869_2_alg».proof.Proof.KernelHost
import proofs.«104890_j59356448030869_2_alg».proof.Proof.ReferenceValue
import proofs.«104890_j59356448030869_2_alg».proof.Proof.ReferenceArray
import proofs.«104890_j59356448030869_2_alg».proof.Proof.FiniteInputs
import proofs.«104890_j59356448030869_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments alone. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a host program: its frame is its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- From memories that agree on finite arguments both programs end with the same result array: the reference's
    closed form `RefOut` of the arguments. -/
theorem algebraic : Cert.algebraic_KernelIdeal_ReferenceIdeal := by
  intro m ρ m' ρ' hpre hagree
  refine ⟨fun c => Cert.ReferenceIdeal.ArrayValue.RefOut
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.ArrayValue.run m ρ)
    obtain ⟨hf0, hf1⟩ := Cert.Proof.FiniteInputs.real_of_pre_kernelIdeal m hpre c
    rw [Cert.KernelIdeal.Gen.V_main_arg0 m c, Cert.KernelIdeal.HostValue.V_dense m c, Cert.KernelIdeal.HostValue.V_ids m c]
    exact Cert.Proof.Bridge.kernel_eq_reference _ _ _ hf0 hf1
  · refine (θ_run Cert.ReferenceIdeal.defs _ _).mono (fun r h c => ⟨(h c).1.trans ?_, (h c).2⟩)
      (Cert.ReferenceIdeal.HandRun.run (F := Ideal) m' ρ')
    rw [Cert.ReferenceIdeal.ArrayValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
